-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v73)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_v82)) (v5 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_v82) = v4 c
          ∧ r.2.mem ((c.tc : Thread Cert.KernelIdeal.nD Cert.KernelIdeal.τ).loc Cert.KernelIdeal.main_v93) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144x128 : Shape := ⟨2, ![6144, 128]⟩
abbrev S6144x6144 : Shape := ⟨2, ![6144, 6144]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S6144x128 : S_.BroadcastsInDim S6144x128 (![] : Fin 0 → Fin S6144x128.rank)
  reducesTo_S6144x128_S_d0_1 : S6144x128.ReducesTo [0, 1] S_
  h_S_ : 0 < S_.numel
  bcast_S_S6144x6144 : S_.BroadcastsInDim S6144x6144 (![] : Fin 0 → Fin S6144x6144.rank)
  reducesTo_S6144x6144_S_d0_1 : S6144x6144.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S128x16 .f32) (main_arg8 : FVec F S16 .f32) (main_v33 : IVec S_ 1) : IVec S_ 1 :=
  let main_v34 : FVec F S128x16 .f32 := Host.absf main_arg7
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S6144x128 .f32) (main_arg1 : FVec F S6144x6144 .f32) (main_arg2 : FVec F S6144x6144 .f32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S6144x128 .f32 := Host.absf main_arg0
  let main_cst : FVec F S_ .f32 := constant S_ .f32 0x7F800000#32
  let main_v1 : FVec F S6144x128 .f32 := broadcastInDim S6144x128 ![] bcast_S_S6144x128 main_cst
  let main_v2 : IVec S6144x128 1 := cmpf .olt main_v0 main_v1
  let main_c : IVec S_ 1 := constantI S_ 1 1#1
  let main_v3 : IVec S_ 1 := (fun x v => Host.reduce IntOp.andi x v reducesTo_S6144x128_S_d0_1 h_S_) main_v2 main_c
  let main_v4 : FVec F S6144x6144 .f32 := Host.absf main_arg1
  let main_cst_0 : FVec F S_ .f32 := constant S_ .f32 0x7F800000#32
  let main_v5 : FVec F S6144x6144 .f32 := broadcastInDim S6144x6144 ![] bcast_S_S6144x6144 main_cst_0
  let main_v6 : IVec S6144x6144 1 := cmpf .olt main_v4 main_v5
  let main_c_1 : IVec S_ 1 := constantI S_ 1 1#1
  let main_v7 : IVec S_ 1 := (fun x v => Host.reduce IntOp.andi x v reducesTo_S6144x6144_S_d0_1 h_S_) main_v6 main_c_1
  let main_v8 : IVec S_ 1 := andi main_v3 main_v7
  let main_v9 : FVec F S6144x6144 .f32 := Host.absf main_arg2
  let main_cst_2 : FVec F S_ .f32 := constant S_ .f32 0x7F800000#32
  let main_v10 : FVec F S6144x6144 .f32 := broadcastInDim S6144x6144 ![] bcast_S_S6144x6144 main_cst_2
  let main_v11 : IVec S6144x6144 1 := cmpf .olt main_v9 main_v10
  let main_c_3 : IVec S_ 1 := constantI S_ 1 1#1
  let main_v12 : IVec S_ 1 := (fun x v => Host.reduce IntOp.andi x v reducesTo_S6144x6144_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S6144x128 : Shape := ⟨2, ![6144, 128]⟩
abbrev S6144x6144 : Shape := ⟨2, ![6144, 6144]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x6144 : Shape := ⟨2, ![1, 6144]⟩
abbrev S1024x1024 : Shape := ⟨2, ![1024, 1024]⟩
abbrev S1x1024 : Shape := ⟨2, ![1, 1024]⟩
abbrev S1024 : Shape := ⟨1, ![1024]⟩
abbrev S6144 : Shape := ⟨1, ![6144]⟩
abbrev S_ : Shape := ⟨0, ![]⟩
abbrev S6144x1 : Shape := ⟨2, ![6144, 1]⟩
abbrev S1x128 : Shape := ⟨2, ![1, 128]⟩
abbrev S2048x1024 : Shape := ⟨2, ![2048, 1024]⟩
abbrev S1024x1 : Shape := ⟨2, ![1024, 1]⟩
abbrev S1024x128 : Shape := ⟨2, ![1024, 128]⟩
abbrev S2048x128 : Shape := ⟨2, ![2048, 128]⟩
abbrev S6144x16 : Shape := ⟨2, ![6144, 16]⟩
abbrev S1x16 : Shape := ⟨2, ![1, 16]⟩
abbrev S1024x1536 : Shape := ⟨2, ![1024, 1536]⟩
abbrev S1024x16 : Shape := ⟨2, ![1024, 16]⟩
abbrev S1536x16 : Shape := ⟨2, ![1536, 16]⟩
abbrev S16x6144 : Shape := ⟨2, ![16, 6144]⟩
abbrev S16x128 : Shape := ⟨2, ![16, 128]⟩
abbrev S16x16 : Shape := ⟨2, ![16, 16]⟩
abbrev S16x1 : Shape := ⟨2, ![16, 1]⟩
abbrev S16x2 : Shape := ⟨2, ![16, 2]⟩

abbrev nBuf : Space → Nat
  | .hbm => 133
  | .vmem => 28
  | .smem => 0
  | _ => 0

abbrev hbmTy0_0 (i : Nat) : BufTy := match i % 128 with
  | 0 => ⟨S6144x128, .f32⟩
  | 1 => ⟨S6144x6144, .f32⟩
  | 2 => ⟨S6144x6144, .f32⟩
  | 3 => ⟨S128x128, .f32⟩
  | 4 => ⟨S128, .f32⟩
  | 5 => ⟨S128x128, .f32⟩
  | 6 => ⟨S128, .f32⟩
  | 7 => ⟨S128x16, .f32⟩
  | 8 => ⟨S16, .f32⟩
  | 9 => ⟨S6144x128, .f32⟩
  | 10 => ⟨S1x6144, .f32⟩
  | 11 => ⟨S6144, .f32⟩
  | 12 => ⟨S_, .f32⟩
  | 13 => ⟨S6144, .f32⟩
  | 14 => ⟨S6144, .f32⟩
  | 15 => ⟨S_, .f32⟩
  | 16 => ⟨S6144, .f32⟩
  | 17 => ⟨S6144, .i1⟩
  | 18 => ⟨S6144, .f32⟩
  | 19 => ⟨S_, .f32⟩
  | 20 => ⟨S6144, .f32⟩
  | 21 => ⟨S6144, .f32⟩
  | 22 => ⟨S6144x1, .f32⟩
  | 23 => ⟨S6144x128, .f32⟩
  | 24 => ⟨S6144x128, .f32⟩
  | 25 => ⟨S6144x1, .f32⟩
  | 26 => ⟨S1x128, .f32⟩
  | 27 => ⟨S6144x128, .f32⟩
  | 28 => ⟨S6144x128, .f32⟩
  | 29 => ⟨S1x128, .f32⟩
  | 30 => ⟨S6144x128, .f32⟩
  | 31 => ⟨S6144x128, .f32⟩
  | 32 => ⟨S_, .f32⟩
  | 33 => ⟨S6144x128, .f32⟩
  | 34 => ⟨S6144x128, .f32⟩
  | 35 => ⟨S6144x16, .f32⟩
  | 36 => ⟨S1x16, .f32⟩
  | 37 => ⟨S6144x16, .f32⟩
  | 38 => ⟨S6144x16, .f32⟩
  | 39 => ⟨S_, .f32⟩
  | 40 => ⟨S6144, .f32⟩
  | 41 => ⟨S_, .f32⟩
  | 42 => ⟨S6144, .f32⟩
  | 43 => ⟨S6144, .f32⟩
  | 44 => ⟨S6144x1, .f32⟩
  | 45 => ⟨S6144x16, .f32⟩
  | 46 => ⟨S6144x16, .f32⟩
  | 47 => ⟨S6144x16, .f32⟩
  | 48 => ⟨S_, .f32⟩
  | 49 => ⟨S6144, .f32⟩
  | 50 => ⟨S6144x1, .f32⟩
  | 51 => ⟨S6144x16, .f32⟩
  | 52 => ⟨S6144x16, .f32⟩
  | 53 => ⟨S6144x16, .f32⟩
  | 54 => ⟨S6144x16, .f32⟩
  | 55 => ⟨S6144x1, .f32⟩
  | 56 => ⟨S6144, .f32⟩
  | 57 => ⟨S16x6144, .f32⟩
  | 58 => ⟨S16x128, .f32⟩
  | 59 => ⟨S16, .i32⟩
  | 60 => ⟨S16x6144, .f32⟩
  | 61 => ⟨S16x16, .f32⟩
  | 62 => ⟨S_, .i32⟩
  | 63 => ⟨S16, .i32⟩
  | 64 => ⟨S16, .i1⟩
  | 65 => ⟨S_, .i32⟩
  | 66 => ⟨S16, .i32⟩
  | 67 => ⟨S16, .i32⟩
  | 68 => ⟨S16, .i32⟩
  | 69 => ⟨S_, .i32⟩
  | 70 => ⟨S16, .i32⟩
  | 71 => ⟨S16, .i1⟩
  | 72 => ⟨S_, .i32⟩
  | 73 => ⟨S16, .i32⟩
  | 74 => ⟨S16, .i32⟩
  | 75 => ⟨S16, .i32⟩
  | 76 => ⟨S16x1, .i32⟩
  | 77 => ⟨S16x1, .i32⟩
  | 78 => ⟨S16x2, .i32⟩
  | 79 => ⟨S_, .f32⟩
  | 80 => ⟨S16, .f32⟩
  | 81 => ⟨S16x16, .f32⟩
  | 82 => ⟨S16x6144, .f32⟩
  | 83 => ⟨S16x16, .f32⟩
  | 84 => ⟨S_, .i32⟩
  | 85 => ⟨S16, .i32⟩
  | 86 => ⟨S16, .i1⟩
  | 87 => ⟨S_, .i32⟩
  | 88 => ⟨S16, .i32⟩
  | 89 => ⟨S16, .i32⟩
  | 90 => ⟨S16, .i32⟩
  | 91 => ⟨S_, .i32⟩
  | 92 => ⟨S16, .i32⟩
  | 93 => ⟨S16, .i1⟩
  | 94 => ⟨S_, .i32⟩
  | 95 => ⟨S16, .i32⟩
  | 96 => ⟨S16, .i32⟩
  | 97 => ⟨S16, .i32⟩
  | 98 => ⟨S16x1, .i32⟩
  | 99 => ⟨S16x1, .i32⟩
  | 100 => ⟨S16x2, .i32⟩
  | 101 => ⟨S_, .f32⟩
  | 102 => ⟨S16, .f32⟩
  | 103 => ⟨S16x16, .f32⟩
  | 104 => ⟨S6144x16, .f32⟩
  | 105 => ⟨S_, .f32⟩
  | 106 => ⟨S_, .f32⟩
  | 107 => ⟨S6144x16, .f32⟩
  | 108 => ⟨S_, .f32⟩
  | 109 => ⟨S6144, .f32⟩
  | 110 => ⟨S6144, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S16x6144, .f32⟩
  | 118 => ⟨S16x16, .f32⟩
  | 119 => ⟨S16x16, .i32⟩
  | 120 => ⟨S16x16, .i32⟩
  | 121 => ⟨S_, .i32⟩
  | 122 => ⟨S16x16, .i32⟩
  | 123 => ⟨S16x16, .i32⟩
  | 124 => ⟨S16x16, .i1⟩
  | 125 => ⟨S16x16, .f32⟩
  | 126 => ⟨S16x16, .f32⟩
  | 127 => ⟨S16x16, .f32⟩
  | _ => ⟨S6144x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S6144x128, .f32⟩

abbrev hbmTy (i : Nat) : BufTy := match i / 128 with
  | 0 => hbmTy0_0 i
  | 1 => hbmTy0_1 i
  | _ => ⟨S6144x128, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2048x1024, .f32⟩
  | .local _ .vmem, ⟨6, _⟩ => ⟨S2048x1024, .f32⟩
  | .local _ .vmem, ⟨7, _⟩ => ⟨S6144x128, .f32⟩
  | .local _ .vmem, ⟨8, _⟩ => ⟨S1024x1, .f32⟩
  | .local _ .vmem, ⟨9, _⟩ => ⟨S1024x1, .f32⟩
  | .local _ .vmem, ⟨10, _⟩ => ⟨S1x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1536, .f32⟩
  | .local _ .vmem, ⟨15, _⟩ => ⟨S1024x1536, .f32⟩
  | .local _ .vmem, ⟨16, _⟩ => ⟨S1024x1536, .f32⟩
  | .local _ .vmem, ⟨17, _⟩ => ⟨S1024x1536, .f32⟩
  | .local _ .vmem, ⟨18, _⟩ => ⟨S6144x16, .f32⟩
  | .local _ .vmem, ⟨19, _⟩ => ⟨S1024x16, .f32⟩
  | .local _ .vmem, ⟨20, _⟩ => ⟨S1024x16, .f32⟩
  | .local _ .vmem, ⟨21, _⟩ => ⟨S1024x16, .f32⟩
  | .local _ .vmem, ⟨22, _⟩ => ⟨S1024x16, .f32⟩
  | .local _ .vmem, ⟨23, _⟩ => ⟨S1024x1, .f32⟩
  | .local _ .vmem, ⟨24, _⟩ => ⟨S1024x1, .f32⟩
  | .local _ .vmem, ⟨25, _⟩ => ⟨S1024x16, .f32⟩
  | .local _ .vmem, ⟨26, _⟩ => ⟨S1024x16, .f32⟩
  | .local _ .vmem, ⟨27, _⟩ => ⟨S1024x1, .f32⟩
  | _, _ => ⟨S6144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_cst : Ref sig .tc := ⟨.hbm, 32, rfl⟩
abbrev main_call1_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev main_v35_2 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_6 : Ref sig .tc := ⟨.hbm, 69, rfl⟩
abbrev main_v47 : Ref sig .tc := ⟨.hbm, 70, rfl⟩
abbrev main_v48 : Ref sig .tc := ⟨.hbm, 71, rfl⟩
abbrev main_c_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_9 : Ref sig .tc := ⟨.hbm, 84, rfl⟩
abbrev main_v59 : Ref sig .tc := ⟨.hbm, 85, rfl⟩
abbrev main_v60 : Ref sig .tc := ⟨.hbm, 86, rfl⟩
abbrev main_c_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_11 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_cst_15 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_cst_17 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_call2_v0 : Ref sig .tc := ⟨.hbm, 127, rfl⟩
abbrev main_call2_cst : Ref sig .tc := ⟨.hbm, 128, rfl⟩
abbrev main_call2_v1 : Ref sig .tc := ⟨.hbm, 129, rfl⟩
abbrev main_v92 : Ref sig .tc := ⟨.hbm, 130, rfl⟩
abbrev main_cst_19 : Ref sig .tc := ⟨.hbm, 131, rfl⟩
abbrev main_v93 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_scratch0 : Ref sig .tc := ⟨.vmem, 25, rfl⟩
abbrev cc2_scratch1 : Ref sig .tc := ⟨.vmem, 26, rfl⟩
abbrev cc2_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨2, ![6, 6], ![false, false]⟩

def k0_cond2 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![6, 3], ![false, false]⟩

def k1_mult1 (i : grid1.Coords) : BitVec 32 :=
  let arg1 : BitVec 32 := BitVec.ofNat 32 (i 1).val
  let c2048_i32 : BitVec 32 := 2048#32
  let v4 : BitVec 32 := Scalar.muli arg1 c2048_i32
  v4
def k1_off1 (i : grid1.Coords) : Fin 2 → Nat :=
  let arg1 : BitVec 32 := BitVec.ofNat 32 (i 1).val
  let c2048_i32 : BitVec 32 := 2048#32
  let v4 : BitVec 32 := Scalar.muli arg1 c2048_i32
  let v5 : BitVec 32 := v4
  let v6 : Index := Scalar.indexCast v5
  let c0_2 : Index := 0#32
  ![v6.toNat, 0]
def k1_cond2 (i : grid1.Coords) : BitVec 1 :=
  let arg1 : BitVec 32 := BitVec.ofNat 32 (i 1).val
  let c2_i32 : BitVec 32 := 2#32
  let v15 : BitVec 1 := Scalar.cmpi .eq arg1 c2_i32
  let v16 : BitVec 32 := Scalar.extui v15
  let c0_i32_7 : BitVec 32 := 0#32
  let v17 : BitVec 1 := Scalar.cmpi .ne v16 c0_i32_7
  v17

def k1_mult2 (i : grid1.Coords) : BitVec 32 :=
  let arg0 : BitVec 32 := BitVec.ofNat 32 (i 0).val
  let c1024_i32 : BitVec 32 := 1024#32
  let v18 : BitVec 32 := Scalar.muli arg0 c1024_i32
  v18
def k1_off2 (i : grid1.Coords) : Fin 2 → Nat :=
  let arg0 : BitVec 32 := BitVec.ofNat 32 (i 0).val
  let c1024_i32 : BitVec 32 := 1024#32
  let v18 : BitVec 32 := Scalar.muli arg0 c1024_i32
  let v19 : BitVec 32 := v18
  let v20 : Index := Scalar.indexCast v19
  let c0_8 : Index := 0#32
  ![v20.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S6144x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![6, 4], ![false, false]⟩

def k2_mult1 (i : grid2.Coords) : BitVec 32 :=
  let arg1 : BitVec 32 := BitVec.ofNat 32 (i 1).val
  let c1536_i32 : BitVec 32 := 1536#32
  let v5 : BitVec 32 := Scalar.muli arg1 c1536_i32
  v5
def k2_off1 (i : grid2.Coords) : Fin 2 → Nat :=
  let arg1 : BitVec 32 := BitVec.ofNat 32 (i 1).val
  let c1536_i32 : BitVec 32 := 1536#32
  let v5 : BitVec 32 := Scalar.muli arg1 c1536_i32
  let v6 : BitVec 32 := v5
  let v7 : Index := Scalar.indexCast v6
  let c0_4 : Index := 0#32
  ![v7.toNat, 0]
def k2_cond2 (i : grid2.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_19 : BitVec 32 := 0#32
  let v31 : BitVec 1 := Scalar.cmpi .ne v30 c0_i32_19
  v31

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1536 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S6144x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  shapeCasts_S1x6144_S6144 : S1x6144.ShapeCasts S6144
  bcast_S_S6144 : S_.BroadcastsInDim S6144 (![] : Fin 0 → Fin S6144.rank)
  bcast_S6144_S6144x1_0 : S6144.BroadcastsInDim S6144x1 (![0] : Fin 1 → Fin S6144x1.rank)
  bcast_S6144x1_S6144x128_0_1 : S6144x1.BroadcastsInDim S6144x128 (![0, 1] : Fin 2 → Fin S6144x128.rank)
  shapeCasts_S6144_S6144x1 : S6144.ShapeCasts S6144x1
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x1024_S2048x1024_0_0 : ∀ a, (![0, 0] : Fin 2 → Nat) a + S2048x1024.size a ≤ S2048x1024.size a
  h_S2048x1024 : 0 < S2048x1024.numel
  h_S2048x128 : 0 < S2048x128.numel
  shapeCasts_S2048x128_S2048x128 : S2048x128.ShapeCasts S2048x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  bcast_S128_S1x128_1 : S128.BroadcastsInDim S1x128 (![1] : Fin 1 → Fin S1x128.rank)
  bcast_S1x128_S6144x128_0_1 : S1x128.BroadcastsInDim S6144x128 (![0, 1] : Fin 2 → Fin S6144x128.rank)
  bcast_S_S6144x128 : S_.BroadcastsInDim S6144x128 (![] : Fin 0 → Fin S6144x128.rank)
  bcast_S16_S1x16_1 : S16.BroadcastsInDim S1x16 (![1] : Fin 1 → Fin S1x16.rank)
  bcast_S1x16_S6144x16_0_1 : S1x16.BroadcastsInDim S6144x16 (![0, 1] : Fin 2 → Fin S6144x16.rank)
  reducesTo_S6144x16_S6144_d1 : S6144x16.ReducesTo [1] S6144
  h_S_ : 0 < S_.numel
  bcast_S6144x1_S6144x16_0_1 : S6144x1.BroadcastsInDim S6144x16 (![0, 1] : Fin 2 → Fin S6144x16.rank)
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1536_S1024x1536_0_0 : ∀ a, (![0, 0] : Fin 2 → Nat) a + S1024x1536.size a ≤ S1024x1536.size a
  h_S1024x1536 : 0 < S1024x1536.numel
  h_S1536x16 : 0 < S1536x16.numel
  shapeCasts_S1536x16_S1536x16 : S1536x16.ShapeCasts S1536x16
  reduces_S1024x1536_S1024 : S1024x1536.Reduces [1] S1024
  shapeCasts_S1024_S1024x1 : S1024.ShapeCasts S1024x1
  shapeCasts_S6144x1_S6144 : S6144x1.ShapeCasts S6144
  transposes_S6144x16_S16x6144_1_0 : S6144x16.Transposes [1, 0] S16x6144
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  reducesTo_S6144x16_S_d0_1 : S6144x16.ReducesTo [0, 1] S_
  reducesTo_S6144_S_d0 : S6144.ReducesTo [0] S_
  bcast_S_S16x16 : S_.BroadcastsInDim S16x16 (![] : Fin 0 → Fin S16x16.rank)
  reducesTo_S16x16_S_d0_1 : S16x16.ReducesTo [0, 1] S_
  dot_S6144x128_S128x128_S6144x128_1_0_0_1_n_n_wf : DotDims.WF S6144x128 S128x128 S6144x128 [1] [0] [0] [1] [] []
  dot_S2048x1024_S2048x128_S1024x128_0_0_1_1_n_n_wf : DotDims.WF S2048x1024 S2048x128 S1024x128 [0] [0] [1] [1] [] []
  dot_S6144x128_S128x16_S6144x16_1_0_0_1_n_n_wf : DotDims.WF S6144x128 S128x16 S6144x16 [1] [0] [0] [1] [] []
  dot_S1024x1536_S1536x16_S1024x16_1_0_0_1_n_n_wf : DotDims.WF S1024x1536 S1536x16 S1024x16 [1] [0] [0] [1] [] []
  dot_S16x6144_S6144x128_S16x128_1_0_0_1_n_n_wf : DotDims.WF S16x6144 S6144x128 S16x128 [1] [0] [0] [1] [] []
  dot_S16x6144_S6144x16_S16x16_1_0_0_1_n_n_wf : DotDims.WF S16x6144 S6144x16 S16x16 [1] [0] [0] [1] [] []
  scatter_S16x16_S16x2_S16_n_01_01_1_wf : ScatterDims.WF S16x16 S16x2 S16 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S6144x6144.size a
  hwx0_0 : ∀ i : grid0.Coords, EltTy.bits .f32 = 32 ∨ (Rect.block (s := S6144x6144) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x6144.size a
  hwx0_1 : ∀ i : grid0.Coords, EltTy.bits .f32 = 32 ∨ (Rect.block (s := S1x6144) S1x1024.size (cc0_transform_1 i) (hinb0_1 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S6144x128.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x128.size a ≤ S6144x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S6144x6144.size a
  hwx1_0 : ∀ i : grid1.Coords, EltTy.bits .f32 = 32 ∨ (Rect.block (s := S6144x6144) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6144x128.size a ≤ S6144x128.size a
  hwx1_1 : ∀ i : grid1.Coords, EltTy.bits .f32 = 32 ∨ (Rect.block (s := S6144x128) S6144x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S6144x1.size a
  hwx1_2 : ∀ i : grid1.Coords, EltTy.bits .f32 = 32 ∨ (Rect.block (s := S6144x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S6144x128.size a
  hwx1_4 : ∀ i : grid1.Coords, EltTy.bits .f32 = 32 ∨ (Rect.block (s := S6144x128) S1024x128.size (cc1_transform_4 i) (hinb1_4 i)).WholeWords (EltTy.packing .f32)
  hrank2 : 0 < grid2.rank
  k2_mult1_dvd : ∀ i : grid2.Coords, 1536 ∣ (k2_mult1 i).toNat
  k2_off1_inb : ∀ i : grid2.Coords, ∀ a, (k2_off1 i) a + S1536x16.size a ≤ S6144x16.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1536.size a ≤ S6144x6144.size a
  hwx2_0 : ∀ i : grid2.Coords, EltTy.bits .f32 = 32 ∨ (Rect.block (s := S6144x6144) S1024x1536.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1536.size a ≤ S6144x6144.size a
  hwx2_1 : ∀ i : grid2.Coords, EltTy.bits .f32 = 32 ∨ (Rect.block (s := S6144x6144) S1024x1536.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S6144x16.size a ≤ S6144x16.size a
  hwx2_2 : ∀ i : grid2.Coords, EltTy.bits .f32 = 32 ∨ (Rect.block (s := S6144x16) S6144x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x16.size a ≤ S6144x16.size a
  hwx2_3 : ∀ i : grid2.Coords, EltTy.bits .f32 = 32 ∨ (Rect.block (s := S6144x16) S1024x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x16.size a ≤ S6144x16.size a
  hwx2_4 : ∀ i : grid2.Coords, EltTy.bits .f32 = 32 ∨ (Rect.block (s := S6144x16) S1024x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S6144x1.size a
  hwx2_5 : ∀ i : grid2.Coords, EltTy.bits .f32 = 32 ∨ (Rect.block (s := S6144x1) S1024x1.size (cc2_transform_5 i) (hinb2_5 i)).WholeWords (EltTy.packing .f32)

variable [Facts₀]

def dot_S6144x128_S128x128_S6144x128_1_0_0_1_n_n : DotDims S6144x128 S128x128 S6144x128 where
  lhsContracting := [1]
  rhsContracting := [0]
  lhsNonContracting := [0]
  rhsNonContracting := [1]
  lhsBatch := []
  rhsBatch := []
  wf := dot_S6144x128_S128x128_S6144x128_1_0_0_1_n_n_wf
def dot_S2048x1024_S2048x128_S1024x128_0_0_1_1_n_n : DotDims S2048x1024 S2048x128 S1024x128 where
  lhsContracting := [0]
  rhsContracting := [0]
  lhsNonContracting := [1]
  rhsNonContracting := [1]
  lhsBatch := []
  rhsBatch := []
  wf := dot_S2048x1024_S2048x128_S1024x128_0_0_1_1_n_n_wf
def dot_S6144x128_S128x16_S6144x16_1_0_0_1_n_n : DotDims S6144x128 S128x16 S6144x16 where
  lhsContracting := [1]
  rhsContracting := [0]
  lhsNonContracting := [0]
  rhsNonContracting := [1]
  lhsBatch := []
  rhsBatch := []
  wf := dot_S6144x128_S128x16_S6144x16_1_0_0_1_n_n_wf
def dot_S1024x1536_S1536x16_S1024x16_1_0_0_1_n_n : DotDims S1024x1536 S1536x16 S1024x16 where
  lhsContracting := [1]
  rhsContracting := [0]
  lhsNonContracting := [0]
  rhsNonContracting := [1]
  lhsBatch := []
  rhsBatch := []
  wf := dot_S1024x1536_S1536x16_S1024x16_1_0_0_1_n_n_wf
def dot_S16x6144_S6144x128_S16x128_1_0_0_1_n_n : DotDims S16x6144 S6144x128 S16x128 where
  lhsContracting := [1]
  rhsContracting := [0]
  lhsNonContracting := [0]
  rhsNonContracting := [1]
  lhsBatch := []
  rhsBatch := []
  wf := dot_S16x6144_S6144x128_S16x128_1_0_0_1_n_n_wf
def dot_S16x6144_S6144x16_S16x16_1_0_0_1_n_n : DotDims S16x6144 S6144x16 S16x16 where
  lhsContracting := [1]
  rhsContracting := [0]
  lhsNonContracting := [0]
  rhsNonContracting := [1]
  lhsBatch := []
  rhsBatch := []
  wf := dot_S16x6144_S6144x16_S16x16_1_0_0_1_n_n_wf
def scatter_S16x16_S16x2_S16_n_01_01_1 : ScatterDims S16x16 S16x2 S16 where
  updateWindowDims := []
  insertedWindowDims := [0, 1]
  scatterDimsToOperandDims := [0, 1]
  indexVectorDim := 1
  wf := scatter_S16x16_S16x2_S16_n_01_01_1_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S6144x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg2) S1024x1536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x1536.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S6144x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35_0) S1024x16.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35_1) S1024x16.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v35_2) S1024x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun i => !(k2_cond2 i == 1#1) | 4 => fun i => !(k2_cond2 i == 1#1) | 5 => fun i => !(k2_cond2 i == 1#1) | ⟨_ + 6, h⟩ => absurd h (Nat.not_lt.2 (Nat.le_add_left _ _))

class Facts : Prop extends Facts₀ where

variable [Facts]
-- ==== ReferenceIdeal.lean ====
abbrev S6144x128 : Shape := ⟨2, ![6144, 128]⟩
abbrev S6144x6144 : Shape := ⟨2, ![6144, 6144]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S6144 : Shape := ⟨1, ![6144]⟩
abbrev S6144x1 : Shape := ⟨2, ![6144, 1]⟩
abbrev S1x6144 : Shape := ⟨2, ![1, 6144]⟩
abbrev S1x128 : Shape := ⟨2, ![1, 128]⟩
abbrev S6144x16 : Shape := ⟨2, ![6144, 16]⟩
abbrev S1x16 : Shape := ⟨2, ![1, 16]⟩
abbrev S16x6144 : Shape := ⟨2, ![16, 6144]⟩
abbrev S16x128 : Shape := ⟨2, ![16, 128]⟩
abbrev S16x16 : Shape := ⟨2, ![16, 16]⟩
abbrev S16x1 : Shape := ⟨2, ![16, 1]⟩
abbrev S16x2 : Shape := ⟨2, ![16, 2]⟩

abbrev nBuf : Space → Nat
  | .hbm => 145
  | .vmem => 0
  | .smem => 0
  | _ => 0

abbrev hbmTy0_0 (i : Nat) : BufTy := match i % 128 with
  | 0 => ⟨S6144x128, .f32⟩
  | 1 => ⟨S6144x6144, .f32⟩
  | 2 => ⟨S6144x6144, .f32⟩
  | 3 => ⟨S128x128, .f32⟩
  | 4 => ⟨S128, .f32⟩
  | 5 => ⟨S128x128, .f32⟩
  | 6 => ⟨S128, .f32⟩
  | 7 => ⟨S128x16, .f32⟩
  | 8 => ⟨S16, .f32⟩
  | 9 => ⟨S6144x6144, .i32⟩
  | 10 => ⟨S6144x6144, .i32⟩
  | 11 => ⟨S_, .i32⟩
  | 12 => ⟨S6144x6144, .i32⟩
  | 13 => ⟨S6144x6144, .i32⟩
  | 14 => ⟨S6144x6144, .i1⟩
  | 15 => ⟨S6144x6144, .f32⟩
  | 16 => ⟨S6144x6144, .f32⟩
  | 17 => ⟨S_, .f32⟩
  | 18 => ⟨S6144, .f32⟩
  | 19 => ⟨S_, .f32⟩
  | 20 => ⟨S6144, .f32⟩
  | 21 => ⟨S6144, .i1⟩
  | 22 => ⟨S6144, .f32⟩
  | 23 => ⟨S_, .f32⟩
  | 24 => ⟨S6144, .f32⟩
  | 25 => ⟨S6144, .f32⟩
  | 26 => ⟨S6144x1, .f32⟩
  | 27 => ⟨S6144x6144, .f32⟩
  | 28 => ⟨S6144x6144, .f32⟩
  | 29 => ⟨S1x6144, .f32⟩
  | 30 => ⟨S6144x6144, .f32⟩
  | 31 => ⟨S6144x6144, .f32⟩
  | 32 => ⟨S6144x6144, .f32⟩
  | 33 => ⟨S6144x128, .f32⟩
  | 34 => ⟨S6144x128, .f32⟩
  | 35 => ⟨S1x128, .f32⟩
  | 36 => ⟨S6144x128, .f32⟩
  | 37 => ⟨S6144x128, .f32⟩
  | 38 => ⟨S6144x128, .f32⟩
  | 39 => ⟨S6144x128, .f32⟩
  | 40 => ⟨S1x128, .f32⟩
  | 41 => ⟨S6144x128, .f32⟩
  | 42 => ⟨S6144x128, .f32⟩
  | 43 => ⟨S_, .f32⟩
  | 44 => ⟨S6144x128, .f32⟩
  | 45 => ⟨S6144x128, .f32⟩
  | 46 => ⟨S6144x16, .f32⟩
  | 47 => ⟨S1x16, .f32⟩
  | 48 => ⟨S6144x16, .f32⟩
  | 49 => ⟨S6144x16, .f32⟩
  | 50 => ⟨S_, .f32⟩
  | 51 => ⟨S6144, .f32⟩
  | 52 => ⟨S_, .f32⟩
  | 53 => ⟨S6144, .f32⟩
  | 54 => ⟨S6144, .f32⟩
  | 55 => ⟨S6144x1, .f32⟩
  | 56 => ⟨S6144x16, .f32⟩
  | 57 => ⟨S6144x16, .f32⟩
  | 58 => ⟨S6144x16, .f32⟩
  | 59 => ⟨S_, .f32⟩
  | 60 => ⟨S6144, .f32⟩
  | 61 => ⟨S6144x1, .f32⟩
  | 62 => ⟨S6144x16, .f32⟩
  | 63 => ⟨S6144x16, .f32⟩
  | 64 => ⟨S16x6144, .f32⟩
  | 65 => ⟨S16x128, .f32⟩
  | 66 => ⟨S16, .i32⟩
  | 67 => ⟨S16x6144, .f32⟩
  | 68 => ⟨S6144x16, .f32⟩
  | 69 => ⟨S16x16, .f32⟩
  | 70 => ⟨S_, .i32⟩
  | 71 => ⟨S16, .i32⟩
  | 72 => ⟨S16, .i1⟩
  | 73 => ⟨S_, .i32⟩
  | 74 => ⟨S16, .i32⟩
  | 75 => ⟨S16, .i32⟩
  | 76 => ⟨S16, .i32⟩
  | 77 => ⟨S_, .i32⟩
  | 78 => ⟨S16, .i32⟩
  | 79 => ⟨S16, .i1⟩
  | 80 => ⟨S_, .i32⟩
  | 81 => ⟨S16, .i32⟩
  | 82 => ⟨S16, .i32⟩
  | 83 => ⟨S16, .i32⟩
  | 84 => ⟨S16x1, .i32⟩
  | 85 => ⟨S16x1, .i32⟩
  | 86 => ⟨S16x2, .i32⟩
  | 87 => ⟨S_, .f32⟩
  | 88 => ⟨S16, .f32⟩
  | 89 => ⟨S16x16, .f32⟩
  | 90 => ⟨S6144x16, .f32⟩
  | 91 => ⟨S16x6144, .f32⟩
  | 92 => ⟨S16x16, .f32⟩
  | 93 => ⟨S_, .i32⟩
  | 94 => ⟨S16, .i32⟩
  | 95 => ⟨S16, .i1⟩
  | 96 => ⟨S_, .i32⟩
  | 97 => ⟨S16, .i32⟩
  | 98 => ⟨S16, .i32⟩
  | 99 => ⟨S16, .i32⟩
  | 100 => ⟨S_, .i32⟩
  | 101 => ⟨S16, .i32⟩
  | 102 => ⟨S16, .i1⟩
  | 103 => ⟨S_, .i32⟩
  | 104 => ⟨S16, .i32⟩
  | 105 => ⟨S16, .i32⟩
  | 106 => ⟨S16, .i32⟩
  | 107 => ⟨S16x1, .i32⟩
  | 108 => ⟨S16x1, .i32⟩
  | 109 => ⟨S16x2, .i32⟩
  | 110 => ⟨S_, .f32⟩
  | 111 => ⟨S16, .f32⟩
  | 112 => ⟨S16x16, .f32⟩
  | 113 => ⟨S6144x16, .f32⟩
  | 114 => ⟨S_, .f32⟩
  | 115 => ⟨S_, .f32⟩
  | 116 => ⟨S_, .f32⟩
  | 117 => ⟨S6144, .f32⟩
  | 118 => ⟨S6144x16, .f32⟩
  | 119 => ⟨S_, .f32⟩
  | 120 => ⟨S6144, .f32⟩
  | 121 => ⟨S6144, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S6144x128, .f32⟩

abbrev hbmTy0_1 (i : Nat) : BufTy := match i % 128 with
  | 0 => ⟨S16x6144, .f32⟩
  | 1 => ⟨S16x16, .f32⟩
  | 2 => ⟨S16x16, .i32⟩
  | 3 => ⟨S16x16, .i32⟩
  | 4 => ⟨S_, .i32⟩
  | 5 => ⟨S16x16, .i32⟩
  | 6 => ⟨S16x16, .i32⟩
  | 7 => ⟨S16x16, .i1⟩
  | 8 => ⟨S16x16, .f32⟩
  | 9 => ⟨S16x16, .f32⟩
  | 10 => ⟨S16x16, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | _ => ⟨S6144x128, .f32⟩

abbrev hbmTy (i : Nat) : BufTy := match i / 128 with
  | 0 => hbmTy0_0 i
  | 1 => hbmTy0_1 i
  | _ => ⟨S6144x128, .f32⟩

abbrev bufTy : (tb : Table) → Fin (tcTables nBuf tb) → BufTy
  | .hbm, ⟨i, _⟩ => hbmTy i
  | _, _ => ⟨S6144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_5 : Ref sig .tc := ⟨.hbm, 70, rfl⟩
abbrev main_v51 : Ref sig .tc := ⟨.hbm, 71, rfl⟩
abbrev main_v52 : Ref sig .tc := ⟨.hbm, 72, rfl⟩
abbrev main_c_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_7 : Ref sig .tc := ⟨.hbm, 77, rfl⟩
abbrev main_v56 : Ref sig .tc := ⟨.hbm, 78, rfl⟩
abbrev main_v57 : Ref sig .tc := ⟨.hbm, 79, rfl⟩
abbrev main_c_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_10 : Ref sig .tc := ⟨.hbm, 93, rfl⟩
abbrev main_v69 : Ref sig .tc := ⟨.hbm, 94, rfl⟩
abbrev main_v70 : Ref sig .tc := ⟨.hbm, 95, rfl⟩
abbrev main_c_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_14 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_20 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_call2_v0 : Ref sig .tc := ⟨.hbm, 138, rfl⟩
abbrev main_call2_cst : Ref sig .tc := ⟨.hbm, 139, rfl⟩
abbrev main_call2_v1 : Ref sig .tc := ⟨.hbm, 140, rfl⟩
abbrev main_v103 : Ref sig .tc := ⟨.hbm, 141, rfl⟩
abbrev main_cst_21 : Ref sig .tc := ⟨.hbm, 142, rfl⟩
abbrev main_v104 : Ref sig .tc := ⟨.hbm, 143, rfl⟩
abbrev main_v105 : Ref sig .tc := ⟨.hbm, 144, rfl⟩

abbrev nD : Nat := 1
abbrev τ : Topo := Topo.v7x

variable {F : FTy → Type} [FloatOps F]

class Facts₀ : Prop where
  bcast_S_S6144x6144 : S_.BroadcastsInDim S6144x6144 (![] : Fin 0 → Fin S6144x6144.rank)
  reducesTo_S6144x6144_S6144_d0 : S6144x6144.ReducesTo [0] S6144
  h_S_ : 0 < S_.numel
  bcast_S_S6144 : S_.BroadcastsInDim S6144 (![] : Fin 0 → Fin S6144.rank)
  bcast_S6144_S6144x1_0 : S6144.BroadcastsInDim S6144x1 (![0] : Fin 1 → Fin S6144x1.rank)
  bcast_S6144x1_S6144x6144_0_1 : S6144x1.BroadcastsInDim S6144x6144 (![0, 1] : Fin 2 → Fin S6144x6144.rank)
  bcast_S6144_S1x6144_1 : S6144.BroadcastsInDim S1x6144 (![1] : Fin 1 → Fin S1x6144.rank)
  bcast_S1x6144_S6144x6144_0_1 : S1x6144.BroadcastsInDim S6144x6144 (![0, 1] : Fin 2 → Fin S6144x6144.rank)
  transposes_S6144x6144_S6144x6144_1_0 : S6144x6144.Transposes [1, 0] S6144x6144
  bcast_S128_S1x128_1 : S128.BroadcastsInDim S1x128 (![1] : Fin 1 → Fin S1x128.rank)
  bcast_S1x128_S6144x128_0_1 : S1x128.BroadcastsInDim S6144x128 (![0, 1] : Fin 2 → Fin S6144x128.rank)
  bcast_S_S6144x128 : S_.BroadcastsInDim S6144x128 (![] : Fin 0 → Fin S6144x128.rank)
  bcast_S16_S1x16_1 : S16.BroadcastsInDim S1x16 (![1] : Fin 1 → Fin S1x16.rank)
  bcast_S1x16_S6144x16_0_1 : S1x16.BroadcastsInDim S6144x16 (![0, 1] : Fin 2 → Fin S6144x16.rank)
  reducesTo_S6144x16_S6144_d1 : S6144x16.ReducesTo [1] S6144
  bcast_S6144x1_S6144x16_0_1 : S6144x1.BroadcastsInDim S6144x16 (![0, 1] : Fin 2 → Fin S6144x16.rank)
  transposes_S6144x16_S16x6144_1_0 : S6144x16.Transposes [1, 0] S16x6144
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  reducesTo_S6144x16_S_d0_1 : S6144x16.ReducesTo [0, 1] S_
  reducesTo_S6144x6144_S6144_d1 : S6144x6144.ReducesTo [1] S6144
  reducesTo_S6144_S_d0 : S6144.ReducesTo [0] S_
  bcast_S_S16x16 : S_.BroadcastsInDim S16x16 (![] : Fin 0 → Fin S16x16.rank)
  reducesTo_S16x16_S_d0_1 : S16x16.ReducesTo [0, 1] S_
  dot_S6144x128_S128x128_S6144x128_1_0_0_1_n_n_wf : DotDims.WF S6144x128 S128x128 S6144x128 [1] [0] [0] [1] [] []
  dot_S6144x6144_S6144x128_S6144x128_1_0_0_1_n_n_wf : DotDims.WF S6144x6144 S6144x128 S6144x128 [1] [0] [0] [1] [] []
  dot_S6144x128_S128x16_S6144x16_1_0_0_1_n_n_wf : DotDims.WF S6144x128 S128x16 S6144x16 [1] [0] [0] [1] [] []
  dot_S16x6144_S6144x128_S16x128_1_0_0_1_n_n_wf : DotDims.WF S16x6144 S6144x128 S16x128 [1] [0] [0] [1] [] []
  dot_S6144x6144_S6144x16_S6144x16_1_0_0_1_n_n_wf : DotDims.WF S6144x6144 S6144x16 S6144x16 [1] [0] [0] [1] [] []
  dot_S16x6144_S6144x16_S16x16_1_0_0_1_n_n_wf : DotDims.WF S16x6144 S6144x16 S16x16 [1] [0] [0] [1] [] []
  scatter_S16x16_S16x2_S16_n_01_01_1_wf : ScatterDims.WF S16x16 S16x2 S16 [] [0, 1] [0, 1] 1

variable [Facts₀]

def dot_S6144x128_S128x128_S6144x128_1_0_0_1_n_n : DotDims S6144x128 S128x128 S6144x128 where
  lhsContracting := [1]
  rhsContracting := [0]
  lhsNonContracting := [0]
  rhsNonContracting := [1]
  lhsBatch := []
  rhsBatch := []
  wf := dot_S6144x128_S128x128_S6144x128_1_0_0_1_n_n_wf
def dot_S6144x6144_S6144x128_S6144x128_1_0_0_1_n_n : DotDims S6144x6144 S6144x128 S6144x128 where
  lhsContracting := [1]
  rhsContracting := [0]
  lhsNonContracting := [0]
  rhsNonContracting := [1]
  lhsBatch := []
  rhsBatch := []
  wf := dot_S6144x6144_S6144x128_S6144x128_1_0_0_1_n_n_wf
def dot_S6144x128_S128x16_S6144x16_1_0_0_1_n_n : DotDims S6144x128 S128x16 S6144x16 where
  lhsContracting := [1]
  rhsContracting := [0]
  lhsNonContracting := [0]
  rhsNonContracting := [1]
  lhsBatch := []
  rhsBatch := []
  wf := dot_S6144x128_S128x16_S6144x16_1_0_0_1_n_n_wf
def dot_S16x6144_S6144x128_S16x128_1_0_0_1_n_n : DotDims S16x6144 S6144x128 S16x128 where
  lhsContracting := [1]
  rhsContracting := [0]
  lhsNonContracting := [0]
  rhsNonContracting := [1]
  lhsBatch := []
  rhsBatch := []
  wf := dot_S16x6144_S6144x128_S16x128_1_0_0_1_n_n_wf
def dot_S6144x6144_S6144x16_S6144x16_1_0_0_1_n_n : DotDims S6144x6144 S6144x16 S6144x16 where
  lhsContracting := [1]
  rhsContracting := [0]
  lhsNonContracting := [0]
  rhsNonContracting := [1]
  lhsBatch := []
  rhsBatch := []
  wf := dot_S6144x6144_S6144x16_S6144x16_1_0_0_1_n_n_wf
def dot_S16x6144_S6144x16_S16x16_1_0_0_1_n_n : DotDims S16x6144 S6144x16 S16x16 where
  lhsContracting := [1]
  rhsContracting := [0]
  lhsNonContracting := [0]
  rhsNonContracting := [1]
  lhsBatch := []
  rhsBatch := []
  wf := dot_S16x6144_S6144x16_S16x16_1_0_0_1_n_n_wf
def scatter_S16x16_S16x2_S16_n_01_01_1 : ScatterDims S16x16 S16x2 S16 where
  updateWindowDims := []
  insertedWindowDims := [0, 1]
  scatterDimsToOperandDims := [0, 1]
  indexVectorDim := 1
  wf := scatter_S16x16_S16x2_S16_n_01_01_1_wf

class Facts : Prop extends Facts₀ where

variable [Facts]
-- ==== Proof.Region0Runs.lean ====
/- The column-sum kernel's body, run once per control case on whole memrefs at explicit contents: the conditions of
   its two conditionals in closed form over the grid, where its output window is idle, and the three runs. -/
import proofs.«141308_j26388279066709_2_alg».proof.Proof.Gen.KernelIdeal.Launch
import proofs.«141308_j26388279066709_2_alg».proof.Proof.Gen.KernelIdeal.Skeleton
import proofs.«141308_j26388279066709_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, in closed form over the grid -/

/-- The first conditional's condition (the reduction coordinate is zero), the skeleton's scalar chain substituted. -/
abbrev cond0_0 (i : grid0.Coords) : Prop := (Scalar.cmpi .ne (Scalar.extui (Scalar.cmpi .eq (BitVec.ofNat 32 (i 1).val) 0#32)) 0#32) = 1#1
/-- It holds at the points ≡ 0 (mod 6). -/
theorem hcond0_0 : ∀ t : Fin cfg0.N, cond0_0 (grid0.coords t) ↔ t.val % 6 = 0 :=
  (by decide +kernel : ∀ t : Fin grid0.N, cond0_0 (grid0.coords t) ↔ t.val % 6 = 0)

/-- The second conditional's condition (the reduction coordinate is the last). -/
abbrev cond0_1 (i : grid0.Coords) : Prop := k0_cond2 i = 1#1
/-- It holds at the points ≡ 5 (mod 6). -/
theorem hcond0_1 : ∀ t : Fin cfg0.N, cond0_1 (grid0.coords t) ↔ t.val % 6 = 5 :=
  (by decide +kernel : ∀ t : Fin grid0.N, cond0_1 (grid0.coords t) ↔ t.val % 6 = 5)

/-! ## Where the windows are idle -/

/-- The input window is never idle. -/
theorem liveAt0_0 : ∀ t : Fin cfg0.N, cfg0.idle 0 (grid0.coords t) = false := by decide +kernel
/-- Where the second condition fails the output window is idle, -/
theorem idleAt0_1 : ∀ t : Fin cfg0.N, ¬cond0_1 (grid0.coords t) → cfg0.idle 1 (grid0.coords t) = true := by decide +kernel
/-- and its block is not written back; -/
theorem noFlush0_1 : ∀ t : Fin cfg0.N, ¬cond0_1 (grid0.coords t) → (cfg0.win 1).flush t = false := by decide +kernel
/-- where it holds the window is live. -/
theorem liveAt0_1 : ∀ t : Fin cfg0.N, cond0_1 (grid0.coords t) → cfg0.idle 1 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0 : Memref sig .tc .vmem S1x1024 .f32 := Memref.whole cc0_scratch0

/-- The zero offsets of a rank-two rectangle, however spelt. -/
theorem offsets_zero : (![0, 0] : Fin 2 → Nat) = fun _ => 0 := funext fun a => by fin_cases a <;> rfl

set_option maxHeartbeats 1000000 in
/-- The body at a point whose reduction coordinate is zero (first condition taken, second not): on whole memrefs, the
    input's at `x`, the output's at `xi` (handed back untouched: the case stores nothing into it), the scratch at
    anything, it runs to the continuation holding the scratch at the reduction payload of `x` over the zero fill. -/
theorem run0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : cond0_0 i) (hc1 : ¬cond0_1 i)
    (x : Vec F S1024x1024 .f32) (xi : Vec F S1x1024 .f32) (E : Set ℕ) (K : PUnit → sProp 𝕄) :
    iprop(owns (c : Thread nD τ) arg2 fullShare x ∗ owns (c : Thread nD τ) arg3 fullShare xi ∗ (∃ d, owns (c : Thread nD τ) arg4 fullShare d)
        ∗ (iprop(owns (c : Thread nD τ) arg2 fullShare x ∗ owns (c : Thread nD τ) arg3 fullShare xi ∗ owns (c : Thread nD τ) arg4 fullShare (k0_pay2 x (k0_pay1 (F := F)))) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (fun y => ⟨_, List.mem_cons_self, View.mem_set_unit_zero offsets_zero inb_S1x1024_S1x1024_0_0 y⟩)]
  rw [View.canon_cons_unit_zero offsets_zero]
  sl_unfold_words
  rw [View.readCov_unit_zero _ offsets_zero, View.readAt_eq_ld, harg2.read_unread, View.ld_unit_zero offsets_zero]

set_option maxHeartbeats 1000000 in
/-- The body at a point strictly inside the reduction (neither condition taken): the scratch, found at `xs`, is left at
    the reduction payload of `x` over `xs`; the output's buffer is handed back untouched. -/
theorem run0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : ¬cond0_0 i) (hc1 : ¬cond0_1 i)
    (x : Vec F S1024x1024 .f32) (xi : Vec F S1x1024 .f32) (xs : Vec F S1x1024 .f32) (E : Set ℕ) (K : PUnit → sProp 𝕄) :
    iprop(owns (c : Thread nD τ) arg2 fullShare x ∗ owns (c : Thread nD τ) arg3 fullShare xi ∗ owns (c : Thread nD τ) arg4 fullShare xs
        ∗ (iprop(owns (c : Thread nD τ) arg2 fullShare x ∗ owns (c : Thread nD τ) arg3 fullShare xi ∗ owns (c : Thread nD τ) arg4 fullShare (k0_pay2 x xs)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (fun y => ⟨_, List.mem_cons_self, View.mem_set_unit_zero offsets_zero inb_S1x1024_S1x1024_0_0 y⟩)]
  rw [View.canon_cons_unit_zero offsets_zero]
  sl_unfold_words
  rw [View.readAt_eq_ld, View.readAt_eq_ld, harg2.read_unread, harg4.read_unread, View.ld_unit_zero offsets_zero, View.ld_unit_zero offsets_zero]

set_option maxHeartbeats 1000000 in
/-- The body at a point whose reduction coordinate is the last (first condition not taken, second taken): the scratch,
    found at `xs`, is left at the reduction payload of `x` over `xs`, and so is the output's buffer (found at
    anything), stored whole from the scratch. -/
theorem run0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : ¬cond0_0 i) (hc1 : cond0_1 i)
    (x : Vec F S1024x1024 .f32) (xs : Vec F S1x1024 .f32) (E : Set ℕ) (K : PUnit → sProp 𝕄) :
    iprop(owns (c : Thread nD τ) arg2 fullShare x ∗ (∃ d, owns (c : Thread nD τ) arg3 fullShare d) ∗ owns (c : Thread nD τ) arg4 fullShare xs
        ∗ (iprop(owns (c : Thread nD τ) arg2 fullShare x ∗ owns (c : Thread nD τ) arg3 fullShare (k0_pay2 x xs) ∗ owns (c : Thread nD τ) arg4 fullShare (k0_pay2 x xs)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [View.read_writes_eq_canon _ _ _ (fun y => ⟨_, List.mem_cons_self, View.mem_set_unit_zero offsets_zero inb_S1x1024_S1x1024_0_0 y⟩)]
    rw [View.canon_cons_unit_zero offsets_zero]
    sl_unfold_words
    rw [View.readCov_unit_zero _ offsets_zero, View.readAt_eq_ld, View.readAt_eq_ld, harg2.read_unread, harg4.read_unread, View.ld_unit_zero offsets_zero, View.ld_unit_zero offsets_zero]
  iexists _; isplitr
  swap; · iexact HS0
  ipureintro
  sl_unfold_words
  rw [View.read_writes_eq_canon _ _ _ (fun y => ⟨_, List.mem_cons_self, View.mem_set_unit_zero offsets_zero inb_S1x1024_S1x1024_0_0 y⟩)]
  rw [View.canon_cons_unit_zero offsets_zero]
  rw [View.readAt_eq_ld, View.readAt_eq_ld, harg2.read_unread, harg4.read_unread, View.ld_unit_zero offsets_zero, View.ld_unit_zero offsets_zero]

end Cert.KernelIdeal.Hand

end
-- ==== Proof.Region0.lean ====
/- REGION 0 of @main, the column-sum kernel's pipeline, at the TensorCore's buffer contents `V` when the region is
   entered: the windows' blocks, the accumulation the scratch carries from point to point in the open, the region
   invariant, the proof data, the body obligation and the two entailments with the class invariant. Generic in `F`. -/
import proofs.«141308_j26388279066709_2_alg».proof.Proof.Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: the column-sum kernel's pipeline, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- What the scratch accumulator holds after the body at position `n`: at a point whose reduction coordinate is zero
    the reduction payload of the point's input block over the zero fill, elsewhere that payload over what the point
    before left. -/
def acc0 (c : Dev nD) : (n : ℕ) → n < cfg0.N → Vec F S1x1024 .f32
  | 0, hn => k0_pay2 (iblk0 V c 0 ⟨0, hn⟩) (k0_pay1 (F := F))
  | n + 1, hn =>
    if (n + 1) % 6 = 0 then k0_pay2 (iblk0 V c 0 ⟨n + 1, hn⟩) (k0_pay1 (F := F))
    else k0_pay2 (iblk0 V c 0 ⟨n + 1, hn⟩) (acc0 c n (Nat.lt_of_succ_lt hn))

/-- At a point whose reduction coordinate is zero the accumulation restarts from the zero fill. -/
theorem acc0_A (c : Dev nD) (t : Fin cfg0.N) (h0 : t.val % 6 = 0) :
    acc0 V c t.val t.isLt = k0_pay2 (iblk0 V c 0 t) (k0_pay1 (F := F)) := by
  obtain ⟨n, hn⟩ := t
  cases n with
  | zero => rfl
  | succ n => exact if_pos h0

/-- Elsewhere it continues from what the point before left. -/
theorem acc0_B (c : Dev nD) (t : Fin cfg0.N) (h0 : ¬t.val % 6 = 0) :
    acc0 V c t.val t.isLt = k0_pay2 (iblk0 V c 0 t) (acc0 V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- The core's scoped buffers that are neither a staging buffer of this pipeline nor its scratch accumulator (the other
    two kernels' staging and scratch buffers), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f)
    ∗ (∃ f : Buf (Elt F) ((c : Thread nD τ).loc cc2_scratch0), ((c : Thread nD τ).loc cc2_scratch0) ↦{fullShare} f)
    ∗ (∃ f : Buf (Elt F) ((c : Thread nD τ).loc cc2_scratch1), ((c : Thread nD τ).loc cc2_scratch1) ↦{fullShare} f)
    ∗ (∃ f : Buf (Elt F) ((c : Thread nD τ).loc cc2_scratch2), ((c : Thread nD τ).loc cc2_scratch2) ↦{fullShare} f))

/-- The class invariant with the scratch accumulator as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- The region invariant before position `n`: before the first point the class's (the scratch at anything); afterwards
    the scratch accumulator at what the point before left, the other scoped buffers at anything, and the generator
    register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The pipeline's proof data -/

/-- The proof data of the pipeline on core `c`: the arrays as the region finds them (`V`); after the body at point `t`
    the input's buffer at its block and the output's at the accumulation (which the body stores there at the points
    whose reduction coordinate is the last; elsewhere the window is idle and the value is not consulted); the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- The input window's array is never written. -/
theorem kept0 (c : Dev nD) : (dat0 V c).arrAt 0 cfg0.N = V c main_arg2 :=
  ((dat0 V c).arrAt_in 0 rfl _).trans (A_eq0 V c 0)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms say which control case the point is in;
    the invariant hands the body the scratch accumulator at what the point before left (at anything at the first point)
    and takes it back at this point's accumulation; the other scoped buffers, the generator register and the core's
    tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  have hN : t.val < 36 := lt_of_lt_of_eq t.isLt (show cfg0.N = 36 from N_0)
  by_cases h0 : t.val % 6 = 0
  · have h1 : ¬t.val % 6 = 5 := by omega
    rw [Dat.leavesExact_idle (dat0 V c) 1 t (idleAt0_1 t (fun h => h1 ((hcond0_1 t).mp h))) (noFlush0_1 t (fun h => h1 ((hcond0_1 t).mp h)))]
    rw [acc0_A V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩⟩
      iapply (run0_A c (grid0.coords t) _ _ _ _ _ _ ((hcond0_0 t).mpr h0) (fun h => h1 ((hcond0_1 t).mp h)) (iblk0 V c 0 t) _ Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1
    · rw [PhiS0_castSucc V c t, PhiS0_pos V c _ _ hz]
      iintro ⟨⟨⟨HS0, Hr⟩, Hg⟩, Ho, ⟨%d0, H0⟩, ⟨%d1, H1⟩⟩
      iapply (run0_A c (grid0.coords t) _ _ _ _ _ _ ((hcond0_0 t).mpr h0) (fun h => h1 ((hcond0_1 t).mp h)) (iblk0 V c 0 t) _ Set.univ _)
      isplitl [H0]; · iexact H0
      isplitl [H1]; · iexact H1
      isplitl [HS0]; · iexists _; iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1
  · have hz : t.val ≠ 0 := fun h => h0 (by rw [h])
    rw [acc0_B V c t h0, PhiS0_castSucc V c t, PhiS0_pos V c _ _ hz]
    by_cases h1 : t.val % 6 = 5
    · rw [show (dat0 V c).leavesExact 1 t = owns (c : Thread nD τ) (ms0_1 t) fullShare ((dat0 V c).after 1 t) from by
        unfold Dat.leavesExact; rw [liveAt0_1 t ((hcond0_1 t).mpr h1)], after0_1, acc0_B V c t h0]
      iintro ⟨⟨⟨HS0, Hr⟩, Hg⟩, Ho, ⟨%d0, H0⟩, ⟨%d1, H1⟩⟩
      iapply (run0_C c (grid0.coords t) _ _ _ _ _ _ (fun h => h0 ((hcond0_0 t).mp h)) ((hcond0_1 t).mpr h1) (iblk0 V c 0 t) _ Set.univ _)
      isplitl [H0]; · iexact H0
      isplitl [H1]; · iexists _; iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexact H1
    · rw [Dat.leavesExact_idle (dat0 V c) 1 t (idleAt0_1 t (fun h => h1 ((hcond0_1 t).mp h))) (noFlush0_1 t (fun h => h1 ((hcond0_1 t).mp h)))]
      iintro ⟨⟨⟨HS0, Hr⟩, Hg⟩, Ho, ⟨%d0, H0⟩, ⟨%d1, H1⟩⟩
      iapply (run0_B c (grid0.coords t) _ _ _ _ _ _ (fun h => h0 ((hcond0_0 t).mp h)) (fun h => h1 ((hcond0_1 t).mp h)) (iblk0 V c 0 t) _ _ Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 36 := N_0; omega)

end Cert.KernelIdeal.Hand

end
-- ==== Proof.Region1Runs.lean ====
/- REGION 1 of @main (the pallas_call of the GCN aggregation: h = tanh(dinv · (Aᵀ·Y + Y) + b)), the body on its own.
   The grid is 6 × 3: coordinate 0 is the output row block m, coordinate 1 the reduction block k. The body keeps
   a [1024,128] accumulator between the points of one m: at k = 0 it is zeroed; at every k it gains the product
   of the point's [2048,1024] block of A, contracted over its rows, with the rows k·2048 … of Y; at k = 2 the
   output block is written from it. Three control cases, one run of the whole body each, every buffer's contents
   stated in the open over the printed payloads (k1_pay1: zeros; k1_pay2 a y acc: acc + aᵀ·y; k1_pay3 y acc d b:
   tanh(d · (acc + y) + b)). Generic in the float model. -/
import proofs.«141308_j26388279066709_2_alg».proof.Proof.Gen.KernelIdeal.Launch
import proofs.«141308_j26388279066709_2_alg».proof.Proof.Gen.KernelIdeal.Skeleton
import proofs.«141308_j26388279066709_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (k = 0), from the grid coordinates. -/
abbrev cond1_0 (i : grid1.Coords) : Prop := (Scalar.cmpi .ne (Scalar.extui (Scalar.cmpi .eq (BitVec.ofNat 32 (i 1).val) 0#32)) 0#32) = 1#1
/-- The condition of the body's second `scf.if` (k = last). -/
abbrev cond1_1 (i : grid1.Coords) : Prop := k1_cond2 i = 1#1

theorem hz2r1 : (![0, 0] : Fin 2 → Nat) = fun _ => 0 := funext fun a => by fin_cases a <;> rfl

/-- The rows `m·1024 …` of `Y` lie inside it at every grid point (not only where the body loads them). -/
theorem k1_off2_inb' : ∀ i : grid1.Coords, ∀ a, (k1_off2 i) a + S1024x128.size a ≤ S6144x128.size a := by decide +kernel

/-- The rows `k·2048 …` of `Y`: what the point's matmul contracts the matrix block with. -/
abbrev rY1 (i : grid1.Coords) : Rect S6144x128 := Rect.unit (s := S6144x128) (k1_off1 i) S2048x128.size (k1_off1_inb i)
/-- The rows `m·1024 …` of `Y`: what the last point adds to the accumulator. -/
abbrev rY2 (i : grid1.Coords) : Rect S6144x128 := Rect.unit (s := S6144x128) (k1_off2 i) S1024x128.size (k1_off2_inb' i)

/-- A buffer whose last store went through the whole-shape rectangle at zero offsets reads that store's payload,
    whatever it held and whatever was stored before. -/
theorem read_writes_cons_unit_zero {S : Shape} {e : EltTy} {sg : RefSig} {κ : Kind} {sp : Space} (v : View sg κ sp S e)
    (f : v.ty.Contents (Elt F)) {off : Fin S.rank → Nat} (h : off = fun _ => 0) (inb : ∀ a, off a + S.size a ≤ S.size a)
    (P : S.Idx → Elt F e) (L : List (View.Piece (Elt F) S e)) :
    v.read (Elt F) (v.writes (Elt F) f (⟨Rect.unit off S.size inb, P⟩ :: L)) = P := by
  rw [View.read_writes_eq_canon _ _ _ (fun y => ⟨_, List.mem_cons_self, View.mem_set_unit_zero h inb y⟩),
    View.canon_cons_unit_zero h]

set_option maxHeartbeats 1000000 in
/-- The body at a point with k = 0: the accumulator, held at anything, is zeroed and then left at the product of this
    point's block of the matrix (transposed) with the rows `0 …` of `Y`, added to zeros; the output buffer is not touched. -/
theorem run1_A (c : Dev nD) (i : grid1.Coords)
    (arg2 : Memref sig .tc .vmem S2048x1024 .f32) (harg2 : arg2.IsWhole) (arg3 : Memref sig .tc .vmem S6144x128 .f32) (harg3 : arg3.IsWhole)
    (arg4 : Memref sig .tc .vmem S1024x1 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : cond1_0 i) (hc1 : ¬cond1_1 i)
    (x0 : Vec F S2048x1024 .f32) (x1 : Vec F S6144x128 .f32) (x2 : Vec F S1024x1 .f32) (x3 : Vec F S1x128 .f32) (xi4 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k1_pay2 x0 (View.ld x1 (rY1 i)) (k1_pay1 (F := F)))) -∗ K ⟨⟩))
      ⊢ wp frame (wpE (defs₀ (F := F)) Variants.none c none) E (cc1__h_kernel i arg2 harg2 arg3 harg3 arg4 harg4 arg5 harg5 arg6 harg6 arg7 harg7) K := by
  simp only [cc1__h_kernel_eq_skeleton]; unfold cc1__h_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [read_writes_cons_unit_zero _ _ hz2r1]
  simp only [View.readAt_eq_ld, harg2.read_unread, harg3.read_unread, View.ld_unit_zero (S := S2048x1024) hz2r1,
    View.readCov_unit_zero (S := S1024x128) _ hz2r1]

set_option maxHeartbeats 1000000 in
/-- The body at a point with 0 < k < last: the accumulator, held at `xs`, is left at `xs` plus the product of this
    point's block of the matrix (transposed) with the rows `k·2048 …` of `Y`; the output buffer is not touched. -/
theorem run1_B (c : Dev nD) (i : grid1.Coords)
    (arg2 : Memref sig .tc .vmem S2048x1024 .f32) (harg2 : arg2.IsWhole) (arg3 : Memref sig .tc .vmem S6144x128 .f32) (harg3 : arg3.IsWhole)
    (arg4 : Memref sig .tc .vmem S1024x1 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : ¬cond1_1 i)
    (x0 : Vec F S2048x1024 .f32) (x1 : Vec F S6144x128 .f32) (x2 : Vec F S1024x1 .f32) (x3 : Vec F S1x128 .f32) (xi4 : Vec F S1024x128 .f32)
    (xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k1_pay2 x0 (View.ld x1 (rY1 i)) xs)) -∗ K ⟨⟩))
      ⊢ wp frame (wpE (defs₀ (F := F)) Variants.none c none) E (cc1__h_kernel i arg2 harg2 arg3 harg3 arg4 harg4 arg5 harg5 arg6 harg6 arg7 harg7) K := by
  simp only [cc1__h_kernel_eq_skeleton]; unfold cc1__h_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [read_writes_cons_unit_zero _ _ hz2r1]
  simp only [View.readAt_eq_ld, harg2.read_unread, harg3.read_unread, harg7.read_unread, View.ld_unit_zero (S := S2048x1024) hz2r1,
    View.ld_unit_zero (S := S1024x128) hz2r1]

set_option maxHeartbeats 1000000 in
/-- The body at a point with k = last: the accumulator is advanced as at the other points, and the output buffer,
    held at anything, is left at the final expression over the rows `m·1024 …` of `Y`, the advanced accumulator, the
    column block and the row. -/
theorem run1_C (c : Dev nD) (i : grid1.Coords)
    (arg2 : Memref sig .tc .vmem S2048x1024 .f32) (harg2 : arg2.IsWhole) (arg3 : Memref sig .tc .vmem S6144x128 .f32) (harg3 : arg3.IsWhole)
    (arg4 : Memref sig .tc .vmem S1024x1 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S2048x1024 .f32) (x1 : Vec F S6144x128 .f32) (x2 : Vec F S1024x1 .f32) (x3 : Vec F S1x128 .f32)
    (xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k1_pay3 (View.ld x1 (rY2 i)) (k1_pay2 x0 (View.ld x1 (rY1 i)) xs) x2 x3)
            ∗ owns (c : Thread nD τ) arg7 fullShare (k1_pay2 x0 (View.ld x1 (rY1 i)) xs)) -∗ K ⟨⟩))
      ⊢ wp frame (wpE (defs₀ (F := F)) Variants.none c none) E (cc1__h_kernel i arg2 harg2 arg3 harg3 arg4 harg4 arg5 harg5 arg6 harg6 arg7 harg7) K := by
  simp only [cc1__h_kernel_eq_skeleton]; unfold cc1__h_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [read_writes_cons_unit_zero _ _ hz2r1]
    simp only [View.readAt_eq_ld, harg2.read_unread, harg3.read_unread, harg4.read_unread, harg5.read_unread, harg7.read_unread,
      View.ld_unit_zero (S := S2048x1024) hz2r1, View.ld_unit_zero (S := S1024x128) hz2r1, View.ld_unit_zero (S := S1024x1) hz2r1,
      View.ld_unit_zero (S := S1x128) hz2r1, View.readCov_unit_zero (S := S1024x128) _ hz2r1]
  iexists _; isplitr
  swap; · iexact HS
  ipureintro
  sl_unfold_run_names
  rw [read_writes_cons_unit_zero _ _ hz2r1]
  simp only [View.readAt_eq_ld, harg2.read_unread, harg3.read_unread, harg7.read_unread, View.ld_unit_zero (S := S2048x1024) hz2r1,
    View.ld_unit_zero (S := S1024x128) hz2r1]

end Cert.KernelIdeal.Hand

end
-- ==== Proof.Region1.lean ====
/- REGION 1 of @main (the pallas_call of the GCN aggregation, grid 6 × 3: output row block m, reduction block k), its
   half of the frame at a PARAMETER `V` — the TensorCore's buffer contents when the region is entered.
   The accumulation in the open: after the body at point t the carried [1024,128] accumulator holds `scrAt V c t`, a
   recursion over the points of one m (at k = 0 the step from zeros, otherwise the step from what the point before
   left: `scrAt_A`, `scrAt_B`, `scrAt_C`), one step being acc + (block (k, m) of A)ᵀ · (rows k·2048 … of Y) (`acc1`);
   at k = 2 the output window's buffer holds tanh(dinv_m · (acc + Y_m) + b) (`outAt`, `after1_4`).
   The region invariant carries the accumulator at `scrAt` between points (`PhiS1`); the body obligation takes, per
   control case, the run of the whole body (Region1Runs); before the first point and after the last the invariant is
   the class's (`hin1`, `hout1`). The input arrays end as entered (`kept1`). Generic in the float model. -/
import proofs.«141308_j26388279066709_2_alg».proof.Proof.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`): the [2048,1024] block (k, m) of
    the matrix (window 0), all of `Y` (1), the rows m·1024 … of the column `dinv` (2), the row `b` (3). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (a window not
    fetched at a point has the block index of the point before), for any proof data whose array is `V`'s and whose
    body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form over the grid -/

/-- k = 0 exactly at the points ≡ 0 (mod 3). -/
theorem hcond1_0 : ∀ t : Fin cfg1.N, cond1_0 (grid1.coords t) ↔ t.val % 3 = 0 :=
  (by decide +kernel : ∀ t : Fin grid1.N, cond1_0 (grid1.coords t) ↔ t.val % 3 = 0)
/-- k = 2 exactly at the points ≡ 2 (mod 3). -/
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from k = 2 the body stores nothing into the output window, and the pipeline does not write it back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At k = 2 it stores the whole block. -/
theorem liveAt1_4 : ∀ t : Fin cfg1.N, cond1_1 (grid1.coords t) → cfg1.idle 4 (grid1.coords t) = false := by decide +kernel

/-! ## THE ACCUMULATION: what the carried accumulator and the output buffer hold after each point -/

/-- One point's step of the accumulator: `xs` plus the product of the point's matrix block, contracted over its rows,
    with the rows k·2048 … of `Y`. -/
def acc1 (c : Dev nD) (t : Fin cfg1.N) (xs : Vec F S1024x128 .f32) : Vec F S1024x128 .f32 :=
  k1_pay2 (iblk1 V c 0 t) (View.ld (iblk1 V c 1 t) (rY1 (grid1.coords t))) xs

/-- The accumulator after the body at position `n`: at k = 0 the step from zeros, otherwise the step from what the
    point before left. -/
def scrAt (c : Dev nD) : (n : ℕ) → n < cfg1.N → Vec F S1024x128 .f32
  | 0, hn => acc1 V c ⟨0, hn⟩ (k1_pay1 (F := F))
  | n + 1, hn => acc1 V c ⟨n + 1, hn⟩ (if (n + 1) % 3 = 0 then k1_pay1 (F := F) else scrAt c n (Nat.lt_of_succ_lt hn))

/-- At a point with k = 0: the step from zeros. -/
theorem scrAt_A (c : Dev nD) (t : Fin cfg1.N) (h0 : t.val % 3 = 0) :
    scrAt V c t.val t.isLt = acc1 V c t (k1_pay1 (F := F)) := by
  obtain ⟨n, hn⟩ := t
  cases n with
  | zero => rfl
  | succ n => exact congrArg (acc1 V c ⟨n + 1, hn⟩) (if_pos h0)

/-- At a point with k ≠ 0: the step from what the point before left. -/
theorem scrAt_pos (c : Dev nD) (t : Fin cfg1.N) (h0 : ¬t.val % 3 = 0) :
    scrAt V c t.val t.isLt = acc1 V c t (scrAt V c (t.val - 1) (Nat.lt_of_le_of_lt (Nat.sub_le _ _) t.isLt)) := by
  obtain ⟨n, hn⟩ := t
  cases n with
  | zero => exact absurd (Nat.zero_mod _) h0
  | succ n => exact congrArg (acc1 V c ⟨n + 1, hn⟩) (if_neg h0)

/-- At a point with k = 1. -/
theorem scrAt_B (c : Dev nD) (t : Fin cfg1.N) (h1 : t.val % 3 = 1) :
    scrAt V c t.val t.isLt = acc1 V c t (scrAt V c (t.val - 1) (Nat.lt_of_le_of_lt (Nat.sub_le _ _) t.isLt)) :=
  scrAt_pos V c t (by omega)

/-- At a point with k = 2. -/
theorem scrAt_C (c : Dev nD) (t : Fin cfg1.N) (h2 : t.val % 3 = 2) :
    scrAt V c t.val t.isLt = acc1 V c t (scrAt V c (t.val - 1) (Nat.lt_of_le_of_lt (Nat.sub_le _ _) t.isLt)) :=
  scrAt_pos V c t (by omega)

/-- What the output window's buffer holds after the body at a point with k = 2: tanh(dinv · (acc + Y_m) + b), over the
    rows m·1024 … of `Y`, the accumulator after this point's step, the point's block of `dinv` and the row `b`. (At the
    other points the window is idle and this term is not consulted.) -/
def outAt (c : Dev nD) (t : Fin cfg1.N) : Vec F S1024x128 .f32 :=
  k1_pay3 (View.ld (iblk1 V c 1 t) (rY2 (grid1.coords t))) (scrAt V c t.val t.isLt) (iblk1 V c 2 t) (iblk1 V c 3 t)

/-! ## The invariant -/

/-- The accumulator as a memref: the kernel's own whole scoped buffer. -/
abbrev scM1 : Memref sig .tc .vmem S1024x128 .f32 := Memref.whole cc1_scratch0

/-- Everything of the class invariant but the accumulator: what gives the invariant back once the accumulator is
    returned at any contents. -/
def rest1 (c : Dev nD) : sProp 𝕄 :=
  iprop((∃ d, owns (c : Thread nD τ) scM1 fullShare d) -∗ Pipeline.ΦA spec1 c)

/-- The class invariant hands out the accumulator at some contents, beside the rest. -/
theorem PhiA1_split (c : Dev nD) :
    (Pipeline.ΦA spec1 c : sProp 𝕄) ⊢ iprop((∃ d, owns (c : Thread nD τ) scM1 fullShare d) ∗ rest1 (F := F) c) := by
  unfold rest1 Pipeline.ΦA; rw [scopedRest1_eq]; simp only [scM1, owns_whole]
  iintro ⟨⟨H0, H1, H2, H3, H4, HS, HR⟩, Hg⟩
  isplitl [HS]; · iexact HS
  iintro HS
  isplitr [Hg]
  · isplitl [H0]; · iexact H0
    isplitl [H1]; · iexact H1
    isplitl [H2]; · iexact H2
    isplitl [H3]; · iexact H3
    isplitl [H4]; · iexact H4
    isplitl [HS]; · iexact HS
    iexact HR
  iexact Hg

/-- The region invariant before position `n`: before the first point the class's; afterwards the accumulator owned at
    what the point before left, beside the rest. -/
def PhiS1 (c : Dev nD) : (n : ℕ) → n ≤ cfg1.N → sProp 𝕄
  | 0, _ => Pipeline.ΦA spec1 c
  | n + 1, hn => iprop(owns (c : Thread nD τ) scM1 fullShare (scrAt V c n hn) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (scrAt V c n hn) ∗ rest1 c) := rfl

theorem PhiS1_pos (c : Dev nD) (n : ℕ) (h : n ≤ cfg1.N) (hz : n ≠ 0) :
    PhiS1 V c n h = iprop(owns (c : Thread nD τ) scM1 fullShare (scrAt V c (n - 1) (by omega)) ∗ rest1 c) := by
  cases n with
  | zero => exact absurd rfl hz
  | succ n => rfl

/-! ## The pipeline's proof data -/

/-- The proof data of the region on core `c`: the arrays as the region finds them (`V`); after the body at point `t` each
    input's buffer at its block and the output's at `outAt`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- The output window's buffer after the body, in the open. -/
theorem after1_4 (c : Dev nD) (t : Fin cfg1.N) : (dat1 V c).after 4 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The input arrays end as the region found them: no point writes one back. -/
theorem isIn1 : ∀ w : Fin cfg1.W, w ≠ 4 → (cfg1.win w).isOut = false := by decide
theorem kept1 (c : Dev nD) (w : Fin cfg1.W) (hw : w ≠ 4) : (dat1 V c).arrAt w cfg1.N = V c (Pipeline.arrRef spec1 w) :=
  ((dat1 V c).arrAt_in w (isIn1 w hw) _).trans (A_eq1 V c w)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the closed forms say which case the point is in; the
    invariant hands the body the accumulator at what the point before left (at anything at the first point) and takes it
    back at this point's; away from k = 2 the output buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h0 : t.val % 3 = 0
  · have h2 : ¬t.val % 3 = 2 := by omega
    have hc1 : ¬cond1_1 (grid1.coords t) := fun h => h2 ((hcond1_1 t).mp h)
    rw [Dat.leavesExact_idle (dat1 V c) 4 t (idleAt1_4 t hc1) (noFlush1_4 t hc1)]
    rw [scrAt_A V c t h0]; unfold acc1
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := PhiA1_split (F := F) c $$ HΦ
      icases HΦ' with ⟨HS, HR⟩
      iapply (run1_A c (grid1.coords t) _ _ _ _ _ _ _ _ _ _ _ _ ((hcond1_0 t).mpr h0) hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩⟩
      iapply (run1_A c (grid1.coords t) _ _ _ _ _ _ _ _ _ _ _ _ ((hcond1_0 t).mpr h0) hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond1_0 (grid1.coords t) := fun h => h0 ((hcond1_0 t).mp h)
    rw [PhiS1_castSucc V c t, PhiS1_pos V c _ _ hz]
    rw [scrAt_pos V c t h0]; unfold acc1
    by_cases h2 : t.val % 3 = 2
    · have hc1 : cond1_1 (grid1.coords t) := (hcond1_1 t).mpr h2
      rw [show (dat1 V c).leavesExact 4 t = owns (c : Thread nD τ) (st1_4 t) fullShare ((dat1 V c).after 4 t) from by
        unfold Dat.leavesExact; rw [liveAt1_4 t hc1], after1_4]
      unfold outAt; rw [scrAt_pos V c t h0]; unfold acc1
      iintro ⟨⟨HS, HR⟩, Ho, ⟨%d0, H0⟩, ⟨%d1, H1⟩, ⟨%d2, H2⟩, ⟨%d3, H3⟩, ⟨%d4, H4⟩⟩
      iapply (run1_C c (grid1.coords t) _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h2 ((hcond1_1 t).mp h)
      rw [Dat.leavesExact_idle (dat1 V c) 4 t (idleAt1_4 t hc1) (noFlush1_4 t hc1)]
      iintro ⟨⟨HS, HR⟩, Ho, ⟨%d0, H0⟩, ⟨%d1, H1⟩, ⟨%d2, H2⟩, ⟨%d3, H3⟩, ⟨%d4, H4⟩⟩
      iapply (run1_B c (grid1.coords t) _ _ _ _ _ _ _ _ _ _ _ _ hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  unfold rest1
  iintro ⟨HS, HR⟩
  iapply HR
  iexists _; iexact HS

theorem hout1 (c : Dev nD) : (dat1 V c).Φ (Fin.last cfg1.N) ⊢ Pipeline.ΦA spec1 c :=
  Phi_out1 V c _ (by rw [Fin.val_last]; have : cfg1.N = 18 := N_1; omega)

end Cert.KernelIdeal.Hand

end
-- ==== Proof.Region2Runs.lean ====
/- REGION 2 of @main (the fused pass producing the two products and the row sums): the kernel body's run at one grid
   point, in each of its three control cases, stated with explicit contents. The reduction coordinate k = t mod 4 decides
   the case: at k = 0 the three accumulators are reset to zeros and then accumulate; at 0 < k < 3 they accumulate over
   what the point before left; at k = 3 they accumulate and each output block is stored whole from its accumulator.
   One step of the accumulation is `step2`; the zeros are `zero2`. Generic in the float model. -/
import proofs.«141308_j26388279066709_2_alg».proof.Proof.Gen.KernelIdeal.Launch
import proofs.«141308_j26388279066709_2_alg».proof.Proof.Gen.KernelIdeal.Skeleton
import proofs.«141308_j26388279066709_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, in closed form over the grid -/

/-- The first conditional's condition (the reduction coordinate is zero), from the grid coordinates. -/
abbrev cond2_0 (i : grid2.Coords) : Prop := (Scalar.cmpi .ne (Scalar.extui (Scalar.cmpi .eq (BitVec.ofNat 32 (i 1).val) 0#32)) 0#32) = 1#1
/-- The second conditional's condition (the reduction coordinate is the last). -/
abbrev cond2_1 (i : grid2.Coords) : Prop := k2_cond2 i = 1#1

/-- The first holds at the points whose reduction coordinate is 0: decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)
/-- The second holds at the points whose reduction coordinate is 3. -/
theorem hcond2_1 : ∀ t : Fin cfg2.N, cond2_1 (grid2.coords t) ↔ t.val % 4 = 3 :=
  (by decide +kernel : ∀ t : Fin grid2.N, cond2_1 (grid2.coords t) ↔ t.val % 4 = 3)

/-- The zero offsets, as a constant function. -/
theorem hz2r2 : (![0, 0] : Fin 2 → ℕ) = fun _ => 0 := by funext a; fin_cases a <;> rfl

/-- The rows of the third operand a point loads: the rectangle of 1536 rows at the offset the kernel computes. -/
abbrev rS (i : grid2.Coords) : Rect S6144x16 := Rect.unit (s := S6144x16) (k2_off1 i) S1536x16.size (Gen.k2_off1_inb i)

/-- A store through the whole-shape rectangle at zero offsets, made last, leaves its payload: what the buffer reads
    afterwards, whatever it held and whatever was stored before. -/
theorem read_writes_unit_zero {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-! ## One step of the accumulation -/

/-- The three accumulators: the two products' and the row sum's. -/
abbrev Acc2 (F : FTy → Type) [FloatOps F] : Type := Vec F S1024x16 .f32 × Vec F S1024x16 .f32 × Vec F S1024x1 .f32

/-- The zeros a reduction starts from. -/
def zero2 : Acc2 F := (k2_pay1, k2_pay2, k2_pay3)

/-- What one point adds: the two blocks times the rows of the third operand the point selects, and the first block's row sums. -/
def step2 (i : grid2.Coords) (x0 x1 : Vec F S1024x1536 .f32) (x2 : Vec F S6144x16 .f32) (a : Acc2 F) : Acc2 F :=
  (k2_pay5 x0 (View.ld x2 (rS i)) a.1, k2_pay6 x1 (View.ld x2 (rS i)) a.2.1, k2_pay7 x0 a.2.2)

/-! ## The body's run, case by case -/

set_option maxHeartbeats 2000000 in
/-- At a point whose reduction coordinate is neither first nor last: the accumulators go from `a` to `step2 … a`,
    nothing else changes. -/
theorem run2_B (c : Dev nD) (i : grid2.Coords) (arg2 : Memref sig .tc .vmem S1024x1536 .f32) (harg2 : arg2.IsWhole) (arg3 : Memref sig .tc .vmem S1024x1536 .f32) (harg3 : arg3.IsWhole) (arg4 : Memref sig .tc .vmem S6144x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x1 .f32) (harg7 : arg7.IsWhole) (arg8 : Memref sig .tc .vmem S1024x16 .f32) (harg8 : arg8.IsWhole) (arg9 : Memref sig .tc .vmem S1024x16 .f32) (harg9 : arg9.IsWhole) (arg10 : Memref sig .tc .vmem S1024x1 .f32) (harg10 : arg10.IsWhole)
    (hc0 : ¬cond2_0 i) (hc1 : ¬cond2_1 i)
    (x0 x1 : Vec F S1024x1536 .f32) (x2 : Vec F S6144x16 .f32) (a : Acc2 F)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg8 fullShare a.1 ∗ owns (c : Thread nD τ) arg9 fullShare a.2.1 ∗ owns (c : Thread nD τ) arg10 fullShare a.2.2
        ∗ (iprop(owns (c : Thread nD τ) arg2 fullShare x0 ∗ owns (c : Thread nD τ) arg3 fullShare x1 ∗ owns (c : Thread nD τ) arg4 fullShare x2
            ∗ owns (c : Thread nD τ) arg8 fullShare (step2 i x0 x1 x2 a).1
            ∗ owns (c : Thread nD τ) arg9 fullShare (step2 i x0 x1 x2 a).2.1
            ∗ owns (c : Thread nD τ) arg10 fullShare (step2 i x0 x1 x2 a).2.2) -∗ K ⟨⟩))
      ⊢ wp frame (wpE (defs₀ (F := F)) Variants.none c none) E (cc2__as_fused_kernel i arg2 harg2 arg3 harg3 arg4 harg4 arg5 harg5 arg6 harg6 arg7 harg7 arg8 harg8 arg9 harg9 arg10 harg10) K := by
  simp only [cc2__as_fused_kernel_eq_skeleton]; unfold cc2__as_fused_kernel_skel
  simp only [k2_part1_eq_skeleton]
  unfold owns step2
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs0]
    try rfl
  isplitl [HS1]
  · iexists _; isplitr
    swap; · iexact HS1
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs1]
    try rfl
  iexists _; isplitr
  swap; · iexact HS2
  ipureintro
  refine (read_writes_unit_zero _ _ hz2r2 _ _ _).trans ?_
  sl_unfold_words
  simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs2]
  try rfl

set_option maxHeartbeats 2000000 in
/-- At a point whose reduction coordinate is the first: the accumulators, whatever they held, are reset and end at
    `step2 … zero2`; nothing else changes. -/
theorem run2_A (c : Dev nD) (i : grid2.Coords) (arg2 : Memref sig .tc .vmem S1024x1536 .f32) (harg2 : arg2.IsWhole) (arg3 : Memref sig .tc .vmem S1024x1536 .f32) (harg3 : arg3.IsWhole) (arg4 : Memref sig .tc .vmem S6144x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x1 .f32) (harg7 : arg7.IsWhole) (arg8 : Memref sig .tc .vmem S1024x16 .f32) (harg8 : arg8.IsWhole) (arg9 : Memref sig .tc .vmem S1024x16 .f32) (harg9 : arg9.IsWhole) (arg10 : Memref sig .tc .vmem S1024x1 .f32) (harg10 : arg10.IsWhole)
    (hc0 : cond2_0 i) (hc1 : ¬cond2_1 i)
    (x0 x1 : Vec F S1024x1536 .f32) (x2 : Vec F S6144x16 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg8 fullShare (step2 i x0 x1 x2 zero2).1
            ∗ owns (c : Thread nD τ) arg9 fullShare (step2 i x0 x1 x2 zero2).2.1
            ∗ owns (c : Thread nD τ) arg10 fullShare (step2 i x0 x1 x2 zero2).2.2) -∗ K ⟨⟩))
      ⊢ wp frame (wpE (defs₀ (F := F)) Variants.none c none) E (cc2__as_fused_kernel i arg2 harg2 arg3 harg3 arg4 harg4 arg5 harg5 arg6 harg6 arg7 harg7 arg8 harg8 arg9 harg9 arg10 harg10) K := by
  simp only [cc2__as_fused_kernel_eq_skeleton]; unfold cc2__as_fused_kernel_skel
  simp only [k2_part1_eq_skeleton]
  unfold owns step2 zero2
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2]
    try rfl
  isplitl [HS1]
  · iexists _; isplitr
    swap; · iexact HS1
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2]
    try rfl
  iexists _; isplitr
  swap; · iexact HS2
  ipureintro
  refine (read_writes_unit_zero _ _ hz2r2 _ _ _).trans ?_
  sl_unfold_words
  simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2]
  try rfl

set_option maxHeartbeats 2000000 in
/-- At a point whose reduction coordinate is the last: the accumulators go from `a` to `step2 … a`, and each
    output block, whatever it held, is stored whole from its accumulator. -/
theorem run2_C (c : Dev nD) (i : grid2.Coords) (arg2 : Memref sig .tc .vmem S1024x1536 .f32) (harg2 : arg2.IsWhole) (arg3 : Memref sig .tc .vmem S1024x1536 .f32) (harg3 : arg3.IsWhole) (arg4 : Memref sig .tc .vmem S6144x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x1 .f32) (harg7 : arg7.IsWhole) (arg8 : Memref sig .tc .vmem S1024x16 .f32) (harg8 : arg8.IsWhole) (arg9 : Memref sig .tc .vmem S1024x16 .f32) (harg9 : arg9.IsWhole) (arg10 : Memref sig .tc .vmem S1024x1 .f32) (harg10 : arg10.IsWhole)
    (hc0 : ¬cond2_0 i) (hc1 : cond2_1 i)
    (x0 x1 : Vec F S1024x1536 .f32) (x2 : Vec F S6144x16 .f32) (a : Acc2 F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare a.1 ∗ owns (c : Thread nD τ) arg9 fullShare a.2.1 ∗ owns (c : Thread nD τ) arg10 fullShare a.2.2
        ∗ (iprop(owns (c : Thread nD τ) arg2 fullShare x0 ∗ owns (c : Thread nD τ) arg3 fullShare x1 ∗ owns (c : Thread nD τ) arg4 fullShare x2
            ∗ owns (c : Thread nD τ) arg5 fullShare (step2 i x0 x1 x2 a).1
            ∗ owns (c : Thread nD τ) arg6 fullShare (step2 i x0 x1 x2 a).2.1
            ∗ owns (c : Thread nD τ) arg7 fullShare (step2 i x0 x1 x2 a).2.2
            ∗ owns (c : Thread nD τ) arg8 fullShare (step2 i x0 x1 x2 a).1
            ∗ owns (c : Thread nD τ) arg9 fullShare (step2 i x0 x1 x2 a).2.1
            ∗ owns (c : Thread nD τ) arg10 fullShare (step2 i x0 x1 x2 a).2.2) -∗ K ⟨⟩))
      ⊢ wp frame (wpE (defs₀ (F := F)) Variants.none c none) E (cc2__as_fused_kernel i arg2 harg2 arg3 harg3 arg4 harg4 arg5 harg5 arg6 harg6 arg7 harg7 arg8 harg8 arg9 harg9 arg10 harg10) K := by
  simp only [cc2__as_fused_kernel_eq_skeleton]; unfold cc2__as_fused_kernel_skel
  simp only [k2_part1_eq_skeleton]
  unfold owns step2
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs0]
    try rfl
  isplitl [H4]
  · iexists _; isplitr
    swap; · iexact H4
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs1]
    try rfl
  isplitl [H5]
  · iexists _; isplitr
    swap; · iexact H5
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs2]
    try rfl
  isplitl [HS0]
  · iexists _; isplitr
    swap; · iexact HS0
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs0]
    try rfl
  isplitl [HS1]
  · iexists _; isplitr
    swap; · iexact HS1
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs1]
    try rfl
  iexists _; isplitr
  swap; · iexact HS2
  ipureintro
  refine (read_writes_unit_zero _ _ hz2r2 _ _ _).trans ?_
  sl_unfold_words
  simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs2]
  try rfl

end Cert.KernelIdeal.Hand
end
-- ==== Proof.Region2.lean ====
/- REGION 2 of @main (the fused pass producing the two products and the row sums), at the contents `V` the region is
   entered with: the windows' blocks, the accumulation point by point (`accAt`: the three accumulators after the body at
   each point, by recursion on the point through `step2`, restarted from zeros wherever the reduction coordinate is 0),
   the region invariant (before the first point the class's; afterwards the three scratch buffers owned at `accAt` of the
   point before), the proof data `dat2`, its body obligation and the two entailments with the class invariant.
   Generic in the float model. -/
import proofs.«141308_j26388279066709_2_alg».proof.Proof.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The staging and scratch memrefs -/

abbrev ms2_0 (t : Fin cfg2.N) : Memref sig .tc .vmem S1024x1536 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1536 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S6144x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x16 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1 .f32 := win2_5.stage (cfg2.slots t 5)
abbrev hs2_5 (t : Fin cfg2.N) : (ms2_5 t).IsWhole := hstage2_5 ((cfg2.slots t 5).cast nbuf2_5)
abbrev scM2_0 : Memref sig .tc .vmem S1024x16 .f32 := Memref.whole cc2_scratch0
abbrev scM2_1 : Memref sig .tc .vmem S1024x16 .f32 := Memref.whole cc2_scratch1
abbrev scM2_2 : Memref sig .tc .vmem S1024x1 .f32 := Memref.whole cc2_scratch2

/-! ## The class invariant, with the three scratch buffers named -/

theorem sep_assoc_eq (X Y Z : sProp 𝕄) : iprop((X ∗ Y) ∗ Z) = iprop(X ∗ Y ∗ Z) :=
  BI.Entails.antisymm
    (show iprop((X ∗ Y) ∗ Z) ⊢ iprop(X ∗ Y ∗ Z) from by
      iintro ⟨⟨H1, H2⟩, H3⟩; isplitl [H1]; · iexact H1
      isplitl [H2]; · iexact H2
      iexact H3)
    (show iprop(X ∗ Y ∗ Z) ⊢ iprop((X ∗ Y) ∗ Z) from by
      iintro ⟨H1, H2, H3⟩; isplitr [H3]
      · isplitl [H1]; · iexact H1
        iexact H2
      iexact H3)

/-- The core's scoped buffers that are neither staging buffers nor scratch of this call, each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

/-- The class invariant as: the other scoped buffers, the three scratch buffers each owned at some contents, and the
    generator register at some state. -/
theorem PhiA2_eq (c : Dev nD) :
    (Pipeline.ΦA spec2 c : sProp 𝕄)
      = iprop(iprop(rest2 (F := F) c ∗ (∃ d, owns (c : Thread nD τ) scM2_0 fullShare d) ∗ (∃ d, owns (c : Thread nD τ) scM2_1 fullShare d) ∗ (∃ d, owns (c : Thread nD τ) scM2_2 fullShare d)) ∗ (∃ r, prngReg c r)) := by
  unfold Pipeline.ΦA rest2; rw [scopedRest2_eq]; simp only [scM2_0, scM2_1, scM2_2, owns_whole, sep_assoc_eq]; rfl

/-! ## The accumulation, point by point -/

/-- THE ACCUMULATION. What the three scratch accumulators hold after the body at position `n`: one step (`step2`) at the
    point's blocks over zeros where the reduction coordinate is 0, over what the point before left elsewhere. -/
def accAt (c : Dev nD) : (n : ℕ) → n < cfg2.N → Acc2 F
  | 0, hn => step2 (grid2.coords ⟨0, hn⟩) (iblk2 V c 0 ⟨0, hn⟩) (iblk2 V c 1 ⟨0, hn⟩) (iblk2 V c 2 ⟨0, hn⟩) zero2
  | n + 1, hn => step2 (grid2.coords ⟨n + 1, hn⟩) (iblk2 V c 0 ⟨n + 1, hn⟩) (iblk2 V c 1 ⟨n + 1, hn⟩) (iblk2 V c 2 ⟨n + 1, hn⟩)
      (if (n + 1) % 4 = 0 then zero2 else accAt c n (Nat.lt_of_succ_lt hn))

/-- At a point whose reduction coordinate is 0: a step over zeros. -/
theorem accAt_reset (c : Dev nD) (t : Fin cfg2.N) (h : t.val % 4 = 0) :
    accAt V c t.val t.isLt = step2 (grid2.coords t) (iblk2 V c 0 t) (iblk2 V c 1 t) (iblk2 V c 2 t) zero2 := by
  obtain ⟨n, hn⟩ := t
  cases n with
  | zero => rfl
  | succ n =>
    show step2 _ _ _ _ (if (n + 1) % 4 = 0 then zero2 else accAt V c n (Nat.lt_of_succ_lt hn)) = _
    rw [if_pos h]

/-- Elsewhere: a step over what the point before left. -/
theorem accAt_acc (c : Dev nD) (t : Fin cfg2.N) (h : ¬t.val % 4 = 0) :
    accAt V c t.val t.isLt = step2 (grid2.coords t) (iblk2 V c 0 t) (iblk2 V c 1 t) (iblk2 V c 2 t)
      (accAt V c (t.val - 1) (Nat.lt_of_le_of_lt (Nat.sub_le _ _) t.isLt)) := by
  obtain ⟨n, hn⟩ := t
  cases n with
  | zero => exact absurd (Nat.zero_mod _) h
  | succ n =>
    show step2 _ _ _ _ (if (n + 1) % 4 = 0 then zero2 else accAt V c n (Nat.lt_of_succ_lt hn)) = _
    rw [if_neg h]; rfl

/-! ## The region invariant -/

/-- Before position `n`: before the first point the class's invariant; afterwards the three scratch buffers owned at
    what the point before left in them, beside the other scoped buffers and the generator register. -/
def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare (accAt V c n hn).1 ∗ owns (c : Thread nD τ) scM2_1 fullShare (accAt V c n hn).2.1 ∗ owns (c : Thread nD τ) scM2_2 fullShare (accAt V c n hn).2.2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(rest2 (F := F) c ∗ owns (c : Thread nD τ) scM2_0 fullShare (accAt V c n hn).1 ∗ owns (c : Thread nD τ) scM2_1 fullShare (accAt V c n hn).2.1 ∗ owns (c : Thread nD τ) scM2_2 fullShare (accAt V c n hn).2.2) ∗ (∃ r, prngReg c r)) := rfl

theorem PhiS2_pos (c : Dev nD) (n : ℕ) (h : n ≤ cfg2.N) (hz : n ≠ 0) :
    PhiS2 V c n h = iprop(iprop(rest2 (F := F) c ∗ owns (c : Thread nD τ) scM2_0 fullShare (accAt V c (n - 1) (by omega)).1 ∗ owns (c : Thread nD τ) scM2_1 fullShare (accAt V c (n - 1) (by omega)).2.1 ∗ owns (c : Thread nD τ) scM2_2 fullShare (accAt V c (n - 1) (by omega)).2.2) ∗ (∃ r, prngReg c r)) := by
  cases n with
  | zero => exact absurd rfl hz
  | succ n => rfl

/-! ## The proof data -/

/-- The proof data of the region on core `c`: the arrays as the region finds them; after the body at point `t` each
    input's buffer at its block and each output's at its accumulator (`accAt`; consulted only where the block is written
    back, at the points whose reduction coordinate is 3); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (accAt V c t.val t.isLt).1
    | ⟨4, _⟩ => (accAt V c t.val t.isLt).2.1
    | ⟨5, _⟩ => (accAt V c t.val t.isLt).2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (accAt V c t.val t.isLt).1 := by dsimp only [dat2]
theorem after2_4 (c : Dev nD) (t : Fin cfg2.N) : (dat2 V c).after 4 t = (accAt V c t.val t.isLt).2.1 := by dsimp only [dat2]
theorem after2_5 (c : Dev nD) (t : Fin cfg2.N) : (dat2 V c).after 5 t = (accAt V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- The inputs' arrays are as the region found them, throughout. -/
theorem kept2 (c : Dev nD) (w : Fin cfg2.W) (hw : w.val < 3) : (dat2 V c).arrAt w cfg2.N = V c (Pipeline.arrRef spec2 w) :=
  match w, hw with
  | ⟨0, _⟩, _ => ((dat2 V c).arrAt_in 0 rfl _).trans (A_eq2 V c 0)
  | ⟨1, _⟩, _ => ((dat2 V c).arrAt_in 1 rfl _).trans (A_eq2 V c 1)
  | ⟨2, _⟩, _ => ((dat2 V c).arrAt_in 2 rfl _).trans (A_eq2 V c 2)
  | ⟨n + 3, _⟩, h => absurd h (by simp)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in; the
    invariant hands the body the three scratch buffers at what the point before left (at anything at the first point) and
    takes them back at this point's accumulators; an output block is left untouched except where the reduction
    coordinate is 3, where it is stored from its accumulator; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 24 := lt_of_lt_of_eq t.isLt (show cfg2.N = 24 from N_2)
  by_cases h0 : t.val % 4 = 0
  · have h3 : ¬t.val % 4 = 3 := by omega
    have hc0 : cond2_0 (grid2.coords t) := (hcond2_0 t).mpr h0
    have hc1 : ¬cond2_1 (grid2.coords t) := fun h => h3 ((hcond2_1 t).mp h)
    rw [Dat.leavesExact_idle (dat2 V c) 3 t (idleAt2_3 t hc1) (noFlush2_3 t hc1), Dat.leavesExact_idle (dat2 V c) 4 t (idleAt2_4 t hc1) (noFlush2_4 t hc1), Dat.leavesExact_idle (dat2 V c) 5 t (idleAt2_5 t hc1) (noFlush2_5 t hc1)]
    rw [accAt_reset V c t h0]
    by_cases hz : t.val = 0
    · rw [PhiS2_castSucc V c t, PhiS2_zero V c _ _ hz, PhiA2_eq]
      iintro ⟨⟨⟨HR, HS0, HS1, HS2⟩, Hg⟩, Ho, ⟨%d0, H0⟩, ⟨%d1, H1⟩, ⟨%d2, H2⟩, H3, H4, H5⟩
      iapply (run2_A c (grid2.coords t) _ _ _ _ _ _ _ _ _ _ _ _ _ _ _ _ _ _ hc0 hc1 (iblk2 V c 0 t) (iblk2 V c 1 t) (iblk2 V c 2 t) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS2_castSucc V c t, PhiS2_pos V c _ _ hz]
      iintro ⟨⟨⟨HR, HS0, HS1, HS2⟩, Hg⟩, Ho, ⟨%d0, H0⟩, ⟨%d1, H1⟩, ⟨%d2, H2⟩, H3, H4, H5⟩
      iapply (run2_A c (grid2.coords t) _ _ _ _ _ _ _ _ _ _ _ _ _ _ _ _ _ _ hc0 hc1 (iblk2 V c 0 t) (iblk2 V c 1 t) (iblk2 V c 2 t) Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
  · have hc0 : ¬cond2_0 (grid2.coords t) := fun h => h0 ((hcond2_0 t).mp h)
    have hz : t.val ≠ 0 := fun e => h0 (by rw [e])
    rw [accAt_acc V c t h0]
    rw [PhiS2_castSucc V c t, PhiS2_pos V c _ _ hz]
    by_cases h3 : t.val % 4 = 3
    · have hc1 : cond2_1 (grid2.coords t) := (hcond2_1 t).mpr h3
      rw [show (dat2 V c).leavesExact 3 t = owns (c : Thread nD τ) (ms2_3 t) fullShare ((dat2 V c).after 3 t) from by
        unfold Dat.leavesExact; rw [liveAt2_3 t hc1], after2_3]
      rw [show (dat2 V c).leavesExact 4 t = owns (c : Thread nD τ) (ms2_4 t) fullShare ((dat2 V c).after 4 t) from by
        unfold Dat.leavesExact; rw [liveAt2_4 t hc1], after2_4]
      rw [show (dat2 V c).leavesExact 5 t = owns (c : Thread nD τ) (ms2_5 t) fullShare ((dat2 V c).after 5 t) from by
        unfold Dat.leavesExact; rw [liveAt2_5 t hc1], after2_5]
      rw [accAt_acc V c t h0]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply (run2_C c (grid2.coords t) _ _ _ _ _ _ _ _ _ _ _ _ _ _ _ _ _ _ hc0 hc1 (iblk2 V c 0 t) (iblk2 V c 1 t) (iblk2 V c 2 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h3 ((hcond2_1 t).mp h)
      rw [Dat.leavesExact_idle (dat2 V c) 3 t (idleAt2_3 t hc1) (noFlush2_3 t hc1), Dat.leavesExact_idle (dat2 V c) 4 t (idleAt2_4 t hc1) (noFlush2_4 t hc1), Dat.leavesExact_idle (dat2 V c) 5 t (idleAt2_5 t hc1) (noFlush2_5 t hc1)]
      iintro ⟨⟨⟨HR, HS0, HS1, HS2⟩, Hg⟩, Ho, ⟨%d0, H0⟩, ⟨%d1, H1⟩, ⟨%d2, H2⟩, H3, H4, H5⟩
      iapply (run2_B c (grid2.coords t) _ _ _ _ _ _ _ _ _ _ _ _ _ _ _ _ _ _ hc0 hc1 (iblk2 V c 0 t) (iblk2 V c 1 t) (iblk2 V c 2 t) (accAt V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- The same after the last point. -/
theorem hout2 (c : Dev nD) : (dat2 V c).Φ (Fin.last cfg2.N) ⊢ Pipeline.ΦA spec2 c :=
  Phi_out2 V c _ (by rw [Fin.val_last]; have : cfg2.N = 24 := N_2; omega)

end Cert.KernelIdeal.Hand
end
-- ==== Proof.Run.lean ====
/- The run of the main function as a whole, at any float model. The main function is fourteen items, eleven stretches of
   host operations and the three kernel regions, taken as segments one after another. The buffer contents at each
   boundary between two items are a fold from the launch memory: a host stretch applies its operations in order; a
   region leaves its windows' arrays at what its write-backs leave and every other buffer as it found it. Each region
   is entered at its boundary's contents, with its pipeline's proof data stated there; the run ends with every
   unscoped buffer of every core at the last boundary's contents. -/
import proofs.«141308_j26388279066709_2_alg».proof.Proof.Region0
import proofs.«141308_j26388279066709_2_alg».proof.Proof.Region1
import proofs.«141308_j26388279066709_2_alg».proof.Proof.Region2
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items of the main function

The main function is fourteen items: eleven stretches of host operations and the three kernel regions. `WJ c` is what
core `c`'s buffers hold after the first `J` items: a host stretch applies its operations in order; a region leaves its
windows' arrays at what its write-backs leave and every other buffer as it found it. -/

/-- Core `c`'s buffers at launch. -/
abbrev W0 : Dev nD → Valuation τ sig (Elt F) := fun c b => (s₀ m ρ).mem ((c : Dev nD), b)
/-- After item 0, the host stretch `main_part0_ops0`. -/
abbrev W1 : Dev nD → Valuation τ sig (Elt F) := fun c => StableHlo.after main_part0_ops0 (W0 m ρ c)
/-- The contents region 0 is entered from, read at the TensorCore's references. -/
abbrev V1 : (c : Dev nD) → (b : Ref sig .tc) → Buf (Elt F) ((c : Thread nD τ).loc b) := fun c b => W1 m ρ c b
/-- After item 1, region 0: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After item 2, the host stretch `main_part0_ops1`. -/
abbrev W3 : Dev nD → Valuation τ sig (Elt F) := fun c => StableHlo.after main_part0_ops1 (W2 m ρ c)
/-- After item 3, the host stretch `main_part0_ops2`. -/
abbrev W4 : Dev nD → Valuation τ sig (Elt F) := fun c => StableHlo.after main_part0_ops2 (W3 m ρ c)
/-- After item 4, the host stretch `main_part0_ops3`. -/
abbrev W5 : Dev nD → Valuation τ sig (Elt F) := fun c => StableHlo.after main_part0_ops3 (W4 m ρ c)
/-- The contents region 1 is entered from, read at the TensorCore's references. -/
abbrev V5 : (c : Dev nD) → (b : Ref sig .tc) → Buf (Elt F) ((c : Thread nD τ).loc b) := fun c b => W5 m ρ c b
/-- After item 5, region 1: its windows' arrays at what the write-backs leave, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After item 6, the host stretch `main_part0_ops4`. -/
abbrev W7 : Dev nD → Valuation τ sig (Elt F) := fun c => StableHlo.after main_part0_ops4 (W6 m ρ c)
/-- After item 7, the host stretch `main_part0_ops5`. -/
abbrev W8 : Dev nD → Valuation τ sig (Elt F) := fun c => StableHlo.after main_part0_ops5 (W7 m ρ c)
/-- After item 8, the host stretch `main_part0_ops6`. -/
abbrev W9 : Dev nD → Valuation τ sig (Elt F) := fun c => StableHlo.after main_part0_ops6 (W8 m ρ c)
/-- The contents region 2 is entered from, read at the TensorCore's references. -/
abbrev V9 : (c : Dev nD) → (b : Ref sig .tc) → Buf (Elt F) ((c : Thread nD τ).loc b) := fun c b => W9 m ρ c b
/-- After item 9, region 2: its windows' arrays at what the write-backs leave, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- After item 10, the host stretch `main_part0_ops7`. -/
abbrev W11 : Dev nD → Valuation τ sig (Elt F) := fun c => StableHlo.after main_part0_ops7 (W10 m ρ c)
/-- After item 11, the host stretch `main_part1_ops0`. -/
abbrev W12 : Dev nD → Valuation τ sig (Elt F) := fun c => StableHlo.after main_part1_ops0 (W11 m ρ c)
/-- After item 12, the host stretch `main_part1_ops1`. -/
abbrev W13 : Dev nD → Valuation τ sig (Elt F) := fun c => StableHlo.after main_part1_ops1 (W12 m ρ c)
/-- After item 13, the host stretch `main_part1_ops2`. -/
abbrev W14 : Dev nD → Valuation τ sig (Elt F) := fun c => StableHlo.after main_part1_ops2 (W13 m ρ c)

/-! # The proof data of the three pipelines, each at its region's entry contents -/

/-- No pipeline has a prefetched table. -/
abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V9 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part0_ops4_fresh : (main_part0_ops4 : List (HloOp τ sig (Elt F))).Forall fun op => op.fresh = ∅ := by
  simp only [List.Forall]; repeat' constructor
theorem main_part0_ops5_fresh : (main_part0_ops5 : List (HloOp τ sig (Elt F))).Forall fun op => op.fresh = ∅ := by
  simp only [List.Forall]; repeat' constructor
theorem main_part0_ops6_fresh : (main_part0_ops6 : List (HloOp τ sig (Elt F))).Forall fun op => op.fresh = ∅ := by
  simp only [List.Forall]; repeat' constructor
theorem main_part0_ops7_fresh : (main_part0_ops7 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W14 m ρ c) ∗ ∃ r, prngReg c r)

/-! # The regions as segments -/

/-- The generator register, anything, and the scoped buffers no window stages make the class invariant of region 0, -/
theorem intoΦA0 (c : Dev nD) (B : sProp 𝕄) :
    iprop((∃ r, prngReg c r) ∗ B ∗ Pipeline.scopedRest spec0 c) ⊢ (Pipeline.ΦA spec0 c : sProp 𝕄) := by
  unfold Pipeline.ΦA
  iintro ⟨Hp, -, Hr⟩
  isplitl [Hr]; · iexact Hr
  iexact Hp
/-- and the class invariant gives them back. -/
theorem outofΦA0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

/-- The generator register, anything, and the scoped buffers no window stages make the class invariant of region 1, -/
theorem intoΦA1 (c : Dev nD) (B : sProp 𝕄) :
    iprop((∃ r, prngReg c r) ∗ B ∗ Pipeline.scopedRest spec1 c) ⊢ (Pipeline.ΦA spec1 c : sProp 𝕄) := by
  unfold Pipeline.ΦA
  iintro ⟨Hp, -, Hr⟩
  isplitl [Hr]; · iexact Hr
  iexact Hp
/-- and the class invariant gives them back. -/
theorem outofΦA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- The generator register, anything, and the scoped buffers no window stages make the class invariant of region 2, -/
theorem intoΦA2 (c : Dev nD) (B : sProp 𝕄) :
    iprop((∃ r, prngReg c r) ∗ B ∗ Pipeline.scopedRest spec2 c) ⊢ (Pipeline.ΦA spec2 c : sProp 𝕄) := by
  unfold Pipeline.ΦA
  iintro ⟨Hp, -, Hr⟩
  isplitl [Hr]; · iexact Hr
  iexact Hp
/-- and the class invariant gives them back. -/
theorem outofΦA2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

/-- The last item's thread state is the last thread state beside the core owing nothing. -/
theorem last_chain (c : Dev nD) :
    iprop(StableHlo.held (c : Thread nD τ) (Pipeline.ucRefs τ sig) (W14 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- Region 0: entered from every unscoped buffer at `W1`, left at `W2`. Its arrays are split out of the unscoped
    buffers and put back at the exit contents; the generator register and the scoped buffers enter the kernel's invariant
    and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (intoΦA0 c _).trans (hin0 (V1 m ρ) c)
  hout c := by
    rw [Pipeline.ownSems0_none]
    exact (hout0 (V1 m ρ) c).trans (outofΦA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W5`, left at `W6`. Its arrays are split out of the unscoped
    buffers and put back at the exit contents; the generator register and the scoped buffers enter the kernel's invariant
    and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (intoΦA1 c _).trans (hin1 (V5 m ρ) c)
  hout c := by
    rw [Pipeline.ownSems0_none]
    exact (hout1 (V5 m ρ) c).trans (outofΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W9`, left at `W10`. Its arrays are split out of the unscoped
    buffers and put back at the exit contents; the generator register and the scoped buffers enter the kernel's invariant
    and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (intoΦA2 c _).trans (hin2 (V9 m ρ) c)
  hout c := by
    rw [Pipeline.ownSems0_none]
    exact (hout2 (V9 m ρ) c).trans (outofΦA2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The main function as segments, and the run -/

abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .host (hseg main_part0_ops2 main_part0_ops2_sub main_part0_ops2_fresh (W3 m ρ)),
    .host (hseg main_part0_ops3 main_part0_ops3_sub main_part0_ops3_fresh (W4 m ρ)),
    .region (reg1 m ρ),
    .host (hseg main_part0_ops4 main_part0_ops4_sub main_part0_ops4_fresh (W6 m ρ)),
    .host (hseg main_part0_ops5 main_part0_ops5_sub main_part0_ops5_fresh (W7 m ρ)),
    .host (hseg main_part0_ops6 main_part0_ops6_sub main_part0_ops6_fresh (W8 m ρ)),
    .region (reg2 m ρ),
    .host (hseg main_part0_ops7 main_part0_ops7_sub main_part0_ops7_fresh (W10 m ρ)),
    .host (hseg main_part1_ops0 main_part1_ops0_sub main_part1_ops0_fresh (W11 m ρ)),
    .host (hseg main_part1_ops1 main_part1_ops1_sub main_part1_ops1_fresh (W12 m ρ)),
    .host (hseg main_part1_ops2 main_part1_ops2_sub main_part1_ops2_fresh (W13 m ρ)) ]

theorem main_run (c : Dev nD) : main (F := F) c = Pipeline.Seg.run (segs m ρ) := (main_chain_windows c).trans (by chain_rfl)

set_option backward.isDefEq.respectTransparency.types false in
/-- THE RUN: from any memory with zero counters every weakly fair execution of the main function on the TensorCores
    terminates, nothing faulting, and in every final state each unscoped buffer of each core holds what the fold
    through the fourteen items computes (`W14`). -/
theorem run : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.KernelIdeal.Hand

end
-- ==== Proof.RunFrame.lean ====
/- What the run leaves, read at the buffers the claim names. No host stretch and no region writes an argument array
   (a stretch writes only its operations' results, a region only its output windows' arrays), so each of the nine
   argument arrays ends as launched; and each result buffer ends at what the fold through the fourteen items
   computes. -/
import proofs.«141308_j26388279066709_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # No item writes an argument

Each host stretch writes only the references listed here (its operations' results); a region changes only its output
windows' arrays. So the fold `W14` at an argument's buffer walks back to the launch memory. -/

abbrev main_part0_ops0_W : List (Ref sig .tc) := [main_v0]
theorem main_part0_ops0_writes : (main_part0_ops0 : List (HloOp τ sig (Elt F))).Forall fun op => op.writes ⊆ ((main_part0_ops0_W).map (Proc.devRef (τ := τ) .tc)).toFinset := by
  simp only [List.Forall]
  repeat' apply And.intro
  all_goals exact Finset.singleton_subset_iff.mpr (List.mem_toFinset.mpr (List.mem_map_of_mem (by decide)))

abbrev main_part0_ops1_W : List (Ref sig .tc) := [main_v2, main_cst, main_v3, main_v4, main_cst_0, main_v5, main_v6, main_v7, main_cst_1]
theorem main_part0_ops1_writes : (main_part0_ops1 : List (HloOp τ sig (Elt F))).Forall fun op => op.writes ⊆ ((main_part0_ops1_W).map (Proc.devRef (τ := τ) .tc)).toFinset := by
  simp only [List.Forall]
  repeat' apply And.intro
  all_goals exact Finset.singleton_subset_iff.mpr (List.mem_toFinset.mpr (List.mem_map_of_mem (by decide)))

abbrev main_part0_ops2_W : List (Ref sig .tc) := [main_call0_v0, main_v8]
theorem main_part0_ops2_writes : (main_part0_ops2 : List (HloOp τ sig (Elt F))).Forall fun op => op.writes ⊆ ((main_part0_ops2_W).map (Proc.devRef (τ := τ) .tc)).toFinset := by
  simp only [List.Forall]
  repeat' apply And.intro
  all_goals exact Finset.singleton_subset_iff.mpr (List.mem_toFinset.mpr (List.mem_map_of_mem (by decide)))

abbrev main_part0_ops3_W : List (Ref sig .tc) := [main_v9, main_v10, main_v11, main_v12, main_v13]
theorem main_part0_ops3_writes : (main_part0_ops3 : List (HloOp τ sig (Elt F))).Forall fun op => op.writes ⊆ ((main_part0_ops3_W).map (Proc.devRef (τ := τ) .tc)).toFinset := by
  simp only [List.Forall]
  repeat' apply And.intro
  all_goals exact Finset.singleton_subset_iff.mpr (List.mem_toFinset.mpr (List.mem_map_of_mem (by decide)))

abbrev main_part0_ops4_W : List (Ref sig .tc) := [main_v15, main_v16, main_v17, main_v18]
theorem main_part0_ops4_writes : (main_part0_ops4 : List (HloOp τ sig (Elt F))).Forall fun op => op.writes ⊆ ((main_part0_ops4_W).map (Proc.devRef (τ := τ) .tc)).toFinset := by
  simp only [List.Forall]
  repeat' apply And.intro
  all_goals exact Finset.singleton_subset_iff.mpr (List.mem_toFinset.mpr (List.mem_map_of_mem (by decide)))

abbrev main_part0_ops5_W : List (Ref sig .tc) := [main_call1_cst, main_call1_v0, main_v19]
theorem main_part0_ops5_writes : (main_part0_ops5 : List (HloOp τ sig (Elt F))).Forall fun op => op.writes ⊆ ((main_part0_ops5_W).map (Proc.devRef (τ := τ) .tc)).toFinset := by
  simp only [List.Forall]
  repeat' apply And.intro
  all_goals exact Finset.singleton_subset_iff.mpr (List.mem_toFinset.mpr (List.mem_map_of_mem (by decide)))

abbrev main_part0_ops6_W : List (Ref sig .tc) := [main_v20, main_v21, main_v22, main_v23, main_cst_2, main_v24, main_cst_3, main_v25, main_v26, main_v27, main_v28, main_v29, main_v30, main_cst_4, main_v31, main_v32, main_v33, main_v34]
theorem main_part0_ops6_writes : (main_part0_ops6 : List (HloOp τ sig (Elt F))).Forall fun op => op.writes ⊆ ((main_part0_ops6_W).map (Proc.devRef (τ := τ) .tc)).toFinset := by
  simp only [List.Forall]
  repeat' apply And.intro
  all_goals exact Finset.singleton_subset_iff.mpr (List.mem_toFinset.mpr (List.mem_map_of_mem (by decide)))

abbrev main_part0_ops7_W : List (Ref sig .tc) := [main_v36, main_v37, main_v38, main_v39, main_v40, main_v41, main_c, main_v42, main_v43, main_c_5, main_v44, main_v45, main_v46, main_c_6, main_v47, main_v48, main_c_7, main_v49]
theorem main_part0_ops7_writes : (main_part0_ops7 : List (HloOp τ sig (Elt F))).Forall fun op => op.writes ⊆ ((main_part0_ops7_W).map (Proc.devRef (τ := τ) .tc)).toFinset := by
  simp only [List.Forall]
  repeat' apply And.intro
  all_goals exact Finset.singleton_subset_iff.mpr (List.mem_toFinset.mpr (List.mem_map_of_mem (by decide)))

abbrev main_part1_ops0_W : List (Ref sig .tc) := [main_v50, main_v51, main_v52, main_v53, main_v54, main_cst_8, main_v55, main_v56, main_v57, main_v58, main_c_9, main_v59, main_v60, main_c_10, main_v61, main_v62, main_v63, main_c_11, main_v64, main_v65, main_c_12, main_v66, main_v67, main_v68, main_v69, main_v70, main_v71, main_cst_13, main_v72, main_v73, main_v74, main_cst_14, main_v75, main_v76, main_cst_15, main_v77, main_v78, main_cst_16, main_v79, main_cst_17, main_v80, main_v81, main_v82, main_v83, main_v84, main_v85, main_v86, main_c_18, main_v87, main_v88, main_v89, main_v90, main_v91]
theorem main_part1_ops0_writes : (main_part1_ops0 : List (HloOp τ sig (Elt F))).Forall fun op => op.writes ⊆ ((main_part1_ops0_W).map (Proc.devRef (τ := τ) .tc)).toFinset := by
  simp only [List.Forall]
  repeat' apply And.intro
  all_goals exact Finset.singleton_subset_iff.mpr (List.mem_toFinset.mpr (List.mem_map_of_mem (by decide)))

abbrev main_part1_ops1_W : List (Ref sig .tc) := [main_call2_v0, main_call2_cst, main_call2_v1, main_v92]
theorem main_part1_ops1_writes : (main_part1_ops1 : List (HloOp τ sig (Elt F))).Forall fun op => op.writes ⊆ ((main_part1_ops1_W).map (Proc.devRef (τ := τ) .tc)).toFinset := by
  simp only [List.Forall]
  repeat' apply And.intro
  all_goals exact Finset.singleton_subset_iff.mpr (List.mem_toFinset.mpr (List.mem_map_of_mem (by decide)))

abbrev main_part1_ops2_W : List (Ref sig .tc) := [main_cst_19, main_v93]
theorem main_part1_ops2_writes : (main_part1_ops2 : List (HloOp τ sig (Elt F))).Forall fun op => op.writes ⊆ ((main_part1_ops2_W).map (Proc.devRef (τ := τ) .tc)).toFinset := by
  simp only [List.Forall]
  repeat' apply And.intro
  all_goals exact Finset.singleton_subset_iff.mpr (List.mem_toFinset.mpr (List.mem_map_of_mem (by decide)))
theorem W1_of (c : Dev nD) (r : Ref sig .tc) (h : r ∉ main_part0_ops0_W) : W1 m ρ c (Proc.devRef .tc r) = W0 m ρ c (Proc.devRef .tc r) :=
  StableHlo.after_of_writes_sub main_part0_ops0 _ main_part0_ops0_writes h
theorem W3_of (c : Dev nD) (r : Ref sig .tc) (h : r ∉ main_part0_ops1_W) : W3 m ρ c (Proc.devRef .tc r) = W2 m ρ c (Proc.devRef .tc r) :=
  StableHlo.after_of_writes_sub main_part0_ops1 _ main_part0_ops1_writes h
theorem W4_of (c : Dev nD) (r : Ref sig .tc) (h : r ∉ main_part0_ops2_W) : W4 m ρ c (Proc.devRef .tc r) = W3 m ρ c (Proc.devRef .tc r) :=
  StableHlo.after_of_writes_sub main_part0_ops2 _ main_part0_ops2_writes h
theorem W5_of (c : Dev nD) (r : Ref sig .tc) (h : r ∉ main_part0_ops3_W) : W5 m ρ c (Proc.devRef .tc r) = W4 m ρ c (Proc.devRef .tc r) :=
  StableHlo.after_of_writes_sub main_part0_ops3 _ main_part0_ops3_writes h
theorem W7_of (c : Dev nD) (r : Ref sig .tc) (h : r ∉ main_part0_ops4_W) : W7 m ρ c (Proc.devRef .tc r) = W6 m ρ c (Proc.devRef .tc r) :=
  StableHlo.after_of_writes_sub main_part0_ops4 _ main_part0_ops4_writes h
theorem W8_of (c : Dev nD) (r : Ref sig .tc) (h : r ∉ main_part0_ops5_W) : W8 m ρ c (Proc.devRef .tc r) = W7 m ρ c (Proc.devRef .tc r) :=
  StableHlo.after_of_writes_sub main_part0_ops5 _ main_part0_ops5_writes h
theorem W9_of (c : Dev nD) (r : Ref sig .tc) (h : r ∉ main_part0_ops6_W) : W9 m ρ c (Proc.devRef .tc r) = W8 m ρ c (Proc.devRef .tc r) :=
  StableHlo.after_of_writes_sub main_part0_ops6 _ main_part0_ops6_writes h
theorem W11_of (c : Dev nD) (r : Ref sig .tc) (h : r ∉ main_part0_ops7_W) : W11 m ρ c (Proc.devRef .tc r) = W10 m ρ c (Proc.devRef .tc r) :=
  StableHlo.after_of_writes_sub main_part0_ops7 _ main_part0_ops7_writes h
theorem W12_of (c : Dev nD) (r : Ref sig .tc) (h : r ∉ main_part1_ops0_W) : W12 m ρ c (Proc.devRef .tc r) = W11 m ρ c (Proc.devRef .tc r) :=
  StableHlo.after_of_writes_sub main_part1_ops0 _ main_part1_ops0_writes h
theorem W13_of (c : Dev nD) (r : Ref sig .tc) (h : r ∉ main_part1_ops1_W) : W13 m ρ c (Proc.devRef .tc r) = W12 m ρ c (Proc.devRef .tc r) :=
  StableHlo.after_of_writes_sub main_part1_ops1 _ main_part1_ops1_writes h
theorem W14_of (c : Dev nD) (r : Ref sig .tc) (h : r ∉ main_part1_ops2_W) : W14 m ρ c (Proc.devRef .tc r) = W13 m ρ c (Proc.devRef .tc r) :=
  StableHlo.after_of_writes_sub main_part1_ops2 _ main_part1_ops2_writes h

/-- `main_arg0` ends as launched. -/
theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := W14_of m ρ c main_arg0 (by decide)
    _ = W12 m ρ c (Proc.devRef .tc main_arg0) := W13_of m ρ c main_arg0 (by decide)
    _ = W11 m ρ c (Proc.devRef .tc main_arg0) := W12_of m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- `main_arg1` ends as launched. -/
theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := W14_of m ρ c main_arg1 (by decide)
    _ = W12 m ρ c (Proc.devRef .tc main_arg1) := W13_of m ρ c main_arg1 (by decide)
    _ = W11 m ρ c (Proc.devRef .tc main_arg1) := W12_of m ρ c main_arg1 (by decide)
    _ = W10 m ρ c (Proc.devRef .tc main_arg1) := W11_of m ρ c main_arg1 (by decide)
    _ = W9 m ρ c (Proc.devRef .tc main_arg1) := (W10_arr m ρ c 1).trans (((dat2 (V9 m ρ) c).arrAt_in 1 rfl _).trans (A_eq2 (V9 m ρ) c 1))
    _ = W8 m ρ c (Proc.devRef .tc main_arg1) := W9_of m ρ c main_arg1 (by decide)
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- `main_arg2` ends as launched. -/
theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of m ρ c main_arg2 (by decide)
    _ = W12 m ρ c (Proc.devRef .tc main_arg2) := W13_of m ρ c main_arg2 (by decide)
    _ = W11 m ρ c (Proc.devRef .tc main_arg2) := W12_of m ρ c main_arg2 (by decide)
    _ = W10 m ρ c (Proc.devRef .tc main_arg2) := W11_of m ρ c main_arg2 (by decide)
    _ = W9 m ρ c (Proc.devRef .tc main_arg2) := (W10_arr m ρ c 0).trans (((dat2 (V9 m ρ) c).arrAt_in 0 rfl _).trans (A_eq2 (V9 m ρ) c 0))
    _ = W8 m ρ c (Proc.devRef .tc main_arg2) := W9_of m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := (W6_arr m ρ c 0).trans (((dat1 (V5 m ρ) c).arrAt_in 0 rfl _).trans (A_eq1 (V5 m ρ) c 0))
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := W1_of m ρ c main_arg2 (by decide)
    _ = m ((c : Thread nD τ).loc main_arg2) := rfl

/-- `main_arg3` ends as launched. -/
theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := W14_of m ρ c main_arg3 (by decide)
    _ = W12 m ρ c (Proc.devRef .tc main_arg3) := W13_of m ρ c main_arg3 (by decide)
    _ = W11 m ρ c (Proc.devRef .tc main_arg3) := W12_of m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- `main_arg4` ends as launched. -/
theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := W14_of m ρ c main_arg4 (by decide)
    _ = W12 m ρ c (Proc.devRef .tc main_arg4) := W13_of m ρ c main_arg4 (by decide)
    _ = W11 m ρ c (Proc.devRef .tc main_arg4) := W12_of m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- `main_arg5` ends as launched. -/
theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := W14_of m ρ c main_arg5 (by decide)
    _ = W12 m ρ c (Proc.devRef .tc main_arg5) := W13_of m ρ c main_arg5 (by decide)
    _ = W11 m ρ c (Proc.devRef .tc main_arg5) := W12_of m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- `main_arg6` ends as launched. -/
theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := W14_of m ρ c main_arg6 (by decide)
    _ = W12 m ρ c (Proc.devRef .tc main_arg6) := W13_of m ρ c main_arg6 (by decide)
    _ = W11 m ρ c (Proc.devRef .tc main_arg6) := W12_of m ρ c main_arg6 (by decide)
    _ = W10 m ρ c (Proc.devRef .tc main_arg6) := W11_of m ρ c main_arg6 (by decide)
    _ = W9 m ρ c (Proc.devRef .tc main_arg6) := W10_of_ne m ρ c main_arg6 (by decide)
    _ = W8 m ρ c (Proc.devRef .tc main_arg6) := W9_of m ρ c main_arg6 (by decide)
    _ = W7 m ρ c (Proc.devRef .tc main_arg6) := W8_of m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- `main_arg7` ends as launched. -/
theorem W14_main_arg7 (c : Dev nD) : W14 m ρ c (Proc.devRef .tc main_arg7) = m ((c : Thread nD τ).loc main_arg7) :=
  calc W14 m ρ c (Proc.devRef .tc main_arg7)
    _ = W13 m ρ c (Proc.devRef .tc main_arg7) := W14_of m ρ c main_arg7 (by decide)
    _ = W12 m ρ c (Proc.devRef .tc main_arg7) := W13_of m ρ c main_arg7 (by decide)
    _ = W11 m ρ c (Proc.devRef .tc main_arg7) := W12_of m ρ c main_arg7 (by decide)
    _ = W10 m ρ c (Proc.devRef .tc main_arg7) := W11_of m ρ c main_arg7 (by decide)
    _ = W9 m ρ c (Proc.devRef .tc main_arg7) := W10_of_ne m ρ c main_arg7 (by decide)
    _ = W8 m ρ c (Proc.devRef .tc main_arg7) := W9_of m ρ c main_arg7 (by decide)
    _ = W7 m ρ c (Proc.devRef .tc main_arg7) := W8_of m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- `main_arg8` ends as launched. -/
theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := W14_of m ρ c main_arg8 (by decide)
    _ = W12 m ρ c (Proc.devRef .tc main_arg8) := W13_of m ρ c main_arg8 (by decide)
    _ = W11 m ρ c (Proc.devRef .tc main_arg8) := W12_of m ρ c main_arg8 (by decide)
    _ = W10 m ρ c (Proc.devRef .tc main_arg8) := W11_of m ρ c main_arg8 (by decide)
    _ = W9 m ρ c (Proc.devRef .tc main_arg8) := W10_of_ne m ρ c main_arg8 (by decide)
    _ = W8 m ρ c (Proc.devRef .tc main_arg8) := W9_of m ρ c main_arg8 (by decide)
    _ = W7 m ρ c (Proc.devRef .tc main_arg8) := W8_of m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! # The frame, and the run with the results named -/

/-- THE FRAME at any `F`: every weakly fair execution terminates, nothing faulting, and the nine argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c)⟩) (run m ρ)

/-- The run with each result buffer at what the fold through the fourteen items computes, and the arguments as launched. -/
theorem run_results : θ_run defs (onTc (τ := τ) (main (F := F))) ⟨m, fun _ => 0, ρ⟩ (fun r => ∀ c : Dev nD,
      r.2.mem ((c.tc : Thread nD τ).loc main_v38) = W14 m ρ c (Proc.devRef .tc main_v38)
      ∧ r.2.mem ((c.tc : Thread nD τ).loc main_v56) = W14 m ρ c (Proc.devRef .tc main_v56)
      ∧ r.2.mem ((c.tc : Thread nD τ).loc main_v73) = W14 m ρ c (Proc.devRef .tc main_v73)
      ∧ r.2.mem ((c.tc : Thread nD τ).loc main_v34) = W14 m ρ c (Proc.devRef .tc main_v34)
      ∧ r.2.mem ((c.tc : Thread nD τ).loc main_v82) = W14 m ρ c (Proc.devRef .tc main_v82)
      ∧ r.2.mem ((c.tc : Thread nD τ).loc main_v93) = W14 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v38 (by decide)), h c _ (mem_uc main_v56 (by decide)), h c _ (mem_uc main_v73 (by decide)), h c _ (mem_uc main_v34 (by decide)), h c _ (mem_uc main_v82 (by decide)), h c _ (mem_uc main_v93 (by decide)),
    (h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c)⟩) (run m ρ)

end Cert.KernelIdeal.Hand

end
-- ==== Proof.WRegion0Runs.lean ====
/- The column-sum kernel's body, run once per control case on whole memrefs at explicit contents: the conditions of
   its two conditionals in closed form over the grid, where its output window is idle, and the three runs. -/
import proofs.«141308_j26388279066709_2_alg».proof.Proof.Gen.Kernel.Launch
import proofs.«141308_j26388279066709_2_alg».proof.Proof.Gen.Kernel.Skeleton
import proofs.«141308_j26388279066709_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, in closed form over the grid -/

/-- The first conditional's condition (the reduction coordinate is zero), the skeleton's scalar chain substituted. -/
abbrev cond0_0 (i : grid0.Coords) : Prop := (Scalar.cmpi .ne (Scalar.extui (Scalar.cmpi .eq (BitVec.ofNat 32 (i 1).val) 0#32)) 0#32) = 1#1
/-- It holds at the points ≡ 0 (mod 6). -/
theorem hcond0_0 : ∀ t : Fin cfg0.N, cond0_0 (grid0.coords t) ↔ t.val % 6 = 0 :=
  (by decide +kernel : ∀ t : Fin grid0.N, cond0_0 (grid0.coords t) ↔ t.val % 6 = 0)

/-- The second conditional's condition (the reduction coordinate is the last). -/
abbrev cond0_1 (i : grid0.Coords) : Prop := k0_cond2 i = 1#1
/-- It holds at the points ≡ 5 (mod 6). -/
theorem hcond0_1 : ∀ t : Fin cfg0.N, cond0_1 (grid0.coords t) ↔ t.val % 6 = 5 :=
  (by decide +kernel : ∀ t : Fin grid0.N, cond0_1 (grid0.coords t) ↔ t.val % 6 = 5)

/-! ## Where the windows are idle -/

/-- The input window is never idle. -/
theorem liveAt0_0 : ∀ t : Fin cfg0.N, cfg0.idle 0 (grid0.coords t) = false := by decide +kernel
/-- Where the second condition fails the output window is idle, -/
theorem idleAt0_1 : ∀ t : Fin cfg0.N, ¬cond0_1 (grid0.coords t) → cfg0.idle 1 (grid0.coords t) = true := by decide +kernel
/-- and its block is not written back; -/
theorem noFlush0_1 : ∀ t : Fin cfg0.N, ¬cond0_1 (grid0.coords t) → (cfg0.win 1).flush t = false := by decide +kernel
/-- where it holds the window is live. -/
theorem liveAt0_1 : ∀ t : Fin cfg0.N, cond0_1 (grid0.coords t) → cfg0.idle 1 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0 : Memref sig .tc .vmem S1x1024 .f32 := Memref.whole cc0_scratch0

/-- The zero offsets of a rank-two rectangle, however spelt. -/
theorem offsets_zero : (![0, 0] : Fin 2 → Nat) = fun _ => 0 := funext fun a => by fin_cases a <;> rfl

set_option maxHeartbeats 1000000 in
/-- The body at a point whose reduction coordinate is zero (first condition taken, second not): on whole memrefs, the
    input's at `x`, the output's at `xi` (handed back untouched: the case stores nothing into it), the scratch at
    anything, it runs to the continuation holding the scratch at the reduction payload of `x` over the zero fill. -/
theorem run0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : cond0_0 i) (hc1 : ¬cond0_1 i)
    (x : Vec F S1024x1024 .f32) (xi : Vec F S1x1024 .f32) (E : Set ℕ) (K : PUnit → sProp 𝕄) :
    iprop(owns (c : Thread nD τ) arg2 fullShare x ∗ owns (c : Thread nD τ) arg3 fullShare xi ∗ (∃ d, owns (c : Thread nD τ) arg4 fullShare d)
        ∗ (iprop(owns (c : Thread nD τ) arg2 fullShare x ∗ owns (c : Thread nD τ) arg3 fullShare xi ∗ owns (c : Thread nD τ) arg4 fullShare (k0_pay2 x (k0_pay1 (F := F)))) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (fun y => ⟨_, List.mem_cons_self, View.mem_set_unit_zero offsets_zero inb_S1x1024_S1x1024_0_0 y⟩)]
  rw [View.canon_cons_unit_zero offsets_zero]
  sl_unfold_words
  rw [View.readCov_unit_zero _ offsets_zero, View.readAt_eq_ld, harg2.read_unread, View.ld_unit_zero offsets_zero]

set_option maxHeartbeats 1000000 in
/-- The body at a point strictly inside the reduction (neither condition taken): the scratch, found at `xs`, is left at
    the reduction payload of `x` over `xs`; the output's buffer is handed back untouched. -/
theorem run0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : ¬cond0_0 i) (hc1 : ¬cond0_1 i)
    (x : Vec F S1024x1024 .f32) (xi : Vec F S1x1024 .f32) (xs : Vec F S1x1024 .f32) (E : Set ℕ) (K : PUnit → sProp 𝕄) :
    iprop(owns (c : Thread nD τ) arg2 fullShare x ∗ owns (c : Thread nD τ) arg3 fullShare xi ∗ owns (c : Thread nD τ) arg4 fullShare xs
        ∗ (iprop(owns (c : Thread nD τ) arg2 fullShare x ∗ owns (c : Thread nD τ) arg3 fullShare xi ∗ owns (c : Thread nD τ) arg4 fullShare (k0_pay2 x xs)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (fun y => ⟨_, List.mem_cons_self, View.mem_set_unit_zero offsets_zero inb_S1x1024_S1x1024_0_0 y⟩)]
  rw [View.canon_cons_unit_zero offsets_zero]
  sl_unfold_words
  rw [View.readAt_eq_ld, View.readAt_eq_ld, harg2.read_unread, harg4.read_unread, View.ld_unit_zero offsets_zero, View.ld_unit_zero offsets_zero]

set_option maxHeartbeats 1000000 in
/-- The body at a point whose reduction coordinate is the last (first condition not taken, second taken): the scratch,
    found at `xs`, is left at the reduction payload of `x` over `xs`, and so is the output's buffer (found at
    anything), stored whole from the scratch. -/
theorem run0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole)
    (hc0 : ¬cond0_0 i) (hc1 : cond0_1 i)
    (x : Vec F S1024x1024 .f32) (xs : Vec F S1x1024 .f32) (E : Set ℕ) (K : PUnit → sProp 𝕄) :
    iprop(owns (c : Thread nD τ) arg2 fullShare x ∗ (∃ d, owns (c : Thread nD τ) arg3 fullShare d) ∗ owns (c : Thread nD τ) arg4 fullShare xs
        ∗ (iprop(owns (c : Thread nD τ) arg2 fullShare x ∗ owns (c : Thread nD τ) arg3 fullShare (k0_pay2 x xs) ∗ owns (c : Thread nD τ) arg4 fullShare (k0_pay2 x xs)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [View.read_writes_eq_canon _ _ _ (fun y => ⟨_, List.mem_cons_self, View.mem_set_unit_zero offsets_zero inb_S1x1024_S1x1024_0_0 y⟩)]
    rw [View.canon_cons_unit_zero offsets_zero]
    sl_unfold_words
    rw [View.readCov_unit_zero _ offsets_zero, View.readAt_eq_ld, View.readAt_eq_ld, harg2.read_unread, harg4.read_unread, View.ld_unit_zero offsets_zero, View.ld_unit_zero offsets_zero]
  iexists _; isplitr
  swap; · iexact HS0
  ipureintro
  sl_unfold_words
  rw [View.read_writes_eq_canon _ _ _ (fun y => ⟨_, List.mem_cons_self, View.mem_set_unit_zero offsets_zero inb_S1x1024_S1x1024_0_0 y⟩)]
  rw [View.canon_cons_unit_zero offsets_zero]
  rw [View.readAt_eq_ld, View.readAt_eq_ld, harg2.read_unread, harg4.read_unread, View.ld_unit_zero offsets_zero, View.ld_unit_zero offsets_zero]

end Cert.Kernel.Hand

end
-- ==== Proof.WRegion0.lean ====
/- REGION 0 of @main, the column-sum kernel's pipeline, at the TensorCore's buffer contents `V` when the region is
   entered: the windows' blocks, the accumulation the scratch carries from point to point in the open, the region
   invariant, the proof data, the body obligation and the two entailments with the class invariant. Generic in `F`. -/
import proofs.«141308_j26388279066709_2_alg».proof.Proof.WRegion0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: the column-sum kernel's pipeline, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- What the scratch accumulator holds after the body at position `n`: at a point whose reduction coordinate is zero
    the reduction payload of the point's input block over the zero fill, elsewhere that payload over what the point
    before left. -/
def acc0 (c : Dev nD) : (n : ℕ) → n < cfg0.N → Vec F S1x1024 .f32
  | 0, hn => k0_pay2 (iblk0 V c 0 ⟨0, hn⟩) (k0_pay1 (F := F))
  | n + 1, hn =>
    if (n + 1) % 6 = 0 then k0_pay2 (iblk0 V c 0 ⟨n + 1, hn⟩) (k0_pay1 (F := F))
    else k0_pay2 (iblk0 V c 0 ⟨n + 1, hn⟩) (acc0 c n (Nat.lt_of_succ_lt hn))

/-- At a point whose reduction coordinate is zero the accumulation restarts from the zero fill. -/
theorem acc0_A (c : Dev nD) (t : Fin cfg0.N) (h0 : t.val % 6 = 0) :
    acc0 V c t.val t.isLt = k0_pay2 (iblk0 V c 0 t) (k0_pay1 (F := F)) := by
  obtain ⟨n, hn⟩ := t
  cases n with
  | zero => rfl
  | succ n => exact if_pos h0

/-- Elsewhere it continues from what the point before left. -/
theorem acc0_B (c : Dev nD) (t : Fin cfg0.N) (h0 : ¬t.val % 6 = 0) :
    acc0 V c t.val t.isLt = k0_pay2 (iblk0 V c 0 t) (acc0 V c (t.val - 1) (Nat.lt_of_le_of_lt (Nat.sub_le _ _) t.isLt)) := by
  obtain ⟨n, hn⟩ := t
  cases n with
  | zero => exact absurd (Nat.zero_mod _) h0
  | succ n => exact if_neg h0

/-! ## The invariant -/

/-- The core's scoped buffers that are neither a staging buffer of this pipeline nor its scratch accumulator (the other
    two kernels' staging and scratch buffers), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f)
    ∗ (∃ f : Buf (Elt F) ((c : Thread nD τ).loc cc2_scratch0), ((c : Thread nD τ).loc cc2_scratch0) ↦{fullShare} f)
    ∗ (∃ f : Buf (Elt F) ((c : Thread nD τ).loc cc2_scratch1), ((c : Thread nD τ).loc cc2_scratch1) ↦{fullShare} f)
    ∗ (∃ f : Buf (Elt F) ((c : Thread nD τ).loc cc2_scratch2), ((c : Thread nD τ).loc cc2_scratch2) ↦{fullShare} f))

/-- The class invariant with the scratch accumulator as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- The region invariant before position `n`: before the first point the class's (the scratch at anything); afterwards
    the scratch accumulator at what the point before left, the other scoped buffers at anything, and the generator
    register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The pipeline's proof data -/

/-- The proof data of the pipeline on core `c`: the arrays as the region finds them (`V`); after the body at point `t`
    the input's buffer at its block and the output's at the accumulation (which the body stores there at the points
    whose reduction coordinate is the last; elsewhere the window is idle and the value is not consulted); the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- The input window's array is never written. -/
theorem kept0 (c : Dev nD) : (dat0 V c).arrAt 0 cfg0.N = V c main_arg2 :=
  ((dat0 V c).arrAt_in 0 rfl _).trans (A_eq0 V c 0)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms say which control case the point is in;
    the invariant hands the body the scratch accumulator at what the point before left (at anything at the first point)
    and takes it back at this point's accumulation; the other scoped buffers, the generator register and the core's
    tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  have hN : t.val < 36 := lt_of_lt_of_eq t.isLt (show cfg0.N = 36 from N_0)
  by_cases h0 : t.val % 6 = 0
  · have h1 : ¬t.val % 6 = 5 := by omega
    rw [Dat.leavesExact_idle (dat0 V c) 1 t (idleAt0_1 t (fun h => h1 ((hcond0_1 t).mp h))) (noFlush0_1 t (fun h => h1 ((hcond0_1 t).mp h)))]
    rw [acc0_A V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩⟩
      iapply (run0_A c (grid0.coords t) _ _ _ _ _ _ ((hcond0_0 t).mpr h0) (fun h => h1 ((hcond0_1 t).mp h)) (iblk0 V c 0 t) _ Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1
    · rw [PhiS0_castSucc V c t, PhiS0_pos V c _ _ hz]
      iintro ⟨⟨⟨HS0, Hr⟩, Hg⟩, Ho, ⟨%d0, H0⟩, ⟨%d1, H1⟩⟩
      iapply (run0_A c (grid0.coords t) _ _ _ _ _ _ ((hcond0_0 t).mpr h0) (fun h => h1 ((hcond0_1 t).mp h)) (iblk0 V c 0 t) _ Set.univ _)
      isplitl [H0]; · iexact H0
      isplitl [H1]; · iexact H1
      isplitl [HS0]; · iexists _; iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1
  · have hz : t.val ≠ 0 := fun h => h0 (by rw [h])
    rw [acc0_B V c t h0, PhiS0_castSucc V c t, PhiS0_pos V c _ _ hz]
    by_cases h1 : t.val % 6 = 5
    · rw [show (dat0 V c).leavesExact 1 t = owns (c : Thread nD τ) (ms0_1 t) fullShare ((dat0 V c).after 1 t) from by
        unfold Dat.leavesExact; rw [liveAt0_1 t ((hcond0_1 t).mpr h1)], after0_1, acc0_B V c t h0]
      iintro ⟨⟨⟨HS0, Hr⟩, Hg⟩, Ho, ⟨%d0, H0⟩, ⟨%d1, H1⟩⟩
      iapply (run0_C c (grid0.coords t) _ _ _ _ _ _ (fun h => h0 ((hcond0_0 t).mp h)) ((hcond0_1 t).mpr h1) (iblk0 V c 0 t) _ Set.univ _)
      isplitl [H0]; · iexact H0
      isplitl [H1]; · iexists _; iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexact H1
    · rw [Dat.leavesExact_idle (dat0 V c) 1 t (idleAt0_1 t (fun h => h1 ((hcond0_1 t).mp h))) (noFlush0_1 t (fun h => h1 ((hcond0_1 t).mp h)))]
      iintro ⟨⟨⟨HS0, Hr⟩, Hg⟩, Ho, ⟨%d0, H0⟩, ⟨%d1, H1⟩⟩
      iapply (run0_B c (grid0.coords t) _ _ _ _ _ _ (fun h => h0 ((hcond0_0 t).mp h)) (fun h => h1 ((hcond0_1 t).mp h)) (iblk0 V c 0 t) _ _ Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 36 := N_0; omega)

end Cert.Kernel.Hand

end
-- ==== Proof.WRegion1Runs.lean ====
/- REGION 1 of @main (the pallas_call of the GCN aggregation: h = tanh(dinv · (Aᵀ·Y + Y) + b)), the body on its own.
   The grid is 6 × 3: coordinate 0 is the output row block m, coordinate 1 the reduction block k. The body keeps
   a [1024,128] accumulator between the points of one m: at k = 0 it is zeroed; at every k it gains the product
   of the point's [2048,1024] block of A, contracted over its rows, with the rows k·2048 … of Y; at k = 2 the
   output block is written from it. Three control cases, one run of the whole body each, every buffer's contents
   stated in the open over the printed payloads (k1_pay1: zeros; k1_pay2 a y acc: acc + aᵀ·y; k1_pay3 y acc d b:
   tanh(d · (acc + y) + b)). Generic in the float model. -/
import proofs.«141308_j26388279066709_2_alg».proof.Proof.Gen.Kernel.Launch
import proofs.«141308_j26388279066709_2_alg».proof.Proof.Gen.Kernel.Skeleton
import proofs.«141308_j26388279066709_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (k = 0), from the grid coordinates. -/
abbrev cond1_0 (i : grid1.Coords) : Prop := (Scalar.cmpi .ne (Scalar.extui (Scalar.cmpi .eq (BitVec.ofNat 32 (i 1).val) 0#32)) 0#32) = 1#1
/-- The condition of the body's second `scf.if` (k = last). -/
abbrev cond1_1 (i : grid1.Coords) : Prop := k1_cond2 i = 1#1

theorem hz2r1 : (![0, 0] : Fin 2 → Nat) = fun _ => 0 := funext fun a => by fin_cases a <;> rfl

/-- The rows `m·1024 …` of `Y` lie inside it at every grid point (not only where the body loads them). -/
theorem k1_off2_inb' : ∀ i : grid1.Coords, ∀ a, (k1_off2 i) a + S1024x128.size a ≤ S6144x128.size a := by decide +kernel

/-- The rows `k·2048 …` of `Y`: what the point's matmul contracts the matrix block with. -/
abbrev rY1 (i : grid1.Coords) : Rect S6144x128 := Rect.unit (s := S6144x128) (k1_off1 i) S2048x128.size (k1_off1_inb i)
/-- The rows `m·1024 …` of `Y`: what the last point adds to the accumulator. -/
abbrev rY2 (i : grid1.Coords) : Rect S6144x128 := Rect.unit (s := S6144x128) (k1_off2 i) S1024x128.size (k1_off2_inb' i)

/-- A buffer whose last store went through the whole-shape rectangle at zero offsets reads that store's payload,
    whatever it held and whatever was stored before. -/
theorem read_writes_cons_unit_zero {S : Shape} {e : EltTy} {sg : RefSig} {κ : Kind} {sp : Space} (v : View sg κ sp S e)
    (f : v.ty.Contents (Elt F)) {off : Fin S.rank → Nat} (h : off = fun _ => 0) (inb : ∀ a, off a + S.size a ≤ S.size a)
    (P : S.Idx → Elt F e) (L : List (View.Piece (Elt F) S e)) :
    v.read (Elt F) (v.writes (Elt F) f (⟨Rect.unit off S.size inb, P⟩ :: L)) = P := by
  rw [View.read_writes_eq_canon _ _ _ (fun y => ⟨_, List.mem_cons_self, View.mem_set_unit_zero h inb y⟩),
    View.canon_cons_unit_zero h]

set_option maxHeartbeats 1000000 in
/-- The body at a point with k = 0: the accumulator, held at anything, is zeroed and then left at the product of this
    point's block of the matrix (transposed) with the rows `0 …` of `Y`, added to zeros; the output buffer is not touched. -/
theorem run1_A (c : Dev nD) (i : grid1.Coords)
    (arg2 : Memref sig .tc .vmem S2048x1024 .f32) (harg2 : arg2.IsWhole) (arg3 : Memref sig .tc .vmem S6144x128 .f32) (harg3 : arg3.IsWhole)
    (arg4 : Memref sig .tc .vmem S1024x1 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : cond1_0 i) (hc1 : ¬cond1_1 i)
    (x0 : Vec F S2048x1024 .f32) (x1 : Vec F S6144x128 .f32) (x2 : Vec F S1024x1 .f32) (x3 : Vec F S1x128 .f32) (xi4 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k1_pay2 x0 (View.ld x1 (rY1 i)) (k1_pay1 (F := F)))) -∗ K ⟨⟩))
      ⊢ wp frame (wpE (defs₀ (F := F)) Variants.none c none) E (cc1__h_kernel i arg2 harg2 arg3 harg3 arg4 harg4 arg5 harg5 arg6 harg6 arg7 harg7) K := by
  simp only [cc1__h_kernel_eq_skeleton]; unfold cc1__h_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [read_writes_cons_unit_zero _ _ hz2r1]
  simp only [View.readAt_eq_ld, harg2.read_unread, harg3.read_unread, View.ld_unit_zero (S := S2048x1024) hz2r1,
    View.readCov_unit_zero (S := S1024x128) _ hz2r1]

set_option maxHeartbeats 1000000 in
/-- The body at a point with 0 < k < last: the accumulator, held at `xs`, is left at `xs` plus the product of this
    point's block of the matrix (transposed) with the rows `k·2048 …` of `Y`; the output buffer is not touched. -/
theorem run1_B (c : Dev nD) (i : grid1.Coords)
    (arg2 : Memref sig .tc .vmem S2048x1024 .f32) (harg2 : arg2.IsWhole) (arg3 : Memref sig .tc .vmem S6144x128 .f32) (harg3 : arg3.IsWhole)
    (arg4 : Memref sig .tc .vmem S1024x1 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : ¬cond1_1 i)
    (x0 : Vec F S2048x1024 .f32) (x1 : Vec F S6144x128 .f32) (x2 : Vec F S1024x1 .f32) (x3 : Vec F S1x128 .f32) (xi4 : Vec F S1024x128 .f32)
    (xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k1_pay2 x0 (View.ld x1 (rY1 i)) xs)) -∗ K ⟨⟩))
      ⊢ wp frame (wpE (defs₀ (F := F)) Variants.none c none) E (cc1__h_kernel i arg2 harg2 arg3 harg3 arg4 harg4 arg5 harg5 arg6 harg6 arg7 harg7) K := by
  simp only [cc1__h_kernel_eq_skeleton]; unfold cc1__h_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [read_writes_cons_unit_zero _ _ hz2r1]
  simp only [View.readAt_eq_ld, harg2.read_unread, harg3.read_unread, harg7.read_unread, View.ld_unit_zero (S := S2048x1024) hz2r1,
    View.ld_unit_zero (S := S1024x128) hz2r1]

set_option maxHeartbeats 1000000 in
/-- The body at a point with k = last: the accumulator is advanced as at the other points, and the output buffer,
    held at anything, is left at the final expression over the rows `m·1024 …` of `Y`, the advanced accumulator, the
    column block and the row. -/
theorem run1_C (c : Dev nD) (i : grid1.Coords)
    (arg2 : Memref sig .tc .vmem S2048x1024 .f32) (harg2 : arg2.IsWhole) (arg3 : Memref sig .tc .vmem S6144x128 .f32) (harg3 : arg3.IsWhole)
    (arg4 : Memref sig .tc .vmem S1024x1 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S2048x1024 .f32) (x1 : Vec F S6144x128 .f32) (x2 : Vec F S1024x1 .f32) (x3 : Vec F S1x128 .f32)
    (xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k1_pay3 (View.ld x1 (rY2 i)) (k1_pay2 x0 (View.ld x1 (rY1 i)) xs) x2 x3)
            ∗ owns (c : Thread nD τ) arg7 fullShare (k1_pay2 x0 (View.ld x1 (rY1 i)) xs)) -∗ K ⟨⟩))
      ⊢ wp frame (wpE (defs₀ (F := F)) Variants.none c none) E (cc1__h_kernel i arg2 harg2 arg3 harg3 arg4 harg4 arg5 harg5 arg6 harg6 arg7 harg7) K := by
  simp only [cc1__h_kernel_eq_skeleton]; unfold cc1__h_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [read_writes_cons_unit_zero _ _ hz2r1]
    simp only [View.readAt_eq_ld, harg2.read_unread, harg3.read_unread, harg4.read_unread, harg5.read_unread, harg7.read_unread,
      View.ld_unit_zero (S := S2048x1024) hz2r1, View.ld_unit_zero (S := S1024x128) hz2r1, View.ld_unit_zero (S := S1024x1) hz2r1,
      View.ld_unit_zero (S := S1x128) hz2r1, View.readCov_unit_zero (S := S1024x128) _ hz2r1]
  iexists _; isplitr
  swap; · iexact HS
  ipureintro
  sl_unfold_run_names
  rw [read_writes_cons_unit_zero _ _ hz2r1]
  simp only [View.readAt_eq_ld, harg2.read_unread, harg3.read_unread, harg7.read_unread, View.ld_unit_zero (S := S2048x1024) hz2r1,
    View.ld_unit_zero (S := S1024x128) hz2r1]

end Cert.Kernel.Hand

end
-- ==== Proof.WRegion1.lean ====
/- REGION 1 of @main (the pallas_call of the GCN aggregation, grid 6 × 3: output row block m, reduction block k), its
   half of the frame at a PARAMETER `V` — the TensorCore's buffer contents when the region is entered.
   The accumulation in the open: after the body at point t the carried [1024,128] accumulator holds `scrAt V c t`, a
   recursion over the points of one m (at k = 0 the step from zeros, otherwise the step from what the point before
   left: `scrAt_A`, `scrAt_B`, `scrAt_C`), one step being acc + (block (k, m) of A)ᵀ · (rows k·2048 … of Y) (`acc1`);
   at k = 2 the output window's buffer holds tanh(dinv_m · (acc + Y_m) + b) (`outAt`, `after1_4`).
   The region invariant carries the accumulator at `scrAt` between points (`PhiS1`); the body obligation takes, per
   control case, the run of the whole body (Region1Runs); before the first point and after the last the invariant is
   the class's (`hin1`, `hout1`). The input arrays end as entered (`kept1`). Generic in the float model. -/
import proofs.«141308_j26388279066709_2_alg».proof.Proof.WRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`): the [2048,1024] block (k, m) of
    the matrix (window 0), all of `Y` (1), the rows m·1024 … of the column `dinv` (2), the row `b` (3). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (a window not
    fetched at a point has the block index of the point before), for any proof data whose array is `V`'s and whose
    body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form over the grid -/

/-- k = 0 exactly at the points ≡ 0 (mod 3). -/
theorem hcond1_0 : ∀ t : Fin cfg1.N, cond1_0 (grid1.coords t) ↔ t.val % 3 = 0 :=
  (by decide +kernel : ∀ t : Fin grid1.N, cond1_0 (grid1.coords t) ↔ t.val % 3 = 0)
/-- k = 2 exactly at the points ≡ 2 (mod 3). -/
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from k = 2 the body stores nothing into the output window, and the pipeline does not write it back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At k = 2 it stores the whole block. -/
theorem liveAt1_4 : ∀ t : Fin cfg1.N, cond1_1 (grid1.coords t) → cfg1.idle 4 (grid1.coords t) = false := by decide +kernel

/-! ## THE ACCUMULATION: what the carried accumulator and the output buffer hold after each point -/

/-- One point's step of the accumulator: `xs` plus the product of the point's matrix block, contracted over its rows,
    with the rows k·2048 … of `Y`. -/
def acc1 (c : Dev nD) (t : Fin cfg1.N) (xs : Vec F S1024x128 .f32) : Vec F S1024x128 .f32 :=
  k1_pay2 (iblk1 V c 0 t) (View.ld (iblk1 V c 1 t) (rY1 (grid1.coords t))) xs

/-- The accumulator after the body at position `n`: at k = 0 the step from zeros, otherwise the step from what the
    point before left. -/
def scrAt (c : Dev nD) : (n : ℕ) → n < cfg1.N → Vec F S1024x128 .f32
  | 0, hn => acc1 V c ⟨0, hn⟩ (k1_pay1 (F := F))
  | n + 1, hn => acc1 V c ⟨n + 1, hn⟩ (if (n + 1) % 3 = 0 then k1_pay1 (F := F) else scrAt c n (Nat.lt_of_succ_lt hn))

/-- At a point with k = 0: the step from zeros. -/
theorem scrAt_A (c : Dev nD) (t : Fin cfg1.N) (h0 : t.val % 3 = 0) :
    scrAt V c t.val t.isLt = acc1 V c t (k1_pay1 (F := F)) := by
  obtain ⟨n, hn⟩ := t
  cases n with
  | zero => rfl
  | succ n => exact congrArg (acc1 V c ⟨n + 1, hn⟩) (if_pos h0)

/-- At a point with k ≠ 0: the step from what the point before left. -/
theorem scrAt_pos (c : Dev nD) (t : Fin cfg1.N) (h0 : ¬t.val % 3 = 0) :
    scrAt V c t.val t.isLt = acc1 V c t (scrAt V c (t.val - 1) (Nat.lt_of_le_of_lt (Nat.sub_le _ _) t.isLt)) := by
  obtain ⟨n, hn⟩ := t
  cases n with
  | zero => exact absurd (Nat.zero_mod _) h0
  | succ n => exact congrArg (acc1 V c ⟨n + 1, hn⟩) (if_neg h0)

/-- At a point with k = 1. -/
theorem scrAt_B (c : Dev nD) (t : Fin cfg1.N) (h1 : t.val % 3 = 1) :
    scrAt V c t.val t.isLt = acc1 V c t (scrAt V c (t.val - 1) (Nat.lt_of_le_of_lt (Nat.sub_le _ _) t.isLt)) :=
  scrAt_pos V c t (by omega)

/-- At a point with k = 2. -/
theorem scrAt_C (c : Dev nD) (t : Fin cfg1.N) (h2 : t.val % 3 = 2) :
    scrAt V c t.val t.isLt = acc1 V c t (scrAt V c (t.val - 1) (Nat.lt_of_le_of_lt (Nat.sub_le _ _) t.isLt)) :=
  scrAt_pos V c t (by omega)

/-- What the output window's buffer holds after the body at a point with k = 2: tanh(dinv · (acc + Y_m) + b), over the
    rows m·1024 … of `Y`, the accumulator after this point's step, the point's block of `dinv` and the row `b`. (At the
    other points the window is idle and this term is not consulted.) -/
def outAt (c : Dev nD) (t : Fin cfg1.N) : Vec F S1024x128 .f32 :=
  k1_pay3 (View.ld (iblk1 V c 1 t) (rY2 (grid1.coords t))) (scrAt V c t.val t.isLt) (iblk1 V c 2 t) (iblk1 V c 3 t)

/-! ## The invariant -/

/-- The accumulator as a memref: the kernel's own whole scoped buffer. -/
abbrev scM1 : Memref sig .tc .vmem S1024x128 .f32 := Memref.whole cc1_scratch0

/-- Everything of the class invariant but the accumulator: what gives the invariant back once the accumulator is
    returned at any contents. -/
def rest1 (c : Dev nD) : sProp 𝕄 :=
  iprop((∃ d, owns (c : Thread nD τ) scM1 fullShare d) -∗ Pipeline.ΦA spec1 c)

/-- The class invariant hands out the accumulator at some contents, beside the rest. -/
theorem PhiA1_split (c : Dev nD) :
    (Pipeline.ΦA spec1 c : sProp 𝕄) ⊢ iprop((∃ d, owns (c : Thread nD τ) scM1 fullShare d) ∗ rest1 (F := F) c) := by
  unfold rest1 Pipeline.ΦA; rw [scopedRest1_eq]; simp only [scM1, owns_whole]
  iintro ⟨⟨H0, H1, H2, H3, H4, HS, HR⟩, Hg⟩
  isplitl [HS]; · iexact HS
  iintro HS
  isplitr [Hg]
  · isplitl [H0]; · iexact H0
    isplitl [H1]; · iexact H1
    isplitl [H2]; · iexact H2
    isplitl [H3]; · iexact H3
    isplitl [H4]; · iexact H4
    isplitl [HS]; · iexact HS
    iexact HR
  iexact Hg

/-- The region invariant before position `n`: before the first point the class's; afterwards the accumulator owned at
    what the point before left, beside the rest. -/
def PhiS1 (c : Dev nD) : (n : ℕ) → n ≤ cfg1.N → sProp 𝕄
  | 0, _ => Pipeline.ΦA spec1 c
  | n + 1, hn => iprop(owns (c : Thread nD τ) scM1 fullShare (scrAt V c n hn) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (scrAt V c n hn) ∗ rest1 c) := rfl

theorem PhiS1_pos (c : Dev nD) (n : ℕ) (h : n ≤ cfg1.N) (hz : n ≠ 0) :
    PhiS1 V c n h = iprop(owns (c : Thread nD τ) scM1 fullShare (scrAt V c (n - 1) (by omega)) ∗ rest1 c) := by
  cases n with
  | zero => exact absurd rfl hz
  | succ n => rfl

/-! ## The pipeline's proof data -/

/-- The proof data of the region on core `c`: the arrays as the region finds them (`V`); after the body at point `t` each
    input's buffer at its block and the output's at `outAt`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- The output window's buffer after the body, in the open. -/
theorem after1_4 (c : Dev nD) (t : Fin cfg1.N) : (dat1 V c).after 4 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The input arrays end as the region found them: no point writes one back. -/
theorem isIn1 : ∀ w : Fin cfg1.W, w ≠ 4 → (cfg1.win w).isOut = false := by decide
theorem kept1 (c : Dev nD) (w : Fin cfg1.W) (hw : w ≠ 4) : (dat1 V c).arrAt w cfg1.N = V c (Pipeline.arrRef spec1 w) :=
  ((dat1 V c).arrAt_in w (isIn1 w hw) _).trans (A_eq1 V c w)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the closed forms say which case the point is in; the
    invariant hands the body the accumulator at what the point before left (at anything at the first point) and takes it
    back at this point's; away from k = 2 the output buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h0 : t.val % 3 = 0
  · have h2 : ¬t.val % 3 = 2 := by omega
    have hc1 : ¬cond1_1 (grid1.coords t) := fun h => h2 ((hcond1_1 t).mp h)
    rw [Dat.leavesExact_idle (dat1 V c) 4 t (idleAt1_4 t hc1) (noFlush1_4 t hc1)]
    rw [scrAt_A V c t h0]; unfold acc1
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := PhiA1_split (F := F) c $$ HΦ
      icases HΦ' with ⟨HS, HR⟩
      iapply (run1_A c (grid1.coords t) _ _ _ _ _ _ _ _ _ _ _ _ ((hcond1_0 t).mpr h0) hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HS, HR⟩, Ho, ⟨%d0, H0⟩, ⟨%d1, H1⟩, ⟨%d2, H2⟩, ⟨%d3, H3⟩, ⟨%d4, H4⟩⟩
      iapply (run1_A c (grid1.coords t) _ _ _ _ _ _ _ _ _ _ _ _ ((hcond1_0 t).mpr h0) hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond1_0 (grid1.coords t) := fun h => h0 ((hcond1_0 t).mp h)
    rw [PhiS1_castSucc V c t, PhiS1_pos V c _ _ hz]
    rw [scrAt_pos V c t h0]; unfold acc1
    by_cases h2 : t.val % 3 = 2
    · have hc1 : cond1_1 (grid1.coords t) := (hcond1_1 t).mpr h2
      rw [show (dat1 V c).leavesExact 4 t = owns (c : Thread nD τ) (st1_4 t) fullShare ((dat1 V c).after 4 t) from by
        unfold Dat.leavesExact; rw [liveAt1_4 t hc1], after1_4]
      unfold outAt; rw [scrAt_pos V c t h0]; unfold acc1
      iintro ⟨⟨HS, HR⟩, Ho, ⟨%d0, H0⟩, ⟨%d1, H1⟩, ⟨%d2, H2⟩, ⟨%d3, H3⟩, ⟨%d4, H4⟩⟩
      iapply (run1_C c (grid1.coords t) _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h2 ((hcond1_1 t).mp h)
      rw [Dat.leavesExact_idle (dat1 V c) 4 t (idleAt1_4 t hc1) (noFlush1_4 t hc1)]
      iintro ⟨⟨HS, HR⟩, Ho, ⟨%d0, H0⟩, ⟨%d1, H1⟩, ⟨%d2, H2⟩, ⟨%d3, H3⟩, ⟨%d4, H4⟩⟩
      iapply (run1_B c (grid1.coords t) _ _ _ _ _ _ _ _ _ _ _ _ hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  unfold rest1
  iintro ⟨HS, HR⟩
  iapply HR
  iexists _; iexact HS

theorem hout1 (c : Dev nD) : (dat1 V c).Φ (Fin.last cfg1.N) ⊢ Pipeline.ΦA spec1 c :=
  Phi_out1 V c _ (by rw [Fin.val_last]; have : cfg1.N = 18 := N_1; omega)

end Cert.Kernel.Hand

end
-- ==== Proof.WRegion2Runs.lean ====
/- REGION 2 of @main (the fused pass producing the two products and the row sums): the kernel body's run at one grid
   point, in each of its three control cases, stated with explicit contents. The reduction coordinate k = t mod 4 decides
   the case: at k = 0 the three accumulators are reset to zeros and then accumulate; at 0 < k < 3 they accumulate over
   what the point before left; at k = 3 they accumulate and each output block is stored whole from its accumulator.
   One step of the accumulation is `step2`; the zeros are `zero2`. Generic in the float model. -/
import proofs.«141308_j26388279066709_2_alg».proof.Proof.Gen.Kernel.Launch
import proofs.«141308_j26388279066709_2_alg».proof.Proof.Gen.Kernel.Skeleton
import proofs.«141308_j26388279066709_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, in closed form over the grid -/

/-- The first conditional's condition (the reduction coordinate is zero), from the grid coordinates. -/
abbrev cond2_0 (i : grid2.Coords) : Prop := (Scalar.cmpi .ne (Scalar.extui (Scalar.cmpi .eq (BitVec.ofNat 32 (i 1).val) 0#32)) 0#32) = 1#1
/-- The second conditional's condition (the reduction coordinate is the last). -/
abbrev cond2_1 (i : grid2.Coords) : Prop := k2_cond2 i = 1#1

/-- The first holds at the points whose reduction coordinate is 0: decided over the grid. -/
theorem hcond2_0 : ∀ t : Fin cfg2.N, cond2_0 (grid2.coords t) ↔ t.val % 4 = 0 :=
  (by decide +kernel : ∀ t : Fin grid2.N, cond2_0 (grid2.coords t) ↔ t.val % 4 = 0)
/-- The second holds at the points whose reduction coordinate is 3. -/
theorem hcond2_1 : ∀ t : Fin cfg2.N, cond2_1 (grid2.coords t) ↔ t.val % 4 = 3 :=
  (by decide +kernel : ∀ t : Fin grid2.N, cond2_1 (grid2.coords t) ↔ t.val % 4 = 3)

/-- The zero offsets, as a constant function. -/
theorem hz2r2 : (![0, 0] : Fin 2 → ℕ) = fun _ => 0 := by funext a; fin_cases a <;> rfl

/-- The rows of the third operand a point loads: the rectangle of 1536 rows at the offset the kernel computes. -/
abbrev rS (i : grid2.Coords) : Rect S6144x16 := Rect.unit (s := S6144x16) (k2_off1 i) S1536x16.size (Gen.k2_off1_inb i)

/-- A store through the whole-shape rectangle at zero offsets, made last, leaves its payload: what the buffer reads
    afterwards, whatever it held and whatever was stored before. -/
theorem read_writes_unit_zero {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-! ## One step of the accumulation -/

/-- The three accumulators: the two products' and the row sum's. -/
abbrev Acc2 (F : FTy → Type) [FloatOps F] : Type := Vec F S1024x16 .f32 × Vec F S1024x16 .f32 × Vec F S1024x1 .f32

/-- The zeros a reduction starts from. -/
def zero2 : Acc2 F := (k2_pay1, k2_pay2, k2_pay3)

/-- What one point adds: the two blocks times the rows of the third operand the point selects, and the first block's row sums. -/
def step2 (i : grid2.Coords) (x0 x1 : Vec F S1024x1536 .f32) (x2 : Vec F S6144x16 .f32) (a : Acc2 F) : Acc2 F :=
  (k2_pay5 x0 (View.ld x2 (rS i)) a.1, k2_pay6 x1 (View.ld x2 (rS i)) a.2.1, k2_pay7 x0 a.2.2)

/-! ## The body's run, case by case -/

set_option maxHeartbeats 2000000 in
/-- At a point whose reduction coordinate is neither first nor last: the accumulators go from `a` to `step2 … a`,
    nothing else changes. -/
theorem run2_B (c : Dev nD) (i : grid2.Coords) (arg2 : Memref sig .tc .vmem S1024x1536 .f32) (harg2 : arg2.IsWhole) (arg3 : Memref sig .tc .vmem S1024x1536 .f32) (harg3 : arg3.IsWhole) (arg4 : Memref sig .tc .vmem S6144x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x1 .f32) (harg7 : arg7.IsWhole) (arg8 : Memref sig .tc .vmem S1024x16 .f32) (harg8 : arg8.IsWhole) (arg9 : Memref sig .tc .vmem S1024x16 .f32) (harg9 : arg9.IsWhole) (arg10 : Memref sig .tc .vmem S1024x1 .f32) (harg10 : arg10.IsWhole)
    (hc0 : ¬cond2_0 i) (hc1 : ¬cond2_1 i)
    (x0 x1 : Vec F S1024x1536 .f32) (x2 : Vec F S6144x16 .f32) (a : Acc2 F)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg8 fullShare a.1 ∗ owns (c : Thread nD τ) arg9 fullShare a.2.1 ∗ owns (c : Thread nD τ) arg10 fullShare a.2.2
        ∗ (iprop(owns (c : Thread nD τ) arg2 fullShare x0 ∗ owns (c : Thread nD τ) arg3 fullShare x1 ∗ owns (c : Thread nD τ) arg4 fullShare x2
            ∗ owns (c : Thread nD τ) arg8 fullShare (step2 i x0 x1 x2 a).1
            ∗ owns (c : Thread nD τ) arg9 fullShare (step2 i x0 x1 x2 a).2.1
            ∗ owns (c : Thread nD τ) arg10 fullShare (step2 i x0 x1 x2 a).2.2) -∗ K ⟨⟩))
      ⊢ wp frame (wpE (defs₀ (F := F)) Variants.none c none) E (cc2__as_fused_kernel i arg2 harg2 arg3 harg3 arg4 harg4 arg5 harg5 arg6 harg6 arg7 harg7 arg8 harg8 arg9 harg9 arg10 harg10) K := by
  simp only [cc2__as_fused_kernel_eq_skeleton]; unfold cc2__as_fused_kernel_skel
  simp only [k2_part1_eq_skeleton]
  unfold owns step2
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs0]
    try rfl
  isplitl [HS1]
  · iexists _; isplitr
    swap; · iexact HS1
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs1]
    try rfl
  iexists _; isplitr
  swap; · iexact HS2
  ipureintro
  refine (read_writes_unit_zero _ _ hz2r2 _ _ _).trans ?_
  sl_unfold_words
  simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs2]
  try rfl

set_option maxHeartbeats 2000000 in
/-- At a point whose reduction coordinate is the first: the accumulators, whatever they held, are reset and end at
    `step2 … zero2`; nothing else changes. -/
theorem run2_A (c : Dev nD) (i : grid2.Coords) (arg2 : Memref sig .tc .vmem S1024x1536 .f32) (harg2 : arg2.IsWhole) (arg3 : Memref sig .tc .vmem S1024x1536 .f32) (harg3 : arg3.IsWhole) (arg4 : Memref sig .tc .vmem S6144x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x1 .f32) (harg7 : arg7.IsWhole) (arg8 : Memref sig .tc .vmem S1024x16 .f32) (harg8 : arg8.IsWhole) (arg9 : Memref sig .tc .vmem S1024x16 .f32) (harg9 : arg9.IsWhole) (arg10 : Memref sig .tc .vmem S1024x1 .f32) (harg10 : arg10.IsWhole)
    (hc0 : cond2_0 i) (hc1 : ¬cond2_1 i)
    (x0 x1 : Vec F S1024x1536 .f32) (x2 : Vec F S6144x16 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg8 fullShare (step2 i x0 x1 x2 zero2).1
            ∗ owns (c : Thread nD τ) arg9 fullShare (step2 i x0 x1 x2 zero2).2.1
            ∗ owns (c : Thread nD τ) arg10 fullShare (step2 i x0 x1 x2 zero2).2.2) -∗ K ⟨⟩))
      ⊢ wp frame (wpE (defs₀ (F := F)) Variants.none c none) E (cc2__as_fused_kernel i arg2 harg2 arg3 harg3 arg4 harg4 arg5 harg5 arg6 harg6 arg7 harg7 arg8 harg8 arg9 harg9 arg10 harg10) K := by
  simp only [cc2__as_fused_kernel_eq_skeleton]; unfold cc2__as_fused_kernel_skel
  simp only [k2_part1_eq_skeleton]
  unfold owns step2 zero2
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2]
    try rfl
  isplitl [HS1]
  · iexists _; isplitr
    swap; · iexact HS1
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2]
    try rfl
  iexists _; isplitr
  swap; · iexact HS2
  ipureintro
  refine (read_writes_unit_zero _ _ hz2r2 _ _ _).trans ?_
  sl_unfold_words
  simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2]
  try rfl

set_option maxHeartbeats 2000000 in
/-- At a point whose reduction coordinate is the last: the accumulators go from `a` to `step2 … a`, and each
    output block, whatever it held, is stored whole from its accumulator. -/
theorem run2_C (c : Dev nD) (i : grid2.Coords) (arg2 : Memref sig .tc .vmem S1024x1536 .f32) (harg2 : arg2.IsWhole) (arg3 : Memref sig .tc .vmem S1024x1536 .f32) (harg3 : arg3.IsWhole) (arg4 : Memref sig .tc .vmem S6144x16 .f32) (harg4 : arg4.IsWhole) (arg5 : Memref sig .tc .vmem S1024x16 .f32) (harg5 : arg5.IsWhole) (arg6 : Memref sig .tc .vmem S1024x16 .f32) (harg6 : arg6.IsWhole) (arg7 : Memref sig .tc .vmem S1024x1 .f32) (harg7 : arg7.IsWhole) (arg8 : Memref sig .tc .vmem S1024x16 .f32) (harg8 : arg8.IsWhole) (arg9 : Memref sig .tc .vmem S1024x16 .f32) (harg9 : arg9.IsWhole) (arg10 : Memref sig .tc .vmem S1024x1 .f32) (harg10 : arg10.IsWhole)
    (hc0 : ¬cond2_0 i) (hc1 : cond2_1 i)
    (x0 x1 : Vec F S1024x1536 .f32) (x2 : Vec F S6144x16 .f32) (a : Acc2 F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare a.1 ∗ owns (c : Thread nD τ) arg9 fullShare a.2.1 ∗ owns (c : Thread nD τ) arg10 fullShare a.2.2
        ∗ (iprop(owns (c : Thread nD τ) arg2 fullShare x0 ∗ owns (c : Thread nD τ) arg3 fullShare x1 ∗ owns (c : Thread nD τ) arg4 fullShare x2
            ∗ owns (c : Thread nD τ) arg5 fullShare (step2 i x0 x1 x2 a).1
            ∗ owns (c : Thread nD τ) arg6 fullShare (step2 i x0 x1 x2 a).2.1
            ∗ owns (c : Thread nD τ) arg7 fullShare (step2 i x0 x1 x2 a).2.2
            ∗ owns (c : Thread nD τ) arg8 fullShare (step2 i x0 x1 x2 a).1
            ∗ owns (c : Thread nD τ) arg9 fullShare (step2 i x0 x1 x2 a).2.1
            ∗ owns (c : Thread nD τ) arg10 fullShare (step2 i x0 x1 x2 a).2.2) -∗ K ⟨⟩))
      ⊢ wp frame (wpE (defs₀ (F := F)) Variants.none c none) E (cc2__as_fused_kernel i arg2 harg2 arg3 harg3 arg4 harg4 arg5 harg5 arg6 harg6 arg7 harg7 arg8 harg8 arg9 harg9 arg10 harg10) K := by
  simp only [cc2__as_fused_kernel_eq_skeleton]; unfold cc2__as_fused_kernel_skel
  simp only [k2_part1_eq_skeleton]
  unfold owns step2
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs0]
    try rfl
  isplitl [H4]
  · iexists _; isplitr
    swap; · iexact H4
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs1]
    try rfl
  isplitl [H5]
  · iexists _; isplitr
    swap; · iexact H5
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs2]
    try rfl
  isplitl [HS0]
  · iexists _; isplitr
    swap; · iexact HS0
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs0]
    try rfl
  isplitl [HS1]
  · iexists _; isplitr
    swap; · iexact HS1
    ipureintro
    refine (read_writes_unit_zero _ _ hz2r2 _ _ _).trans ?_
    sl_unfold_words
    simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs1]
    try rfl
  iexists _; isplitr
  swap; · iexact HS2
  ipureintro
  refine (read_writes_unit_zero _ _ hz2r2 _ _ _).trans ?_
  sl_unfold_words
  simp only [View.readAt_eq_ld, View.ld_unit_zero (S := S1024x1536) hz2r2, View.ld_unit_zero (S := S1024x16) hz2r2, View.ld_unit_zero (S := S1024x1) hz2r2, View.readCov_unit_zero (S := S1024x16) _ hz2r2, View.readCov_unit_zero (S := S1024x1) _ hz2r2, hfs2]
  try rfl

end Cert.Kernel.Hand
end
-- ==== Proof.WRegion2.lean ====
/- REGION 2 of @main (the fused pass producing the two products and the row sums), at the contents `V` the region is
   entered with: the windows' blocks, the accumulation point by point (`accAt`: the three accumulators after the body at
   each point, by recursion on the point through `step2`, restarted from zeros wherever the reduction coordinate is 0),
   the region invariant (before the first point the class's; afterwards the three scratch buffers owned at `accAt` of the
   point before), the proof data `dat2`, its body obligation and the two entailments with the class invariant.
   Generic in the float model. -/
import proofs.«141308_j26388279066709_2_alg».proof.Proof.WRegion2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The staging and scratch memrefs -/

abbrev ms2_0 (t : Fin cfg2.N) : Memref sig .tc .vmem S1024x1536 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1536 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S6144x16 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x16 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x16 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x1 .f32 := win2_5.stage (cfg2.slots t 5)
abbrev hs2_5 (t : Fin cfg2.N) : (ms2_5 t).IsWhole := hstage2_5 ((cfg2.slots t 5).cast nbuf2_5)
abbrev scM2_0 : Memref sig .tc .vmem S1024x16 .f32 := Memref.whole cc2_scratch0
abbrev scM2_1 : Memref sig .tc .vmem S1024x16 .f32 := Memref.whole cc2_scratch1
abbrev scM2_2 : Memref sig .tc .vmem S1024x1 .f32 := Memref.whole cc2_scratch2

/-! ## The class invariant, with the three scratch buffers named -/

theorem sep_assoc_eq (X Y Z : sProp 𝕄) : iprop((X ∗ Y) ∗ Z) = iprop(X ∗ Y ∗ Z) :=
  BI.Entails.antisymm
    (show iprop((X ∗ Y) ∗ Z) ⊢ iprop(X ∗ Y ∗ Z) from by
      iintro ⟨⟨H1, H2⟩, H3⟩; isplitl [H1]; · iexact H1
      isplitl [H2]; · iexact H2
      iexact H3)
    (show iprop(X ∗ Y ∗ Z) ⊢ iprop((X ∗ Y) ∗ Z) from by
      iintro ⟨H1, H2, H3⟩; isplitr [H3]
      · isplitl [H1]; · iexact H1
        iexact H2
      iexact H3)

/-- The core's scoped buffers that are neither staging buffers nor scratch of this call, each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

/-- The class invariant as: the other scoped buffers, the three scratch buffers each owned at some contents, and the
    generator register at some state. -/
theorem PhiA2_eq (c : Dev nD) :
    (Pipeline.ΦA spec2 c : sProp 𝕄)
      = iprop(iprop(rest2 (F := F) c ∗ (∃ d, owns (c : Thread nD τ) scM2_0 fullShare d) ∗ (∃ d, owns (c : Thread nD τ) scM2_1 fullShare d) ∗ (∃ d, owns (c : Thread nD τ) scM2_2 fullShare d)) ∗ (∃ r, prngReg c r)) := by
  unfold Pipeline.ΦA rest2; rw [scopedRest2_eq]; simp only [scM2_0, scM2_1, scM2_2, owns_whole, sep_assoc_eq]; rfl

/-! ## The accumulation, point by point -/

/-- THE ACCUMULATION. What the three scratch accumulators hold after the body at position `n`: one step (`step2`) at the
    point's blocks over zeros where the reduction coordinate is 0, over what the point before left elsewhere. -/
def accAt (c : Dev nD) : (n : ℕ) → n < cfg2.N → Acc2 F
  | 0, hn => step2 (grid2.coords ⟨0, hn⟩) (iblk2 V c 0 ⟨0, hn⟩) (iblk2 V c 1 ⟨0, hn⟩) (iblk2 V c 2 ⟨0, hn⟩) zero2
  | n + 1, hn => step2 (grid2.coords ⟨n + 1, hn⟩) (iblk2 V c 0 ⟨n + 1, hn⟩) (iblk2 V c 1 ⟨n + 1, hn⟩) (iblk2 V c 2 ⟨n + 1, hn⟩)
      (if (n + 1) % 4 = 0 then zero2 else accAt c n (Nat.lt_of_succ_lt hn))

/-- At a point whose reduction coordinate is 0: a step over zeros. -/
theorem accAt_reset (c : Dev nD) (t : Fin cfg2.N) (h : t.val % 4 = 0) :
    accAt V c t.val t.isLt = step2 (grid2.coords t) (iblk2 V c 0 t) (iblk2 V c 1 t) (iblk2 V c 2 t) zero2 := by
  obtain ⟨n, hn⟩ := t
  cases n with
  | zero => rfl
  | succ n =>
    show step2 _ _ _ _ (if (n + 1) % 4 = 0 then zero2 else accAt V c n (Nat.lt_of_succ_lt hn)) = _
    rw [if_pos h]

/-- Elsewhere: a step over what the point before left. -/
theorem accAt_acc (c : Dev nD) (t : Fin cfg2.N) (h : ¬t.val % 4 = 0) :
    accAt V c t.val t.isLt = step2 (grid2.coords t) (iblk2 V c 0 t) (iblk2 V c 1 t) (iblk2 V c 2 t)
      (accAt V c (t.val - 1) (Nat.lt_of_le_of_lt (Nat.sub_le _ _) t.isLt)) := by
  obtain ⟨n, hn⟩ := t
  cases n with
  | zero => exact absurd (Nat.zero_mod _) h
  | succ n =>
    show step2 _ _ _ _ (if (n + 1) % 4 = 0 then zero2 else accAt V c n (Nat.lt_of_succ_lt hn)) = _
    rw [if_neg h]; rfl

/-! ## The region invariant -/

/-- Before position `n`: before the first point the class's invariant; afterwards the three scratch buffers owned at
    what the point before left in them, beside the other scoped buffers and the generator register. -/
def PhiS2 (c : Dev nD) : (n : ℕ) → n ≤ cfg2.N → sProp 𝕄
  | 0, _ => Pipeline.ΦA spec2 c
  | n + 1, hn => iprop(iprop(rest2 (F := F) c ∗ owns (c : Thread nD τ) scM2_0 fullShare (accAt V c n hn).1 ∗ owns (c : Thread nD τ) scM2_1 fullShare (accAt V c n hn).2.1 ∗ owns (c : Thread nD τ) scM2_2 fullShare (accAt V c n hn).2.2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(rest2 (F := F) c ∗ owns (c : Thread nD τ) scM2_0 fullShare (accAt V c n hn).1 ∗ owns (c : Thread nD τ) scM2_1 fullShare (accAt V c n hn).2.1 ∗ owns (c : Thread nD τ) scM2_2 fullShare (accAt V c n hn).2.2) ∗ (∃ r, prngReg c r)) := rfl

theorem PhiS2_pos (c : Dev nD) (n : ℕ) (h : n ≤ cfg2.N) (hz : n ≠ 0) :
    PhiS2 V c n h = iprop(iprop(rest2 (F := F) c ∗ owns (c : Thread nD τ) scM2_0 fullShare (accAt V c (n - 1) (by omega)).1 ∗ owns (c : Thread nD τ) scM2_1 fullShare (accAt V c (n - 1) (by omega)).2.1 ∗ owns (c : Thread nD τ) scM2_2 fullShare (accAt V c (n - 1) (by omega)).2.2) ∗ (∃ r, prngReg c r)) := by
  cases n with
  | zero => exact absurd rfl hz
  | succ n => rfl

/-! ## The proof data -/

/-- The proof data of the region on core `c`: the arrays as the region finds them; after the body at point `t` each
    input's buffer at its block and each output's at its accumulator (`accAt`; consulted only where the block is written
    back, at the points whose reduction coordinate is 3); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (accAt V c t.val t.isLt).1
    | ⟨4, _⟩ => (accAt V c t.val t.isLt).2.1
    | ⟨5, _⟩ => (accAt V c t.val t.isLt).2.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (accAt V c t.val t.isLt).1 := by dsimp only [dat2]
theorem after2_4 (c : Dev nD) (t : Fin cfg2.N) : (dat2 V c).after 4 t = (accAt V c t.val t.isLt).2.1 := by dsimp only [dat2]
theorem after2_5 (c : Dev nD) (t : Fin cfg2.N) : (dat2 V c).after 5 t = (accAt V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- The inputs' arrays are as the region found them, throughout. -/
theorem kept2 (c : Dev nD) (w : Fin cfg2.W) (hw : w.val < 3) : (dat2 V c).arrAt w cfg2.N = V c (Pipeline.arrRef spec2 w) :=
  match w, hw with
  | ⟨0, _⟩, _ => ((dat2 V c).arrAt_in 0 rfl _).trans (A_eq2 V c 0)
  | ⟨1, _⟩, _ => ((dat2 V c).arrAt_in 1 rfl _).trans (A_eq2 V c 1)
  | ⟨2, _⟩, _ => ((dat2 V c).arrAt_in 2 rfl _).trans (A_eq2 V c 2)
  | ⟨n + 3, _⟩, h => absurd h (by simp)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in; the
    invariant hands the body the three scratch buffers at what the point before left (at anything at the first point) and
    takes them back at this point's accumulators; an output block is left untouched except where the reduction
    coordinate is 3, where it is stored from its accumulator; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 24 := lt_of_lt_of_eq t.isLt (show cfg2.N = 24 from N_2)
  by_cases h0 : t.val % 4 = 0
  · have h3 : ¬t.val % 4 = 3 := by omega
    have hc0 : cond2_0 (grid2.coords t) := (hcond2_0 t).mpr h0
    have hc1 : ¬cond2_1 (grid2.coords t) := fun h => h3 ((hcond2_1 t).mp h)
    rw [Dat.leavesExact_idle (dat2 V c) 3 t (idleAt2_3 t hc1) (noFlush2_3 t hc1), Dat.leavesExact_idle (dat2 V c) 4 t (idleAt2_4 t hc1) (noFlush2_4 t hc1), Dat.leavesExact_idle (dat2 V c) 5 t (idleAt2_5 t hc1) (noFlush2_5 t hc1)]
    rw [accAt_reset V c t h0]
    by_cases hz : t.val = 0
    · rw [PhiS2_castSucc V c t, PhiS2_zero V c _ _ hz, PhiA2_eq]
      iintro ⟨⟨⟨HR, HS0, HS1, HS2⟩, Hg⟩, Ho, ⟨%d0, H0⟩, ⟨%d1, H1⟩, ⟨%d2, H2⟩, H3, H4, H5⟩
      iapply (run2_A c (grid2.coords t) _ _ _ _ _ _ _ _ _ _ _ _ _ _ _ _ _ _ hc0 hc1 (iblk2 V c 0 t) (iblk2 V c 1 t) (iblk2 V c 2 t) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS2_castSucc V c t, PhiS2_pos V c _ _ hz]
      iintro ⟨⟨⟨HR, HS0, HS1, HS2⟩, Hg⟩, Ho, ⟨%d0, H0⟩, ⟨%d1, H1⟩, ⟨%d2, H2⟩, H3, H4, H5⟩
      iapply (run2_A c (grid2.coords t) _ _ _ _ _ _ _ _ _ _ _ _ _ _ _ _ _ _ hc0 hc1 (iblk2 V c 0 t) (iblk2 V c 1 t) (iblk2 V c 2 t) Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
  · have hc0 : ¬cond2_0 (grid2.coords t) := fun h => h0 ((hcond2_0 t).mp h)
    have hz : t.val ≠ 0 := fun e => h0 (by rw [e])
    rw [accAt_acc V c t h0]
    rw [PhiS2_castSucc V c t, PhiS2_pos V c _ _ hz]
    by_cases h3 : t.val % 4 = 3
    · have hc1 : cond2_1 (grid2.coords t) := (hcond2_1 t).mpr h3
      rw [show (dat2 V c).leavesExact 3 t = owns (c : Thread nD τ) (ms2_3 t) fullShare ((dat2 V c).after 3 t) from by
        unfold Dat.leavesExact; rw [liveAt2_3 t hc1], after2_3]
      rw [show (dat2 V c).leavesExact 4 t = owns (c : Thread nD τ) (ms2_4 t) fullShare ((dat2 V c).after 4 t) from by
        unfold Dat.leavesExact; rw [liveAt2_4 t hc1], after2_4]
      rw [show (dat2 V c).leavesExact 5 t = owns (c : Thread nD τ) (ms2_5 t) fullShare ((dat2 V c).after 5 t) from by
        unfold Dat.leavesExact; rw [liveAt2_5 t hc1], after2_5]
      rw [accAt_acc V c t h0]
      iintro ⟨⟨⟨HR, HS0, HS1, HS2⟩, Hg⟩, Ho, ⟨%d0, H0⟩, ⟨%d1, H1⟩, ⟨%d2, H2⟩, ⟨%d3, H3⟩, ⟨%d4, H4⟩, ⟨%d5, H5⟩⟩
      iapply (run2_C c (grid2.coords t) _ _ _ _ _ _ _ _ _ _ _ _ _ _ _ _ _ _ hc0 hc1 (iblk2 V c 0 t) (iblk2 V c 1 t) (iblk2 V c 2 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h3 ((hcond2_1 t).mp h)
      rw [Dat.leavesExact_idle (dat2 V c) 3 t (idleAt2_3 t hc1) (noFlush2_3 t hc1), Dat.leavesExact_idle (dat2 V c) 4 t (idleAt2_4 t hc1) (noFlush2_4 t hc1), Dat.leavesExact_idle (dat2 V c) 5 t (idleAt2_5 t hc1) (noFlush2_5 t hc1)]
      iintro ⟨⟨⟨HR, HS0, HS1, HS2⟩, Hg⟩, Ho, ⟨%d0, H0⟩, ⟨%d1, H1⟩, ⟨%d2, H2⟩, H3, H4, H5⟩
      iapply (run2_B c (grid2.coords t) _ _ _ _ _ _ _ _ _ _ _ _ _ _ _ _ _ _ hc0 hc1 (iblk2 V c 0 t) (iblk2 V c 1 t) (iblk2 V c 2 t) (accAt V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- The same after the last point. -/
theorem hout2 (c : Dev nD) : (dat2 V c).Φ (Fin.last cfg2.N) ⊢ Pipeline.ΦA spec2 c :=
  Phi_out2 V c _ (by rw [Fin.val_last]; have : cfg2.N = 24 := N_2; omega)

end Cert.Kernel.Hand
end
-- ==== Proof.WRun.lean ====
/- The run of the main function as a whole, at any float model. The main function is fourteen items, eleven stretches of
   host operations and the three kernel regions, taken as segments one after another. The buffer contents at each
   boundary between two items are a fold from the launch memory: a host stretch applies its operations in order; a
   region leaves its windows' arrays at what its write-backs leave and every other buffer as it found it. Each region
   is entered at its boundary's contents, with its pipeline's proof data stated there; the run ends with every
   unscoped buffer of every core at the last boundary's contents. -/
import proofs.«141308_j26388279066709_2_alg».proof.Proof.WRegion0
import proofs.«141308_j26388279066709_2_alg».proof.Proof.WRegion1
import proofs.«141308_j26388279066709_2_alg».proof.Proof.WRegion2
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two items of the main function

The main function is fourteen items: eleven stretches of host operations and the three kernel regions. `WJ c` is what
core `c`'s buffers hold after the first `J` items: a host stretch applies its operations in order; a region leaves its
windows' arrays at what its write-backs leave and every other buffer as it found it. -/

/-- Core `c`'s buffers at launch. -/
abbrev W0 : Dev nD → Valuation τ sig (Elt F) := fun c b => (s₀ m ρ).mem ((c : Dev nD), b)
/-- After item 0, the host stretch `main_part0_ops0`. -/
abbrev W1 : Dev nD → Valuation τ sig (Elt F) := fun c => StableHlo.after main_part0_ops0 (W0 m ρ c)
/-- The contents region 0 is entered from, read at the TensorCore's references. -/
abbrev V1 : (c : Dev nD) → (b : Ref sig .tc) → Buf (Elt F) ((c : Thread nD τ).loc b) := fun c b => W1 m ρ c b
/-- After item 1, region 0: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After item 2, the host stretch `main_part0_ops1`. -/
abbrev W3 : Dev nD → Valuation τ sig (Elt F) := fun c => StableHlo.after main_part0_ops1 (W2 m ρ c)
/-- After item 3, the host stretch `main_part0_ops2`. -/
abbrev W4 : Dev nD → Valuation τ sig (Elt F) := fun c => StableHlo.after main_part0_ops2 (W3 m ρ c)
/-- After item 4, the host stretch `main_part0_ops3`. -/
abbrev W5 : Dev nD → Valuation τ sig (Elt F) := fun c => StableHlo.after main_part0_ops3 (W4 m ρ c)
/-- The contents region 1 is entered from, read at the TensorCore's references. -/
abbrev V5 : (c : Dev nD) → (b : Ref sig .tc) → Buf (Elt F) ((c : Thread nD τ).loc b) := fun c b => W5 m ρ c b
/-- After item 5, region 1: its windows' arrays at what the write-backs leave, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After item 6, the host stretch `main_part0_ops4`. -/
abbrev W7 : Dev nD → Valuation τ sig (Elt F) := fun c => StableHlo.after main_part0_ops4 (W6 m ρ c)
/-- After item 7, the host stretch `main_part0_ops5`. -/
abbrev W8 : Dev nD → Valuation τ sig (Elt F) := fun c => StableHlo.after main_part0_ops5 (W7 m ρ c)
/-- After item 8, the host stretch `main_part0_ops6`. -/
abbrev W9 : Dev nD → Valuation τ sig (Elt F) := fun c => StableHlo.after main_part0_ops6 (W8 m ρ c)
/-- The contents region 2 is entered from, read at the TensorCore's references. -/
abbrev V9 : (c : Dev nD) → (b : Ref sig .tc) → Buf (Elt F) ((c : Thread nD τ).loc b) := fun c b => W9 m ρ c b
/-- After item 9, region 2: its windows' arrays at what the write-backs leave, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- After item 10, the host stretch `main_part0_ops7`. -/
abbrev W11 : Dev nD → Valuation τ sig (Elt F) := fun c => StableHlo.after main_part0_ops7 (W10 m ρ c)
/-- After item 11, the host stretch `main_part1_ops0`. -/
abbrev W12 : Dev nD → Valuation τ sig (Elt F) := fun c => StableHlo.after main_part1_ops0 (W11 m ρ c)
/-- After item 12, the host stretch `main_part1_ops1`. -/
abbrev W13 : Dev nD → Valuation τ sig (Elt F) := fun c => StableHlo.after main_part1_ops1 (W12 m ρ c)
/-- After item 13, the host stretch `main_part1_ops2`. -/
abbrev W14 : Dev nD → Valuation τ sig (Elt F) := fun c => StableHlo.after main_part1_ops2 (W13 m ρ c)

/-! # The proof data of the three pipelines, each at its region's entry contents -/

/-- No pipeline has a prefetched table. -/
abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V9 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part0_ops4_fresh : (main_part0_ops4 : List (HloOp τ sig (Elt F))).Forall fun op => op.fresh = ∅ := by
  simp only [List.Forall]; repeat' constructor
theorem main_part0_ops5_fresh : (main_part0_ops5 : List (HloOp τ sig (Elt F))).Forall fun op => op.fresh = ∅ := by
  simp only [List.Forall]; repeat' constructor
theorem main_part0_ops6_fresh : (main_part0_ops6 : List (HloOp τ sig (Elt F))).Forall fun op => op.fresh = ∅ := by
  simp only [List.Forall]; repeat' constructor
theorem main_part0_ops7_fresh : (main_part0_ops7 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W14 m ρ c) ∗ ∃ r, prngReg c r)

/-! # The regions as segments -/

/-- The generator register, anything, and the scoped buffers no window stages make the class invariant of region 0, -/
theorem intoΦA0 (c : Dev nD) (B : sProp 𝕄) :
    iprop((∃ r, prngReg c r) ∗ B ∗ Pipeline.scopedRest spec0 c) ⊢ (Pipeline.ΦA spec0 c : sProp 𝕄) := by
  unfold Pipeline.ΦA
  iintro ⟨Hp, -, Hr⟩
  isplitl [Hr]; · iexact Hr
  iexact Hp
/-- and the class invariant gives them back. -/
theorem outofΦA0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

/-- The generator register, anything, and the scoped buffers no window stages make the class invariant of region 1, -/
theorem intoΦA1 (c : Dev nD) (B : sProp 𝕄) :
    iprop((∃ r, prngReg c r) ∗ B ∗ Pipeline.scopedRest spec1 c) ⊢ (Pipeline.ΦA spec1 c : sProp 𝕄) := by
  unfold Pipeline.ΦA
  iintro ⟨Hp, -, Hr⟩
  isplitl [Hr]; · iexact Hr
  iexact Hp
/-- and the class invariant gives them back. -/
theorem outofΦA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- The generator register, anything, and the scoped buffers no window stages make the class invariant of region 2, -/
theorem intoΦA2 (c : Dev nD) (B : sProp 𝕄) :
    iprop((∃ r, prngReg c r) ∗ B ∗ Pipeline.scopedRest spec2 c) ⊢ (Pipeline.ΦA spec2 c : sProp 𝕄) := by
  unfold Pipeline.ΦA
  iintro ⟨Hp, -, Hr⟩
  isplitl [Hr]; · iexact Hr
  iexact Hp
/-- and the class invariant gives them back. -/
theorem outofΦA2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

/-- The last item's thread state is the last thread state beside the core owing nothing. -/
theorem last_chain (c : Dev nD) :
    iprop(StableHlo.held (c : Thread nD τ) (Pipeline.ucRefs τ sig) (W14 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- Region 0: entered from every unscoped buffer at `W1`, left at `W2`. Its arrays are split out of the unscoped
    buffers and put back at the exit contents; the generator register and the scoped buffers enter the kernel's invariant
    and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (intoΦA0 c _).trans (hin0 (V1 m ρ) c)
  hout c := by
    rw [Pipeline.ownSems0_none]
    exact (hout0 (V1 m ρ) c).trans (outofΦA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W5`, left at `W6`. Its arrays are split out of the unscoped
    buffers and put back at the exit contents; the generator register and the scoped buffers enter the kernel's invariant
    and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (intoΦA1 c _).trans (hin1 (V5 m ρ) c)
  hout c := by
    rw [Pipeline.ownSems0_none]
    exact (hout1 (V5 m ρ) c).trans (outofΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W9`, left at `W10`. Its arrays are split out of the unscoped
    buffers and put back at the exit contents; the generator register and the scoped buffers enter the kernel's invariant
    and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (intoΦA2 c _).trans (hin2 (V9 m ρ) c)
  hout c := by
    rw [Pipeline.ownSems0_none]
    exact (hout2 (V9 m ρ) c).trans (outofΦA2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The main function as segments, and the run -/

abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .host (hseg main_part0_ops2 main_part0_ops2_sub main_part0_ops2_fresh (W3 m ρ)),
    .host (hseg main_part0_ops3 main_part0_ops3_sub main_part0_ops3_fresh (W4 m ρ)),
    .region (reg1 m ρ),
    .host (hseg main_part0_ops4 main_part0_ops4_sub main_part0_ops4_fresh (W6 m ρ)),
    .host (hseg main_part0_ops5 main_part0_ops5_sub main_part0_ops5_fresh (W7 m ρ)),
    .host (hseg main_part0_ops6 main_part0_ops6_sub main_part0_ops6_fresh (W8 m ρ)),
    .region (reg2 m ρ),
    .host (hseg main_part0_ops7 main_part0_ops7_sub main_part0_ops7_fresh (W10 m ρ)),
    .host (hseg main_part1_ops0 main_part1_ops0_sub main_part1_ops0_fresh (W11 m ρ)),
    .host (hseg main_part1_ops1 main_part1_ops1_sub main_part1_ops1_fresh (W12 m ρ)),
    .host (hseg main_part1_ops2 main_part1_ops2_sub main_part1_ops2_fresh (W13 m ρ)) ]

theorem main_run (c : Dev nD) : main (F := F) c = Pipeline.Seg.run (segs m ρ) := (main_chain_windows c).trans (by chain_rfl)

set_option backward.isDefEq.respectTransparency.types false in
/-- THE RUN: from any memory with zero counters every weakly fair execution of the main function on the TensorCores
    terminates, nothing faulting, and in every final state each unscoped buffer of each core holds what the fold
    through the fourteen items computes (`W14`). -/
theorem run : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.Kernel.Hand

end
-- ==== Proof.WRunFrame.lean ====
/- What the run leaves, read at the buffers the claim names. No host stretch and no region writes an argument array
   (a stretch writes only its operations' results, a region only its output windows' arrays), so each of the nine
   argument arrays ends as launched; and each result buffer ends at what the fold through the fourteen items
   computes. -/
import proofs.«141308_j26388279066709_2_alg».proof.Proof.WRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # No item writes an argument

Each host stretch writes only the references listed here (its operations' results); a region changes only its output
windows' arrays. So the fold `W14` at an argument's buffer walks back to the launch memory. -/

abbrev main_part0_ops0_W : List (Ref sig .tc) := [main_v0]
theorem main_part0_ops0_writes : (main_part0_ops0 : List (HloOp τ sig (Elt F))).Forall fun op => op.writes ⊆ ((main_part0_ops0_W).map (Proc.devRef (τ := τ) .tc)).toFinset := by
  simp only [List.Forall]
  repeat' apply And.intro
  all_goals exact Finset.singleton_subset_iff.mpr (List.mem_toFinset.mpr (List.mem_map_of_mem (by decide)))

abbrev main_part0_ops1_W : List (Ref sig .tc) := [main_v2, main_cst, main_v3, main_v4, main_cst_0, main_v5, main_v6, main_v7, main_cst_1]
theorem main_part0_ops1_writes : (main_part0_ops1 : List (HloOp τ sig (Elt F))).Forall fun op => op.writes ⊆ ((main_part0_ops1_W).map (Proc.devRef (τ := τ) .tc)).toFinset := by
  simp only [List.Forall]
  repeat' apply And.intro
  all_goals exact Finset.singleton_subset_iff.mpr (List.mem_toFinset.mpr (List.mem_map_of_mem (by decide)))

abbrev main_part0_ops2_W : List (Ref sig .tc) := [main_call0_v0, main_v8]
theorem main_part0_ops2_writes : (main_part0_ops2 : List (HloOp τ sig (Elt F))).Forall fun op => op.writes ⊆ ((main_part0_ops2_W).map (Proc.devRef (τ := τ) .tc)).toFinset := by
  simp only [List.Forall]
  repeat' apply And.intro
  all_goals exact Finset.singleton_subset_iff.mpr (List.mem_toFinset.mpr (List.mem_map_of_mem (by decide)))

abbrev main_part0_ops3_W : List (Ref sig .tc) := [main_v9, main_v10, main_v11, main_v12, main_v13]
theorem main_part0_ops3_writes : (main_part0_ops3 : List (HloOp τ sig (Elt F))).Forall fun op => op.writes ⊆ ((main_part0_ops3_W).map (Proc.devRef (τ := τ) .tc)).toFinset := by
  simp only [List.Forall]
  repeat' apply And.intro
  all_goals exact Finset.singleton_subset_iff.mpr (List.mem_toFinset.mpr (List.mem_map_of_mem (by decide)))

abbrev main_part0_ops4_W : List (Ref sig .tc) := [main_v15, main_v16, main_v17, main_v18]
theorem main_part0_ops4_writes : (main_part0_ops4 : List (HloOp τ sig (Elt F))).Forall fun op => op.writes ⊆ ((main_part0_ops4_W).map (Proc.devRef (τ := τ) .tc)).toFinset := by
  simp only [List.Forall]
  repeat' apply And.intro
  all_goals exact Finset.singleton_subset_iff.mpr (List.mem_toFinset.mpr (List.mem_map_of_mem (by decide)))

abbrev main_part0_ops5_W : List (Ref sig .tc) := [main_call1_cst, main_call1_v0, main_v19]
theorem main_part0_ops5_writes : (main_part0_ops5 : List (HloOp τ sig (Elt F))).Forall fun op => op.writes ⊆ ((main_part0_ops5_W).map (Proc.devRef (τ := τ) .tc)).toFinset := by
  simp only [List.Forall]
  repeat' apply And.intro
  all_goals exact Finset.singleton_subset_iff.mpr (List.mem_toFinset.mpr (List.mem_map_of_mem (by decide)))

abbrev main_part0_ops6_W : List (Ref sig .tc) := [main_v20, main_v21, main_v22, main_v23, main_cst_2, main_v24, main_cst_3, main_v25, main_v26, main_v27, main_v28, main_v29, main_v30, main_cst_4, main_v31, main_v32, main_v33, main_v34]
theorem main_part0_ops6_writes : (main_part0_ops6 : List (HloOp τ sig (Elt F))).Forall fun op => op.writes ⊆ ((main_part0_ops6_W).map (Proc.devRef (τ := τ) .tc)).toFinset := by
  simp only [List.Forall]
  repeat' apply And.intro
  all_goals exact Finset.singleton_subset_iff.mpr (List.mem_toFinset.mpr (List.mem_map_of_mem (by decide)))

abbrev main_part0_ops7_W : List (Ref sig .tc) := [main_v36, main_v37, main_v38, main_v39, main_v40, main_v41, main_c, main_v42, main_v43, main_c_5, main_v44, main_v45, main_v46, main_c_6, main_v47, main_v48, main_c_7, main_v49]
theorem main_part0_ops7_writes : (main_part0_ops7 : List (HloOp τ sig (Elt F))).Forall fun op => op.writes ⊆ ((main_part0_ops7_W).map (Proc.devRef (τ := τ) .tc)).toFinset := by
  simp only [List.Forall]
  repeat' apply And.intro
  all_goals exact Finset.singleton_subset_iff.mpr (List.mem_toFinset.mpr (List.mem_map_of_mem (by decide)))

abbrev main_part1_ops0_W : List (Ref sig .tc) := [main_v50, main_v51, main_v52, main_v53, main_v54, main_cst_8, main_v55, main_v56, main_v57, main_v58, main_c_9, main_v59, main_v60, main_c_10, main_v61, main_v62, main_v63, main_c_11, main_v64, main_v65, main_c_12, main_v66, main_v67, main_v68, main_v69, main_v70, main_v71, main_cst_13, main_v72, main_v73, main_v74, main_cst_14, main_v75, main_v76, main_cst_15, main_v77, main_v78, main_cst_16, main_v79, main_cst_17, main_v80, main_v81, main_v82, main_v83, main_v84, main_v85, main_v86, main_c_18, main_v87, main_v88, main_v89, main_v90, main_v91]
theorem main_part1_ops0_writes : (main_part1_ops0 : List (HloOp τ sig (Elt F))).Forall fun op => op.writes ⊆ ((main_part1_ops0_W).map (Proc.devRef (τ := τ) .tc)).toFinset := by
  simp only [List.Forall]
  repeat' apply And.intro
  all_goals exact Finset.singleton_subset_iff.mpr (List.mem_toFinset.mpr (List.mem_map_of_mem (by decide)))

abbrev main_part1_ops1_W : List (Ref sig .tc) := [main_call2_v0, main_call2_cst, main_call2_v1, main_v92]
theorem main_part1_ops1_writes : (main_part1_ops1 : List (HloOp τ sig (Elt F))).Forall fun op => op.writes ⊆ ((main_part1_ops1_W).map (Proc.devRef (τ := τ) .tc)).toFinset := by
  simp only [List.Forall]
  repeat' apply And.intro
  all_goals exact Finset.singleton_subset_iff.mpr (List.mem_toFinset.mpr (List.mem_map_of_mem (by decide)))

abbrev main_part1_ops2_W : List (Ref sig .tc) := [main_cst_19, main_v93]
theorem main_part1_ops2_writes : (main_part1_ops2 : List (HloOp τ sig (Elt F))).Forall fun op => op.writes ⊆ ((main_part1_ops2_W).map (Proc.devRef (τ := τ) .tc)).toFinset := by
  simp only [List.Forall]
  repeat' apply And.intro
  all_goals exact Finset.singleton_subset_iff.mpr (List.mem_toFinset.mpr (List.mem_map_of_mem (by decide)))
theorem W1_of (c : Dev nD) (r : Ref sig .tc) (h : r ∉ main_part0_ops0_W) : W1 m ρ c (Proc.devRef .tc r) = W0 m ρ c (Proc.devRef .tc r) :=
  StableHlo.after_of_writes_sub main_part0_ops0 _ main_part0_ops0_writes h
theorem W3_of (c : Dev nD) (r : Ref sig .tc) (h : r ∉ main_part0_ops1_W) : W3 m ρ c (Proc.devRef .tc r) = W2 m ρ c (Proc.devRef .tc r) :=
  StableHlo.after_of_writes_sub main_part0_ops1 _ main_part0_ops1_writes h
theorem W4_of (c : Dev nD) (r : Ref sig .tc) (h : r ∉ main_part0_ops2_W) : W4 m ρ c (Proc.devRef .tc r) = W3 m ρ c (Proc.devRef .tc r) :=
  StableHlo.after_of_writes_sub main_part0_ops2 _ main_part0_ops2_writes h
theorem W5_of (c : Dev nD) (r : Ref sig .tc) (h : r ∉ main_part0_ops3_W) : W5 m ρ c (Proc.devRef .tc r) = W4 m ρ c (Proc.devRef .tc r) :=
  StableHlo.after_of_writes_sub main_part0_ops3 _ main_part0_ops3_writes h
theorem W7_of (c : Dev nD) (r : Ref sig .tc) (h : r ∉ main_part0_ops4_W) : W7 m ρ c (Proc.devRef .tc r) = W6 m ρ c (Proc.devRef .tc r) :=
  StableHlo.after_of_writes_sub main_part0_ops4 _ main_part0_ops4_writes h
theorem W8_of (c : Dev nD) (r : Ref sig .tc) (h : r ∉ main_part0_ops5_W) : W8 m ρ c (Proc.devRef .tc r) = W7 m ρ c (Proc.devRef .tc r) :=
  StableHlo.after_of_writes_sub main_part0_ops5 _ main_part0_ops5_writes h
theorem W9_of (c : Dev nD) (r : Ref sig .tc) (h : r ∉ main_part0_ops6_W) : W9 m ρ c (Proc.devRef .tc r) = W8 m ρ c (Proc.devRef .tc r) :=
  StableHlo.after_of_writes_sub main_part0_ops6 _ main_part0_ops6_writes h
theorem W11_of (c : Dev nD) (r : Ref sig .tc) (h : r ∉ main_part0_ops7_W) : W11 m ρ c (Proc.devRef .tc r) = W10 m ρ c (Proc.devRef .tc r) :=
  StableHlo.after_of_writes_sub main_part0_ops7 _ main_part0_ops7_writes h
theorem W12_of (c : Dev nD) (r : Ref sig .tc) (h : r ∉ main_part1_ops0_W) : W12 m ρ c (Proc.devRef .tc r) = W11 m ρ c (Proc.devRef .tc r) :=
  StableHlo.after_of_writes_sub main_part1_ops0 _ main_part1_ops0_writes h
theorem W13_of (c : Dev nD) (r : Ref sig .tc) (h : r ∉ main_part1_ops1_W) : W13 m ρ c (Proc.devRef .tc r) = W12 m ρ c (Proc.devRef .tc r) :=
  StableHlo.after_of_writes_sub main_part1_ops1 _ main_part1_ops1_writes h
theorem W14_of (c : Dev nD) (r : Ref sig .tc) (h : r ∉ main_part1_ops2_W) : W14 m ρ c (Proc.devRef .tc r) = W13 m ρ c (Proc.devRef .tc r) :=
  StableHlo.after_of_writes_sub main_part1_ops2 _ main_part1_ops2_writes h

/-- `main_arg0` ends as launched. -/
theorem W14_main_arg0 (c : Dev nD) : W14 m ρ c (Proc.devRef .tc main_arg0) = m ((c : Thread nD τ).loc main_arg0) :=
  calc W14 m ρ c (Proc.devRef .tc main_arg0)
    _ = W13 m ρ c (Proc.devRef .tc main_arg0) := W14_of m ρ c main_arg0 (by decide)
    _ = W12 m ρ c (Proc.devRef .tc main_arg0) := W13_of m ρ c main_arg0 (by decide)
    _ = W11 m ρ c (Proc.devRef .tc main_arg0) := W12_of m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- `main_arg1` ends as launched. -/
theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := W14_of m ρ c main_arg1 (by decide)
    _ = W12 m ρ c (Proc.devRef .tc main_arg1) := W13_of m ρ c main_arg1 (by decide)
    _ = W11 m ρ c (Proc.devRef .tc main_arg1) := W12_of m ρ c main_arg1 (by decide)
    _ = W10 m ρ c (Proc.devRef .tc main_arg1) := W11_of m ρ c main_arg1 (by decide)
    _ = W9 m ρ c (Proc.devRef .tc main_arg1) := (W10_arr m ρ c 1).trans (((dat2 (V9 m ρ) c).arrAt_in 1 rfl _).trans (A_eq2 (V9 m ρ) c 1))
    _ = W8 m ρ c (Proc.devRef .tc main_arg1) := W9_of m ρ c main_arg1 (by decide)
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- `main_arg2` ends as launched. -/
theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of m ρ c main_arg2 (by decide)
    _ = W12 m ρ c (Proc.devRef .tc main_arg2) := W13_of m ρ c main_arg2 (by decide)
    _ = W11 m ρ c (Proc.devRef .tc main_arg2) := W12_of m ρ c main_arg2 (by decide)
    _ = W10 m ρ c (Proc.devRef .tc main_arg2) := W11_of m ρ c main_arg2 (by decide)
    _ = W9 m ρ c (Proc.devRef .tc main_arg2) := (W10_arr m ρ c 0).trans (((dat2 (V9 m ρ) c).arrAt_in 0 rfl _).trans (A_eq2 (V9 m ρ) c 0))
    _ = W8 m ρ c (Proc.devRef .tc main_arg2) := W9_of m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := (W6_arr m ρ c 0).trans (((dat1 (V5 m ρ) c).arrAt_in 0 rfl _).trans (A_eq1 (V5 m ρ) c 0))
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := W1_of m ρ c main_arg2 (by decide)
    _ = m ((c : Thread nD τ).loc main_arg2) := rfl

/-- `main_arg3` ends as launched. -/
theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := W14_of m ρ c main_arg3 (by decide)
    _ = W12 m ρ c (Proc.devRef .tc main_arg3) := W13_of m ρ c main_arg3 (by decide)
    _ = W11 m ρ c (Proc.devRef .tc main_arg3) := W12_of m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- `main_arg4` ends as launched. -/
theorem W14_main_arg4 (c : Dev nD) : W14 m ρ c (Proc.devRef .tc main_arg4) = m ((c : Thread nD τ).loc main_arg4) :=
  calc W14 m ρ c (Proc.devRef .tc main_arg4)
    _ = W13 m ρ c (Proc.devRef .tc main_arg4) := W14_of m ρ c main_arg4 (by decide)
    _ = W12 m ρ c (Proc.devRef .tc main_arg4) := W13_of m ρ c main_arg4 (by decide)
    _ = W11 m ρ c (Proc.devRef .tc main_arg4) := W12_of m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- `main_arg5` ends as launched. -/
theorem W14_main_arg5 (c : Dev nD) : W14 m ρ c (Proc.devRef .tc main_arg5) = m ((c : Thread nD τ).loc main_arg5) :=
  calc W14 m ρ c (Proc.devRef .tc main_arg5)
    _ = W13 m ρ c (Proc.devRef .tc main_arg5) := W14_of m ρ c main_arg5 (by decide)
    _ = W12 m ρ c (Proc.devRef .tc main_arg5) := W13_of m ρ c main_arg5 (by decide)
    _ = W11 m ρ c (Proc.devRef .tc main_arg5) := W12_of m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- `main_arg6` ends as launched. -/
theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := W14_of m ρ c main_arg6 (by decide)
    _ = W12 m ρ c (Proc.devRef .tc main_arg6) := W13_of m ρ c main_arg6 (by decide)
    _ = W11 m ρ c (Proc.devRef .tc main_arg6) := W12_of m ρ c main_arg6 (by decide)
    _ = W10 m ρ c (Proc.devRef .tc main_arg6) := W11_of m ρ c main_arg6 (by decide)
    _ = W9 m ρ c (Proc.devRef .tc main_arg6) := W10_of_ne m ρ c main_arg6 (by decide)
    _ = W8 m ρ c (Proc.devRef .tc main_arg6) := W9_of m ρ c main_arg6 (by decide)
    _ = W7 m ρ c (Proc.devRef .tc main_arg6) := W8_of m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- `main_arg7` ends as launched. -/
theorem W14_main_arg7 (c : Dev nD) : W14 m ρ c (Proc.devRef .tc main_arg7) = m ((c : Thread nD τ).loc main_arg7) :=
  calc W14 m ρ c (Proc.devRef .tc main_arg7)
    _ = W13 m ρ c (Proc.devRef .tc main_arg7) := W14_of m ρ c main_arg7 (by decide)
    _ = W12 m ρ c (Proc.devRef .tc main_arg7) := W13_of m ρ c main_arg7 (by decide)
    _ = W11 m ρ c (Proc.devRef .tc main_arg7) := W12_of m ρ c main_arg7 (by decide)
    _ = W10 m ρ c (Proc.devRef .tc main_arg7) := W11_of m ρ c main_arg7 (by decide)
    _ = W9 m ρ c (Proc.devRef .tc main_arg7) := W10_of_ne m ρ c main_arg7 (by decide)
    _ = W8 m ρ c (Proc.devRef .tc main_arg7) := W9_of m ρ c main_arg7 (by decide)
    _ = W7 m ρ c (Proc.devRef .tc main_arg7) := W8_of m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- `main_arg8` ends as launched. -/
theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := W14_of m ρ c main_arg8 (by decide)
    _ = W12 m ρ c (Proc.devRef .tc main_arg8) := W13_of m ρ c main_arg8 (by decide)
    _ = W11 m ρ c (Proc.devRef .tc main_arg8) := W12_of m ρ c main_arg8 (by decide)
    _ = W10 m ρ c (Proc.devRef .tc main_arg8) := W11_of m ρ c main_arg8 (by decide)
    _ = W9 m ρ c (Proc.devRef .tc main_arg8) := W10_of_ne m ρ c main_arg8 (by decide)
    _ = W8 m ρ c (Proc.devRef .tc main_arg8) := W9_of m ρ c main_arg8 (by decide)
    _ = W7 m ρ c (Proc.devRef .tc main_arg8) := W8_of m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! # The frame, and the run with the results named -/

/-- THE FRAME at any `F`: every weakly fair execution terminates, nothing faulting, and the nine argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c)⟩) (run m ρ)

/-- The run with each result buffer at what the fold through the fourteen items computes, and the arguments as launched. -/
theorem run_results : θ_run defs (onTc (τ := τ) (main (F := F))) ⟨m, fun _ => 0, ρ⟩ (fun r => ∀ c : Dev nD,
      r.2.mem ((c.tc : Thread nD τ).loc main_v38) = W14 m ρ c (Proc.devRef .tc main_v38)
      ∧ r.2.mem ((c.tc : Thread nD τ).loc main_v56) = W14 m ρ c (Proc.devRef .tc main_v56)
      ∧ r.2.mem ((c.tc : Thread nD τ).loc main_v73) = W14 m ρ c (Proc.devRef .tc main_v73)
      ∧ r.2.mem ((c.tc : Thread nD τ).loc main_v34) = W14 m ρ c (Proc.devRef .tc main_v34)
      ∧ r.2.mem ((c.tc : Thread nD τ).loc main_v82) = W14 m ρ c (Proc.devRef .tc main_v82)
      ∧ r.2.mem ((c.tc : Thread nD τ).loc main_v93) = W14 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v38 (by decide)), h c _ (mem_uc main_v56 (by decide)), h c _ (mem_uc main_v73 (by decide)), h c _ (mem_uc main_v34 (by decide)), h c _ (mem_uc main_v82 (by decide)), h c _ (mem_uc main_v93 (by decide)),
    (h c _ (mem_uc main_arg0 (by decide))).trans (W14_main_arg0 m ρ c),
    (h c _ (mem_uc main_arg1 (by decide))).trans (W14_main_arg1 m ρ c),
    (h c _ (mem_uc main_arg2 (by decide))).trans (W14_main_arg2 m ρ c),
    (h c _ (mem_uc main_arg3 (by decide))).trans (W14_main_arg3 m ρ c),
    (h c _ (mem_uc main_arg4 (by decide))).trans (W14_main_arg4 m ρ c),
    (h c _ (mem_uc main_arg5 (by decide))).trans (W14_main_arg5 m ρ c),
    (h c _ (mem_uc main_arg6 (by decide))).trans (W14_main_arg6 m ρ c),
    (h c _ (mem_uc main_arg7 (by decide))).trans (W14_main_arg7 m ρ c),
    (h c _ (mem_uc main_arg8 (by decide))).trans (W14_main_arg8 m ρ c)⟩) (run m ρ)

end Cert.Kernel.Hand

end
-- ==== Proof.Region0Value.lean ====
/- REGION 0's VALUE at the ideal values: what the column-sum kernel's pipeline leaves in its output array, index by index,
   from the accumulation its scratch carries from point to point — the payloads at an index, the input window's blocks as entries of the array,
   the accumulator in closed form by induction on the point, the six written-back blocks and their cover. -/
import proofs.«141308_j26388279066709_2_alg».proof.Proof.Region0
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.HandValue

open Cert.KernelIdeal Cert.KernelIdeal.Gen

namespace R0

/-! ## The payloads at an index -/

/-- The zero fill is zero everywhere. -/
theorem pay1_apply (u : Fin 1) (q : Fin 1024) : (k0_pay1 (F := Ideal)) (ix2 u q) = 0 := by
  unfold k0_pay1
  rw [shapeCast_self]
  exact Ideal.ofBits_zero_f32

/-- The reduction payload at a column: what the accumulator held there plus the sum of the block's column. -/
theorem pay2_apply (v3 : FVec Ideal S1024x1024 .f32) (v4 : FVec Ideal S1x1024 .f32) (u : Fin 1) (q : Fin 1024) :
    k0_pay2 v3 v4 (ix2 u q) = v4 (ix2 u q) + ∑ r : Fin 1024, v3 (ix2 r q) := by
  unfold k0_pay2
  rw [shapeCast_self]
  show v4 (ix2 u q) + shapeCast S1x1024 _ shapeCasts_S1024_S1x1024 (ix2 u q) = _
  rw [shapeCast_a_1a_apply]
  refine congrArg (v4 (ix2 u q) + ·) ?_
  refine (Ideal.multiReduction_add_single v3 _ reduces_S1024x1024_S1024 _ _ (ix1 q)).trans ?_
  refine Finset.sum_congr rfl fun k _ => congrArg v3 (funext fun a => Fin.ext ?_)
  match a with
  | ⟨0, _⟩ => rfl
  | ⟨1, _⟩ => rfl

variable (V : (c : Dev nD) → (b : Ref sig .tc) → Buf (Elt Ideal) ((c : Thread nD τ).loc b))

/-! ## Six row blocks of 1024 rows are the 6144 rows -/

/-- A sum over 6144 naturals, taken in six runs of 1024. -/
theorem sum_blocks (f : ℕ → EReal) :
    ∑ k ∈ Finset.range 6, ∑ r : Fin 1024, f (1024 * k + r.val) = ∑ r : Fin 6144, f r.val := by
  rw [← Fin.sum_univ_eq_sum_range (fun k => ∑ r : Fin 1024, f (1024 * k + r.val)) 6]
  rw [← Fintype.sum_prod_type' (f := fun (k : Fin 6) (r : Fin 1024) => f (1024 * k.val + r.val))]
  have e := Equiv.sum_comp (finProdFinEquiv (m := 6) (n := 1024)) (fun r : Fin (6 * 1024) => f r.val)
  refine Eq.trans ?_ e
  refine Finset.sum_congr rfl fun p _ => congrArg f ?_
  show 1024 * p.1.val + p.2.val = p.2.val + 1024 * p.1.val
  omega

/-! ## The input window's blocks, as entries of the array -/

/-- The input window's block index at a point: the reduction coordinate on the rows, the column block on the columns;
    the output window's: the column block. Decided over the grid. -/
theorem idx_facts : ∀ t : Fin cfg0.N, win0_0.index t (0 : Fin 2) = t.val % 6 ∧ win0_0.index t (1 : Fin 2) = t.val / 6
    ∧ win0_1.index t (0 : Fin 2) = 0 ∧ win0_1.index t (1 : Fin 2) = t.val / 6 :=
  (by decide +kernel : ∀ t : Fin grid0.N, _)

/-- The array the input window stages, as the region finds it, as a function of its index. -/
abbrev Arr (c : Dev nD) : S6144x6144.Idx → EReal := V c main_arg2

/-- The input window's block at a point, as a vector. -/
abbrev blk (c : Dev nD) (t : Fin cfg0.N) : FVec Ideal S1024x1024 .f32 := Hand.iblk0 V c 0 t

/-- The array read at natural coordinates (zero outside its extents). -/
def Aext (c : Dev nD) (r q : ℕ) : EReal :=
  if h : r < 6144 ∧ q < 6144 then Arr V c (ix2 (⟨r, h.1⟩ : Fin 6144) (⟨q, h.2⟩ : Fin 6144)) else 0

/-- Inside its extents that is the array's entry. -/
theorem Aext_eq (c : Dev nD) (r : Fin 6144) (q : ℕ) (hq : q < 6144) :
    Aext V c r.val q = Arr V c (ix2 r (⟨q, hq⟩ : Fin 6144)) := by
  unfold Aext
  rw [dif_pos ⟨r.isLt, hq⟩]

/-- The input block at point `t`, at row `r` and column `q` of the block, is the array's entry at row
    `1024 (t mod 6) + r` and column `1024 (t div 6) + q`. -/
theorem iblk_apply (c : Dev nD) (t : Fin cfg0.N) (r q : Fin 1024) :
    blk V c t (ix2 r q) = Aext V c (1024 * (t.val % 6) + r.val) (1024 * (t.val / 6) + q.val) := by
  have hN : t.val < 36 := lt_of_lt_of_eq t.isLt (show cfg0.N = 36 from N_0)
  obtain ⟨e0, e1, -, -⟩ := idx_facts t
  have hr : 1024 * (t.val % 6) + r.val < 6144 ∧ 1024 * (t.val / 6) + q.val < 6144 := by
    have := r.isLt; have := q.isLt; omega
  unfold Aext
  rw [dif_pos hr]
  unfold blk Hand.iblk0
  rw [View.read_apply]
  show Arr V c _ = Arr V c _
  congr 1
  funext a
  apply Fin.ext
  match a with
  | ⟨0, _⟩ => show win0_0.index t (0 : Fin 2) * 1024 + 1 * r.val = 1024 * (t.val % 6) + r.val; rw [e0]; omega
  | ⟨1, _⟩ => show win0_0.index t (1 : Fin 2) * 1024 + 1 * q.val = 1024 * (t.val / 6) + q.val; rw [e1]; omega

/-! ## The accumulation in closed form -/

/-- At a point whose reduction coordinate is zero the accumulator is left, at each column, at the sum of the column of
    the point's block. -/
theorem acc_step_A (c : Dev nD) (t : Fin cfg0.N) (h0 : t.val % 6 = 0) (u : Fin 1) (q : Fin 1024) :
    Hand.acc0 V c t.val t.isLt (ix2 u q)
      = ∑ r : Fin 1024, Aext V c (1024 * (t.val % 6) + r.val) (1024 * (t.val / 6) + q.val) := by
  rw [Hand.acc0_A V c t h0]
  refine (pay2_apply (blk V c t) (k0_pay1 (F := Ideal)) u q).trans ?_
  rw [pay1_apply, zero_add]
  exact Finset.sum_congr rfl fun r _ => iblk_apply V c t r q

/-- Elsewhere that sum is added onto what the point before left. -/
theorem acc_step_B (c : Dev nD) (t : Fin cfg0.N) (h0 : ¬t.val % 6 = 0) (u : Fin 1) (q : Fin 1024) :
    Hand.acc0 V c t.val t.isLt (ix2 u q)
      = Hand.acc0 V c (t.val - 1) (Nat.lt_of_le_of_lt (Nat.sub_le _ _) t.isLt) (ix2 u q)
        + ∑ r : Fin 1024, Aext V c (1024 * (t.val % 6) + r.val) (1024 * (t.val / 6) + q.val) := by
  rw [Hand.acc0_B V c t h0]
  refine (pay2_apply (blk V c t) (Hand.acc0 V c (t.val - 1) (Nat.lt_of_le_of_lt (Nat.sub_le _ _) t.isLt)) u q).trans ?_
  exact congrArg (Hand.acc0 V c (t.val - 1) (Nat.lt_of_le_of_lt (Nat.sub_le _ _) t.isLt) (ix2 u q) + ·)
    (Finset.sum_congr rfl fun r _ => iblk_apply V c t r q)

/-- After the body at position `n` the scratch accumulator holds, at each column, the sum of the array's column over the
    row blocks the reduction has passed since its coordinate was last zero. -/
theorem acc_closed (c : Dev nD) : ∀ (n : ℕ) (hn : n < cfg0.N) (u : Fin 1) (q : Fin 1024),
    Hand.acc0 V c n hn (ix2 u q)
      = ∑ k ∈ Finset.range (n % 6 + 1), ∑ r : Fin 1024, Aext V c (1024 * k + r.val) (1024 * (n / 6) + q.val) := by
  intro n
  induction n with
  | zero =>
    intro hn u q
    refine (acc_step_A V c ⟨0, hn⟩ (Nat.zero_mod _) u q).trans ?_
    show _ = ∑ k ∈ Finset.range 1, _
    rw [Finset.sum_range_one]
    rfl
  | succ n ih =>
    intro hn u q
    by_cases h0 : (n + 1) % 6 = 0
    · refine (acc_step_A V c ⟨n + 1, hn⟩ h0 u q).trans ?_
      show ∑ r : Fin 1024, Aext V c (1024 * ((n + 1) % 6) + r.val) (1024 * ((n + 1) / 6) + q.val) = _
      rw [h0, Finset.sum_range_one]
    · refine (acc_step_B V c ⟨n + 1, hn⟩ h0 u q).trans ?_
      show Hand.acc0 V c n (Nat.lt_of_succ_lt hn) (ix2 u q) + ∑ r : Fin 1024, Aext V c (1024 * ((n + 1) % 6) + r.val) (1024 * ((n + 1) / 6) + q.val) = _
      rw [ih (Nat.lt_of_succ_lt hn) u q]
      have hm : (n + 1) % 6 = n % 6 + 1 := by omega
      have hd : (n + 1) / 6 = n / 6 := by omega
      rw [hm, hd]
      exact (Finset.sum_range_succ (fun k => ∑ r : Fin 1024, Aext V c (1024 * k + r.val) (1024 * (n / 6) + q.val)) (n % 6 + 1)).symm

/-! ## The array the region leaves -/

/-- The column sums of the array the input window stages, as a `[1, 6144]` array. -/
def colsum (c : Dev nD) : S1x6144.Idx → EReal :=
  fun i => ∑ r : Fin 6144, Arr V c (ix2 r (⟨(i 1).val, idx2_lt1 i⟩ : Fin 6144))

/-- At the points whose reduction coordinate is the last the accumulator holds the whole column sums of the point's
    column block. -/
theorem acc_last (c : Dev nD) (t : Fin cfg0.N) (h5 : t.val % 6 = 5) (u : Fin 1) (q : Fin 1024) (hq : 1024 * (t.val / 6) + q.val < 6144) :
    Hand.acc0 V c t.val t.isLt (ix2 u q)
      = ∑ r : Fin 6144, Arr V c (ix2 r (⟨1024 * (t.val / 6) + q.val, hq⟩ : Fin 6144)) := by
  rw [acc_closed V c t.val t.isLt u q, h5]
  exact (sum_blocks (fun r => Aext V c r (1024 * (t.val / 6) + q.val))).trans
    (Finset.sum_congr rfl fun r _ => Aext_eq V c r _ hq)

/-- What a point that writes back writes: its block of the column sums. -/
theorem flushed_eq (c : Dev nD) (t : Fin cfg0.N) (hf : (cfg0.win 1).flush t = true) :
    (Hand.dat0 V c).flushed 1 t = ((cfg0.win 1).blk t).view.read (Elt Ideal) (colsum V c) := by
  have h5 : t.val % 6 = 5 := (flush0_1 t).mp hf
  have hN : t.val < 36 := lt_of_lt_of_eq t.isLt (show cfg0.N = 36 from N_0)
  obtain ⟨-, -, -, e1⟩ := idx_facts t
  show (cfg0.win 1).cut (grid0.coords t) ((Hand.dat0 V c).after 1 t) = _
  rw [Hand.after0_1]
  refine funext fun (j : S1x1024.Idx) => ?_
  obtain ⟨u, q, rfl⟩ : ∃ (u : Fin 1) (q : Fin 1024), j = ix2 u q := ⟨j 0, j 1, eq_ix2 j⟩
  have hq : 1024 * (t.val / 6) + q.val < 6144 := by have := q.isLt; omega
  refine (acc_last V c t h5 u q hq).trans ?_
  rw [View.read_apply]
  unfold colsum
  refine Finset.sum_congr rfl fun r _ => congrArg (Arr V c) (congrArg (ix2 r) (Fin.ext ?_))
  show 1024 * (t.val / 6) + q.val = win0_1.index t (1 : Fin 2) * 1024 + 1 * q.val
  rw [e1]; omega

/-- An index of the output array is in point `t`'s block iff each coordinate is in the block's range on its axis. -/
theorem mem_blk (t : Fin cfg0.N) (i : S1x6144.Idx) :
    i ∈ ((cfg0.win 1).blk t).view.set ↔ ∀ a : Fin 2, win0_1.index t a * S1x1024.size a ≤ (i a).val ∧ (i a).val < win0_1.index t a * S1x1024.size a + S1x1024.size a := by
  show i ∈ ((View.whole main_v1).slice (win0_1.rect t)).set ↔ _
  rw [View.set_slice_whole, Rect.mem_set_unit]
  exact Iff.rfl

/-- The output array ends holding the column sums: the six points whose reduction coordinate is the last write the six
    column blocks, which tile it. -/
theorem final (c : Dev nD) : (Hand.dat0 V c).arrAt 1 cfg0.N = colsum V c :=
  (Hand.dat0 V c).arrAt_eq_of_cover 1 (colsum V c) (flushed_eq V c) fun i => by
    have hi0 : (i 0).val < 1 := idx2_lt0 (n0 := 1) (n1 := 6144) i
    have hi1 : (i 1).val < 6144 := idx2_lt1 (n0 := 1) (n1 := 6144) i
    have hN : cfg0.N = 36 := N_0
    have ht : 6 * ((i 1).val / 1024) + 5 < cfg0.N := by omega
    refine ⟨⟨6 * ((i 1).val / 1024) + 5, ht⟩, (flush0_1 _).mpr (by show (6 * ((i 1).val / 1024) + 5) % 6 = 5; omega), ?_⟩
    obtain ⟨-, -, e0, e1⟩ := idx_facts ⟨6 * ((i 1).val / 1024) + 5, ht⟩
    rw [mem_blk]
    intro a
    match a with
    | ⟨0, _⟩ =>
      show win0_1.index ⟨6 * ((i 1).val / 1024) + 5, ht⟩ (0 : Fin 2) * 1 ≤ (i 0).val ∧ (i 0).val < win0_1.index ⟨6 * ((i 1).val / 1024) + 5, ht⟩ (0 : Fin 2) * 1 + 1
      rw [e0]; omega
    | ⟨1, _⟩ =>
      show win0_1.index ⟨6 * ((i 1).val / 1024) + 5, ht⟩ (1 : Fin 2) * 1024 ≤ (i 1).val ∧ (i 1).val < win0_1.index ⟨6 * ((i 1).val / 1024) + 5, ht⟩ (1 : Fin 2) * 1024 + 1024
      rw [e1]
      show (6 * ((i 1).val / 1024) + 5) / 6 * 1024 ≤ (i 1).val ∧ (i 1).val < (6 * ((i 1).val / 1024) + 5) / 6 * 1024 + 1024
      omega

end R0

variable (V : (c : Dev nD) → (b : Ref sig .tc) → Buf (Elt Ideal) ((c : Thread nD τ).loc b))

/-- THE REGION'S VALUE: the output array ends, at column `q`, at the sum of column `q` of the array the input window
    stages, as the region finds it. -/
theorem colsum_apply (c : Dev nD) (q : Fin 6144) :
    ((Hand.dat0 (F := Ideal) V c).arrAt 1 cfg0.N : S1x6144.Idx → EReal) (ix2 (0 : Fin 1) q)
      = (∑ r : Fin 6144, (V c main_arg2 : S6144x6144.Idx → EReal) (ix2 r q) : EReal) := by
  rw [R0.final V c]
  rfl

end Cert.KernelIdeal.HandValue

end
-- ==== Proof.Region1Value.lean ====
/- REGION 1 of @main, its VALUE at the ideal values: after the region the output array h holds, at every entry (r, q),
     tanh(dinv_r · ((∑ over all 6144 rows k of A_{k r} · Y_{k q}) + Y_{r q}) + b_q)
   over the arrays as the region finds them (`h_apply`).
   The steps: each printed payload read at an entry (zeros; acc + the block's transposed product; the tanh expression);
   each window's block and each run-time load of `Y` as entries of the arrays, from the printed index maps decided over
   the grid; the carried accumulator in closed form — after the points k = 0, 1, 2 of a row block m it holds one, two,
   three shares ∑_{j < 2048} A_{2048k+j, 1024m+p} · Y_{2048k+j, q}, the zero of the reset added on the left and
   dropped —; a sum over the 6144 rows as its three blocks of 2048 (the extended reals' addition re-associated, nothing
   else); the block the last point of a row block writes back is that block of the result; those six blocks cover
   the array. -/
import proofs.«141308_j26388279066709_2_alg».proof.Proof.Region1
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

namespace R1

/-! ## The payloads at an index, at the ideal values -/

/-- The reset value: zero everywhere. -/
theorem pay1_apply (j : S1024x128.Idx) : k1_pay1 (F := Ideal) j = 0 := by
  unfold k1_pay1
  rw [shapeCast_self]
  exact Ideal.ofBits_zero_f32

/-! The dot contracts axis 0 of the [2048,1024] block with axis 0 of the [2048,128] rows: the left operand is read at
    (contraction row, output row) — the block enters transposed — and the right at (contraction row, output column). -/
theorem dotL_0 (i : S1024x128.Idx) (k : dot_S2048x1024_S2048x128_S1024x128_0_0_1_1_n_n.contr.Idx) :
    (dot_S2048x1024_S2048x128_S1024x128_0_0_1_1_n_n.lhsIdx i k 0).val = (k ⟨0, by decide⟩).val :=
  dot_S2048x1024_S2048x128_S1024x128_0_0_1_1_n_n.lhsIdx_val_of_single rfl i k
theorem dotL_1 (i : S1024x128.Idx) (k : dot_S2048x1024_S2048x128_S1024x128_0_0_1_1_n_n.contr.Idx) :
    (dot_S2048x1024_S2048x128_S1024x128_0_0_1_1_n_n.lhsIdx i k 1).val = (i 0).val := by
  unfold DotDims.lhsIdx
  rw [dif_neg (show ¬(1 : Fin S2048x1024.rank) ∈ dot_S2048x1024_S2048x128_S1024x128_0_0_1_1_n_n.lhsBatch by decide), dif_pos (show (1 : Fin S2048x1024.rank) ∈ dot_S2048x1024_S2048x128_S1024x128_0_0_1_1_n_n.lhsNonContracting by decide)]
  rfl
theorem dotR_0 (i : S1024x128.Idx) (k : dot_S2048x1024_S2048x128_S1024x128_0_0_1_1_n_n.contr.Idx) :
    (dot_S2048x1024_S2048x128_S1024x128_0_0_1_1_n_n.rhsIdx i k 0).val = (k ⟨0, by decide⟩).val :=
  dot_S2048x1024_S2048x128_S1024x128_0_0_1_1_n_n.rhsIdx_val_of_single rfl i k
theorem dotR_1 (i : S1024x128.Idx) (k : dot_S2048x1024_S2048x128_S1024x128_0_0_1_1_n_n.contr.Idx) :
    (dot_S2048x1024_S2048x128_S1024x128_0_0_1_1_n_n.rhsIdx i k 1).val = (i 1).val := by
  unfold DotDims.rhsIdx
  rw [dif_neg (show ¬(1 : Fin S2048x128.rank) ∈ dot_S2048x1024_S2048x128_S1024x128_0_0_1_1_n_n.rhsBatch by decide), dif_pos (show (1 : Fin S2048x128.rank) ∈ dot_S2048x1024_S2048x128_S1024x128_0_0_1_1_n_n.rhsNonContracting by decide)]
  rfl

theorem dotL (p : Fin 1024) (q : Fin 128) (k : Fin 2048) :
    dot_S2048x1024_S2048x128_S1024x128_0_0_1_1_n_n.lhsIdx (ix2 p q) ((contrEquiv1 dot_S2048x1024_S2048x128_S1024x128_0_0_1_1_n_n 2048 rfl rfl).symm k) = ix2 k p := by
  have hk := contrEquiv1_symm_val dot_S2048x1024_S2048x128_S1024x128_0_0_1_1_n_n 2048 rfl rfl k
  refine funext fun a => Fin.ext ?_
  match a with
  | ⟨0, _⟩ => exact (dotL_0 _ _).trans hk
  | ⟨1, _⟩ => exact dotL_1 _ _

theorem dotR (p : Fin 1024) (q : Fin 128) (k : Fin 2048) :
    dot_S2048x1024_S2048x128_S1024x128_0_0_1_1_n_n.rhsIdx (ix2 p q) ((contrEquiv1 dot_S2048x1024_S2048x128_S1024x128_0_0_1_1_n_n 2048 rfl rfl).symm k) = ix2 k q := by
  have hk := contrEquiv1_symm_val dot_S2048x1024_S2048x128_S1024x128_0_0_1_1_n_n 2048 rfl rfl k
  refine funext fun a => Fin.ext ?_
  match a with
  | ⟨0, _⟩ => exact (dotR_0 _ _).trans hk
  | ⟨1, _⟩ => exact dotR_1 _ _

/-- One step of the accumulator at an entry: the accumulator there plus the sum over the block's 2048 rows of the
    block's entry (row, p) times the rows' entry (row, q). -/
theorem pay2_apply (a : FVec Ideal S2048x1024 .f32) (y : FVec Ideal S2048x128 .f32) (acc : FVec Ideal S1024x128 .f32)
    (p : Fin 1024) (q : Fin 128) :
    k1_pay2 (F := Ideal) a y acc (ix2 p q) = acc (ix2 p q) + ∑ j : Fin 2048, a (ix2 j p) * y (ix2 j q) := by
  unfold k1_pay2
  rw [shapeCast_self, shapeCast_self]
  refine (addf_apply _ _ _).trans (congrArg (acc (ix2 p q) + ·) ?_)
  refine (Ideal.matmul_constant_zero_apply dot_S2048x1024_S2048x128_S1024x128_0_0_1_1_n_n none a y (ix2 p q)).trans ?_
  rw [← Equiv.sum_comp (contrEquiv1 dot_S2048x1024_S2048x128_S1024x128_0_0_1_1_n_n 2048 rfl rfl).symm]
  refine Finset.sum_congr rfl fun k _ => ?_
  rw [dotL, dotR]

/-- The output expression at an entry: tanh(dinv_p · (acc + y) + b_q). -/
theorem pay3_apply (y acc : FVec Ideal S1024x128 .f32) (d : FVec Ideal S1024x1 .f32) (b : FVec Ideal S1x128 .f32)
    (p : Fin 1024) (q : Fin 128) :
    k1_pay3 (F := Ideal) y acc d b (ix2 p q)
      = Ideal.tanh (d (ix2 p 0) * (acc (ix2 p q) + y (ix2 p q)) + b (ix2 0 q)) := by
  unfold k1_pay3
  rw [shapeCast_self, shapeCast_self, shapeCast_self]
  show Ideal.tanh (broadcastTo S1024x128 d broadcasts_S1024x1_S1024x128 (ix2 p q) * (acc (ix2 p q) + y (ix2 p q))
      + broadcastTo S1024x128 b broadcasts_S1x128_S1024x128 (ix2 p q)) = _
  rw [broadcastTo_apply d broadcasts_S1024x1_S1024x128 (ix2 p q) (ix2 p 0) (fun a => by
        match a with
        | ⟨0, _⟩ => rfl
        | ⟨1, _⟩ => rfl),
    broadcastTo_apply b broadcasts_S1x128_S1024x128 (ix2 p q) (ix2 0 q) (fun a => by
        match a with
        | ⟨0, _⟩ => rfl
        | ⟨1, _⟩ => rfl)]

/-! ## The windows' blocks as entries of the arrays, and the rows of `Y` the body loads -/

section Blocks

variable {F : FTy → Type} [FloatOps F]
variable (V : (c : Dev nD) → (b : Ref sig .tc) → Buf (Elt F) ((c : Thread nD τ).loc b))

/-- The printed index maps, decided over the grid: at point t the reduction block is k = t mod 3 and the output row
    block m = t div 3; the matrix window is at block (k, m), the column `dinv` and the output at block (m, 0), `Y` and the
    row `b` whole. -/
theorem idx_facts : ∀ t : Fin cfg1.N,
    win1_0.index t (0 : Fin 2) = t.val % 3 ∧ win1_0.index t (1 : Fin 2) = t.val / 3
    ∧ win1_1.index t (0 : Fin 2) = 0 ∧ win1_1.index t (1 : Fin 2) = 0
    ∧ win1_2.index t (0 : Fin 2) = t.val / 3 ∧ win1_2.index t (1 : Fin 2) = 0
    ∧ win1_3.index t (0 : Fin 2) = 0 ∧ win1_3.index t (1 : Fin 2) = 0
    ∧ win1_4.index t (0 : Fin 2) = t.val / 3 ∧ win1_4.index t (1 : Fin 2) = 0
    ∧ ((grid1.coords t) 0).val = t.val / 3 ∧ ((grid1.coords t) 1).val = t.val % 3 :=
  (by decide +kernel : ∀ t : Fin grid1.N, _)

/-- The matrix window's block at point t: entry (j, p) is entry (2048·k + j, 1024·m + p) of the matrix. -/
theorem iblk1_0_apply (c : Dev nD) (t : Fin cfg1.N) (x : S2048x1024.Idx) (k : S6144x6144.Idx)
    (hk0 : (k 0).val = 2048 * (t.val % 3) + (x 0).val) (hk1 : (k 1).val = 1024 * (t.val / 3) + (x 1).val) :
    (iblk1 V c 0 t : Vec F S2048x1024 .f32) x = (V c main_arg2 : S6144x6144.Idx → Elt F .f32) k := by
  obtain ⟨e0, e1, -⟩ := idx_facts t
  unfold iblk1
  rw [View.read_apply]
  show V c main_arg2 _ = V c main_arg2 _
  congr 1
  funext a
  apply Fin.ext
  match a with
  | ⟨0, _⟩ => show win1_0.index t 0 * 2048 + 1 * (x 0).val = (k 0).val; rw [e0, hk0]; omega
  | ⟨1, _⟩ => show win1_0.index t 1 * 1024 + 1 * (x 1).val = (k 1).val; rw [e1, hk1]; omega

/-- The window of `Y` is all of it. -/
theorem iblk1_1_apply (c : Dev nD) (t : Fin cfg1.N) (x : S6144x128.Idx) :
    (iblk1 V c 1 t : Vec F S6144x128 .f32) x = (V c main_v11 : S6144x128.Idx → Elt F .f32) x := by
  obtain ⟨-, -, e0, e1, -⟩ := idx_facts t
  unfold iblk1
  rw [View.read_apply]
  show V c main_v11 _ = V c main_v11 _
  congr 1
  funext a
  apply Fin.ext
  match a with
  | ⟨0, _⟩ => show win1_1.index t 0 * 6144 + 1 * (x 0).val = (x 0).val; rw [e0]; omega
  | ⟨1, _⟩ => show win1_1.index t 1 * 128 + 1 * (x 1).val = (x 1).val; rw [e1]; omega

/-- The window of the column `dinv` at point t: its entry (p, 0) is entry (1024·m + p, 0). -/
theorem iblk1_2_apply (c : Dev nD) (t : Fin cfg1.N) (x : S1024x1.Idx) (k : S6144x1.Idx)
    (hk0 : (k 0).val = 1024 * (t.val / 3) + (x 0).val) (hk1 : (k 1).val = (x 1).val) :
    (iblk1 V c 2 t : Vec F S1024x1 .f32) x = (V c main_v12 : S6144x1.Idx → Elt F .f32) k := by
  obtain ⟨-, -, -, -, e0, e1, -⟩ := idx_facts t
  unfold iblk1
  rw [View.read_apply]
  show V c main_v12 _ = V c main_v12 _
  congr 1
  funext a
  apply Fin.ext
  match a with
  | ⟨0, _⟩ => show win1_2.index t 0 * 1024 + 1 * (x 0).val = (k 0).val; rw [e0, hk0]; omega
  | ⟨1, _⟩ => show win1_2.index t 1 * 1 + 1 * (x 1).val = (k 1).val; rw [e1, hk1]; omega

/-- The window of the row `b` is all of it. -/
theorem iblk1_3_apply (c : Dev nD) (t : Fin cfg1.N) (x : S1x128.Idx) :
    (iblk1 V c 3 t : Vec F S1x128 .f32) x = (V c main_v13 : S1x128.Idx → Elt F .f32) x := by
  obtain ⟨-, -, -, -, -, -, e0, e1, -⟩ := idx_facts t
  unfold iblk1
  rw [View.read_apply]
  show V c main_v13 _ = V c main_v13 _
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- The rows k·2048 … of `Y`: entry (j, q) of the load is entry (2048·k + j, q). -/
theorem ld_rY1_apply (X : S6144x128.Idx → Elt F .f32) (i : grid1.Coords) (x : S2048x128.Idx) (k : S6144x128.Idx)
    (h0 : (k 0).val = 2048 * (i 1).val + (x 0).val) (h1 : (k 1).val = (x 1).val) : View.ld X (rY1 i) x = X k := by
  show X ((rY1 i).idx x) = X k
  congr 1
  funext a
  apply Fin.ext
  have e := k1_off1_eq i
  match a with
  | ⟨0, _⟩ => show k1_off1 i 0 + 1 * (x 0).val = (k 0).val; rw [e, h0]; show 2048 * (i 1).val + 1 * (x 0).val = _; omega
  | ⟨1, _⟩ => show k1_off1 i 1 + 1 * (x 1).val = (k 1).val; rw [e, h1]; show 0 + 1 * (x 1).val = _; omega

/-- The rows m·1024 … of `Y`: entry (p, q) of the load is entry (1024·m + p, q). -/
theorem ld_rY2_apply (X : S6144x128.Idx → Elt F .f32) (i : grid1.Coords) (x : S1024x128.Idx) (k : S6144x128.Idx)
    (h0 : (k 0).val = 1024 * (i 0).val + (x 0).val) (h1 : (k 1).val = (x 1).val) : View.ld X (rY2 i) x = X k := by
  show X ((rY2 i).idx x) = X k
  congr 1
  funext a
  apply Fin.ext
  have e := k1_off2_eq i
  match a with
  | ⟨0, _⟩ => show k1_off2 i 0 + 1 * (x 0).val = (k 0).val; rw [e, h0]; show 1024 * (i 0).val + 1 * (x 0).val = _; omega
  | ⟨1, _⟩ => show k1_off2 i 1 + 1 * (x 1).val = (k 1).val; rw [e, h1]; show 0 + 1 * (x 1).val = _; omega

end Blocks

/-! ## The accumulation in closed form, at the ideal values -/

variable (V : (c : Dev nD) → (b : Ref sig .tc) → Buf (Elt Ideal) ((c : Thread nD τ).loc b))

/-- The four arrays the region reads, as it finds them: the matrix A, Y, the column dinv, the row b. -/
abbrev arrA (c : Dev nD) : S6144x6144.Idx → EReal := V c main_arg2
abbrev arrY (c : Dev nD) : S6144x128.Idx → EReal := V c main_v11
abbrev arrD (c : Dev nD) : S6144x1.Idx → EReal := V c main_v12
abbrev arrB (c : Dev nD) : S1x128.Idx → EReal := V c main_v13

/-- Row 2048·kk + j of the matrix and of `Y`; column 1024·m + p of the matrix (row of the output). -/
def rowIx (kk : Fin 3) (j : Fin 2048) : Fin 6144 := ⟨2048 * kk.val + j.val, by omega⟩
def colIx (m : Fin 6) (p : Fin 1024) : Fin 6144 := ⟨1024 * m.val + p.val, by omega⟩
/-- The output row block and the reduction block of a grid point. -/
def mOf (t : Fin cfg1.N) : Fin 6 := ⟨t.val / 3, by have h : t.val < 18 := lt_of_lt_of_eq t.isLt (show cfg1.N = 18 from N_1); omega⟩
def kOf (t : Fin cfg1.N) : Fin 3 := ⟨t.val % 3, by omega⟩

/-- One reduction block's share of entry (1024·m + p, q) of Aᵀ·Y: the sum over the block's 2048 rows. -/
def partSum (c : Dev nD) (m : Fin 6) (kk : Fin 3) (p : Fin 1024) (q : Fin 128) : EReal :=
  ∑ j : Fin 2048, arrA V c (ix2 (rowIx kk j) (colIx m p))
    * arrY V c (ix2 (rowIx kk j) q)

/-- One step of the accumulator at an entry adds the point's share. -/
theorem acc1_apply (c : Dev nD) (t : Fin cfg1.N) (xs : FVec Ideal S1024x128 .f32) (p : Fin 1024) (q : Fin 128) :
    acc1 V c t xs (ix2 p q) = xs (ix2 p q) + partSum V c (mOf t) (kOf t) p q := by
  obtain ⟨-, -, -, -, -, -, -, -, -, -, -, g1⟩ := idx_facts t
  unfold acc1
  refine (pay2_apply (iblk1 V c 0 t) (View.ld (iblk1 V c 1 t) (rY1 (grid1.coords t))) xs p q).trans ?_
  refine congrArg (xs (ix2 p q) + ·) (Finset.sum_congr rfl fun j _ => ?_)
  have ea := iblk1_0_apply V c t (ix2 j p) (ix2 (rowIx (kOf t) j) (colIx (mOf t) p)) rfl rfl
  have ey := (ld_rY1_apply (iblk1 V c 1 t) (grid1.coords t) (ix2 j q) (ix2 (rowIx (kOf t) j) q)
    (by show 2048 * (t.val % 3) + j.val = 2048 * ((grid1.coords t) 1).val + j.val; rw [g1]) rfl).trans
    (iblk1_1_apply V c t (ix2 (rowIx (kOf t) j) q))
  exact congrArg₂ (· * ·) ea ey

/-- After the point with k = 0: the first share. -/
theorem scr_k0 (c : Dev nD) (n : ℕ) (hn : n < cfg1.N) (h : n % 3 = 0) (p : Fin 1024) (q : Fin 128) :
    scrAt V c n hn (ix2 p q) = partSum V c (mOf ⟨n, hn⟩) 0 p q := by
  have e := scrAt_A V c ⟨n, hn⟩ h
  rw [show scrAt V c n hn = acc1 V c ⟨n, hn⟩ (k1_pay1 (F := Ideal)) from e, acc1_apply, pay1_apply, zero_add,
    show kOf ⟨n, hn⟩ = 0 from Fin.ext h]

/-- After the point with k = 1: the first two shares. -/
theorem scr_k1 (c : Dev nD) (n : ℕ) (hn : n < cfg1.N) (h : n % 3 = 1) (p : Fin 1024) (q : Fin 128) :
    scrAt V c n hn (ix2 p q) = partSum V c (mOf ⟨n, hn⟩) 0 p q + partSum V c (mOf ⟨n, hn⟩) 1 p q := by
  have hn' : n - 1 < cfg1.N := Nat.lt_of_le_of_lt (Nat.sub_le _ _) hn
  have e := scrAt_pos V c ⟨n, hn⟩ (show ¬n % 3 = 0 by omega)
  rw [show scrAt V c n hn = acc1 V c ⟨n, hn⟩ (scrAt V c (n - 1) hn') from e, acc1_apply,
    scr_k0 V c (n - 1) hn' (by omega) p q,
    show mOf ⟨n - 1, hn'⟩ = mOf ⟨n, hn⟩ from Fin.ext (by show (n - 1) / 3 = n / 3; omega),
    show kOf ⟨n, hn⟩ = 1 from Fin.ext h]

/-- After the point with k = 2: all three shares. -/
theorem scr_k2 (c : Dev nD) (n : ℕ) (hn : n < cfg1.N) (h : n % 3 = 2) (p : Fin 1024) (q : Fin 128) :
    scrAt V c n hn (ix2 p q)
      = (partSum V c (mOf ⟨n, hn⟩) 0 p q + partSum V c (mOf ⟨n, hn⟩) 1 p q) + partSum V c (mOf ⟨n, hn⟩) 2 p q := by
  have hn' : n - 1 < cfg1.N := Nat.lt_of_le_of_lt (Nat.sub_le _ _) hn
  have e := scrAt_pos V c ⟨n, hn⟩ (show ¬n % 3 = 0 by omega)
  rw [show scrAt V c n hn = acc1 V c ⟨n, hn⟩ (scrAt V c (n - 1) hn') from e, acc1_apply,
    scr_k1 V c (n - 1) hn' (by omega) p q,
    show mOf ⟨n - 1, hn'⟩ = mOf ⟨n, hn⟩ from Fin.ext (by show (n - 1) / 3 = n / 3; omega),
    show kOf ⟨n, hn⟩ = 2 from Fin.ext h]

/-- A sum over the 6144 rows is the sum of its three blocks of 2048. -/
theorem sum_rows (f : Fin 6144 → EReal) :
    ∑ k : Fin 6144, f k = (∑ j : Fin 2048, f (rowIx 0 j) + ∑ j : Fin 2048, f (rowIx 1 j)) + ∑ j : Fin 2048, f (rowIx 2 j) := by
  rw [← Equiv.sum_comp (finProdFinEquiv (m := 3) (n := 2048)) f, Fintype.sum_prod_type, Fin.sum_univ_three]
  have hr : ∀ (kk : Fin 3) (j : Fin 2048), (finProdFinEquiv (m := 3) (n := 2048)) (kk, j) = rowIx kk j := fun kk j =>
    Fin.ext (by show j.val + 2048 * kk.val = 2048 * kk.val + j.val; omega)
  simp only [hr]

/-! ## The output array, entry by entry -/

/-- Entry (r, q) of the result: tanh(dinv_r · ((Aᵀ·Y)_{r q} + Y_{r q}) + b_q). -/
def hEntry (c : Dev nD) (r : Fin 6144) (q : Fin 128) : EReal :=
  Ideal.tanh (arrD V c (ix2 r 0)
    * ((∑ k : Fin 6144, arrA V c (ix2 k r) * arrY V c (ix2 k q))
        + arrY V c (ix2 r q))
    + arrB V c (ix2 0 q))

/-- The result as one array. -/
def hVal (c : Dev nD) : S6144x128.Idx → EReal := fun i => hEntry V c ⟨(i 0).val, (i 0).isLt⟩ ⟨(i 1).val, (i 1).isLt⟩

theorem hVal_apply (c : Dev nD) (i : S6144x128.Idx) (r : Fin 6144) (q : Fin 128) (h0 : (i 0).val = r.val) (h1 : (i 1).val = q.val) :
    hVal V c i = hEntry V c r q := by
  unfold hVal
  exact congrArg₂ (hEntry V c) (Fin.ext h0) (Fin.ext h1)

/-- What the output window's buffer holds after the last point of row block m: the result's rows 1024·m …. -/
theorem out_closed (c : Dev nD) (t : Fin cfg1.N) (h2 : t.val % 3 = 2) (p : Fin 1024) (q : Fin 128) :
    outAt V c t (ix2 p q) = hEntry V c (colIx (mOf t) p) q := by
  obtain ⟨-, -, -, -, -, -, -, -, -, -, g0, -⟩ := idx_facts t
  unfold outAt
  refine (pay3_apply (View.ld (iblk1 V c 1 t) (rY2 (grid1.coords t))) (scrAt V c t.val t.isLt) (iblk1 V c 2 t) (iblk1 V c 3 t) p q).trans ?_
  have ed := iblk1_2_apply V c t (ix2 p 0) (ix2 (colIx (mOf t) p) 0) rfl rfl
  have eb := iblk1_3_apply V c t (ix2 0 q)
  have ey := (ld_rY2_apply (iblk1 V c 1 t) (grid1.coords t) (ix2 p q) (ix2 (colIx (mOf t) p) q)
    (by show 1024 * (t.val / 3) + p.val = 1024 * ((grid1.coords t) 0).val + p.val; rw [g0]) rfl).trans
    (iblk1_1_apply V c t (ix2 (colIx (mOf t) p) q))
  have es := scr_k2 V c t.val t.isLt h2 p q
  unfold hEntry
  rw [ed, eb, ey, es, sum_rows]
  rfl

/-- WHAT POINT t WRITES BACK (a point with k = 2) is block (m, 0) of the result. -/
theorem flushed_eq (c : Dev nD) (t : Fin cfg1.N) (hf : (cfg1.win 4).flush t = true) :
    (dat1 V c).flushed 4 t = ((cfg1.win 4).blk t).view.read (Elt Ideal) (hVal V c) := by
  have h2 : t.val % 3 = 2 := (flush1_4 t).mp hf
  obtain ⟨-, -, -, -, -, -, -, -, e0, e1, -⟩ := idx_facts t
  show (cfg1.win 4).cut (grid1.coords t) ((dat1 V c).after 4 t) = _
  rw [after1_4]
  refine funext fun (y : S1024x128.Idx) => ?_
  obtain ⟨p, q, rfl⟩ : ∃ (p : Fin 1024) (q : Fin 128), y = ix2 p q := ⟨y 0, y 1, eq_ix2 y⟩
  rw [View.read_apply]
  show outAt V c t (ix2 p q) = hVal V c (((cfg1.win 4).blk t).view.emb (ix2 p q))
  rw [out_closed V c t h2 p q]
  refine (hVal_apply V c _ (colIx (mOf t) p) q ?_ ?_).symm
  · show win1_4.index t 0 * 1024 + 1 * p.val = 1024 * (t.val / 3) + p.val; rw [e0]; omega
  · show win1_4.index t 1 * 128 + 1 * q.val = q.val; rw [e1]; omega

/-- An index of the array is in point t's block iff each coordinate is in the block's range on its axis. -/
theorem mem_blk4 (t : Fin cfg1.N) (i : S6144x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v14).slice (win1_4.rect t)).set ↔ _
  rw [View.set_slice_whole, Rect.mem_set_unit]
  exact Iff.rfl

/-- Row r lies in the block the last point of row block r div 1024 writes back. -/
theorem cover4 (i : S6144x128.Idx) : ∃ t : Fin cfg1.N, (cfg1.win 4).flush t = true ∧ i ∈ ((cfg1.win 4).blk t).view.set := by
  have hi0 : (i 0).val < 6144 := (i 0).isLt
  have hi1 : (i 1).val < 128 := (i 1).isLt
  obtain ⟨t, ht⟩ : ∃ t : Fin cfg1.N, t.val = 3 * ((i 0).val / 1024) + 2 :=
    ⟨⟨3 * ((i 0).val / 1024) + 2, by rw [show cfg1.N = 18 from N_1]; omega⟩, rfl⟩
  obtain ⟨-, -, -, -, -, -, -, -, e0, e1, -⟩ := idx_facts t
  refine ⟨t, (flush1_4 t).mpr (by omega), ?_⟩
  rw [mem_blk4]
  intro a
  match a with
  | ⟨0, _⟩ => show win1_4.index t 0 * 1024 ≤ (i 0).val ∧ (i 0).val < win1_4.index t 0 * 1024 + 1024; rw [e0, ht]; omega
  | ⟨1, _⟩ => show win1_4.index t 1 * 128 ≤ (i 1).val ∧ (i 1).val < win1_4.index t 1 * 128 + 128; rw [e1]; omega

/-- THE OUTPUT ARRAY after the region: the result. -/
theorem h_final (c : Dev nD) : (dat1 (F := Ideal) V c).arrAt 4 cfg1.N = hVal V c :=
  (dat1 V c).arrAt_eq_of_cover 4 (hVal V c) (fun t hf => flushed_eq V c t hf) (cover4)

end R1

/-- THE REGION'S VALUE: after the region the output array holds, at every entry (r, q),
    tanh(dinv_r · ((∑ over all 6144 rows k of A_{k r} · Y_{k q}) + Y_{r q}) + b_q), over the arrays as the region finds them. -/
theorem h_apply (V : (c : Dev nD) → (b : Ref sig .tc) → Buf (Elt Ideal) ((c : Thread nD τ).loc b)) (c : Dev nD) (r : Fin 6144) (q : Fin 128) :
    (dat1 (F := Ideal) V c).arrAt 4 cfg1.N (ix2 r q)
      = Ideal.tanh (R1.arrD V c (ix2 r 0)
          * ((∑ k : Fin 6144, R1.arrA V c (ix2 k r) * R1.arrY V c (ix2 k q))
              + R1.arrY V c (ix2 r q))
          + R1.arrB V c (ix2 0 q)) := by
  rw [R1.h_final V c]
  rfl

end Cert.KernelIdeal.HandValue

end
-- ==== Proof.KernelHostRead.lean ====
import proofs.«141308_j26388279066709_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

/-!
The kernel's host operations before the second region, read at an index at the ideal instance.

For arbitrary buffer contents `W`: the first stretch leaves `x · W_gcn` in `main_v0` (a finite sum of
products at each element); the three stretches between the first two regions take the column sums in
`main_v1`, add one, and leave the guarded inverse square root of that degree as a column in `main_v12`,
its product with `main_v0` in `main_v11`, and the bias as a row in `main_v13`; they write neither the
adjacency nor `main_v0`.
-/

noncomputable section

namespace Cert.KernelIdeal.HostRead

open Cert.KernelIdeal Cert.KernelIdeal.Gen
open Idealize.ShloMosaic Idealize.ShloMosaic.TcCoe Idealize.SL.Sem Idealize.ShloMosaic.StableHlo
open Idealize.ShloMosaic.ValueIdx

/-- An f32 array's contents at the ideal instance, as a function into the extended reals. -/
abbrev arr (s : Shape) (x : FVec Ideal s .f32) : s.Idx → EReal := x

/-! ## The first host stretch: `xw = x · W` -/

/-- After the first stretch `main_v0` holds the host's `dot_general` of the arguments 0 and 3. -/
theorem after_ops0_v0 (W : Valuation τ sig (Elt Ideal)) :
    StableHlo.after (main_part0_ops0 (F := Ideal)) W (Proc.devRef .tc main_v0)
      = (Host.dotGeneral (F := Ideal) (φ₁ := .f32) (φ₂ := .f32) dot_S6144x128_S128x128_S6144x128_1_0_0_1_n_n none
          (W (Proc.devRef .tc main_arg0) : (⟨S6144x128, .f32⟩ : BufTy).Contents (Elt Ideal))
          (W (Proc.devRef .tc main_arg3) : (⟨S128x128, .f32⟩ : BufTy).Contents (Elt Ideal))
          : (⟨S6144x128, .f32⟩ : BufTy).Contents (Elt Ideal)) := by
  after_results

/-- The index maps of the contraction `[6144,128] · [128,128]` over the middle axis, coordinate by coordinate. -/
theorem dotXW_lhs0 (j : S6144x128.Idx) (c : dot_S6144x128_S128x128_S6144x128_1_0_0_1_n_n.contr.Idx) :
    (dot_S6144x128_S128x128_S6144x128_1_0_0_1_n_n.lhsIdx j c 0).val = (j 0).val := by
  unfold DotDims.lhsIdx
  rw [dif_neg (show ¬(0 : Fin S6144x128.rank) ∈ dot_S6144x128_S128x128_S6144x128_1_0_0_1_n_n.lhsBatch by decide),
    dif_pos (show (0 : Fin S6144x128.rank) ∈ dot_S6144x128_S128x128_S6144x128_1_0_0_1_n_n.lhsNonContracting by decide)]
  rfl
theorem dotXW_lhs1 (j : S6144x128.Idx) (c : dot_S6144x128_S128x128_S6144x128_1_0_0_1_n_n.contr.Idx) :
    (dot_S6144x128_S128x128_S6144x128_1_0_0_1_n_n.lhsIdx j c 1).val = (c ⟨0, by decide⟩).val :=
  dot_S6144x128_S128x128_S6144x128_1_0_0_1_n_n.lhsIdx_val_of_single rfl j c
theorem dotXW_rhs0 (j : S6144x128.Idx) (c : dot_S6144x128_S128x128_S6144x128_1_0_0_1_n_n.contr.Idx) :
    (dot_S6144x128_S128x128_S6144x128_1_0_0_1_n_n.rhsIdx j c 0).val = (c ⟨0, by decide⟩).val :=
  dot_S6144x128_S128x128_S6144x128_1_0_0_1_n_n.rhsIdx_val_of_single rfl j c
theorem dotXW_rhs1 (j : S6144x128.Idx) (c : dot_S6144x128_S128x128_S6144x128_1_0_0_1_n_n.contr.Idx) :
    (dot_S6144x128_S128x128_S6144x128_1_0_0_1_n_n.rhsIdx j c 1).val = (j 1).val := by
  unfold DotDims.rhsIdx
  rw [dif_neg (show ¬(1 : Fin S128x128.rank) ∈ dot_S6144x128_S128x128_S6144x128_1_0_0_1_n_n.rhsBatch by decide),
    dif_pos (show (1 : Fin S128x128.rank) ∈ dot_S6144x128_S128x128_S6144x128_1_0_0_1_n_n.rhsNonContracting by decide)]
  rfl

/-- The host's `dot_general` of `x` [6144,128] with `w` [128,128], contracting the second axis of `x`
with the first of `w`, read at `(i, q)`: the sum over `k` of `x (i, k) * w (k, q)`. -/
theorem dot_x_w_apply (x : (⟨S6144x128, .f32⟩ : BufTy).Contents (Elt Ideal))
    (w : (⟨S128x128, .f32⟩ : BufTy).Contents (Elt Ideal)) (i : Fin 6144) (q : Fin 128) :
    (Host.dotGeneral (F := Ideal) (φ₁ := .f32) (φ₂ := .f32) dot_S6144x128_S128x128_S6144x128_1_0_0_1_n_n none x w
        : (⟨S6144x128, .f32⟩ : BufTy).Contents (Elt Ideal)) (ix2 i q)
      = ∑ k : Fin 128, arr S6144x128 x (ix2 i k) * arr S128x128 w (ix2 k q) := by
  simp only [Host.dotGeneral]
  rw [Ideal.dotGeneral_apply, ← Equiv.sum_comp (ValueIdx.contrEquiv1 dot_S6144x128_S128x128_S6144x128_1_0_0_1_n_n 128 rfl rfl).symm]
  refine Finset.sum_congr rfl fun k _ => ?_
  have hk := ValueIdx.contrEquiv1_symm_val dot_S6144x128_S128x128_S6144x128_1_0_0_1_n_n 128 rfl rfl k
  have el : dot_S6144x128_S128x128_S6144x128_1_0_0_1_n_n.lhsIdx (ix2 i q)
      ((ValueIdx.contrEquiv1 dot_S6144x128_S128x128_S6144x128_1_0_0_1_n_n 128 rfl rfl).symm k) = ix2 i k :=
    funext fun a => Fin.ext (by
      match a with
      | ⟨0, _⟩ => exact dotXW_lhs0 _ _
      | ⟨1, _⟩ => exact (dotXW_lhs1 _ _).trans hk)
  have er : dot_S6144x128_S128x128_S6144x128_1_0_0_1_n_n.rhsIdx (ix2 i q)
      ((ValueIdx.contrEquiv1 dot_S6144x128_S128x128_S6144x128_1_0_0_1_n_n 128 rfl rfl).symm k) = ix2 k q :=
    funext fun a => Fin.ext (by
      match a with
      | ⟨0, _⟩ => exact (dotXW_rhs0 _ _).trans hk
      | ⟨1, _⟩ => exact dotXW_rhs1 _ _)
  rw [el, er]

/-- After the first stretch, `main_v0` at `(i, q)` is `∑ k, x (i, k) * W_gcn (k, q)`. -/
theorem xw_apply (W : Valuation τ sig (Elt Ideal)) (i : Fin 6144) (q : Fin 128) :
    arr S6144x128 (StableHlo.after (main_part0_ops0 (F := Ideal)) W (Proc.devRef .tc main_v0)) (ix2 i q)
      = ∑ k : Fin 128, arr S6144x128 (W (Proc.devRef .tc main_arg0)) (ix2 i k) * arr S128x128 (W (Proc.devRef .tc main_arg3)) (ix2 k q) := by
  rw [after_ops0_v0]
  exact dot_x_w_apply _ _ i q

/-! ## The stretches between the first and the second region: degree, its inverse square root, `Y`, the bias row -/

/-- The three stretches between the first two regions, folded over the contents `W`. -/
abbrev afterB (W : Valuation τ sig (Elt Ideal)) : Valuation τ sig (Elt Ideal) :=
  StableHlo.after (main_part0_ops3 (F := Ideal))
    (StableHlo.after (main_part0_ops2 (F := Ideal)) (StableHlo.after (main_part0_ops1 (F := Ideal)) W))

/-- The degree of column `j`: the column sum the first region left in `main_v1`, plus the literal one. -/
def degK (W : Valuation τ sig (Elt Ideal)) (j : Fin 6144) : EReal :=
  FloatOps.addf (F := Ideal) (φ := .f32)
    ((W (Proc.devRef .tc main_v1) : (⟨S1x6144, .f32⟩ : BufTy).Contents (Elt Ideal)) (ix2 (0 : Fin 1) j))
    (FloatOps.ofBits (F := Ideal) .f32 0x3F800000#32)

/-- The degree is the column sum plus one. -/
theorem degK_eq (W : Valuation τ sig (Elt Ideal)) (j : Fin 6144) :
    degK W j = arr S1x6144 (W (Proc.devRef .tc main_v1)) (ix2 (0 : Fin 1) j) + 1 := by
  unfold degK
  rw [Ideal.addf_def, Ideal.ofBits_def, Ideal.ofBits_one_f32]

/-- The inverse square root of the degree where the degree is positive, the literal zero elsewhere: the
comparison, the host's reciprocal square root and the selection the three host operations apply at each index. -/
def dinvK (W : Valuation τ sig (Elt Ideal)) (r : Fin 6144) : EReal :=
  Scalar.select (FloatOps.cmpf (F := Ideal) (φ := .f32) .ogt (degK W r) (FloatOps.ofBits (F := Ideal) .f32 0x00000000#32))
    (FloatOps.hostUnary (F := Ideal) (φ := .f32) .rsqrt (degK W r))
    (FloatOps.ofBits (F := Ideal) .f32 0x00000000#32)

/-- The degree as an array: the column sums reshaped to a vector, plus the broadcast one. -/
def degArr (W : Valuation τ sig (Elt Ideal)) : FVec Ideal S6144 .f32 :=
  addf (F := Ideal) (φ := .f32)
    (shapeCast S6144 (W (Proc.devRef .tc main_v1) : (⟨S1x6144, .f32⟩ : BufTy).Contents (Elt Ideal)) shapeCasts_S1x6144_S6144)
    (broadcastInDim S6144 ![] bcast_S_S6144 (constant (F := Ideal) S_ .f32 0x3F800000#32))

/-- The inverse square root of the degree as an array. -/
def dinvArr (W : Valuation τ sig (Elt Ideal)) : FVec Ideal S6144 .f32 :=
  select
    (cmpf (F := Ideal) (φ := .f32) .ogt (degArr W)
      (broadcastInDim S6144 ![] bcast_S_S6144 (constant (F := Ideal) S_ .f32 0x00000000#32)))
    (Host.rsqrt (F := Ideal) (φ := .f32) (degArr W))
    (broadcastInDim S6144 ![] bcast_S_S6144 (constant (F := Ideal) S_ .f32 0x00000000#32))

theorem degArr_apply (W : Valuation τ sig (Elt Ideal)) (j : Fin 6144) : degArr W (ix1 j) = degK W j := by
  unfold degArr degK
  show FloatOps.addf _ _ = FloatOps.addf _ _
  rw [shapeCast_1a_a_apply, broadcastInDim_scalar_apply]
  rfl

theorem dinvArr_apply (W : Valuation τ sig (Elt Ideal)) (r : Fin 6144) : dinvArr W (ix1 r) = dinvK W r := by
  unfold dinvArr dinvK
  show Scalar.select (FloatOps.cmpf .ogt _ _) (FloatOps.hostUnary .rsqrt _) _ = _
  rw [degArr_apply, broadcastInDim_scalar_apply]
  rfl

/-- After the three stretches `main_v8` holds the inverse square root of the degree. -/
theorem afterB_v8 (W : Valuation τ sig (Elt Ideal)) :
    afterB W (Proc.devRef .tc main_v8) = dinvArr W := by
  show StableHlo.after _ (StableHlo.after _ (StableHlo.after _ W)) (Proc.devRef .tc main_v8) = _
  after_results
  rfl

/-- After the three stretches `main_v12` holds the inverse square root of the degree as a column. -/
theorem afterB_v12 (W : Valuation τ sig (Elt Ideal)) :
    afterB W (Proc.devRef .tc main_v12) = shapeCast S6144x1 (dinvArr W) shapeCasts_S6144_S6144x1 := by
  show StableHlo.after _ (StableHlo.after _ (StableHlo.after _ W)) (Proc.devRef .tc main_v12) = _
  after_results <;> rfl

/-- `main_v12` at `(r, 0)` is the inverse square root of the degree of `r`. -/
theorem dinv_col_apply (W : Valuation τ sig (Elt Ideal)) (r : Fin 6144) :
    arr S6144x1 (afterB W (Proc.devRef .tc main_v12)) (ix2 r (0 : Fin 1)) = dinvK W r := by
  rw [afterB_v12]
  show shapeCast S6144x1 (dinvArr W) shapeCasts_S6144_S6144x1 (ix2 r (0 : Fin 1)) = _
  rw [shapeCast_apply (dinvArr W) shapeCasts_S6144_S6144x1 (ix2 r (0 : Fin 1)) (ix1 r) (by
    rw [Shape.rowMajor_val_one, Shape.rowMajor_val_two]
    show r.val = r.val * 1 + 0
    omega)]
  exact dinvArr_apply W r

/-- After the three stretches `main_v11` holds the inverse square root of the degree, broadcast along the
rows, times `main_v0`. -/
theorem afterB_v11 (W : Valuation τ sig (Elt Ideal)) :
    afterB W (Proc.devRef .tc main_v11)
      = mulf (F := Ideal)
          (broadcastInDim S6144x128 ![0, 1] bcast_S6144x1_S6144x128_0_1
            (broadcastInDim S6144x1 ![0] bcast_S6144_S6144x1_0 (dinvArr W)))
          (W (Proc.devRef .tc main_v0) : (⟨S6144x128, .f32⟩ : BufTy).Contents (Elt Ideal)) := by
  show StableHlo.after _ (StableHlo.after _ (StableHlo.after _ W)) (Proc.devRef .tc main_v11) = _
  after_results <;> rfl

/-- `Y = dinv · xw`: `main_v11` at `(k, q)` is the inverse square root of the degree of `k` times
`main_v0` at `(k, q)`. -/
theorem y_apply (W : Valuation τ sig (Elt Ideal)) (k : Fin 6144) (q : Fin 128) :
    arr S6144x128 (afterB W (Proc.devRef .tc main_v11)) (ix2 k q)
      = dinvK W k * arr S6144x128 (W (Proc.devRef .tc main_v0)) (ix2 k q) := by
  rw [afterB_v11]
  show FloatOps.mulf (F := Ideal) (φ := .f32) _ _ = _
  rw [broadcastInDim_apply ![0, 1] bcast_S6144x1_S6144x128_0_1 _ (ix2 k q) (ix2 k (0 : Fin 1)) (fun a => match a with
      | ⟨0, _⟩ => by show k.val = if (6144 : Nat) = 1 then 0 else k.val; rw [if_neg (by decide)]
      | ⟨1, _⟩ => by show 0 = if (1 : Nat) = 1 then 0 else q.val; rw [if_pos rfl]),
    broadcastInDim_apply ![0] bcast_S6144_S6144x1_0 _ (ix2 k (0 : Fin 1)) (ix1 k) (fun a => match a with
      | ⟨0, _⟩ => by show k.val = if (6144 : Nat) = 1 then 0 else k.val; rw [if_neg (by decide)]),
    dinvArr_apply]
  rfl

/-- After the three stretches `main_v13` holds the bias (argument 4) as a row. -/
theorem afterB_v13 (W : Valuation τ sig (Elt Ideal)) :
    afterB W (Proc.devRef .tc main_v13)
      = shapeCast S1x128 (W (Proc.devRef .tc main_arg4) : (⟨S128, .f32⟩ : BufTy).Contents (Elt Ideal)) shapeCasts_S128_S1x128 := by
  show StableHlo.after _ (StableHlo.after _ (StableHlo.after _ W)) (Proc.devRef .tc main_v13) = _
  after_results <;> rfl

/-- `main_v13` at `(0, q)` is the bias at `q`. -/
theorem bias_row_apply (W : Valuation τ sig (Elt Ideal)) (q : Fin 128) :
    arr S1x128 (afterB W (Proc.devRef .tc main_v13)) (ix2 (0 : Fin 1) q)
      = arr S128 (W (Proc.devRef .tc main_arg4)) (ix1 q) := by
  rw [afterB_v13]
  exact shapeCast_a_1a_apply _ shapeCasts_S128_S1x128 (0 : Fin 1) q

/-- The three stretches leave the adjacency (argument 2) and `main_v0` as they were. -/
theorem afterB_arg2 (W : Valuation τ sig (Elt Ideal)) :
    afterB W (Proc.devRef .tc main_arg2) = W (Proc.devRef .tc main_arg2) := by
  show StableHlo.after _ (StableHlo.after _ (StableHlo.after _ W)) (Proc.devRef .tc main_arg2) = _
  after_results <;> rfl

theorem afterB_v0 (W : Valuation τ sig (Elt Ideal)) :
    afterB W (Proc.devRef .tc main_v0) = W (Proc.devRef .tc main_v0) := by
  show StableHlo.after _ (StableHlo.after _ (StableHlo.after _ W)) (Proc.devRef .tc main_v0) = _
  after_results <;> rfl

end Cert.KernelIdeal.HostRead

end
-- ==== Proof.RefRead.lean ====
/-
  The reference program read at an index, at the ideal values. Each theorem states one stage of the reference
  (the generated Read module's `val_main_vN`) at an index built from its coordinates, as a closed expression over the
  argument arrays: the contractions as plain sums over the contracted axis, the identity matrix as 1 on the diagonal
  and 0 off it, the degree as a column sum, its guarded inverse square root, the normalized adjacency, and the first
  layer h = tanh(Â · (x · W) + b).
-/
import proofs.«141308_j26388279066709_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The f32 arrays the reference's stages take, at the ideal values: functions from an index into the extended reals. -/
abbrev Arr (s : Shape) : Type := (⟨s, .f32⟩ : BufTy).Contents (Elt Ideal)

/-! ## The contractions and the row sum as plain sums -/

/-- x · W at one element: the sum over the contracted axis. -/
theorem xw_apply (x : Arr S6144x128) (Wg : Arr S128x128) (i : Fin 6144) (q : Fin 128) :
    val_main_v19 (F := Ideal) x Wg (ix2 i q) = ∑ k : Fin 128, x (ix2 i k) * Wg (ix2 k q) := by
  rw [val_main_v19_apply]
  refine Finset.sum_congr rfl fun k _ => ?_
  have el : lidx_main_v19 (ix2 i q) k = ix2 i k :=
    funext fun a => Fin.ext (by match a with | ⟨0, _⟩ => rfl | ⟨1, _⟩ => rfl)
  have er : ridx_main_v19 (ix2 i q) k = ix2 k q :=
    funext fun a => Fin.ext (by match a with | ⟨0, _⟩ => rfl | ⟨1, _⟩ => rfl)
  rw [el, er]

/-- The row sum of the motif adjacency (the reduce-add over axis 1) at one row. -/
theorem rowsum_apply (M : Arr S6144x6144) (r : Fin 6144) :
    val_main_v86 (F := Ideal) M (ix1 r) = 0 + ∑ k : Fin 6144, M (ix2 r k) := by
  rw [val_main_v86_apply, val_main_cst_16_apply, Ideal.ofBits_def, Ideal.ofBits_zero_f32]
  refine congrArg (_ + ·) (Finset.sum_congr rfl fun k _ => ?_)
  exact congrArg M (funext fun a => Fin.ext (by match a with | ⟨0, _⟩ => rfl | ⟨1, _⟩ => rfl))

/-- motif_adjacency · S at one element, S the softmax stage (kept as the stage's own term). -/
theorem motifS_apply (x : Arr S6144x128) (M : Arr S6144x6144) (Wg : Arr S128x128) (bg : Arr S128) (x5 : Arr S128x128)
    (x6 : Arr S128) (x7 : Arr S128x16) (x8 : Arr S16) (r : Fin 6144) (q : Fin 16) :
    val_main_v66 (F := Ideal) x M Wg bg x5 x6 x7 x8 (ix2 r q)
      = ∑ k : Fin 6144, M (ix2 r k) * val_main_v44 (F := Ideal) x M Wg bg x5 x6 x7 x8 (ix2 k q) := by
  rw [val_main_v66_apply]
  refine Finset.sum_congr rfl fun k _ => ?_
  have el : lidx_main_v66 (ix2 r q) k = ix2 r k :=
    funext fun a => Fin.ext (by match a with | ⟨0, _⟩ => rfl | ⟨1, _⟩ => rfl)
  have er : ridx_main_v66 (ix2 r q) k = ix2 k q :=
    funext fun a => Fin.ext (by match a with | ⟨0, _⟩ => rfl | ⟨1, _⟩ => rfl)
  rw [el, er]

/-- adjacency · S at one element. -/
theorem adjS_apply (x : Arr S6144x128) (A M : Arr S6144x6144) (Wg : Arr S128x128) (bg : Arr S128) (x5 : Arr S128x128)
    (x6 : Arr S128) (x7 : Arr S128x16) (x8 : Arr S16) (r : Fin 6144) (q : Fin 16) :
    val_main_v49 (F := Ideal) x A M Wg bg x5 x6 x7 x8 (ix2 r q)
      = ∑ k : Fin 6144, A (ix2 r k) * val_main_v44 (F := Ideal) x M Wg bg x5 x6 x7 x8 (ix2 k q) := by
  rw [val_main_v49_apply]
  refine Finset.sum_congr rfl fun k _ => ?_
  have el : lidx_main_v49 (ix2 r q) k = ix2 r k :=
    funext fun a => Fin.ext (by match a with | ⟨0, _⟩ => rfl | ⟨1, _⟩ => rfl)
  have er : ridx_main_v49 (ix2 r q) k = ix2 k q :=
    funext fun a => Fin.ext (by match a with | ⟨0, _⟩ => rfl | ⟨1, _⟩ => rfl)
  rw [el, er]

/-! ## The identity matrix, the degree and its inverse square root -/

/-- Two coordinates below 6144 give the same 32-bit word exactly when they are equal. -/
theorem word_eq_iff (i j : Fin 6144) : BitVec.ofNat 32 i.val = BitVec.ofNat 32 j.val ↔ i = j := by
  constructor
  · intro h
    have h' := congrArg BitVec.toNat h
    simp only [BitVec.toNat_ofNat] at h'
    have hi := i.isLt
    have hj := j.isLt
    exact Fin.ext (by omega)
  · rintro rfl; rfl

/-- The identity matrix as an f32 array (iota, iota, compare, convert) at one element: 1 on the diagonal, 0 off it. -/
theorem eye_apply (i j : Fin 6144) :
    val_main_v5 (F := Ideal) (ix2 i j) = if i = j then (1 : EReal) else 0 := by
  rw [val_main_v5_apply, val_main_v4_apply, val_main_v3_apply, val_main_v0_apply, val_main_v1_apply, val_main_v2_apply,
    val_main_c_apply]
  show (((BitVec.ofBool (BitVec.ofNat 32 i.val + 0#32 == BitVec.ofNat 32 j.val)).toNat : ℝ) : EReal) = _
  rw [BitVec.add_zero]
  by_cases h : i = j
  · subst h
    simp
  · have hne : ¬ BitVec.ofNat 32 i.val = BitVec.ofNat 32 j.val := fun e => h ((word_eq_iff i j).mp e)
    rw [if_neg h, beq_eq_false_iff_ne.mpr hne]
    simp

/-- motif adjacency plus identity at one element. -/
theorem mplus_apply (M : Arr S6144x6144) (i j : Fin 6144) :
    val_main_v6 (F := Ideal) M (ix2 i j) = M (ix2 i j) + (if i = j then (1 : EReal) else 0) := by
  rw [val_main_v6_apply, eye_apply]
  rfl

/-- The degree of column j: the column sum of motif adjacency plus identity. -/
def degOf (M : Arr S6144x6144) (j : Fin 6144) : EReal :=
  (0 : EReal) + ∑ i : Fin 6144, (M (ix2 i j) + (if i = j then (1 : EReal) else 0))

/-- The reduce-add over axis 0 at one column is that sum. -/
theorem deg_apply (M : Arr S6144x6144) (j : Fin 6144) :
    val_main_v7 (F := Ideal) M (ix1 j) = degOf M j := by
  rw [val_main_v7_apply, val_main_cst_apply, Ideal.ofBits_def, Ideal.ofBits_zero_f32]
  refine congrArg (_ + ·) (Finset.sum_congr rfl fun i _ => ?_)
  have e : idx_main_v7 (ix1 j) i = ix2 i j :=
    funext fun a => Fin.ext (by match a with | ⟨0, _⟩ => rfl | ⟨1, _⟩ => rfl)
  rw [e, mplus_apply]

/-! ## The guarded inverse square root of the degree -/

/-- The inverse square root of a degree, zero where the degree is not positive: the select, on (d > 0), between the
    ideal inverse square root of d and 0 — the three scalar operations the stage applies. -/
def dinvOf (d : EReal) : EReal :=
  Scalar.select (Ideal.cmp .ogt d 0) (Ideal.rsqrt d) 0

/-- The same written with the float operations' names and the literal zero word, as a program applies them. -/
theorem dinvOf_eq (d : Ideal .f32) :
    dinvOf d = Scalar.select (FloatOps.cmpf (F := Ideal) .ogt d (FloatOps.ofBits (F := Ideal) .f32 0x00000000#32))
      (FloatOps.hostUnary (F := Ideal) .rsqrt d) (FloatOps.ofBits (F := Ideal) .f32 0x00000000#32) := by
  rw [Ideal.ofBits_def, Ideal.ofBits_zero_f32]
  rfl

/-- The where-stage (compare, rsqrt, select against the zero splat) at one column. -/
theorem dinv_apply (M : Arr S6144x6144) (j : Fin 6144) :
    val_main_v11 (F := Ideal) M (ix1 j) = dinvOf (degOf M j) := by
  rw [val_main_v11_apply, val_main_v9_apply, val_main_v10_apply, val_main_v8_apply, val_main_call0_v0_apply,
    val_main_cst_0_apply, val_main_cst_1_apply, deg_apply, dinvOf_eq]

/-! ## The normalized adjacency and the first layer -/

/-- The normalized adjacency (before the transpose) at one element: dinv_k · (M + I)(k, r) · dinv_r. -/
theorem ahat_apply (M : Arr S6144x6144) (k r : Fin 6144) :
    val_main_v17 (F := Ideal) M (ix2 k r)
      = (dinvOf (degOf M k) * (M (ix2 k r) + (if k = r then (1 : EReal) else 0))) * dinvOf (degOf M r) := by
  rw [val_main_v17_apply, val_main_v14_apply, val_main_v13_apply, val_main_v12_apply, val_main_v16_apply,
    val_main_v15_apply]
  have e1 : idx_main_v12 (idx_main_v13 (ix2 k r)) = ix1 k :=
    funext fun a => Fin.ext (by match a with | ⟨0, _⟩ => rfl)
  have e2 : idx_main_v15 (idx_main_v16 (ix2 k r)) = ix1 r :=
    funext fun a => Fin.ext (by match a with | ⟨0, _⟩ => rfl)
  rw [e1, e2, dinv_apply, dinv_apply, mplus_apply]
  rfl

/-- x · W at one element, named. -/
def xwOf (x : Arr S6144x128) (Wg : Arr S128x128) (i : Fin 6144) (q : Fin 128) : EReal :=
  ∑ k : Fin 128, x (ix2 i k) * Wg (ix2 k q)

/-- The first layer h = tanh(Âᵀ · (x · W) + b) at one element. -/
theorem h_apply (x : Arr S6144x128) (M : Arr S6144x6144) (Wg : Arr S128x128) (bg : Arr S128) (r : Fin 6144) (q : Fin 128) :
    val_main_v24 (F := Ideal) x M Wg bg (ix2 r q)
      = Ideal.tanh ((∑ i : Fin 6144,
            ((dinvOf (degOf M i) * (M (ix2 i r) + (if i = r then (1 : EReal) else 0))) * dinvOf (degOf M r))
              * (∑ k : Fin 128, x (ix2 i k) * Wg (ix2 k q)))
          + bg (ix1 q)) := by
  rw [val_main_v24_apply, val_main_v23_apply, val_main_v20_apply, val_main_v22_apply, val_main_v21_apply]
  have eb : idx_main_v21 (idx_main_v22 (ix2 r q)) = ix1 q :=
    funext fun a => Fin.ext (by match a with | ⟨0, _⟩ => rfl)
  have es : ∀ i : Fin 6144,
      val_main_v18 (F := Ideal) M (lidx_main_v20 (ix2 r q) i) * val_main_v19 (F := Ideal) x Wg (ridx_main_v20 (ix2 r q) i)
        = ((dinvOf (degOf M i) * (M (ix2 i r) + (if i = r then (1 : EReal) else 0))) * dinvOf (degOf M r))
            * (∑ k : Fin 128, x (ix2 i k) * Wg (ix2 k q)) := by
    intro i
    have el : lidx_main_v20 (ix2 r q) i = ix2 r i :=
      funext fun a => Fin.ext (by match a with | ⟨0, _⟩ => rfl | ⟨1, _⟩ => rfl)
    have er : ridx_main_v20 (ix2 r q) i = ix2 i q :=
      funext fun a => Fin.ext (by match a with | ⟨0, _⟩ => rfl | ⟨1, _⟩ => rfl)
    have et : idx_main_v18 (ix2 r i) = ix2 i r :=
      funext fun a => Fin.ext (by match a with | ⟨0, _⟩ => rfl | ⟨1, _⟩ => rfl)
    rw [el, er, val_main_v18_apply, et, ahat_apply, xw_apply]
  rw [eb, Finset.sum_congr rfl fun i _ => es i]
  rfl

end Cert.ReferenceIdeal.RefValue

end
-- ==== Proof.GcnAlgebra.lean ====
import Mathlib.Data.EReal.Operations
import Mathlib.Algebra.BigOperators.Ring.Finset
import Mathlib.Tactic.Ring

/-!
The algebra behind the graph-convolution claim, read in the extended reals.

The reference normalises the adjacency with self loops, `(M + I)`, on both sides by
`d = deg^(-1/2)` and then contracts with `xw`; the kernel scales `xw` by `d` first,
contracts with `M`, adds the self-loop term and scales by `d` again.  Both are the same
finite sum of products of real numbers.  In the extended reals multiplication does not
distribute over addition at the infinities, so the law is stated for real entries coerced
into `EReal`; the degree law only needs that `EReal` is an additive commutative monoid.
-/

namespace Cert.Lib.Gcn

open Finset

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of coerced reals is a coerced real. -/
theorem exists_coe_sum {ι : Type*} (s : Finset ι) (f : ι → EReal)
    (hf : ∀ i, ∃ y : ℝ, f i = (y : EReal)) : ∃ y : ℝ, ∑ i ∈ s, f i = (y : EReal) := by
  choose g hg using hf
  exact ⟨∑ i ∈ s, g i, by rw [coe_sum]; exact Finset.sum_congr rfl fun i _ => hg i⟩

/-- A product of two coerced reals is a coerced real. -/
theorem exists_coe_mul {a b : EReal} (ha : ∃ y : ℝ, a = (y : EReal))
    (hb : ∃ y : ℝ, b = (y : EReal)) : ∃ y : ℝ, a * b = (y : EReal) := by
  obtain ⟨x, rfl⟩ := ha
  obtain ⟨y, rfl⟩ := hb
  exact ⟨x * y, (EReal.coe_mul x y).symm⟩

/-- A sum of two coerced reals is a coerced real. -/
theorem exists_coe_add {a b : EReal} (ha : ∃ y : ℝ, a = (y : EReal))
    (hb : ∃ y : ℝ, b = (y : EReal)) : ∃ y : ℝ, a + b = (y : EReal) := by
  obtain ⟨x, rfl⟩ := ha
  obtain ⟨y, rfl⟩ := hb
  exact ⟨x + y, (EReal.coe_add x y).symm⟩

/-- A finite sum of products of coerced reals is a coerced real. -/
theorem exists_coe_sum_mul {ι : Type*} (s : Finset ι) (f g : ι → EReal)
    (hf : ∀ i, ∃ y : ℝ, f i = (y : EReal)) (hg : ∀ i, ∃ y : ℝ, g i = (y : EReal)) :
    ∃ y : ℝ, ∑ i ∈ s, f i * g i = (y : EReal) :=
  exists_coe_sum s _ fun i => exists_coe_mul (hf i) (hg i)

variable {ι : Type*} [Fintype ι] [DecidableEq ι]

/-- The column degree of the adjacency with self loops, accumulated from zero, is the
column sum of the adjacency plus one.  No finiteness is needed. -/
theorem deg_law (M : ι → ι → EReal) (j : ι) :
    (0 : EReal) + ∑ i, (M i j + (if i = j then (1 : EReal) else 0)) = (∑ i, M i j) + 1 := by
  rw [zero_add, Finset.sum_add_distrib, Finset.sum_ite_eq' Finset.univ j]
  simp

/-- The two orders of normalisation agree on real entries. -/
theorem gcn_law (M : ι → ι → ℝ) (d xw : ι → ℝ) (r : ι) :
    ∑ i, ((((d i : ℝ) : EReal) * ((M i r : EReal) + (if i = r then (1 : EReal) else 0)))
        * (d r : EReal)) * (xw i : EReal)
      = (d r : EReal) * ((∑ k, (M k r : EReal) * ((d k : EReal) * (xw k : EReal)))
        + (d r : EReal) * (xw r : EReal)) := by
  have hite : ∀ i : ι, (if i = r then (1 : EReal) else 0)
      = (((if i = r then (1 : ℝ) else 0 : ℝ)) : EReal) := by
    intro i; split_ifs <;> simp
  simp only [hite, ← EReal.coe_mul, ← EReal.coe_add, ← coe_sum]
  congr 1
  have : ∀ i : ι, d i * (M i r + if i = r then (1 : ℝ) else 0) * d r * xw i
      = d r * (M i r * (d i * xw i)) + (if i = r then d r * (d r * xw r) else 0) := by
    intro i
    split_ifs with h
    · subst h; ring
    · ring
  rw [Finset.sum_congr rfl fun i _ => this i, Finset.sum_add_distrib,
    Finset.sum_ite_eq' Finset.univ r, ← Finset.mul_sum, if_pos (Finset.mem_univ r), mul_add]

end Cert.Lib.Gcn
-- ==== Proof.HBridge.lean ====
import proofs.«141308_j26388279066709_2_alg».proof.Proof.RefRead
import proofs.«141308_j26388279066709_2_alg».proof.Proof.GcnAlgebra
import Idealize.ShloMosaic.Lib.IdealHost

/-!
The bridge between the two spellings of the first graph-convolution layer, as a pure statement.

The reference normalises `(M + I)` on both sides by `d = dinv(deg)` and contracts with `x · W`; the kernel
scales `x · W` by `d`, contracts with `M`, adds the self-loop term and scales by `d` again.  The degree of
the two agree with no hypothesis (a finite sum in an additive commutative monoid); the contraction agrees
when the adjacency and `x · W` are real, because then every degree, and so every guarded inverse square
root of a degree, is real, and the law is the distributive law in `ℝ`.
-/

open scoped BigOperators

namespace Cert.Bridge

open Cert.ReferenceIdeal Cert.ReferenceIdeal.RefValue Cert.Lib.Gcn
open Idealize.ShloMosaic Idealize.ShloMosaic.ValueIdx

/-- (1) The guarded inverse square root of a real is a real: where the argument is positive it is
`(√y)⁻¹`, elsewhere zero. -/
theorem dinvOf_real (y : ℝ) : ∃ z : ℝ, dinvOf (y : EReal) = (z : EReal) := by
  unfold dinvOf Scalar.select
  by_cases hy : (0 : EReal) < (y : EReal)
  · have hc : Ideal.cmp .ogt (y : EReal) 0 = 1 := by simp [Ideal.cmp, hy]
    have hy' : (0 : ℝ) < y := by exact_mod_cast hy
    rw [if_pos hc, Ideal.rsqrt_coe, if_neg (not_lt.mpr hy'.le), if_neg hy'.ne']
    exact ⟨_, rfl⟩
  · have hc : ¬ Ideal.cmp .ogt (y : EReal) 0 = 1 := by simp [Ideal.cmp, hy]
    rw [if_neg hc]
    exact ⟨0, EReal.coe_zero.symm⟩

/-- (2) The literal one, as a stage spells it at an element, is the extended real one. -/
theorem one_lit : FloatOps.ofBits (F := Ideal) .f32 0x3F800000#32 = (1 : EReal) := by
  rw [Ideal.ofBits_def]; exact Ideal.ofBits_one_f32

theorem one_lit' : Ideal.ofBits .f32 0x3F800000#32 = (1 : EReal) := Ideal.ofBits_one_f32

/-- The literal zero likewise. -/
theorem zero_lit : FloatOps.ofBits (F := Ideal) .f32 0x00000000#32 = (0 : EReal) := by
  rw [Ideal.ofBits_def]; exact Ideal.ofBits_zero_f32

/-- The guarded inverse square root written with the float operations' names is `dinvOf`. -/
theorem select_eq_dinvOf (d : EReal) :
    Scalar.select (FloatOps.cmpf (F := Ideal) (φ := .f32) .ogt d (FloatOps.ofBits (F := Ideal) .f32 0x00000000#32))
      (FloatOps.hostUnary (F := Ideal) (φ := .f32) .rsqrt d) (FloatOps.ofBits (F := Ideal) .f32 0x00000000#32) = dinvOf d :=
  (dinvOf_eq d).symm

/-- (3) The two orders of normalisation agree when the adjacency and `x · W` are real. -/
theorem h_pure {ι : Type} [Fintype ι] [DecidableEq ι] (M : ι → ι → EReal) (xw : ι → EReal)
    (hM : ∀ i j, ∃ y : ℝ, M i j = (y : EReal)) (hxw : ∀ i, ∃ y : ℝ, xw i = (y : EReal)) (r : ι) :
    dinvOf ((∑ i, M i r) + 1)
        * ((∑ k, M k r * (dinvOf ((∑ i, M i k) + 1) * xw k)) + dinvOf ((∑ i, M i r) + 1) * xw r)
      = ∑ i, ((dinvOf ((0 : EReal) + ∑ i', (M i' i + (if i' = i then (1 : EReal) else 0)))
              * (M i r + (if i = r then (1 : EReal) else 0)))
            * dinvOf ((0 : EReal) + ∑ i', (M i' r + (if i' = r then (1 : EReal) else 0)))) * xw i := by
  have hdeg : ∀ j, (0 : EReal) + ∑ i', (M i' j + (if i' = j then (1 : EReal) else 0)) = (∑ i, M i j) + 1 :=
    fun j => deg_law M j
  have hd : ∀ j, ∃ z : ℝ, dinvOf ((∑ i, M i j) + 1) = (z : EReal) := fun j => by
    obtain ⟨s, hs⟩ := exists_coe_add (exists_coe_sum Finset.univ (fun i => M i j) (fun i => hM i j))
      ⟨1, EReal.coe_one.symm⟩
    rw [hs]; exact dinvOf_real s
  choose Mr hMr using hM
  choose xr hxr using hxw
  choose dr hdr using hd
  simp only [hdeg, hdr]
  simp only [hMr, hxr]
  exact (gcn_law Mr dr xr r).symm

/-- (3), over the arrays: the kernel's spelling of the contraction (left) is the reference's (right), for
an adjacency `M`, features `x` and weights `Wg` whose entries are all real. -/
theorem h_pure' (x : Arr S6144x128) (M : Arr S6144x6144) (Wg : Arr S128x128)
    (hM : ∀ idx, ∃ y : ℝ, M idx = (y : EReal)) (hx : ∀ idx, ∃ y : ℝ, x idx = (y : EReal))
    (hW : ∀ idx, ∃ y : ℝ, Wg idx = (y : EReal)) (r : Fin 6144) (q : Fin 128) :
    dinvOf ((∑ i : Fin 6144, M (ix2 i r)) + 1)
        * ((∑ k : Fin 6144, M (ix2 k r)
              * (dinvOf ((∑ i : Fin 6144, M (ix2 i k)) + 1) * (∑ c : Fin 128, x (ix2 k c) * Wg (ix2 c q))))
            + dinvOf ((∑ i : Fin 6144, M (ix2 i r)) + 1) * (∑ c : Fin 128, x (ix2 r c) * Wg (ix2 c q)))
      = ∑ i : Fin 6144,
          ((dinvOf (degOf M i) * (M (ix2 i r) + (if i = r then (1 : EReal) else 0))) * dinvOf (degOf M r))
            * (∑ k : Fin 128, x (ix2 i k) * Wg (ix2 k q)) := by
  unfold degOf
  exact h_pure (fun i j => M (ix2 i j)) (fun i => ∑ c : Fin 128, x (ix2 i c) * Wg (ix2 c q))
    (fun i j => hM (ix2 i j))
    (fun i => exists_coe_sum_mul Finset.univ (fun c => x (ix2 i c)) (fun c => Wg (ix2 c q))
      (fun c => hx (ix2 i c)) (fun c => hW (ix2 c q))) r

/-- The degree the reference computes is the column sum plus one. -/
theorem degOf_eq (M : Arr S6144x6144) (j : Fin 6144) : degOf M j = (∑ i : Fin 6144, M (ix2 i j)) + 1 := by
  unfold degOf
  exact deg_law (fun i j => M (ix2 i j)) j

end Cert.Bridge
-- ==== Proof.FiniteInputs.lean ====
import proofs.«141308_j26388279066709_2_alg».proof.Proof.Gen.Pre_finite_inputs
import Idealize.ShloMosaic.Lib.ReduceAll
import Idealize.ShloMosaic.Lib.IdealHost
import Idealize.ShloMosaic.PureOps.Ideal

/-!
From the printed precondition `finite_inputs` to "every entry of every argument array is a real number".

The predicate is a conjunction, over the nine argument arrays, of `all (|x| < +∞)`.  At the ideal
instance a float is an extended real, the absolute value is `max x (-x)`, the bit pattern
`0x7F800000` is `⊤`, and the comparison is the order's: so `|x| < ⊤` excludes both infinities and
leaves the coercion of a real.
-/

namespace Cert.Lib.Finite

open Idealize.ShloMosaic Idealize.ShloMosaic.ValueIdx

instance : Subsingleton Cert.Pre_finite_inputs.S_.Idx := ⟨fun a b => funext fun d => d.elim0⟩

/-- An extended real whose absolute value is below `+∞` is the coercion of a real. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ y : ℝ, x = (y : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => exfalso; revert h; simp [Ideal.cmp]
  | coe y => exact ⟨y, rfl⟩
  | top => exfalso; revert h; simp [Ideal.cmp]

/-- One conjunct of the predicate: `all (|x| < +∞)` over an array gives a real at every index. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
      (cmpf .olt (Host.absf x)
        (broadcastInDim s ![] hb (constant (F := Ideal) Cert.Pre_finite_inputs.S_ .f32 0x7F800000#32)))
      init hr hu j = 1#1) (i : s.Idx) : ∃ y : ℝ, x i = (y : EReal) :=
  real_of_abs_lt_top (x i) (Host.reduce_andi_all _ init hr hu j e i)

open Cert.Pre_finite_inputs in
/-- The precondition, read at the ideal instance: every entry of each of the nine argument arrays
is the coercion of a real number. -/
theorem finite_inputs (a0 : FVec Ideal S6144x128 .f32) (a1 : FVec Ideal S6144x6144 .f32)
    (a2 : FVec Ideal S6144x6144 .f32) (a3 : FVec Ideal S128x128 .f32) (a4 : FVec Ideal S128 .f32)
    (a5 : FVec Ideal S128x128 .f32) (a6 : FVec Ideal S128 .f32) (a7 : FVec Ideal S128x16 .f32)
    (a8 : FVec Ideal S16 .f32)
    (h : Cert.Pre_finite_inputs.fn (F := Ideal) a0 a1 a2 a3 a4 a5 a6 a7 a8 = fun _ => 1#1) :
    (∀ i, ∃ y : ℝ, a0 i = (y : EReal)) ∧ (∀ i, ∃ y : ℝ, a1 i = (y : EReal))
      ∧ (∀ i, ∃ y : ℝ, a2 i = (y : EReal)) ∧ (∀ i, ∃ y : ℝ, a3 i = (y : EReal))
      ∧ (∀ i, ∃ y : ℝ, a4 i = (y : EReal)) ∧ (∀ i, ∃ y : ℝ, a5 i = (y : EReal))
      ∧ (∀ i, ∃ y : ℝ, a6 i = (y : EReal)) ∧ (∀ i, ∃ y : ℝ, a7 i = (y : EReal))
      ∧ (∀ i, ∃ y : ℝ, a8 i = (y : EReal)) := by
  have h0 := congrFun h ix0
  dsimp only [Cert.Pre_finite_inputs.fn, Cert.Pre_finite_inputs.fn_part1,
    Cert.Pre_finite_inputs.fn_part2, Idealize.ShloMosaic.andi] at h0
  simp only [IntOp.andi_eq_one] at h0
  obtain ⟨⟨⟨⟨⟨⟨⟨⟨e0, e1⟩, e2⟩, e3⟩, e4⟩, e5⟩, e6⟩, e7⟩, e8⟩ := h0
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5,
    real_of_all a6 _ _ _ _ _ e6, real_of_all a7 _ _ _ _ _ e7, real_of_all a8 _ _ _ _ _ e8⟩

end Cert.Lib.Finite
-- ==== Proof.HFinal.lean ====
import proofs.«141308_j26388279066709_2_alg».proof.Proof.RunFrame
import proofs.«141308_j26388279066709_2_alg».proof.Proof.Region0Value
import proofs.«141308_j26388279066709_2_alg».proof.Proof.Region1Value
import proofs.«141308_j26388279066709_2_alg».proof.Proof.KernelHostRead
import proofs.«141308_j26388279066709_2_alg».proof.Proof.HBridge
import proofs.«141308_j26388279066709_2_alg».proof.Proof.FiniteInputs
import proofs.«141308_j26388279066709_2_alg».proof.Proof.RefRead

/-!
The first graph-convolution layer of the kernel is the reference's.

The buffer the second region writes holds, at `(r, q)`, `tanh (d_r · ((∑ k, M (k, r) · Y (k, q)) + Y (r, q)) + b_q)`
over the contents the region is entered from: `d` the guarded inverse square root of the degree, `Y = d · (x · W)`,
the degree the first region's column sums plus one, all read off the launch memory through the host stretches.
The reference's array is `tanh ((∑ i, (d_i · (M + I)(i, r) · d_r) · (x · W)(i, q)) + b_q)`.  The two agree
because the adjacency, the features and the weights are real.
-/

set_option maxRecDepth 16384

open scoped BigOperators

noncomputable section

namespace Cert.Bridge

open Cert.KernelIdeal Cert.KernelIdeal.Gen Cert.KernelIdeal.Hand Cert.KernelIdeal.HostRead
open Cert.ReferenceIdeal.RefValue
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- The contents the second region is entered from are the three stretches' fold of the first region's exit. -/
theorem W5_eq_afterB : W5 m ρ c = afterB (W2 m ρ c) := rfl

/-- The adjacency, as the first region leaves it, is the launch memory's. -/
theorem W2_arg2 : W2 m ρ c (Proc.devRef .tc main_arg2) = m ((c : Thread nD τ).loc main_arg2) :=
  calc W2 m ρ c (Proc.devRef .tc main_arg2)
    _ = W1 m ρ c (Proc.devRef .tc main_arg2) := (W2_arr m ρ c 0).trans (kept0 (V1 m ρ) c)
    _ = W0 m ρ c (Proc.devRef .tc main_arg2) := W1_of m ρ c main_arg2 (by decide)
    _ = m ((c : Thread nD τ).loc main_arg2) := rfl

theorem W5_arg2 : W5 m ρ c (Proc.devRef .tc main_arg2) = m ((c : Thread nD τ).loc main_arg2) :=
  (afterB_arg2 (W2 m ρ c)).trans (W2_arg2 m ρ c)

theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- `x · W_gcn`, as the first region leaves it, at an element. -/
theorem W2_v0_apply (k : Fin 6144) (q : Fin 128) :
    arr S6144x128 (W2 m ρ c (Proc.devRef .tc main_v0)) (ix2 k q)
      = ∑ c' : Fin 128, arr S6144x128 (m ((c : Thread nD τ).loc main_arg0)) (ix2 k c')
          * arr S128x128 (m ((c : Thread nD τ).loc main_arg3)) (ix2 c' q) := by
  rw [W2_of_ne m ρ c main_v0 (by decide)]
  exact xw_apply (W0 m ρ c) k q

theorem V1_arg2 : V1 m ρ c main_arg2 = m ((c : Thread nD τ).loc main_arg2) :=
  W1_of m ρ c main_arg2 (by decide)

/-- The first layer, given what the two regions leave at an element. -/
theorem h_eq_of
    (hcol : ∀ q : Fin 6144, arr S1x6144 ((dat0 (F := Ideal) (V1 m ρ) c).arrAt 1 cfg0.N) (ix2 (0 : Fin 1) q)
        = ∑ r : Fin 6144, arr S6144x6144 (V1 m ρ c main_arg2) (ix2 r q))
    (hh : ∀ (r : Fin 6144) (q : Fin 128), arr S6144x128 ((dat1 (F := Ideal) (V5 m ρ) c).arrAt 4 cfg1.N) (ix2 r q)
        = Ideal.tanh (arr S6144x1 (V5 m ρ c main_v12) (ix2 r (0 : Fin 1))
            * ((∑ k : Fin 6144, arr S6144x6144 (V5 m ρ c main_arg2) (ix2 k r) * arr S6144x128 (V5 m ρ c main_v11) (ix2 k q))
              + arr S6144x128 (V5 m ρ c main_v11) (ix2 r q))
            + arr S1x128 (V5 m ρ c main_v13) (ix2 (0 : Fin 1) q)))
    (f0 : ∀ idx, ∃ y : ℝ, arr S6144x128 (m ((c : Thread nD τ).loc main_arg0)) idx = (y : EReal))
    (f2 : ∀ idx, ∃ y : ℝ, arr S6144x6144 (m ((c : Thread nD τ).loc main_arg2)) idx = (y : EReal))
    (f3 : ∀ idx, ∃ y : ℝ, arr S128x128 (m ((c : Thread nD τ).loc main_arg3)) idx = (y : EReal)) :
    W6 m ρ c (Proc.devRef .tc main_v14)
      = Cert.ReferenceIdeal.Read.val_main_v24 (F := Ideal) (m ((c : Thread nD τ).loc main_arg0))
          (m ((c : Thread nD τ).loc main_arg2)) (m ((c : Thread nD τ).loc main_arg3)) (m ((c : Thread nD τ).loc main_arg4)) := by
  refine (W6_arr m ρ c 4).trans ?_
  funext idx
  obtain ⟨r, q, rfl⟩ : ∃ (r : Fin 6144) (q : Fin 128), idx = ix2 r q := ⟨idx 0, idx 1, eq_ix2 idx⟩
  refine (hh r q).trans ?_
  refine Eq.trans ?_ (h_apply _ _ _ _ r q).symm
  have hb : arr S1x128 (V5 m ρ c main_v13) (ix2 (0 : Fin 1) q) = arr S128 (m ((c : Thread nD τ).loc main_arg4)) (ix1 q) := by
    show arr S1x128 (afterB (W2 m ρ c) (Proc.devRef .tc main_v13)) (ix2 (0 : Fin 1) q) = _
    rw [bias_row_apply, W2_arg4]
  have hd : ∀ j, dinvK (W2 m ρ c) j
      = dinvOf ((∑ i : Fin 6144, arr S6144x6144 (m ((c : Thread nD τ).loc main_arg2)) (ix2 i j)) + 1) := by
    intro j
    unfold dinvK
    rw [select_eq_dinvOf, degK_eq, W2_arr m ρ c 1, hcol j, V1_arg2]
  have h12 : arr S6144x1 (V5 m ρ c main_v12) (ix2 r (0 : Fin 1)) = dinvK (W2 m ρ c) r := dinv_col_apply (W2 m ρ c) r
  have h11 : ∀ k : Fin 6144, arr S6144x128 (V5 m ρ c main_v11) (ix2 k q)
      = dinvK (W2 m ρ c) k * (∑ c' : Fin 128, arr S6144x128 (m ((c : Thread nD τ).loc main_arg0)) (ix2 k c')
          * arr S128x128 (m ((c : Thread nD τ).loc main_arg3)) (ix2 c' q)) := fun k =>
    (y_apply (W2 m ρ c) k q).trans (by rw [W2_v0_apply])
  have hM5 : V5 m ρ c main_arg2 = m ((c : Thread nD τ).loc main_arg2) := W5_arg2 m ρ c
  rw [h12, hb, hM5, h11 r, Finset.sum_congr rfl (fun k _ => by rw [h11 k])]
  simp only [hd]
  exact congrArg Ideal.tanh (congrArg (· + _) (h_pure' _ _ _ f2 f0 f3 r q))

/-- The buffer the second region leaves in `main_v14` is the reference's first layer, for real inputs. -/
theorem h_eq
    (f0 : ∀ idx, ∃ y : ℝ, arr S6144x128 (m ((c : Thread nD τ).loc main_arg0)) idx = (y : EReal))
    (f2 : ∀ idx, ∃ y : ℝ, arr S6144x6144 (m ((c : Thread nD τ).loc main_arg2)) idx = (y : EReal))
    (f3 : ∀ idx, ∃ y : ℝ, arr S128x128 (m ((c : Thread nD τ).loc main_arg3)) idx = (y : EReal)) :
    W6 m ρ c (Proc.devRef .tc main_v14)
      = Cert.ReferenceIdeal.Read.val_main_v24 (F := Ideal) (m ((c : Thread nD τ).loc main_arg0))
          (m ((c : Thread nD τ).loc main_arg2)) (m ((c : Thread nD τ).loc main_arg3)) (m ((c : Thread nD τ).loc main_arg4)) :=
  h_eq_of m ρ c (fun q => Cert.KernelIdeal.HandValue.colsum_apply (V1 m ρ) c q)
    (fun r q => Cert.KernelIdeal.HandValue.h_apply (V5 m ρ) c r q) f0 f2 f3

/-- The same from the precondition. -/
theorem h_eq_of_pre
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1) :
    W6 m ρ c (Proc.devRef .tc main_v14)
      = Cert.ReferenceIdeal.Read.val_main_v24 (F := Ideal) (m ((c : Thread nD τ).loc main_arg0))
          (m ((c : Thread nD τ).loc main_arg2)) (m ((c : Thread nD τ).loc main_arg3)) (m ((c : Thread nD τ).loc main_arg4)) := by
  obtain ⟨f0, -, f2, f3, -⟩ := Cert.Lib.Finite.finite_inputs _ _ _ _ _ _ _ _ _ hpre
  exact h_eq m ρ c f0 f2 f3

end Cert.Bridge

end
-- ==== Proof.TailBridge.lean ====
/-
  The kernel's host operations after its regions against the reference's stages, at the ideal values: once the arrays
  the regions leave are identified with the reference's stages (the first layer h, the softmax S, the two products with
  S and the row sums), every later array is the same composition of the same host operations, hence equal.
-/
import proofs.«141308_j26388279066709_2_alg».proof.Proof.Gen.KernelIdeal.Launch
import proofs.«141308_j26388279066709_2_alg».proof.Proof.Gen.ReferenceIdeal.Read
import Idealize.ShloMosaic.Lib.StableHlo.Run
import Idealize.ShloMosaic.PureOps.Ideal.Laws
import Idealize.ShloMosaic.Lib.ValueIdx
import Idealize.ShloMosaic.Lib.Pipeline.Value

noncomputable section

namespace Cert.Bridge

open Cert.KernelIdeal Cert.KernelIdeal.Gen Cert.ReferenceIdeal.Read Idealize.ShloMosaic Idealize.ShloMosaic.TcCoe Idealize.SL.Sem Idealize.ShloMosaic.StableHlo

/-- The f32 arrays of the reference's stages at the ideal values. -/
abbrev RArr (s : Shape) : Type := (⟨s, .f32⟩ : BufTy).Contents (Elt Ideal)

set_option maxRecDepth 8192 in
/-- From h to the softmax S: the kernel's three host stretches after the first layer compute the reference's stage. -/
theorem S_bridge (W : Valuation τ sig (Elt Ideal))
    (x : RArr Cert.ReferenceIdeal.S6144x128) (M : RArr Cert.ReferenceIdeal.S6144x6144) (Wg : RArr Cert.ReferenceIdeal.S128x128)
    (bg : RArr Cert.ReferenceIdeal.S128) (W1 : RArr Cert.ReferenceIdeal.S128x128) (b1 : RArr Cert.ReferenceIdeal.S128)
    (W2 : RArr Cert.ReferenceIdeal.S128x16) (b2 : RArr Cert.ReferenceIdeal.S16)
    (h14 : W (Proc.devRef .tc main_v14) = val_main_v24 (F := Ideal) x M Wg bg)
    (h5 : W (Proc.devRef .tc main_arg5) = W1) (h6 : W (Proc.devRef .tc main_arg6) = b1)
    (h7 : W (Proc.devRef .tc main_arg7) = W2) (h8 : W (Proc.devRef .tc main_arg8) = b2) :
    after main_part0_ops6 (after main_part0_ops5 (after main_part0_ops4 W)) (Proc.devRef .tc main_v34)
      = val_main_v44 (F := Ideal) x M Wg bg W1 b1 W2 b2 := by
  after_results_simp
  rw [h14, h5, h6, h7, h8]
  rfl

/-! ## After the last region: the six results -/

/-- The buffer contents after the kernel's last four host stretches. -/
abbrev tailOf (W : Valuation τ sig (Elt Ideal)) : Valuation τ sig (Elt Ideal) :=
  after main_part1_ops2 (after main_part1_ops1 (after main_part1_ops0 (after main_part0_ops7 W)))

set_option maxRecDepth 8192 in
/-- X_pool = Sᵀ · h. -/
theorem T_xpool (W : Valuation τ sig (Elt Ideal))
    (x : RArr Cert.ReferenceIdeal.S6144x128) (A M : RArr Cert.ReferenceIdeal.S6144x6144) (Wg : RArr Cert.ReferenceIdeal.S128x128)
    (bg : RArr Cert.ReferenceIdeal.S128) (W1 : RArr Cert.ReferenceIdeal.S128x128) (b1 : RArr Cert.ReferenceIdeal.S128)
    (W2 : RArr Cert.ReferenceIdeal.S128x16) (b2 : RArr Cert.ReferenceIdeal.S16)
    (h14 : W (Proc.devRef .tc main_v14) = val_main_v24 (F := Ideal) x M Wg bg)
    (h34 : W (Proc.devRef .tc main_v34) = val_main_v44 (F := Ideal) x M Wg bg W1 b1 W2 b2) :
    tailOf W (Proc.devRef .tc main_v38) = val_main_v46 (F := Ideal) x M Wg bg W1 b1 W2 b2 := by
  after_results_simp
  rw [h14, h34]
  rfl

set_option maxRecDepth 8192 in
/-- A_pool: the scatter of Sᵀ · (adjacency · S) with the zeroed diagonal. -/
theorem T_apool (W : Valuation τ sig (Elt Ideal))
    (x : RArr Cert.ReferenceIdeal.S6144x128) (A M : RArr Cert.ReferenceIdeal.S6144x6144) (Wg : RArr Cert.ReferenceIdeal.S128x128)
    (bg : RArr Cert.ReferenceIdeal.S128) (W1 : RArr Cert.ReferenceIdeal.S128x128) (b1 : RArr Cert.ReferenceIdeal.S128)
    (W2 : RArr Cert.ReferenceIdeal.S128x16) (b2 : RArr Cert.ReferenceIdeal.S16)
    (h34 : W (Proc.devRef .tc main_v34) = val_main_v44 (F := Ideal) x M Wg bg W1 b1 W2 b2)
    (h351 : W (Proc.devRef .tc main_v35_1) = val_main_v49 (F := Ideal) x A M Wg bg W1 b1 W2 b2) :
    tailOf W (Proc.devRef .tc main_v56) = val_main_v65 (F := Ideal) x A M Wg bg W1 b1 W2 b2 := by
  after_results_simp
  rw [h34, h351]
  rfl

set_option maxRecDepth 8192 in
/-- motif_pool: the scatter of Sᵀ · (motif adjacency · S) with the zeroed diagonal. -/
theorem T_mpool (W : Valuation τ sig (Elt Ideal))
    (x : RArr Cert.ReferenceIdeal.S6144x128) (A M : RArr Cert.ReferenceIdeal.S6144x6144) (Wg : RArr Cert.ReferenceIdeal.S128x128)
    (bg : RArr Cert.ReferenceIdeal.S128) (W1 : RArr Cert.ReferenceIdeal.S128x128) (b1 : RArr Cert.ReferenceIdeal.S128)
    (W2 : RArr Cert.ReferenceIdeal.S128x16) (b2 : RArr Cert.ReferenceIdeal.S16)
    (h34 : W (Proc.devRef .tc main_v34) = val_main_v44 (F := Ideal) x M Wg bg W1 b1 W2 b2)
    (h350 : W (Proc.devRef .tc main_v35_0) = val_main_v66 (F := Ideal) x M Wg bg W1 b1 W2 b2) :
    tailOf W (Proc.devRef .tc main_v73) = val_main_v83 (F := Ideal) x M Wg bg W1 b1 W2 b2 := by
  after_results_simp
  rw [h34, h350]
  rfl

set_option maxRecDepth 8192 in
/-- S itself is not written again. -/
theorem T_S (W : Valuation τ sig (Elt Ideal))
    (x : RArr Cert.ReferenceIdeal.S6144x128) (A M : RArr Cert.ReferenceIdeal.S6144x6144) (Wg : RArr Cert.ReferenceIdeal.S128x128)
    (bg : RArr Cert.ReferenceIdeal.S128) (W1 : RArr Cert.ReferenceIdeal.S128x128) (b1 : RArr Cert.ReferenceIdeal.S128)
    (W2 : RArr Cert.ReferenceIdeal.S128x16) (b2 : RArr Cert.ReferenceIdeal.S16)
    (h34 : W (Proc.devRef .tc main_v34) = val_main_v44 (F := Ideal) x M Wg bg W1 b1 W2 b2) :
    tailOf W (Proc.devRef .tc main_v34) = val_main_v44 (F := Ideal) x M Wg bg W1 b1 W2 b2 := by
  after_results_simp
  exact h34

/-- A [6144, 1] column whose entries are a vector's, cast to the vector's shape, is the vector. -/
theorem col_cast (col : RArr Cert.ReferenceIdeal.S6144x1) (v : RArr Cert.ReferenceIdeal.S6144)
    (hn : Cert.ReferenceIdeal.S6144x1.ShapeCasts Cert.ReferenceIdeal.S6144)
    (h : ∀ r : Fin 6144, col (ValueIdx.ix2 r 0) = v (ValueIdx.ix1 r)) :
    shapeCast Cert.ReferenceIdeal.S6144 col hn = v := by
  funext j
  obtain ⟨r, rfl⟩ : ∃ r, j = ValueIdx.ix1 r := ⟨j 0, ValueIdx.eq_ix1 j⟩
  rw [shapeCast_apply col hn (ValueIdx.ix1 r) (ValueIdx.ix2 r 0)
    (by rw [Shape.rowMajor_val_two, Shape.rowMajor_val_one]; show r.val * 1 + 0 = r.val; omega), h]

set_option maxRecDepth 8192 in
/-- L_cut = −Σ(motif·S ⊙ S) / (Σ rowsum ⊙ Σ S² + ε), the row sums read off the kernel's column. -/
theorem T_lcut (W : Valuation τ sig (Elt Ideal))
    (x : RArr Cert.ReferenceIdeal.S6144x128) (A M : RArr Cert.ReferenceIdeal.S6144x6144) (Wg : RArr Cert.ReferenceIdeal.S128x128)
    (bg : RArr Cert.ReferenceIdeal.S128) (W1 : RArr Cert.ReferenceIdeal.S128x128) (b1 : RArr Cert.ReferenceIdeal.S128)
    (W2 : RArr Cert.ReferenceIdeal.S128x16) (b2 : RArr Cert.ReferenceIdeal.S16)
    (h34 : W (Proc.devRef .tc main_v34) = val_main_v44 (F := Ideal) x M Wg bg W1 b1 W2 b2)
    (h350 : W (Proc.devRef .tc main_v35_0) = val_main_v66 (F := Ideal) x M Wg bg W1 b1 W2 b2)
    (h352 : ∀ r : Fin 6144, (W (Proc.devRef .tc main_v35_2) : RArr Cert.ReferenceIdeal.S6144x1) (ValueIdx.ix2 r 0)
      = val_main_v86 (F := Ideal) M (ValueIdx.ix1 r)) :
    tailOf W (Proc.devRef .tc main_v82) = val_main_v93 (F := Ideal) x M Wg bg W1 b1 W2 b2 := by
  after_results_simp
  rw [h34, h350]
  have e : (fun i => shapeCast main_v36.ty.shape (W (Proc.devRef .tc main_v35_2)) shapeCasts_S6144x1_S6144 i)
      = val_main_v86 (F := Ideal) M :=
    col_cast (W (Proc.devRef .tc main_v35_2)) (val_main_v86 (F := Ideal) M) shapeCasts_S6144x1_S6144 h352
  rw [e]
  rfl

/-! ### The two spellings of L_ortho's divisor -/

/-- The word of 16.0 denotes 16. -/
theorem ofBits_16 : Ideal.ofBits .f32 0x41800000#32 = ((16 : ℝ) : EReal) := by
  simp [Ideal.ofBits, Ideal.ieee, -EReal.coe_mul]; norm_num

/-- The word of 4.0 denotes 4. -/
theorem ofBits_4 : Ideal.ofBits .f32 0x40800000#32 = ((4 : ℝ) : EReal) := by
  simp [Ideal.ofBits, Ideal.ieee, -EReal.coe_mul]; norm_num

/-- The square root of the constant 16.0 is the constant 4.0. -/
theorem sqrt_16 :
    Host.sqrt (constant (F := Ideal) Cert.ReferenceIdeal.S_ .f32 0x41800000#32)
      = constant (F := Ideal) Cert.ReferenceIdeal.S_ .f32 0x40800000#32 := by
  funext i
  show Ideal.sqrt (Ideal.ofBits .f32 0x41800000#32) = Ideal.ofBits .f32 0x40800000#32
  rw [ofBits_16, ofBits_4, Ideal.sqrt_coe, if_neg (by norm_num)]
  have h4 : Real.sqrt 16 = 4 := by
    rw [show (16 : ℝ) = 4 ^ 2 by norm_num]
    exact Real.sqrt_sq (by norm_num)
  rw [h4]

set_option maxRecDepth 8192 in
/-- L_ortho = ‖Sᵀ·S − I‖ / 4, the reference's divisor spelt as the square root of 16. -/
theorem T_lortho (W : Valuation τ sig (Elt Ideal))
    (x : RArr Cert.ReferenceIdeal.S6144x128) (A M : RArr Cert.ReferenceIdeal.S6144x6144) (Wg : RArr Cert.ReferenceIdeal.S128x128)
    (bg : RArr Cert.ReferenceIdeal.S128) (W1 : RArr Cert.ReferenceIdeal.S128x128) (b1 : RArr Cert.ReferenceIdeal.S128)
    (W2 : RArr Cert.ReferenceIdeal.S128x16) (b2 : RArr Cert.ReferenceIdeal.S16)
    (h34 : W (Proc.devRef .tc main_v34) = val_main_v44 (F := Ideal) x M Wg bg W1 b1 W2 b2) :
    tailOf W (Proc.devRef .tc main_v93) = val_main_v105 (F := Ideal) x M Wg bg W1 b1 W2 b2 := by
  after_results_simp
  rw [h34]
  unfold val_main_v105 val_main_v104 val_main_cst_21
  rw [sqrt_16]
  rfl

end Cert.Bridge

end
-- ==== Proof.Results.lean ====
import proofs.«141308_j26388279066709_2_alg».proof.Proof.RunFrame
import proofs.«141308_j26388279066709_2_alg».proof.Proof.TailBridge
import proofs.«141308_j26388279066709_2_alg».proof.Proof.Gen.ReferenceIdeal.Read

/-!
The six results of the kernel against the reference's, given what the three regions leave.

After the second region the first layer `h` is in `main_v14`; three host stretches make the softmax `S` of the
two-layer perceptron of `h`, the same composition of the same host operations as the reference's; the third region
reads `S` and leaves it, and writes the two products with `S` and the row sums; the last four stretches compute the
six results from `h`, `S` and those three, again as the reference does.
-/

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.KernelIdeal.Hand
open Cert.ReferenceIdeal.Read

variable (m : (ℓ : Loc nD τ sig) → Buf (Elt Ideal) ℓ) (ρ : Dev nD → PrngReg) (c : Dev nD)

/-! ## The weights of the perceptron, as the second region leaves them, are the launch memory's -/

theorem W6_arg5 : W6 m ρ c (Proc.devRef .tc main_arg5) = m ((c.tc : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c.tc : Thread nD τ).loc main_arg5) := rfl

theorem W6_arg6 : W6 m ρ c (Proc.devRef .tc main_arg6) = m ((c.tc : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c.tc : Thread nD τ).loc main_arg6) := rfl

theorem W6_arg7 : W6 m ρ c (Proc.devRef .tc main_arg7) = m ((c.tc : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c.tc : Thread nD τ).loc main_arg7) := rfl

theorem W6_arg8 : W6 m ρ c (Proc.devRef .tc main_arg8) = m ((c.tc : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c.tc : Thread nD τ).loc main_arg8) := rfl

/-- The contents the third region is entered from are the three stretches' fold of the second region's exit. -/
theorem W9_eq : W9 m ρ c
    = after main_part0_ops6 (after main_part0_ops5 (after main_part0_ops4 (W6 m ρ c))) := rfl

/-- The contents at the end are the last four stretches' fold of the third region's exit. -/
theorem W14_eq : W14 m ρ c = tailOf (W10 m ρ c) := rfl

/-- The softmax `S`, as the third region is entered, is the reference's. -/
theorem S_eq (h14 : W6 m ρ c (Proc.devRef .tc main_v14) = val_main_v24 (F := Ideal) (m ((c.tc : Thread nD τ).loc main_arg0)) (m ((c.tc : Thread nD τ).loc main_arg2)) (m ((c.tc : Thread nD τ).loc main_arg3)) (m ((c.tc : Thread nD τ).loc main_arg4))) :
    W9 m ρ c (Proc.devRef .tc main_v34) = val_main_v44 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  S_bridge (W6 m ρ c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h14
    (W6_arg5 m ρ c) (W6_arg6 m ρ c) (W6_arg7 m ρ c) (W6_arg8 m ρ c)

/-- The third region leaves `S` as it found it. -/
theorem W10_v34 : W10 m ρ c (Proc.devRef .tc main_v34) = W9 m ρ c (Proc.devRef .tc main_v34) :=
  (W10_arr m ρ c 2).trans (kept2 (V9 m ρ) c 2 (by decide))

/-- Nothing between the second region and the end of the third writes `h`. -/
theorem W10_v14 : W10 m ρ c (Proc.devRef .tc main_v14) = W6 m ρ c (Proc.devRef .tc main_v14) :=
  calc W10 m ρ c (Proc.devRef .tc main_v14)
    _ = W9 m ρ c (Proc.devRef .tc main_v14) := W10_of_ne m ρ c main_v14 (by decide)
    _ = W8 m ρ c (Proc.devRef .tc main_v14) := W9_of m ρ c main_v14 (by decide)
    _ = W7 m ρ c (Proc.devRef .tc main_v14) := W8_of m ρ c main_v14 (by decide)
    _ = W6 m ρ c (Proc.devRef .tc main_v14) := W7_of m ρ c main_v14 (by decide)

/-- The six results, given the first layer and what the third region writes. -/
theorem results_eq_of
    (h14 : W6 m ρ c (Proc.devRef .tc main_v14) = val_main_v24 (F := Ideal) (m ((c.tc : Thread nD τ).loc main_arg0)) (m ((c.tc : Thread nD τ).loc main_arg2)) (m ((c.tc : Thread nD τ).loc main_arg3)) (m ((c.tc : Thread nD τ).loc main_arg4)))
    (hms : W9 m ρ c (Proc.devRef .tc main_v34) = val_main_v44 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) →
      W10 m ρ c (Proc.devRef .tc main_v35_0) = val_main_v66 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    (has : W9 m ρ c (Proc.devRef .tc main_v34) = val_main_v44 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) →
      W10 m ρ c (Proc.devRef .tc main_v35_1) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    (hrs : W9 m ρ c (Proc.devRef .tc main_v34) = val_main_v44 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) →
      ∀ r : Fin 6144, (W10 m ρ c (Proc.devRef .tc main_v35_2) : RArr Cert.ReferenceIdeal.S6144x1) (ValueIdx.ix2 r 0)
        = val_main_v86 (F := Ideal) (m ((c.tc : Thread nD τ).loc main_arg2)) (ValueIdx.ix1 r)) :
    W14 m ρ c (Proc.devRef .tc main_v38) = val_main_v46 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ W14 m ρ c (Proc.devRef .tc main_v56) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ W14 m ρ c (Proc.devRef .tc main_v73) = val_main_v83 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ W14 m ρ c (Proc.devRef .tc main_v34) = val_main_v44 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ W14 m ρ c (Proc.devRef .tc main_v82) = val_main_v93 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ W14 m ρ c (Proc.devRef .tc main_v93) = val_main_v105 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hS := S_eq m ρ c h14
  have h34 : W10 m ρ c (Proc.devRef .tc main_v34) = val_main_v44 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := (W10_v34 m ρ c).trans hS
  have h14' : W10 m ρ c (Proc.devRef .tc main_v14) = val_main_v24 (F := Ideal) (m ((c.tc : Thread nD τ).loc main_arg0)) (m ((c.tc : Thread nD τ).loc main_arg2)) (m ((c.tc : Thread nD τ).loc main_arg3)) (m ((c.tc : Thread nD τ).loc main_arg4)) := (W10_v14 m ρ c).trans h14
  exact ⟨T_xpool (W10 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h14' h34,
    T_apool (W10 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h34 (has hS),
    T_mpool (W10 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h34 (hms hS),
    T_S (W10 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h34,
    T_lcut (W10 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h34 (hms hS) (hrs hS),
    T_lortho (W10 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) h34⟩

end Cert.Bridge

end
-- ==== Proof.Region2Pay.lean ====
/- REGION 2 of @main, the arithmetic of one grid point read at an index, at the ideal values: the zero blocks the
   accumulators restart from are zero; a product step adds to the accumulator, at row i and column q, the sum over the
   block's 1536 columns j of (left block at (i, j)) · (rows of the right operand at (j, q)); the row-sum step adds the sum
   over j of the left block at (i, j). -/
import proofs.«141308_j26388279066709_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.HandValue.R2

open Cert.KernelIdeal Cert.KernelIdeal.Gen
open Idealize.ShloMosaic Idealize.ShloMosaic.ValueIdx

/-! ## The payloads as trees of operations (any float model) -/

section Generic
variable {F : FTy → Type} [FloatOps F]

theorem pay1_eq : (k2_pay1 : Vec F S1024x16 .f32) = broadcast S1024x16 (Scalar.ofBits .f32 0x00000000#32) := by
  unfold k2_pay1; simp only [shapeCast_self]
theorem pay2_eq : (k2_pay2 : Vec F S1024x16 .f32) = broadcast S1024x16 (Scalar.ofBits .f32 0x00000000#32) := by
  unfold k2_pay2; simp only [shapeCast_self]
theorem pay3_eq : (k2_pay3 : Vec F S1024x1 .f32) = broadcast S1024x1 (Scalar.ofBits .f32 0x00000000#32) := by
  unfold k2_pay3; simp only [shapeCast_self]

theorem pay5_eq (x0 : Vec F S1024x1536 .f32) (s : Vec F S1536x16 .f32) (a : Vec F S1024x16 .f32) :
    k2_pay5 x0 s a = addf a (matmul dot_S1024x1536_S1536x16_S1024x16_1_0_0_1_n_n none x0 s (constant S1024x16 .f32 0x00000000#32)) := by
  unfold k2_pay5 k2_pay4; simp only [shapeCast_self]

theorem pay6_eq (x1 : Vec F S1024x1536 .f32) (s : Vec F S1536x16 .f32) (a : Vec F S1024x16 .f32) :
    k2_pay6 x1 s a = addf a (matmul dot_S1024x1536_S1536x16_S1024x16_1_0_0_1_n_n none x1 s (constant S1024x16 .f32 0x00000000#32)) := by
  unfold k2_pay6 k2_pay4; simp only [shapeCast_self]

theorem pay7_eq (x0 : Vec F S1024x1536 .f32) (a : Vec F S1024x1 .f32) :
    k2_pay7 x0 a = addf a (shapeCast S1024x1 (multiReduction .add [1] S1024 x0 0x00000000#32 reduces_S1024x1536_S1024 (.inl rfl) rfl) shapeCasts_S1024_S1024x1) := by
  unfold k2_pay7; simp only [shapeCast_self]

end Generic

/-! ## At the ideal values, at an index -/

/-- The product's dimension numbers: rows × contraction times contraction × columns. -/
abbrev D2 : DotDims S1024x1536 S1536x16 S1024x16 := dot_S1024x1536_S1536x16_S1024x16_1_0_0_1_n_n

theorem D2_lhs0 (i : S1024x16.Idx) (q : D2.contr.Idx) : (D2.lhsIdx i q 0).val = (i 0).val := by
  unfold DotDims.lhsIdx
  rw [dif_neg (show ¬(0 : Fin S1024x1536.rank) ∈ D2.lhsBatch by decide), dif_pos (show (0 : Fin S1024x1536.rank) ∈ D2.lhsNonContracting by decide)]
  rfl
theorem D2_lhs1 (i : S1024x16.Idx) (q : D2.contr.Idx) : (D2.lhsIdx i q 1).val = (q ⟨0, by decide⟩).val :=
  D2.lhsIdx_val_of_single rfl i q
theorem D2_rhs0 (i : S1024x16.Idx) (q : D2.contr.Idx) : (D2.rhsIdx i q 0).val = (q ⟨0, by decide⟩).val :=
  D2.rhsIdx_val_of_single rfl i q
theorem D2_rhs1 (i : S1024x16.Idx) (q : D2.contr.Idx) : (D2.rhsIdx i q 1).val = (i 1).val := by
  unfold DotDims.rhsIdx
  rw [dif_neg (show ¬(1 : Fin S1536x16.rank) ∈ D2.rhsBatch by decide), dif_pos (show (1 : Fin S1536x16.rank) ∈ D2.rhsNonContracting by decide)]
  rfl

/-- The product into the zero block, at row i and column q: the sum over the contraction coordinate. -/
theorem matmul_zero_apply (x0 : FVec Ideal S1024x1536 .f32) (s : FVec Ideal S1536x16 .f32) (i : Fin 1024) (q : Fin 16) :
    matmul D2 none x0 s (constant (F := Ideal) S1024x16 .f32 0x00000000#32) (ix2 i q) = ∑ j : Fin 1536, x0 (ix2 i j) * s (ix2 j q) := by
  refine (Ideal.matmul_constant_zero_apply D2 none x0 s (ix2 i q)).trans ?_
  rw [← Equiv.sum_comp (contrEquiv1 D2 1536 rfl rfl).symm]
  refine Finset.sum_congr rfl fun k _ => ?_
  have hk := contrEquiv1_symm_val D2 1536 rfl rfl k
  have el : D2.lhsIdx (ix2 i q) ((contrEquiv1 D2 1536 rfl rfl).symm k) = ix2 i k := funext fun a => Fin.ext (by
    match a with
    | ⟨0, _⟩ => exact D2_lhs0 _ _
    | ⟨1, _⟩ => exact (D2_lhs1 _ _).trans hk)
  have er : D2.rhsIdx (ix2 i q) ((contrEquiv1 D2 1536 rfl rfl).symm k) = ix2 k q := funext fun a => Fin.ext (by
    match a with
    | ⟨0, _⟩ => exact (D2_rhs0 _ _).trans hk
    | ⟨1, _⟩ => exact D2_rhs1 _ _)
  rw [el, er]

theorem zero16_apply (i : Fin 1024) (q : Fin 16) : (k2_pay1 (F := Ideal)) (ix2 i q) = 0 := by
  rw [pay1_eq]; exact Ideal.ofBits_zero_f32
theorem zero16'_apply (i : Fin 1024) (q : Fin 16) : (k2_pay2 (F := Ideal)) (ix2 i q) = 0 := by
  rw [pay2_eq]; exact Ideal.ofBits_zero_f32
theorem zero1_apply (i : Fin 1024) : (k2_pay3 (F := Ideal)) (ix2 i (0 : Fin 1)) = 0 := by
  rw [pay3_eq]; exact Ideal.ofBits_zero_f32

/-- A product step at (i, q). -/
theorem pay5_apply (x0 : FVec Ideal S1024x1536 .f32) (s : FVec Ideal S1536x16 .f32) (a : FVec Ideal S1024x16 .f32) (i : Fin 1024) (q : Fin 16) :
    k2_pay5 x0 s a (ix2 i q) = a (ix2 i q) + ∑ j : Fin 1536, x0 (ix2 i j) * s (ix2 j q) := by
  rw [pay5_eq]
  exact congrArg (a (ix2 i q) + ·) (matmul_zero_apply x0 s i q)

theorem pay6_apply (x1 : FVec Ideal S1024x1536 .f32) (s : FVec Ideal S1536x16 .f32) (a : FVec Ideal S1024x16 .f32) (i : Fin 1024) (q : Fin 16) :
    k2_pay6 x1 s a (ix2 i q) = a (ix2 i q) + ∑ j : Fin 1536, x1 (ix2 i j) * s (ix2 j q) := by
  rw [pay6_eq]
  exact congrArg (a (ix2 i q) + ·) (matmul_zero_apply x1 s i q)

/-- The row sums of a block, kept as a column, at row i. -/
theorem rowsum_col_apply (x0 : FVec Ideal S1024x1536 .f32) (i : Fin 1024) :
    shapeCast S1024x1 (multiReduction (F := Ideal) .add [1] S1024 x0 0x00000000#32 reduces_S1024x1536_S1024 (.inl rfl) rfl) shapeCasts_S1024_S1024x1 (ix2 i (0 : Fin 1))
      = ∑ j : Fin 1536, x0 (ix2 i j) := by
  refine (shapeCast_apply _ shapeCasts_S1024_S1024x1 (ix2 i (0 : Fin 1)) (ix1 i) (by
    rw [Shape.rowMajor_val_two, Shape.rowMajor_val_one]
    show i.val = i.val * 1 + 0
    omega)).trans ?_
  refine (Ideal.multiReduction_add_single x0 0x00000000#32 reduces_S1024x1536_S1024 (.inl rfl) rfl (ix1 i)).trans ?_
  exact Finset.sum_congr rfl fun k _ => congrArg x0 (funext fun a => Fin.ext (by
    match a with
    | ⟨0, _⟩ => rfl
    | ⟨1, _⟩ => rfl))

/-- A row-sum step at row i. -/
theorem pay7_apply (x0 : FVec Ideal S1024x1536 .f32) (a : FVec Ideal S1024x1 .f32) (i : Fin 1024) :
    k2_pay7 x0 a (ix2 i (0 : Fin 1)) = a (ix2 i (0 : Fin 1)) + ∑ j : Fin 1536, x0 (ix2 i j) := by
  rw [pay7_eq]
  exact congrArg (a (ix2 i (0 : Fin 1)) + ·) (rowsum_col_apply x0 i)

end Cert.KernelIdeal.HandValue.R2

end
-- ==== Proof.Region2Acc.lean ====
/- REGION 2 of @main at the ideal values: the blocks and the accumulators at an index. A point
   t = 4m + k of the 6 × 4 grid reads the row block m and column block k of the two matrices and rows k·1536 … of the
   third operand; the accumulators restart at k = 0 and are written back at k = 3, so row block m of each result is the
   sum over the four column blocks, which is the sum over all 6144 columns. -/
import proofs.«141308_j26388279066709_2_alg».proof.Proof.Region2
import proofs.«141308_j26388279066709_2_alg».proof.Proof.Region2Pay
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R2

/-! ## The index maps, decided over the grid -/

/-- At point t: the matrices' block indices are (t / 4, t mod 4), the third operand's block is the whole array, the
    results' block indices are (t / 4, 0), and the rows the body loads start at (t mod 4) · 1536. -/
theorem idx_facts : ∀ t : Fin cfg2.N,
    win2_0.index t (0 : Fin 2) = t.val / 4 ∧ win2_0.index t (1 : Fin 2) = t.val % 4
    ∧ win2_1.index t (0 : Fin 2) = t.val / 4 ∧ win2_1.index t (1 : Fin 2) = t.val % 4
    ∧ win2_2.index t (0 : Fin 2) = 0 ∧ win2_2.index t (1 : Fin 2) = 0
    ∧ win2_3.index t (0 : Fin 2) = t.val / 4 ∧ win2_3.index t (1 : Fin 2) = 0
    ∧ win2_4.index t (0 : Fin 2) = t.val / 4 ∧ win2_4.index t (1 : Fin 2) = 0
    ∧ win2_5.index t (0 : Fin 2) = t.val / 4 ∧ win2_5.index t (1 : Fin 2) = 0
    ∧ k2_off1 (grid2.coords t) (0 : Fin 2) = (t.val % 4) * 1536 ∧ k2_off1 (grid2.coords t) (1 : Fin 2) = 0 :=
  (by decide +kernel : ∀ t : Fin grid2.N, _)

/-- Row i of row block m. -/
def rowOf (m : Fin 6) (i : Fin 1024) : Fin 6144 := ⟨m.val * 1024 + i.val, by omega⟩
/-- Column j of column block k. -/
def colOf (k : Fin 4) (j : Fin 1536) : Fin 6144 := ⟨k.val * 1536 + j.val, by omega⟩

/-! ## The three operands, as the region finds them -/

/-- The first matrix (the motif adjacency), -/
def A2 (c : Dev nD) : S6144x6144.Idx → EReal := V c main_arg2
/-- the second (the adjacency), -/
def A1 (c : Dev nD) : S6144x6144.Idx → EReal := V c main_arg1
/-- and the third operand (the assignment matrix). -/
def Sm (c : Dev nD) : S6144x16.Idx → EReal := V c main_v34

/-! ## The blocks at an index -/

/-- The first matrix's block at point t = 4m + k, at (i, j): the matrix at (row i of block m, column j of block k). -/
theorem blk0_apply (c : Dev nD) (t : Fin cfg2.N) (m : Fin 6) (k : Fin 4) (ht : t.val = 4 * m.val + k.val) (i : Fin 1024) (j : Fin 1536) :
    (iblk2 V c 0 t : Vec Ideal S1024x1536 .f32) (ix2 i j) = A2 V c (ix2 (rowOf m i) (colOf k j)) := by
  obtain ⟨e0, e1, -⟩ := idx_facts t
  unfold iblk2
  rw [View.read_apply]
  show V c main_arg2 _ = V c main_arg2 _
  congr 1
  funext a
  apply Fin.ext
  match a with
  | ⟨0, _⟩ => show win2_0.index t (0 : Fin 2) * 1024 + 1 * i.val = m.val * 1024 + i.val; rw [e0]; have := k.isLt; omega
  | ⟨1, _⟩ => show win2_0.index t (1 : Fin 2) * 1536 + 1 * j.val = k.val * 1536 + j.val; rw [e1]; have := k.isLt; omega

/-- The second matrix's, likewise. -/
theorem blk1_apply (c : Dev nD) (t : Fin cfg2.N) (m : Fin 6) (k : Fin 4) (ht : t.val = 4 * m.val + k.val) (i : Fin 1024) (j : Fin 1536) :
    (iblk2 V c 1 t : Vec Ideal S1024x1536 .f32) (ix2 i j) = A1 V c (ix2 (rowOf m i) (colOf k j)) := by
  obtain ⟨-, -, e0, e1, -⟩ := idx_facts t
  unfold iblk2
  rw [View.read_apply]
  show V c main_arg1 _ = V c main_arg1 _
  congr 1
  funext a
  apply Fin.ext
  match a with
  | ⟨0, _⟩ => show win2_1.index t (0 : Fin 2) * 1024 + 1 * i.val = m.val * 1024 + i.val; rw [e0]; have := k.isLt; omega
  | ⟨1, _⟩ => show win2_1.index t (1 : Fin 2) * 1536 + 1 * j.val = k.val * 1536 + j.val; rw [e1]; have := k.isLt; omega

/-- The rows of the third operand the body loads at point t = 4m + k, at (j, q): the operand at (column j of block k, q). -/
theorem rows_apply (c : Dev nD) (t : Fin cfg2.N) (m : Fin 6) (k : Fin 4) (ht : t.val = 4 * m.val + k.val) (j : Fin 1536) (q : Fin 16) :
    View.ld (iblk2 V c 2 t : Vec Ideal S6144x16 .f32) (rS (grid2.coords t)) (ix2 j q) = Sm V c (ix2 (colOf k j) q) := by
  obtain ⟨-, -, -, -, e0, e1, -, -, -, -, -, -, o0, o1⟩ := idx_facts t
  show (iblk2 V c 2 t : Vec Ideal S6144x16 .f32) ((rS (grid2.coords t)).idx (ix2 j q)) = _
  unfold iblk2
  rw [View.read_apply]
  show V c main_v34 _ = V c main_v34 _
  congr 1
  funext a
  apply Fin.ext
  match a with
  | ⟨0, _⟩ => show win2_2.index t (0 : Fin 2) * 6144 + 1 * (k2_off1 (grid2.coords t) (0 : Fin 2) + 1 * j.val) = k.val * 1536 + j.val; rw [e0, o0]; have := k.isLt; omega
  | ⟨1, _⟩ => show win2_2.index t (1 : Fin 2) * 16 + 1 * (k2_off1 (grid2.coords t) (1 : Fin 2) + 1 * q.val) = q.val; rw [e1, o1]; omega

/-! ## Four column blocks make the whole row -/

/-- A sum over the 6144 columns is the sum over the four column blocks of the sums over each block's 1536 columns. -/
theorem sum_split4 (f : Fin 6144 → EReal) : ∑ k : Fin 6144, f k = ∑ kb : Fin 4, ∑ j : Fin 1536, f (colOf kb j) := by
  have e : ∀ p : Fin 4 × Fin 1536, (finProdFinEquiv p : Fin (4 * 1536)) = colOf p.1 p.2 := fun p => Fin.ext (by
    rw [finProdFinEquiv_apply_val]
    show p.2.val + 1536 * p.1.val = p.1.val * 1536 + p.2.val
    omega)
  calc ∑ k : Fin 6144, f k = ∑ p : Fin 4 × Fin 1536, f (finProdFinEquiv p) :=
        (Equiv.sum_comp (finProdFinEquiv (m := 4) (n := 1536)) f).symm
    _ = ∑ p : Fin 4 × Fin 1536, f (colOf p.1 p.2) := Finset.sum_congr rfl fun p _ => congrArg f (e p)
    _ = ∑ kb : Fin 4, ∑ j : Fin 1536, f (colOf kb j) := Fintype.sum_prod_type _

/-- Where the accumulation continues: the point before's accumulators, one step on. -/
theorem accAt_next (c : Dev nD) (n : ℕ) (hn : n + 1 < cfg2.N) (h : ¬(n + 1) % 4 = 0) :
    accAt V c (n + 1) hn = step2 (grid2.coords ⟨n + 1, hn⟩) (iblk2 V c 0 ⟨n + 1, hn⟩) (iblk2 V c 1 ⟨n + 1, hn⟩) (iblk2 V c 2 ⟨n + 1, hn⟩)
      (accAt V c n (Nat.lt_of_succ_lt hn)) :=
  accAt_acc V c ⟨n + 1, hn⟩ h

/-- Where it restarts: one step over zeros. -/
theorem accAt_first (c : Dev nD) (n : ℕ) (hn : n < cfg2.N) (h : n % 4 = 0) :
    accAt V c n hn = step2 (grid2.coords ⟨n, hn⟩) (iblk2 V c 0 ⟨n, hn⟩) (iblk2 V c 1 ⟨n, hn⟩) (iblk2 V c 2 ⟨n, hn⟩) zero2 :=
  accAt_reset V c ⟨n, hn⟩ h

/-! ## The product with the third operand (accumulator.1) -/

/-- One step of this product's accumulator at (i, q), at point t = 4m + k: the block's contribution added. -/
theorem step_ms (c : Dev nD) (t : Fin cfg2.N) (m : Fin 6) (k : Fin 4) (ht : t.val = 4 * m.val + k.val) (a : Acc2 Ideal) (i : Fin 1024) (q : Fin 16) :
    (step2 (grid2.coords t) (iblk2 V c 0 t) (iblk2 V c 1 t) (iblk2 V c 2 t) a).1 (ix2 i q)
      = a.1 (ix2 i q) + ∑ j : Fin 1536, A2 V c (ix2 (rowOf m i) (colOf k j)) * Sm V c (ix2 (colOf k j) q) := by
  show k2_pay5 (iblk2 V c 0 t) (View.ld (iblk2 V c 2 t) (rS (grid2.coords t))) a.1 (ix2 i q) = _
  refine (pay5_apply (iblk2 V c 0 t) (View.ld (iblk2 V c 2 t) (rS (grid2.coords t))) a.1 i q).trans ?_
  refine congrArg (a.1 (ix2 i q) + ·) (Finset.sum_congr rfl fun j _ => ?_)
  exact congrArg₂ (· * ·) (blk0_apply V c t m k ht i j) (rows_apply V c t m k ht j q)

/-- The accumulator after the last column block of row block m, at (i, q): the whole row's sum. -/
theorem acc_ms (c : Dev nD) (m : Fin 6) (i : Fin 1024) (q : Fin 16) (h3 : 4 * m.val + 3 < cfg2.N) :
    (accAt V c (4 * m.val + 3) h3).1 (ix2 i q) = ∑ k : Fin 6144, A2 V c (ix2 (rowOf m i) k) * Sm V c (ix2 k q) := by
  have e3 := accAt_next V c (4 * m.val + 2) h3 (by omega)
  have e2 := accAt_next V c (4 * m.val + 1) (Nat.lt_of_succ_lt h3) (by omega)
  have e1 := accAt_next V c (4 * m.val) (Nat.lt_of_succ_lt (Nat.lt_of_succ_lt h3)) (by omega)
  have e0 := accAt_first V c (4 * m.val) (Nat.lt_of_succ_lt (Nat.lt_of_succ_lt (Nat.lt_of_succ_lt h3))) (by omega)
  rw [e3, step_ms V c _ m 3 rfl, e2, step_ms V c _ m 2 rfl, e1, step_ms V c _ m 1 rfl, e0, step_ms V c _ m 0 rfl]
  rw [show (zero2 (F := Ideal)).1 (ix2 i q) = 0 from zero16_apply i q, zero_add, sum_split4, Fin.sum_univ_four]

/-- What the result array holds at (r, q). -/
def gms (c : Dev nD) (r : Fin 6144) (q : Fin 16) : EReal :=
  ∑ k : Fin 6144, A2 V c (ix2 r k) * Sm V c (ix2 k q)

/-- The same as a function of the array's index. -/
def Gms (c : Dev nD) : S6144x16.Idx → EReal := fun x => gms V c ⟨(x 0).val, idx2_lt0 x⟩ ⟨(x 1).val, idx2_lt1 x⟩

/-! ## The product with the third operand (accumulator.2.1) -/

/-- One step of this product's accumulator at (i, q), at point t = 4m + k: the block's contribution added. -/
theorem step_as (c : Dev nD) (t : Fin cfg2.N) (m : Fin 6) (k : Fin 4) (ht : t.val = 4 * m.val + k.val) (a : Acc2 Ideal) (i : Fin 1024) (q : Fin 16) :
    (step2 (grid2.coords t) (iblk2 V c 0 t) (iblk2 V c 1 t) (iblk2 V c 2 t) a).2.1 (ix2 i q)
      = a.2.1 (ix2 i q) + ∑ j : Fin 1536, A1 V c (ix2 (rowOf m i) (colOf k j)) * Sm V c (ix2 (colOf k j) q) := by
  show k2_pay6 (iblk2 V c 1 t) (View.ld (iblk2 V c 2 t) (rS (grid2.coords t))) a.2.1 (ix2 i q) = _
  refine (pay6_apply (iblk2 V c 1 t) (View.ld (iblk2 V c 2 t) (rS (grid2.coords t))) a.2.1 i q).trans ?_
  refine congrArg (a.2.1 (ix2 i q) + ·) (Finset.sum_congr rfl fun j _ => ?_)
  exact congrArg₂ (· * ·) (blk1_apply V c t m k ht i j) (rows_apply V c t m k ht j q)

/-- The accumulator after the last column block of row block m, at (i, q): the whole row's sum. -/
theorem acc_as (c : Dev nD) (m : Fin 6) (i : Fin 1024) (q : Fin 16) (h3 : 4 * m.val + 3 < cfg2.N) :
    (accAt V c (4 * m.val + 3) h3).2.1 (ix2 i q) = ∑ k : Fin 6144, A1 V c (ix2 (rowOf m i) k) * Sm V c (ix2 k q) := by
  have e3 := accAt_next V c (4 * m.val + 2) h3 (by omega)
  have e2 := accAt_next V c (4 * m.val + 1) (Nat.lt_of_succ_lt h3) (by omega)
  have e1 := accAt_next V c (4 * m.val) (Nat.lt_of_succ_lt (Nat.lt_of_succ_lt h3)) (by omega)
  have e0 := accAt_first V c (4 * m.val) (Nat.lt_of_succ_lt (Nat.lt_of_succ_lt (Nat.lt_of_succ_lt h3))) (by omega)
  rw [e3, step_as V c _ m 3 rfl, e2, step_as V c _ m 2 rfl, e1, step_as V c _ m 1 rfl, e0, step_as V c _ m 0 rfl]
  rw [show (zero2 (F := Ideal)).2.1 (ix2 i q) = 0 from zero16'_apply i q, zero_add, sum_split4, Fin.sum_univ_four]

/-- What the result array holds at (r, q). -/
def gas (c : Dev nD) (r : Fin 6144) (q : Fin 16) : EReal :=
  ∑ k : Fin 6144, A1 V c (ix2 r k) * Sm V c (ix2 k q)

/-- The same as a function of the array's index. -/
def Gas (c : Dev nD) : S6144x16.Idx → EReal := fun x => gas V c ⟨(x 0).val, idx2_lt0 x⟩ ⟨(x 1).val, idx2_lt1 x⟩

end R2

end Cert.KernelIdeal.HandValue

end
-- ==== Proof.Region2Value.lean ====
/- REGION 2 of @main at the ideal values: what the region leaves in its three result arrays, index by index. A point
   t = 4m + k of the 6 × 4 grid reads the row block m and column block k of the two matrices and rows k·1536 … of the
   third operand; the accumulators restart at k = 0 and are written back at k = 3, so row block m of each result is the
   sum over the four column blocks, which is the sum over all 6144 columns. -/
import proofs.«141308_j26388279066709_2_alg».proof.Proof.Region2Acc
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace R2

/-! ## Window 3 -/

set_option maxHeartbeats 1000000 in
/-- What a point whose reduction coordinate is 3 writes back is its row block of that function. -/
theorem flushed_ms (c : Dev nD) (t : Fin cfg2.N) (hf : (cfg2.win 3).flush t = true) :
    (dat2 V c).flushed 3 t = ((cfg2.win 3).blk t).view.read (Elt Ideal) (Gms V c) := by
  have hN : cfg2.N = 24 := N_2
  have h3 : t.val % 4 = 3 := (flush2_3 t).mp hf
  have htl := t.isLt
  obtain ⟨m, ht⟩ : ∃ m : Fin 6, t.val = 4 * m.val + 3 := ⟨⟨t.val / 4, by omega⟩, by show t.val = 4 * (t.val / 4) + 3; omega⟩
  obtain ⟨tv, htv⟩ := t
  dsimp only at ht
  subst ht
  have ei : win2_3.index ⟨4 * m.val + 3, htv⟩ (0 : Fin 2) = m.val ∧ win2_3.index ⟨4 * m.val + 3, htv⟩ (1 : Fin 2) = 0 := by
    obtain ⟨-, -, -, -, -, -, a0, a1, b0, b1, c0, c1, -⟩ := idx_facts ⟨4 * m.val + 3, htv⟩
    dsimp only at a0 a1 b0 b1 c0 c1
    exact ⟨by rw [a0]; omega, a1⟩
  show (cfg2.win 3).cut (grid2.coords ⟨4 * m.val + 3, htv⟩) ((dat2 V c).after 3 ⟨4 * m.val + 3, htv⟩) = _
  rw [after2_3]
  funext y
  obtain ⟨i, q, rfl⟩ : ∃ (i : Fin 1024) (q : Fin 16), y = ix2 i q := ⟨y 0, y 1, eq_ix2 y⟩
  refine (acc_ms V c m i q htv).trans ?_
  rw [View.read_apply]
  show gms V c (rowOf m i) q = Gms V c (((cfg2.win 3).blk ⟨4 * m.val + 3, htv⟩).view.emb (ix2 i q))
  exact congrArg₂ (gms V c)
    (Fin.ext (by
      show m.val * 1024 + i.val = win2_3.index ⟨4 * m.val + 3, htv⟩ (0 : Fin 2) * 1024 + 1 * i.val
      rw [ei.1]; omega))
    (Fin.ext (by
      show q.val = win2_3.index ⟨4 * m.val + 3, htv⟩ (1 : Fin 2) * 16 + 1 * q.val
      rw [ei.2]; omega))

/-- An index of the array is in point t's block iff each coordinate is in the block's range on its axis. -/
theorem mem_blk_ms (t : Fin cfg2.N) (x : S6144x16.Idx) :
    x ∈ ((cfg2.win 3).blk t).view.set ↔ ∀ a : Fin 2, win2_3.index t a * S1024x16.size a ≤ (x a).val ∧ (x a).val < win2_3.index t a * S1024x16.size a + S1024x16.size a := by
  show x ∈ ((View.whole main_v35_0).slice (win2_3.rect t)).set ↔ _
  rw [View.set_slice_whole, Rect.mem_set_unit]
  exact Iff.rfl

/-- So the result array ends holding that function: row block m is written back at point 4m + 3. -/
theorem final_ms (c : Dev nD) : (dat2 V c).arrAt 3 cfg2.N = Gms V c :=
  (dat2 V c).arrAt_eq_of_cover 3 (Gms V c) (flushed_ms V c) fun x => by
    have hN : cfg2.N = 24 := N_2
    have hx0 : (x 0 : ℕ) < 6144 := (x 0).isLt
    have hx1 : (x 1 : ℕ) < 16 := (x 1).isLt
    have hlt : 4 * ((x 0 : ℕ) / 1024) + 3 < cfg2.N := by omega
    refine ⟨⟨4 * ((x 0 : ℕ) / 1024) + 3, hlt⟩, (flush2_3 _).mpr (by show (4 * ((x 0 : ℕ) / 1024) + 3) % 4 = 3; omega), ?_⟩
    rw [mem_blk_ms]
    obtain ⟨-, -, -, -, -, -, a0, a1, b0, b1, c0, c1, -⟩ := idx_facts ⟨4 * ((x 0 : ℕ) / 1024) + 3, hlt⟩
    dsimp only at a0 a1 b0 b1 c0 c1
    intro a
    match a with
    | ⟨0, _⟩ =>
      show win2_3.index ⟨4 * ((x 0 : ℕ) / 1024) + 3, hlt⟩ (0 : Fin 2) * 1024 ≤ (x 0 : ℕ) ∧ (x 0 : ℕ) < win2_3.index ⟨4 * ((x 0 : ℕ) / 1024) + 3, hlt⟩ (0 : Fin 2) * 1024 + 1024
      rw [a0]; omega
    | ⟨1, _⟩ =>
      show win2_3.index ⟨4 * ((x 0 : ℕ) / 1024) + 3, hlt⟩ (1 : Fin 2) * 16 ≤ (x 1 : ℕ) ∧ (x 1 : ℕ) < win2_3.index ⟨4 * ((x 0 : ℕ) / 1024) + 3, hlt⟩ (1 : Fin 2) * 16 + 16
      rw [a1]; omega

/-! ## Window 4 -/

set_option maxHeartbeats 1000000 in
/-- What a point whose reduction coordinate is 3 writes back is its row block of that function. -/
theorem flushed_as (c : Dev nD) (t : Fin cfg2.N) (hf : (cfg2.win 4).flush t = true) :
    (dat2 V c).flushed 4 t = ((cfg2.win 4).blk t).view.read (Elt Ideal) (Gas V c) := by
  have hN : cfg2.N = 24 := N_2
  have h3 : t.val % 4 = 3 := (flush2_4 t).mp hf
  have htl := t.isLt
  obtain ⟨m, ht⟩ : ∃ m : Fin 6, t.val = 4 * m.val + 3 := ⟨⟨t.val / 4, by omega⟩, by show t.val = 4 * (t.val / 4) + 3; omega⟩
  obtain ⟨tv, htv⟩ := t
  dsimp only at ht
  subst ht
  have ei : win2_4.index ⟨4 * m.val + 3, htv⟩ (0 : Fin 2) = m.val ∧ win2_4.index ⟨4 * m.val + 3, htv⟩ (1 : Fin 2) = 0 := by
    obtain ⟨-, -, -, -, -, -, a0, a1, b0, b1, c0, c1, -⟩ := idx_facts ⟨4 * m.val + 3, htv⟩
    dsimp only at a0 a1 b0 b1 c0 c1
    exact ⟨by rw [b0]; omega, b1⟩
  show (cfg2.win 4).cut (grid2.coords ⟨4 * m.val + 3, htv⟩) ((dat2 V c).after 4 ⟨4 * m.val + 3, htv⟩) = _
  rw [after2_4]
  funext y
  obtain ⟨i, q, rfl⟩ : ∃ (i : Fin 1024) (q : Fin 16), y = ix2 i q := ⟨y 0, y 1, eq_ix2 y⟩
  refine (acc_as V c m i q htv).trans ?_
  rw [View.read_apply]
  show gas V c (rowOf m i) q = Gas V c (((cfg2.win 4).blk ⟨4 * m.val + 3, htv⟩).view.emb (ix2 i q))
  exact congrArg₂ (gas V c)
    (Fin.ext (by
      show m.val * 1024 + i.val = win2_4.index ⟨4 * m.val + 3, htv⟩ (0 : Fin 2) * 1024 + 1 * i.val
      rw [ei.1]; omega))
    (Fin.ext (by
      show q.val = win2_4.index ⟨4 * m.val + 3, htv⟩ (1 : Fin 2) * 16 + 1 * q.val
      rw [ei.2]; omega))

/-- An index of the array is in point t's block iff each coordinate is in the block's range on its axis. -/
theorem mem_blk_as (t : Fin cfg2.N) (x : S6144x16.Idx) :
    x ∈ ((cfg2.win 4).blk t).view.set ↔ ∀ a : Fin 2, win2_4.index t a * S1024x16.size a ≤ (x a).val ∧ (x a).val < win2_4.index t a * S1024x16.size a + S1024x16.size a := by
  show x ∈ ((View.whole main_v35_1).slice (win2_4.rect t)).set ↔ _
  rw [View.set_slice_whole, Rect.mem_set_unit]
  exact Iff.rfl

/-- So the result array ends holding that function: row block m is written back at point 4m + 3. -/
theorem final_as (c : Dev nD) : (dat2 V c).arrAt 4 cfg2.N = Gas V c :=
  (dat2 V c).arrAt_eq_of_cover 4 (Gas V c) (flushed_as V c) fun x => by
    have hN : cfg2.N = 24 := N_2
    have hx0 : (x 0 : ℕ) < 6144 := (x 0).isLt
    have hx1 : (x 1 : ℕ) < 16 := (x 1).isLt
    have hlt : 4 * ((x 0 : ℕ) / 1024) + 3 < cfg2.N := by omega
    refine ⟨⟨4 * ((x 0 : ℕ) / 1024) + 3, hlt⟩, (flush2_4 _).mpr (by show (4 * ((x 0 : ℕ) / 1024) + 3) % 4 = 3; omega), ?_⟩
    rw [mem_blk_as]
    obtain ⟨-, -, -, -, -, -, a0, a1, b0, b1, c0, c1, -⟩ := idx_facts ⟨4 * ((x 0 : ℕ) / 1024) + 3, hlt⟩
    dsimp only at a0 a1 b0 b1 c0 c1
    intro a
    match a with
    | ⟨0, _⟩ =>
      show win2_4.index ⟨4 * ((x 0 : ℕ) / 1024) + 3, hlt⟩ (0 : Fin 2) * 1024 ≤ (x 0 : ℕ) ∧ (x 0 : ℕ) < win2_4.index ⟨4 * ((x 0 : ℕ) / 1024) + 3, hlt⟩ (0 : Fin 2) * 1024 + 1024
      rw [b0]; omega
    | ⟨1, _⟩ =>
      show win2_4.index ⟨4 * ((x 0 : ℕ) / 1024) + 3, hlt⟩ (1 : Fin 2) * 16 ≤ (x 1 : ℕ) ∧ (x 1 : ℕ) < win2_4.index ⟨4 * ((x 0 : ℕ) / 1024) + 3, hlt⟩ (1 : Fin 2) * 16 + 16
      rw [b1]; omega

end R2

/-! ## What the region leaves in the two product arrays -/

/-- The operands' names unfold to the region-entry contents. -/
theorem A2_eq (c : Dev nD) : R2.A2 V c = V c main_arg2 := rfl
theorem A1_eq (c : Dev nD) : R2.A1 V c = V c main_arg1 := rfl
theorem Sm_eq (c : Dev nD) : R2.Sm V c = V c main_v34 := rfl

/-- The first result array at (r, q): row r of the first matrix times column q of the third operand. -/
theorem ms_apply (c : Dev nD) (r : Fin 6144) (q : Fin 16) :
    (dat2 (F := Ideal) V c).arrAt 3 cfg2.N (ix2 r q) = ∑ k : Fin 6144, R2.A2 V c (ix2 r k) * R2.Sm V c (ix2 k q) := by
  rw [R2.final_ms]; rfl

/-- The second result array at (r, q): row r of the second matrix times column q of the third operand. -/
theorem as_apply (c : Dev nD) (r : Fin 6144) (q : Fin 16) :
    (dat2 (F := Ideal) V c).arrAt 4 cfg2.N (ix2 r q) = ∑ k : Fin 6144, R2.A1 V c (ix2 r k) * R2.Sm V c (ix2 k q) := by
  rw [R2.final_as]; rfl

end Cert.KernelIdeal.HandValue

end
-- ==== Proof.Region2ValueRS.lean ====
/- REGION 2's ROW SUMS at the ideal values: what the fused kernel's pipeline leaves in its third output array, index by
   index, from the accumulation its scratch carries from point to point — the first input window's blocks as entries of the array, the row-sum
   accumulator in closed form by induction on the point, the six written-back blocks and their cover. -/
import proofs.«141308_j26388279066709_2_alg».proof.Proof.Region2
import proofs.«141308_j26388279066709_2_alg».proof.Proof.Region2Pay
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.HandValue

open Cert.KernelIdeal Cert.KernelIdeal.Gen

namespace R2RS

variable (V : (c : Dev nD) → (b : Ref sig .tc) → Buf (Elt Ideal) ((c : Thread nD τ).loc b))

/-! ## Four column blocks of 1536 columns are the 6144 columns -/

/-- A sum over 6144 naturals, taken in four runs of 1536. -/
theorem sum_blocks (f : ℕ → EReal) :
    ∑ k ∈ Finset.range 4, ∑ j : Fin 1536, f (1536 * k + j.val) = ∑ j : Fin 6144, f j.val := by
  rw [← Fin.sum_univ_eq_sum_range (fun k => ∑ j : Fin 1536, f (1536 * k + j.val)) 4]
  rw [← Fintype.sum_prod_type' (f := fun (k : Fin 4) (j : Fin 1536) => f (1536 * k.val + j.val))]
  have e := Equiv.sum_comp (finProdFinEquiv (m := 4) (n := 1536)) (fun j : Fin (4 * 1536) => f j.val)
  refine Eq.trans ?_ e
  refine Finset.sum_congr rfl fun p _ => congrArg f ?_
  show 1536 * p.1.val + p.2.val = p.2.val + 1536 * p.1.val
  omega

/-! ## The first input window's blocks, as entries of the array -/

/-- The first input window's block index at a point: the row block on the rows, the reduction coordinate on the columns;
    the row-sum output window's: the row block. Decided over the grid. -/
theorem idx_facts : ∀ t : Fin cfg2.N, win2_0.index t (0 : Fin 2) = t.val / 4 ∧ win2_0.index t (1 : Fin 2) = t.val % 4
    ∧ win2_5.index t (0 : Fin 2) = t.val / 4 ∧ win2_5.index t (1 : Fin 2) = 0 :=
  (by decide +kernel : ∀ t : Fin grid2.N, _)

/-- The array the first input window stages, as the region finds it, as a function of its index. -/
abbrev Arr (c : Dev nD) : S6144x6144.Idx → EReal := V c main_arg2

/-- The first input window's block at a point, as a vector. -/
abbrev blk (c : Dev nD) (t : Fin cfg2.N) : FVec Ideal S1024x1536 .f32 := Hand.iblk2 V c 0 t

/-- The array read at natural coordinates (zero outside its extents). -/
def Aext (c : Dev nD) (r q : ℕ) : EReal :=
  if h : r < 6144 ∧ q < 6144 then Arr V c (ix2 (⟨r, h.1⟩ : Fin 6144) (⟨q, h.2⟩ : Fin 6144)) else 0

/-- Inside its extents that is the array's entry. -/
theorem Aext_eq (c : Dev nD) (r : ℕ) (hr : r < 6144) (k : Fin 6144) :
    Aext V c r k.val = Arr V c (ix2 (⟨r, hr⟩ : Fin 6144) k) := by
  unfold Aext
  rw [dif_pos ⟨hr, k.isLt⟩]

/-- The block at point `t`, at row `i` and column `j` of the block, is the array's entry at row
    `1024 (t div 4) + i` and column `1536 (t mod 4) + j`. -/
theorem iblk_apply (c : Dev nD) (t : Fin cfg2.N) (i : Fin 1024) (j : Fin 1536) :
    blk V c t (ix2 i j) = Aext V c (1024 * (t.val / 4) + i.val) (1536 * (t.val % 4) + j.val) := by
  have hN : t.val < 24 := lt_of_lt_of_eq t.isLt (show cfg2.N = 24 from N_2)
  obtain ⟨e0, e1, -, -⟩ := idx_facts t
  have hr : 1024 * (t.val / 4) + i.val < 6144 ∧ 1536 * (t.val % 4) + j.val < 6144 := by
    have := i.isLt; have := j.isLt; omega
  unfold Aext
  rw [dif_pos hr]
  unfold blk Hand.iblk2
  rw [View.read_apply]
  show Arr V c _ = Arr V c _
  congr 1
  funext a
  apply Fin.ext
  match a with
  | ⟨0, _⟩ => show win2_0.index t (0 : Fin 2) * 1024 + 1 * i.val = 1024 * (t.val / 4) + i.val; rw [e0]; omega
  | ⟨1, _⟩ => show win2_0.index t (1 : Fin 2) * 1536 + 1 * j.val = 1536 * (t.val % 4) + j.val; rw [e1]; omega

/-! ## The row-sum accumulator in closed form -/

/-- At a point whose reduction coordinate is zero the row-sum accumulator is left, at each row, at the sum of the row of
    the point's block. -/
theorem rs_step_A (c : Dev nD) (t : Fin cfg2.N) (h0 : t.val % 4 = 0) (i : Fin 1024) :
    (Hand.accAt V c t.val t.isLt).2.2 (ix2 i (0 : Fin 1))
      = ∑ j : Fin 1536, Aext V c (1024 * (t.val / 4) + i.val) (1536 * (t.val % 4) + j.val) := by
  rw [Hand.accAt_reset V c t h0]
  show k2_pay7 (F := Ideal) (blk V c t) (k2_pay3 (F := Ideal)) (ix2 i (0 : Fin 1)) = _
  refine (R2.pay7_apply (blk V c t) (k2_pay3 (F := Ideal)) i).trans ?_
  rw [R2.zero1_apply, zero_add]
  exact Finset.sum_congr rfl fun j _ => iblk_apply V c t i j

/-- Elsewhere that sum is added onto what the point before left. -/
theorem rs_step_B (c : Dev nD) (t : Fin cfg2.N) (h0 : ¬t.val % 4 = 0) (i : Fin 1024) :
    (Hand.accAt V c t.val t.isLt).2.2 (ix2 i (0 : Fin 1))
      = (Hand.accAt V c (t.val - 1) (Nat.lt_of_le_of_lt (Nat.sub_le _ _) t.isLt)).2.2 (ix2 i (0 : Fin 1))
        + ∑ j : Fin 1536, Aext V c (1024 * (t.val / 4) + i.val) (1536 * (t.val % 4) + j.val) := by
  rw [Hand.accAt_acc V c t h0]
  show k2_pay7 (F := Ideal) (blk V c t) (Hand.accAt V c (t.val - 1) (Nat.lt_of_le_of_lt (Nat.sub_le _ _) t.isLt)).2.2 (ix2 i (0 : Fin 1)) = _
  refine (R2.pay7_apply (blk V c t) (Hand.accAt V c (t.val - 1) (Nat.lt_of_le_of_lt (Nat.sub_le _ _) t.isLt)).2.2 i).trans ?_
  exact congrArg ((Hand.accAt V c (t.val - 1) (Nat.lt_of_le_of_lt (Nat.sub_le _ _) t.isLt)).2.2 (ix2 i (0 : Fin 1)) + ·)
    (Finset.sum_congr rfl fun j _ => iblk_apply V c t i j)

/-- After the body at position `n` the row-sum accumulator holds, at each row, the sum of the array's row over the
    column blocks the reduction has passed since its coordinate was last zero. -/
theorem rs_closed (c : Dev nD) : ∀ (n : ℕ) (hn : n < cfg2.N) (i : Fin 1024),
    (Hand.accAt V c n hn).2.2 (ix2 i (0 : Fin 1))
      = ∑ k ∈ Finset.range (n % 4 + 1), ∑ j : Fin 1536, Aext V c (1024 * (n / 4) + i.val) (1536 * k + j.val) := by
  intro n
  induction n with
  | zero =>
    intro hn i
    refine (rs_step_A V c ⟨0, hn⟩ (Nat.zero_mod _) i).trans ?_
    show _ = ∑ k ∈ Finset.range 1, _
    rw [Finset.sum_range_one]
    rfl
  | succ n ih =>
    intro hn i
    by_cases h0 : (n + 1) % 4 = 0
    · refine (rs_step_A V c ⟨n + 1, hn⟩ h0 i).trans ?_
      show ∑ j : Fin 1536, Aext V c (1024 * ((n + 1) / 4) + i.val) (1536 * ((n + 1) % 4) + j.val) = _
      rw [h0, Finset.sum_range_one]
    · refine (rs_step_B V c ⟨n + 1, hn⟩ h0 i).trans ?_
      show (Hand.accAt V c n (Nat.lt_of_succ_lt hn)).2.2 (ix2 i (0 : Fin 1)) + ∑ j : Fin 1536, Aext V c (1024 * ((n + 1) / 4) + i.val) (1536 * ((n + 1) % 4) + j.val) = _
      rw [ih (Nat.lt_of_succ_lt hn) i]
      have hm : (n + 1) % 4 = n % 4 + 1 := by omega
      have hd : (n + 1) / 4 = n / 4 := by omega
      rw [hm, hd]
      exact (Finset.sum_range_succ (fun k => ∑ j : Fin 1536, Aext V c (1024 * (n / 4) + i.val) (1536 * k + j.val)) (n % 4 + 1)).symm

/-! ## The array the region leaves -/

/-- The row sums of the array the first input window stages, as a `[6144, 1]` array. -/
def rowsum (c : Dev nD) : S6144x1.Idx → EReal :=
  fun y => ∑ k : Fin 6144, Arr V c (ix2 (⟨(y 0).val, idx2_lt0 y⟩ : Fin 6144) k)

/-- At the points whose reduction coordinate is the last the accumulator holds the whole row sums of the point's row
    block. -/
theorem rs_last (c : Dev nD) (t : Fin cfg2.N) (h3 : t.val % 4 = 3) (i : Fin 1024) (hr : 1024 * (t.val / 4) + i.val < 6144) :
    (Hand.accAt V c t.val t.isLt).2.2 (ix2 i (0 : Fin 1))
      = ∑ k : Fin 6144, Arr V c (ix2 (⟨1024 * (t.val / 4) + i.val, hr⟩ : Fin 6144) k) := by
  rw [rs_closed V c t.val t.isLt i, h3]
  exact (sum_blocks (fun k => Aext V c (1024 * (t.val / 4) + i.val) k)).trans
    (Finset.sum_congr rfl fun k _ => Aext_eq V c _ hr k)

/-- What a point that writes back writes: its block of the row sums. -/
theorem flushed_eq (c : Dev nD) (t : Fin cfg2.N) (hf : (cfg2.win 5).flush t = true) :
    (Hand.dat2 V c).flushed 5 t = ((cfg2.win 5).blk t).view.read (Elt Ideal) (rowsum V c) := by
  have h3 : t.val % 4 = 3 := (flush2_5 t).mp hf
  have hN : t.val < 24 := lt_of_lt_of_eq t.isLt (show cfg2.N = 24 from N_2)
  obtain ⟨-, -, e0, -⟩ := idx_facts t
  show (cfg2.win 5).cut (grid2.coords t) ((Hand.dat2 V c).after 5 t) = _
  rw [Hand.after2_5]
  refine funext fun (j : S1024x1.Idx) => ?_
  obtain ⟨i, u, rfl⟩ : ∃ (i : Fin 1024) (u : Fin 1), j = ix2 i u := ⟨j 0, j 1, eq_ix2 j⟩
  obtain rfl : u = 0 := Subsingleton.elim _ _
  have hr : 1024 * (t.val / 4) + i.val < 6144 := by have := i.isLt; omega
  refine (rs_last V c t h3 i hr).trans ?_
  rw [View.read_apply]
  unfold rowsum
  refine Finset.sum_congr rfl fun k _ => congrArg (Arr V c) (congrArg (fun r => ix2 r k) (Fin.ext ?_))
  show 1024 * (t.val / 4) + i.val = win2_5.index t (0 : Fin 2) * 1024 + 1 * i.val
  rw [e0]; omega

/-- An index of the output array is in point `t`'s block iff each coordinate is in the block's range on its axis. -/
theorem mem_blk (t : Fin cfg2.N) (y : S6144x1.Idx) :
    y ∈ ((cfg2.win 5).blk t).view.set ↔ ∀ a : Fin 2, win2_5.index t a * S1024x1.size a ≤ (y a).val ∧ (y a).val < win2_5.index t a * S1024x1.size a + S1024x1.size a := by
  show y ∈ ((View.whole main_v35_2).slice (win2_5.rect t)).set ↔ _
  rw [View.set_slice_whole, Rect.mem_set_unit]
  exact Iff.rfl

/-- The output array ends holding the row sums: the six points whose reduction coordinate is the last write the six row
    blocks, which tile it. -/
theorem final (c : Dev nD) : (Hand.dat2 V c).arrAt 5 cfg2.N = rowsum V c :=
  (Hand.dat2 V c).arrAt_eq_of_cover 5 (rowsum V c) (flushed_eq V c) fun y => by
    have hy0 : (y 0).val < 6144 := idx2_lt0 (n0 := 6144) (n1 := 1) y
    have hy1 : (y 1).val < 1 := idx2_lt1 (n0 := 6144) (n1 := 1) y
    have hN : cfg2.N = 24 := N_2
    have ht : 4 * ((y 0).val / 1024) + 3 < cfg2.N := by omega
    refine ⟨⟨4 * ((y 0).val / 1024) + 3, ht⟩, (flush2_5 _).mpr (by show (4 * ((y 0).val / 1024) + 3) % 4 = 3; omega), ?_⟩
    obtain ⟨-, -, e0, e1⟩ := idx_facts ⟨4 * ((y 0).val / 1024) + 3, ht⟩
    rw [mem_blk]
    intro a
    match a with
    | ⟨0, _⟩ =>
      show win2_5.index ⟨4 * ((y 0).val / 1024) + 3, ht⟩ (0 : Fin 2) * 1024 ≤ (y 0).val ∧ (y 0).val < win2_5.index ⟨4 * ((y 0).val / 1024) + 3, ht⟩ (0 : Fin 2) * 1024 + 1024
      rw [e0]
      show (4 * ((y 0).val / 1024) + 3) / 4 * 1024 ≤ (y 0).val ∧ (y 0).val < (4 * ((y 0).val / 1024) + 3) / 4 * 1024 + 1024
      omega
    | ⟨1, _⟩ =>
      show win2_5.index ⟨4 * ((y 0).val / 1024) + 3, ht⟩ (1 : Fin 2) * 1 ≤ (y 1).val ∧ (y 1).val < win2_5.index ⟨4 * ((y 0).val / 1024) + 3, ht⟩ (1 : Fin 2) * 1 + 1
      rw [e1]; omega

end R2RS

variable (V : (c : Dev nD) → (b : Ref sig .tc) → Buf (Elt Ideal) ((c : Thread nD τ).loc b))

/-- REGION 2's ROW SUMS: the third output array ends, at row `r`, at the sum of row `r` of the array the first input
    window stages, as the region finds it. -/
theorem rowsum_apply (c : Dev nD) (r : Fin 6144) :
    ((Hand.dat2 (F := Ideal) V c).arrAt 5 cfg2.N : S6144x1.Idx → EReal) (ix2 r (0 : Fin 1))
      = (∑ k : Fin 6144, (V c main_arg2 : S6144x6144.Idx → EReal) (ix2 r k) : EReal) := by
  rw [R2RS.final V c]
  rfl

end Cert.KernelIdeal.HandValue

end
-- ==== Proof.R2Final.lean ====
/-
  The last region's outputs are the reference's stages, and with them the six results: the products of the two
  adjacency matrices with the softmax S and the row sums of the motif adjacency, read off the region's final arrays,
  are the reference's contractions index by index; the host operations after the region then compute the reference's
  results by the same compositions.
-/
import proofs.«141308_j26388279066709_2_alg».proof.Proof.RunFrame
import proofs.«141308_j26388279066709_2_alg».proof.Proof.RefRead
import proofs.«141308_j26388279066709_2_alg».proof.Proof.TailBridge
import proofs.«141308_j26388279066709_2_alg».proof.Proof.Region2Value
import proofs.«141308_j26388279066709_2_alg».proof.Proof.Region2ValueRS

set_option maxRecDepth 16384

noncomputable section

open scoped BigOperators

namespace Cert.Bridge

open Cert.KernelIdeal Cert.KernelIdeal.Gen Cert.KernelIdeal.Hand Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The launch arrays as the reference's arguments -/

abbrev aX : RArr Cert.ReferenceIdeal.S6144x128 := m ((c : Thread nD τ).loc main_arg0)
abbrev aA : RArr Cert.ReferenceIdeal.S6144x6144 := m ((c : Thread nD τ).loc main_arg1)
abbrev aM : RArr Cert.ReferenceIdeal.S6144x6144 := m ((c : Thread nD τ).loc main_arg2)
abbrev aWg : RArr Cert.ReferenceIdeal.S128x128 := m ((c : Thread nD τ).loc main_arg3)
abbrev aBg : RArr Cert.ReferenceIdeal.S128 := m ((c : Thread nD τ).loc main_arg4)
abbrev aW1 : RArr Cert.ReferenceIdeal.S128x128 := m ((c : Thread nD τ).loc main_arg5)
abbrev aB1 : RArr Cert.ReferenceIdeal.S128 := m ((c : Thread nD τ).loc main_arg6)
abbrev aW2 : RArr Cert.ReferenceIdeal.S128x16 := m ((c : Thread nD τ).loc main_arg7)
abbrev aB2 : RArr Cert.ReferenceIdeal.S16 := m ((c : Thread nD τ).loc main_arg8)

/-- The reference's softmax stage of the launch arrays. -/
abbrev refS : RArr Cert.ReferenceIdeal.S6144x16 :=
  val_main_v44 (F := Ideal) (aX m c) (aM m c) (aWg m c) (aBg m c) (aW1 m c) (aB1 m c) (aW2 m c) (aB2 m c)
/-- The reference's first layer of the launch arrays. -/
abbrev refH : RArr Cert.ReferenceIdeal.S6144x128 :=
  val_main_v24 (F := Ideal) (aX m c) (aM m c) (aWg m c) (aBg m c)

/-! ## No item before a region writes the arguments the region and the later host operations read -/

/-- `main_arg2` is as launched when region 2 is entered. -/
theorem W9_main_arg2 : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := (W6_arr m ρ c 0).trans (((dat1 (V5 m ρ) c).arrAt_in 0 rfl _).trans (A_eq1 (V5 m ρ) c 0))
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := W1_of m ρ c main_arg2 (by decide)
    _ = m ((c : Thread nD τ).loc main_arg2) := rfl

/-- `main_arg1` is as launched when region 2 is entered. -/
theorem W9_main_arg1 : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- `main_arg5` is as launched when region 1 is left. -/
theorem W6_main_arg5 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- `main_arg6` is as launched when region 1 is left. -/
theorem W6_main_arg6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- `main_arg7` is as launched when region 1 is left. -/
theorem W6_main_arg7 : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- `main_arg8` is as launched when region 1 is left. -/
theorem W6_main_arg8 : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- Region 2 reads S and leaves it. -/
theorem W10_main_v34 : W10 m ρ c (Proc.devRef .tc main_v34) = W9 m ρ c (Proc.devRef .tc main_v34) :=
  (W10_arr m ρ c 2).trans (kept2 (V9 m ρ) c 2 (by decide))

/-- Nothing between region 1 and the end of region 2 writes h. -/
theorem W10_main_v14 : W10 m ρ c (Proc.devRef .tc main_v14) = W6 m ρ c (Proc.devRef .tc main_v14) :=
  calc W10 m ρ c (Proc.devRef .tc main_v14)
    _ = W9 m ρ c (Proc.devRef .tc main_v14) := W10_of_ne m ρ c main_v14 (by decide)
    _ = W8 m ρ c (Proc.devRef .tc main_v14) := W9_of m ρ c main_v14 (by decide)
    _ = W7 m ρ c (Proc.devRef .tc main_v14) := W8_of m ρ c main_v14 (by decide)
    _ = W6 m ρ c (Proc.devRef .tc main_v14) := W7_of m ρ c main_v14 (by decide)

/-! ## Region 2's entry arrays and final output arrays, as functions into the extended reals -/

/-- The motif adjacency as region 2 is entered. -/
abbrev inM : S6144x6144.Idx → EReal := V9 m ρ c main_arg2
/-- The adjacency as region 2 is entered. -/
abbrev inA : S6144x6144.Idx → EReal := V9 m ρ c main_arg1
/-- S as region 2 is entered. -/
abbrev inS : S6144x16.Idx → EReal := V9 m ρ c main_v34
/-- Region 2's three output arrays after its last point. -/
abbrev outMS : S6144x16.Idx → EReal := (dat2 (F := Ideal) (V9 m ρ) c).arrAt 3 cfg2.N
abbrev outAS : S6144x16.Idx → EReal := (dat2 (F := Ideal) (V9 m ρ) c).arrAt 4 cfg2.N
abbrev outRS : S6144x1.Idx → EReal := (dat2 (F := Ideal) (V9 m ρ) c).arrAt 5 cfg2.N

/-! ## Region 2's three output arrays -/

/-- motif adjacency · S: the region's first output array is the reference's stage. -/
theorem ms_eq_of
    (hms : ∀ (r : Fin 6144) (q : Fin 16), outMS m ρ c (ix2 r q) = ∑ k : Fin 6144, inM m ρ c (ix2 r k) * inS m ρ c (ix2 k q))
    (hS : W9 m ρ c (Proc.devRef .tc main_v34) = refS m c) :
    W10 m ρ c (Proc.devRef .tc main_v35_0)
      = val_main_v66 (F := Ideal) (aX m c) (aM m c) (aWg m c) (aBg m c) (aW1 m c) (aB1 m c) (aW2 m c) (aB2 m c) := by
  have e : W10 m ρ c (Proc.devRef .tc main_v35_0) = outMS m ρ c := W10_arr m ρ c 3
  have eM : inM m ρ c = aM m c := W9_main_arg2 m ρ c
  have eS : inS m ρ c = refS m c := hS
  refine e.trans ?_
  funext j
  obtain ⟨r, q, rfl⟩ : ∃ (r : Fin 6144) (q : Fin 16), j = ix2 r q := ⟨j 0, j 1, eq_ix2 j⟩
  rw [Cert.ReferenceIdeal.RefValue.motifS_apply]
  refine (hms r q).trans (Finset.sum_congr rfl fun k _ => ?_)
  rw [eM, eS]

/-- adjacency · S: the region's second output array is the reference's stage. -/
theorem as_eq_of
    (has : ∀ (r : Fin 6144) (q : Fin 16), outAS m ρ c (ix2 r q) = ∑ k : Fin 6144, inA m ρ c (ix2 r k) * inS m ρ c (ix2 k q))
    (hS : W9 m ρ c (Proc.devRef .tc main_v34) = refS m c) :
    W10 m ρ c (Proc.devRef .tc main_v35_1)
      = val_main_v49 (F := Ideal) (aX m c) (aA m c) (aM m c) (aWg m c) (aBg m c) (aW1 m c) (aB1 m c) (aW2 m c) (aB2 m c) := by
  have e : W10 m ρ c (Proc.devRef .tc main_v35_1) = outAS m ρ c := W10_arr m ρ c 4
  have eA : inA m ρ c = aA m c := W9_main_arg1 m ρ c
  have eS : inS m ρ c = refS m c := hS
  refine e.trans ?_
  funext j
  obtain ⟨r, q, rfl⟩ : ∃ (r : Fin 6144) (q : Fin 16), j = ix2 r q := ⟨j 0, j 1, eq_ix2 j⟩
  rw [Cert.ReferenceIdeal.RefValue.adjS_apply]
  refine (has r q).trans (Finset.sum_congr rfl fun k _ => ?_)
  rw [eA, eS]

/-- The row sums: the region's third output array, a column, holds the reference's reduce-add entry by entry. -/
theorem rs_eq_of
    (hrs : ∀ r : Fin 6144, outRS m ρ c (ix2 r (0 : Fin 1)) = ∑ k : Fin 6144, inM m ρ c (ix2 r k)) :
    ∀ r : Fin 6144, (W10 m ρ c (Proc.devRef .tc main_v35_2) : RArr Cert.ReferenceIdeal.S6144x1) (ix2 r 0)
      = val_main_v86 (F := Ideal) (aM m c) (ix1 r) := by
  intro r
  have e : W10 m ρ c (Proc.devRef .tc main_v35_2) = outRS m ρ c := W10_arr m ρ c 5
  have eM : inM m ρ c = aM m c := W9_main_arg2 m ρ c
  rw [Cert.ReferenceIdeal.RefValue.rowsum_apply, zero_add]
  refine (congrFun e (ix2 r 0)).trans ((hrs r).trans (Finset.sum_congr rfl fun k _ => ?_))
  rw [eM]

/-! ## The six results -/

/-- From the first layer to S: the three host stretches after region 1, read at the reference's arguments. -/
theorem softmax_of_layer (h14 : W6 m ρ c (Proc.devRef .tc main_v14) = refH m c) :
    W9 m ρ c (Proc.devRef .tc main_v34) = refS m c :=
  S_bridge (W6 m ρ c) (aX m c) (aM m c) (aWg m c) (aBg m c) (aW1 m c) (aB1 m c) (aW2 m c) (aB2 m c) h14
    (W6_main_arg5 m ρ c) (W6_main_arg6 m ρ c) (W6_main_arg7 m ρ c) (W6_main_arg8 m ρ c)

/-- The six result buffers end at the reference's six results of the launch arrays, given that region 1 leaves the
    reference's first layer and region 2's output arrays are the three sums. -/
theorem six_results_of (h14 : W6 m ρ c (Proc.devRef .tc main_v14) = refH m c)
    (hms : ∀ (r : Fin 6144) (q : Fin 16), outMS m ρ c (ix2 r q) = ∑ k : Fin 6144, inM m ρ c (ix2 r k) * inS m ρ c (ix2 k q))
    (has : ∀ (r : Fin 6144) (q : Fin 16), outAS m ρ c (ix2 r q) = ∑ k : Fin 6144, inA m ρ c (ix2 r k) * inS m ρ c (ix2 k q))
    (hrs : ∀ r : Fin 6144, outRS m ρ c (ix2 r (0 : Fin 1)) = ∑ k : Fin 6144, inM m ρ c (ix2 r k)) :
    W14 m ρ c (Proc.devRef .tc main_v38)
        = val_main_v46 (F := Ideal) (aX m c) (aM m c) (aWg m c) (aBg m c) (aW1 m c) (aB1 m c) (aW2 m c) (aB2 m c)
    ∧ W14 m ρ c (Proc.devRef .tc main_v56)
        = val_main_v65 (F := Ideal) (aX m c) (aA m c) (aM m c) (aWg m c) (aBg m c) (aW1 m c) (aB1 m c) (aW2 m c) (aB2 m c)
    ∧ W14 m ρ c (Proc.devRef .tc main_v73)
        = val_main_v83 (F := Ideal) (aX m c) (aM m c) (aWg m c) (aBg m c) (aW1 m c) (aB1 m c) (aW2 m c) (aB2 m c)
    ∧ W14 m ρ c (Proc.devRef .tc main_v34)
        = val_main_v44 (F := Ideal) (aX m c) (aM m c) (aWg m c) (aBg m c) (aW1 m c) (aB1 m c) (aW2 m c) (aB2 m c)
    ∧ W14 m ρ c (Proc.devRef .tc main_v82)
        = val_main_v93 (F := Ideal) (aX m c) (aM m c) (aWg m c) (aBg m c) (aW1 m c) (aB1 m c) (aW2 m c) (aB2 m c)
    ∧ W14 m ρ c (Proc.devRef .tc main_v93)
        = val_main_v105 (F := Ideal) (aX m c) (aM m c) (aWg m c) (aBg m c) (aW1 m c) (aB1 m c) (aW2 m c) (aB2 m c) := by
  have hS : W9 m ρ c (Proc.devRef .tc main_v34) = refS m c := softmax_of_layer m ρ c h14
  have h14' : W10 m ρ c (Proc.devRef .tc main_v14) = refH m c := (W10_main_v14 m ρ c).trans h14
  have h34' : W10 m ρ c (Proc.devRef .tc main_v34) = refS m c := (W10_main_v34 m ρ c).trans hS
  have h350 := ms_eq_of m ρ c hms hS
  have h351 := as_eq_of m ρ c has hS
  have h352 := rs_eq_of m ρ c hrs
  exact ⟨T_xpool (W10 m ρ c) (aX m c) (aA m c) (aM m c) (aWg m c) (aBg m c) (aW1 m c) (aB1 m c) (aW2 m c) (aB2 m c) h14' h34',
    T_apool (W10 m ρ c) (aX m c) (aA m c) (aM m c) (aWg m c) (aBg m c) (aW1 m c) (aB1 m c) (aW2 m c) (aB2 m c) h34' h351,
    T_mpool (W10 m ρ c) (aX m c) (aA m c) (aM m c) (aWg m c) (aBg m c) (aW1 m c) (aB1 m c) (aW2 m c) (aB2 m c) h34' h350,
    T_S (W10 m ρ c) (aX m c) (aA m c) (aM m c) (aWg m c) (aBg m c) (aW1 m c) (aB1 m c) (aW2 m c) (aB2 m c) h34',
    T_lcut (W10 m ρ c) (aX m c) (aA m c) (aM m c) (aWg m c) (aBg m c) (aW1 m c) (aB1 m c) (aW2 m c) (aB2 m c) h34' h350 h352,
    T_lortho (W10 m ρ c) (aX m c) (aA m c) (aM m c) (aWg m c) (aBg m c) (aW1 m c) (aB1 m c) (aW2 m c) (aB2 m c) h34'⟩

/-! ## The three facts with the region's value theorems put in -/

/-- motif adjacency · S, as region 2 leaves it, is the reference's stage. -/
theorem ms_eq (hS : W9 m ρ c (Proc.devRef .tc main_v34) = refS m c) :
    W10 m ρ c (Proc.devRef .tc main_v35_0)
      = val_main_v66 (F := Ideal) (aX m c) (aM m c) (aWg m c) (aBg m c) (aW1 m c) (aB1 m c) (aW2 m c) (aB2 m c) :=
  ms_eq_of m ρ c (fun r q => Cert.KernelIdeal.HandValue.ms_apply (V9 m ρ) c r q) hS

/-- adjacency · S, as region 2 leaves it, is the reference's stage. -/
theorem as_eq (hS : W9 m ρ c (Proc.devRef .tc main_v34) = refS m c) :
    W10 m ρ c (Proc.devRef .tc main_v35_1)
      = val_main_v49 (F := Ideal) (aX m c) (aA m c) (aM m c) (aWg m c) (aBg m c) (aW1 m c) (aB1 m c) (aW2 m c) (aB2 m c) :=
  as_eq_of m ρ c (fun r q => Cert.KernelIdeal.HandValue.as_apply (V9 m ρ) c r q) hS

/-- The row sums, as region 2 leaves them, are the reference's reduce-add entry by entry. -/
theorem rs_eq (hS : W9 m ρ c (Proc.devRef .tc main_v34) = refS m c) :
    ∀ r : Fin 6144, (W10 m ρ c (Proc.devRef .tc main_v35_2) : RArr Cert.ReferenceIdeal.S6144x1) (ix2 r 0)
      = val_main_v86 (F := Ideal) (aM m c) (ix1 r) :=
  rs_eq_of m ρ c (fun r => Cert.KernelIdeal.HandValue.rowsum_apply (V9 m ρ) c r)

end Cert.Bridge

end
-- ==== Proof.Algebraic.lean ====
/-
  The value claim: over the extended reals the kernel's six results are the reference's, from memories that agree on the
  nine arguments, all finite. The kernel's run names each result buffer as the fold of the main function's fourteen items;
  the aggregation h is the reference's by the distributive law over real entries; the softmax S, the three contractions
  of the last region and everything after them are the same operations on both sides.
-/
import proofs.«141308_j26388279066709_2_alg».proof.Defs
import proofs.«141308_j26388279066709_2_alg».proof.Proof.Gen.ReferenceIdeal.Run
import proofs.«141308_j26388279066709_2_alg».proof.Proof.Gen.ReferenceIdeal.Read
import proofs.«141308_j26388279066709_2_alg».proof.Proof.RunFrame
import proofs.«141308_j26388279066709_2_alg».proof.Proof.HFinal
import proofs.«141308_j26388279066709_2_alg».proof.Proof.Results
import proofs.«141308_j26388279066709_2_alg».proof.Proof.R2Final

noncomputable section

namespace Cert.Proof

open Idealize.ShloMosaic Idealize.ShloMosaic.TcCoe Idealize.SL.Sem
open Cert.KernelIdeal.Hand

theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => W14 m ρ c (Proc.devRef .tc Cert.KernelIdeal.main_v38), fun c => W14 m ρ c (Proc.devRef .tc Cert.KernelIdeal.main_v56),
    fun c => W14 m ρ c (Proc.devRef .tc Cert.KernelIdeal.main_v73), fun c => W14 m ρ c (Proc.devRef .tc Cert.KernelIdeal.main_v34),
    fun c => W14 m ρ c (Proc.devRef .tc Cert.KernelIdeal.main_v82), fun c => W14 m ρ c (Proc.devRef .tc Cert.KernelIdeal.main_v93),
    run_results m ρ, ?_⟩
  refine (θ_run Cert.ReferenceIdeal.defs _ _).mono (fun _ h c => ?_) (Cert.ReferenceIdeal.Value.run (F := Ideal) m' ρ')
  obtain ⟨h0, h1, h2, h3, h4, h5, hargs⟩ := h c
  obtain ⟨a0, a1, a2, a3, a4, a5, a6, a7, a8⟩ := hagree c
  have h14 := Cert.Bridge.h_eq_of_pre m ρ c (hpre c)
  obtain ⟨e0, e1, e2, e3, e4, e5⟩ := Cert.Bridge.results_eq_of m ρ c h14 (Cert.Bridge.ms_eq m ρ c) (Cert.Bridge.as_eq m ρ c)
    (Cert.Bridge.rs_eq m ρ c)
  refine ⟨h0.trans ?_, h1.trans ?_, h2.trans ?_, h3.trans ?_, h4.trans ?_, h5.trans ?_, hargs⟩
  · rw [Cert.ReferenceIdeal.Read.val_main_v46_eq, a0, a2, a3, a4, a5, a6, a7, a8]; exact e0.symm
  · rw [Cert.ReferenceIdeal.Read.val_main_v65_eq, a0, a1, a2, a3, a4, a5, a6, a7, a8]; exact e1.symm
  · rw [Cert.ReferenceIdeal.Read.val_main_v83_eq, a0, a2, a3, a4, a5, a6, a7, a8]; exact e2.symm
  · rw [Cert.ReferenceIdeal.Read.val_main_v44_eq, a0, a2, a3, a4, a5, a6, a7, a8]; exact e3.symm
  · rw [Cert.ReferenceIdeal.Read.val_main_v93_eq, a0, a2, a3, a4, a5, a6, a7, a8]; exact e4.symm
  · rw [Cert.ReferenceIdeal.Read.val_main_v105_eq, a0, a2, a3, a4, a5, a6, a7, a8]; exact e5.symm

end Cert.Proof

end
-- ==== Proof.lean ====
/-
  The kernel computes a graph-convolution layer followed by a soft clustering of the nodes, in three streaming passes
  over the two N × N matrices (N = 6144): the column sums of the motif adjacency M, accumulated over six row blocks;
  the aggregation h = tanh(d ⊙ (Mᵀ Y + Y) + b) with Y = d ⊙ (x W) and d = (colsum + 1)^(-1/2), accumulated over three
  blocks of rows of M; and M S, A S and the row sums of M, accumulated over four blocks of columns, S the row-wise
  softmax of a two-layer perceptron of h. The reference forms the normalised matrix d_i (M + I)_ij d_j explicitly,
  multiplies its transpose with x W, and computes M S, A S and the row sums as whole contractions.

  Both agree on the extended reals when the inputs are finite: the degree Σ_i (M + I)_ij is colsum_j + 1 in any
  commutative monoid; the aggregation is the distributive law, valid because every entry involved is a real number;
  a contraction accumulated block by block is the whole contraction re-associated; everything after h, S, M S, A S and
  the row sums is the same sequence of operations on both sides.

  The frames: the main function is run as fourteen items (eleven stretches of host operations, three kernel regions);
  each region's kernel resets its accumulator at the first block, adds at every block and stores its output at the last.
-/
import proofs.«141308_j26388279066709_2_alg».proof.Defs
import proofs.«141308_j26388279066709_2_alg».proof.Proof.Gen.Kernel
import proofs.«141308_j26388279066709_2_alg».proof.Proof.Gen.KernelIdeal
import proofs.«141308_j26388279066709_2_alg».proof.Proof.Gen.ReferenceIdeal
import proofs.«141308_j26388279066709_2_alg».proof.Proof.Gen.ReferenceIdeal.Run
import proofs.«141308_j26388279066709_2_alg».proof.Proof.Gen.ReferenceIdeal.Read
import proofs.«141308_j26388279066709_2_alg».proof.Proof.Gen.Pre_finite_inputs
import proofs.«141308_j26388279066709_2_alg».proof.Proof.RunFrame
import proofs.«141308_j26388279066709_2_alg».proof.Proof.WRunFrame
import proofs.«141308_j26388279066709_2_alg».proof.Proof.Algebraic
import Idealize.ShloMosaic.Adequacy
import Idealize.ShloMosaic.Init

noncomputable section

namespace Cert.Proof

open Idealize.ShloMosaic Idealize.SL.Sem

/-- The word-level kernel runs to the end, faults nowhere, and leaves its nine arguments as launched. -/
theorem frame_k [Cert.Kernel.Facts] [Cert.Pre_finite_inputs.Facts] : Cert.frame_Kernel :=
  fun m ρ _ => Cert.Kernel.Hand.frame m ρ

/-- So does the kernel read over the extended reals. -/
theorem frame_ki [Cert.KernelIdeal.Facts] [Cert.Pre_finite_inputs.Facts] : Cert.frame_KernelIdeal :=
  fun m ρ _ => Cert.KernelIdeal.Hand.frame m ρ

/-- The reference is host operations only: its run, with the results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2.2.2.2)
    (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
